-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x2 .f32) (main_arg1 : IVec S2x1600000 32) (main_arg2 : FVec F S2x64 .f32) (main_arg3 : FVec F S64 .f32) (main_arg4 : FVec F S2x64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg2
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_arg9 main_arg10 main_arg11 main_v13 main_v16
-- ==== Kernel.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x2 : Shape := ⟨2, ![1600000, 2]⟩
abbrev S100000x1 : Shape := ⟨2, ![100000, 1]⟩
abbrev S1x64 : Shape := ⟨2, ![1, 64]⟩
abbrev S100000x64 : Shape := ⟨2, ![100000, 64]⟩
abbrev S2x1x64 : Shape := ⟨3, ![2, 1, 64]⟩
abbrev S10000x2 : Shape := ⟨2, ![10000, 2]⟩
abbrev S10000x64 : Shape := ⟨2, ![10000, 64]⟩
abbrev S1x1x64 : Shape := ⟨3, ![1, 1, 64]⟩
abbrev S50000x128 : Shape := ⟨2, ![50000, 128]⟩
abbrev S1x128 : Shape := ⟨2, ![1, 128]⟩
abbrev S10000x128 : Shape := ⟨2, ![10000, 128]⟩
abbrev S1600000x64 : Shape := ⟨2, ![1600000, 64]⟩
abbrev S128 : Shape := ⟨1, ![128]⟩

abbrev nBuf : Space → Nat
  | .hbm => 131
  | .vmem => 37
  | .smem => 0
  | _ => 0

abbrev hbmTy0_0 (i : Nat) : BufTy := match i % 128 with
  | 0 => ⟨S100000x2, .f32⟩
  | 1 => ⟨S2x1600000, .i32⟩
  | 2 => ⟨S2x64, .f32⟩
  | 3 => ⟨S64, .f32⟩
  | 4 => ⟨S2x64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x2, .f32⟩
  | 37 => ⟨S_, .f32⟩
  | 38 => ⟨S100000x2, .f32⟩
  | 39 => ⟨S1600000x1, .i32⟩
  | 40 => ⟨S100000x2, .f32⟩
  | 41 => ⟨S100000x1, .f32⟩
  | 42 => ⟨S100000x2, .f32⟩
  | 43 => ⟨S100000x2, .f32⟩
  | 44 => ⟨S1x64, .f32⟩
  | 45 => ⟨S100000x64, .f32⟩
  | 46 => ⟨S2x1x64, .f32⟩
  | 47 => ⟨S2x1x64, .f32⟩
  | 48 => ⟨S_, .f32⟩
  | 49 => ⟨S1x64, .f32⟩
  | 50 => ⟨S_, .f32⟩
  | 51 => ⟨S1x64, .f32⟩
  | 52 => ⟨S_, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S1x64, .f32⟩
  | 72 => ⟨S50000x128, .f32⟩
  | 73 => ⟨S1x128, .f32⟩
  | 74 => ⟨S1x128, .f32⟩
  | 75 => ⟨S50000x128, .bf16⟩
  | 76 => ⟨S100000x64, .bf16⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .bf16⟩
  | 86 => ⟨S1600000x64, .f32⟩
  | 87 => ⟨S_, .f32⟩
  | 88 => ⟨S100000x64, .f32⟩
  | 89 => ⟨S1600000x1, .i32⟩
  | 90 => ⟨S100000x64, .f32⟩
  | 91 => ⟨S100000x1, .f32⟩
  | 92 => ⟨S100000x64, .f32⟩
  | 93 => ⟨S100000x64, .f32⟩
  | 94 => ⟨S1x64, .f32⟩
  | 95 => ⟨S100000x64, .f32⟩
  | 96 => ⟨S2x1x64, .f32⟩
  | 97 => ⟨S2x1x64, .f32⟩
  | 98 => ⟨S_, .f32⟩
  | 99 => ⟨S1x64, .f32⟩
  | 100 => ⟨S_, .f32⟩
  | 101 => ⟨S1x64, .f32⟩
  | 102 => ⟨S_, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S50000x128, .f32⟩
  | 123 => ⟨S1x128, .f32⟩
  | 124 => ⟨S1x128, .f32⟩
  | 125 => ⟨S1x128, .f32⟩
  | 126 => ⟨S1x64, .f32⟩
  | 127 => ⟨S64, .f32⟩
  | _ => ⟨S100000x2, .f32⟩

abbrev hbmTy0_1 (i : Nat) : BufTy := match i % 128 with
  | 0 => ⟨S1x64, .f32⟩
  | 1 => ⟨S64, .f32⟩
  | 2 => ⟨S64, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S10000x2, .f32⟩
  | .local _ .vmem, ⟨1, _⟩ => ⟨S10000x2, .f32⟩
  | .local _ .vmem, ⟨2, _⟩ => ⟨S10000x2, .f32⟩
  | .local _ .vmem, ⟨3, _⟩ => ⟨S10000x2, .f32⟩
  | .local _ .vmem, ⟨4, _⟩ => ⟨S2x64, .f32⟩
  | .local _ .vmem, ⟨5, _⟩ => ⟨S1x64, .f32⟩
  | .local _ .vmem, ⟨6, _⟩ => ⟨S2x64, .f32⟩
  | .local _ .vmem, ⟨7, _⟩ => ⟨S10000x64, .f32⟩
  | .local _ .vmem, ⟨8, _⟩ => ⟨S10000x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S10000x128, .f32⟩
  | .local _ .vmem, ⟨14, _⟩ => ⟨S10000x128, .f32⟩
  | .local _ .vmem, ⟨15, _⟩ => ⟨S1x128, .f32⟩
  | .local _ .vmem, ⟨16, _⟩ => ⟨S1x128, .f32⟩
  | .local _ .vmem, ⟨17, _⟩ => ⟨S10000x128, .bf16⟩
  | .local _ .vmem, ⟨18, _⟩ => ⟨S10000x128, .bf16⟩
  | .local _ .vmem, ⟨19, _⟩ => ⟨S10000x64, .f32⟩
  | .local _ .vmem, ⟨20, _⟩ => ⟨S10000x64, .f32⟩
  | .local _ .vmem, ⟨21, _⟩ => ⟨S10000x64, .bf16⟩
  | .local _ .vmem, ⟨22, _⟩ => ⟨S10000x64, .bf16⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S10000x64, .f32⟩
  | .local _ .vmem, ⟨27, _⟩ => ⟨S10000x64, .f32⟩
  | .local _ .vmem, ⟨28, _⟩ => ⟨S1x1x64, .f32⟩
  | .local _ .vmem, ⟨29, _⟩ => ⟨S1x1x64, .f32⟩
  | .local _ .vmem, ⟨30, _⟩ => ⟨S1x1x64, .f32⟩
  | .local _ .vmem, ⟨31, _⟩ => ⟨S1x1x64, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev main_v26_2 : Ref sig .tc := ⟨.hbm, 47, rfl⟩
abbrev main_cst_5 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65_0 : Ref sig .tc := ⟨.hbm, 95, rfl⟩
abbrev main_v65_1 : Ref sig .tc := ⟨.hbm, 96, rfl⟩
abbrev main_v65_2 : Ref sig .tc := ⟨.hbm, 97, rfl⟩
abbrev main_cst_14 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_cst_16 : Ref sig .tc := ⟨.hbm, 102, rfl⟩
abbrev main_v68 : Ref sig .tc := ⟨.hbm, 103, rfl⟩
abbrev main_v69 : Ref sig .tc := ⟨.hbm, 104, rfl⟩
abbrev main_cst_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x1x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![5], ![false]⟩

def k3_cond1 (i : grid3.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k3_cond2 (i : grid3.Coords) : BitVec 1 :=
  let arg0 : BitVec 32 := BitVec.ofNat 32 (i 0).val
  let c0_i32_7 : BitVec 32 := 0#32
  let v17 : BitVec 1 := Scalar.cmpi .ne arg0 c0_i32_7
  let v18 : BitVec 32 := Scalar.extui v17
  let c0_i32_8 : BitVec 32 := 0#32
  let v19 : BitVec 1 := Scalar.cmpi .ne v18 c0_i32_8
  v19

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  shapeCasts_S1x64_S1x1x64 : S1x64.ShapeCasts S1x1x64
  shapeCasts_S1x1x64_S1x1x64 : S1x1x64.ShapeCasts S1x1x64
  reducesTo_S2x1x64_S1x64_d0 : S2x1x64.ReducesTo [0] S1x64
  h_S_ : 0 < S_.numel
  bcast_S_S1x64 : S_.BroadcastsInDim S1x64 (![] : Fin 0 → Fin S1x64.rank)
  shapeCasts_S100000x64_S50000x128 : S100000x64.ShapeCasts S50000x128
  concatenates_S1x64_S1x64_S1x128_d1 : Shape.Concatenates [S1x64, S1x64] S1x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  shapeCasts_S50000x128_S100000x64 : S50000x128.ShapeCasts S100000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  reduces_S10000x128_S128 : S10000x128.Reduces [0] S128
  shapeCasts_S128_S1x128 : S128.ShapeCasts S1x128
  slices_S1x128_S1x64_0_0 : S1x128.Slices ![0, 0] S1x64
  shapeCasts_S1x64_S64 : S1x64.ShapeCasts S64
  slices_S1x128_S1x64_0_64 : S1x128.Slices ![0, 64] S1x64
  scatter_S100000_S1600000x1_S1600000_n_0_0_1_wf : ScatterDims.WF S100000 S1600000x1 S1600000 [] [0] [0] 1
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S10000x2_S2x64_S10000x64_1_0_0_1_n_n_wf : DotDims.WF S10000x2 S2x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S2x1x64.size a
  hwx0_6 : ∀ i : grid0.Coords, EltTy.bits .f32 = 32 ∨ (Rect.block (s := S2x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S2x1x64.size a
  hwx0_7 : ∀ i : grid0.Coords, EltTy.bits .f32 = 32 ∨ (Rect.block (s := S2x1x64) S1x1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .bf16 = 32 ∨ (Rect.block (s := S100000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x64.size a ≤ S2x1x64.size a
  hwx2_6 : ∀ i : grid2.Coords, EltTy.bits .f32 = 32 ∨ (Rect.block (s := S2x1x64) S1x1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x64.size a ≤ S2x1x64.size a
  hwx2_7 : ∀ i : grid2.Coords, EltTy.bits .f32 = 32 ∨ (Rect.block (s := S2x1x64) S1x1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v24) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v65_1) S1x1x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v65_2) S1x1x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v84) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond1 i == 1#1) && !(k3_cond2 i == 1#1) | ⟨_ + 4, h⟩ => absurd h (Nat.not_lt.2 (Nat.le_add_left _ _))

class Facts : Prop extends Facts₀ where

variable [Facts]
-- ==== ReferenceIdeal.lean ====
abbrev S100000x2 : Shape := ⟨2, ![100000, 2]⟩
abbrev S2x1600000 : Shape := ⟨2, ![2, 1600000]⟩
abbrev S2x64 : Shape := ⟨2, ![2, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 146
  | .vmem => 0
  | .smem => 0
  | _ => 0

abbrev hbmTy0_0 (i : Nat) : BufTy := match i % 128 with
  | 0 => ⟨S100000x2, .f32⟩
  | 1 => ⟨S2x1600000, .i32⟩
  | 2 => ⟨S2x64, .f32⟩
  | 3 => ⟨S64, .f32⟩
  | 4 => ⟨S2x64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x2, .f32⟩
  | 25 => ⟨S_, .f32⟩
  | 26 => ⟨S100000x2, .f32⟩
  | 27 => ⟨S1600000x1, .i32⟩
  | 28 => ⟨S100000x2, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x2, .f32⟩
  | 40 => ⟨S100000x2, .f32⟩
  | 41 => ⟨S100000x64, .f32⟩
  | 42 => ⟨S1x64, .f32⟩
  | 43 => ⟨S100000x64, .f32⟩
  | 44 => ⟨S100000x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S100000x64, .f32⟩
  | 110 => ⟨S100000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x2, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S_, .f32⟩
  | 17 => ⟨S64, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call1_cst : Ref sig .tc := ⟨.hbm, 141, rfl⟩
abbrev main_call1_v0 : Ref sig .tc := ⟨.hbm, 142, rfl⟩
abbrev main_v105 : Ref sig .tc := ⟨.hbm, 143, rfl⟩
abbrev main_cst_20 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  scatter_S100000_S1600000x1_S1600000_n_0_0_1_wf : ScatterDims.WF S100000 S1600000x1 S1600000 [] [0] [0] 1
  dot_S100000x2_S2x64_S100000x64_1_0_0_1_n_n_wf : DotDims.WF S100000x2 S2x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Region0Run.lean ====
/-
  The first layer's linear map with its column statistics: over the grid (2, 5) — ten points, point t = 5·core + step —
  the body reads a 10000-row tile of the aggregated neighbour means and of the node features, the two [2,64] weights and the
  [1,64] bias, stores h = mean·Wl + b + x·Wr into the tile's own [10000,64] output block, and adds the tile's column sums
  of h and of h² into the core's two [1,1,64] partial-statistic blocks, which it zeroes first when step = 0.  The
  statistic blocks' index is (core, 0, 0): it does not move while step runs 0..4, so their staging buffers carry the
  running sums from point to point and are written back after step 4 only.  This module fixes the notation (the windows'
  blocks, the branch condition in closed form over the grid, the staging memrefs at a point) and proves the body's Hoare
  triple at a point with step = 0, where the statistic buffers are found at anything; everything is stated at an
  arbitrary region-entry valuation `V`.
-/
import proofs.«150514_j16690242912872_2_alg».proof.Proof.Gen.Kernel.Launch
import proofs.«150514_j16690242912872_2_alg».proof.Proof.Gen.Kernel.Skeleton
import proofs.«150514_j16690242912872_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's index
    has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition, over the grid -/

/-- `step == 0` (the second grid coordinate), as the body computes it from the coordinates. -/
abbrev cond0_0 (i : grid0.Coords) : Prop := (Scalar.cmpi .ne (Scalar.extui (Scalar.cmpi .eq (BitVec.ofNat 32 (i 1).val) 0#32)) 0#32) = 1#1
/-- It holds at the first point of each core's run of five — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs at a point -/

/-- One staging buffer of each output window, through which its contents are stated (the choice does not matter). -/
abbrev VO0_5 : View sig .tc .vmem S10000x64 .f32 := (Memref.whole cc0_stg5_0 : Memref sig .tc .vmem S10000x64 .f32).view
abbrev VO0_6 : View sig .tc .vmem S1x1x64 .f32 := (Memref.whole cc0_stg6_0 : Memref sig .tc .vmem S1x1x64 .f32).view
abbrev VO0_7 : View sig .tc .vmem S1x1x64 .f32 := (Memref.whole cc0_stg7_0 : Memref sig .tc .vmem S1x1x64 .f32).view
/-- Each window's current staging memref at point `t`, as the pipeline passes it to the body, and its wholeness. -/
abbrev ms0_0 (t : Fin cfg0.N) : Memref sig .tc .vmem S10000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x64 .f32 := win0_7.stage (cfg0.slots t 7)
abbrev hs0_7 (t : Fin cfg0.N) : (ms0_7 t).IsWhole := hstage0_7 ((cfg0.slots t 7).cast nbuf0_7)

/-! ## The body's triple when step = 0 -/

set_option maxHeartbeats 1000000 in
/-- STEP 0: the inputs at their contents, the three output buffers at anything.  The body zeroes the two statistic
    buffers, stores h, and adds the tile's column sums into the zeroed buffers.  The pieces each output buffer ends
    with (last store first) are the witness the run finds. -/
noncomputable def kernelRun0_A (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Hand

end
-- ==== Proof.K.Region0RunB.lean ====
/-
  The first layer's linear map with its column statistics, at a grid point with step ≠ 0: the two [1,1,64]
  partial-statistic buffers are found at their running contents (the sums over the core's earlier tiles), and the body
  adds this tile's column sums of h and of h² to them; the tile's own [10000,64] output buffer is found at anything and
  is overwritten by h.  The body's Hoare triple in this case.
-/
import proofs.«150514_j16690242912872_2_alg».proof.Proof.K.Region0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- STEP ≠ 0: the inputs at their contents, the statistic buffers at their running contents `xo6`, `xo7`, the tile's output
    buffer at anything.  The pieces each output buffer ends with (last store first) are the witness the run finds. -/
noncomputable def kernelRun0_B (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Hand

end
-- ==== Proof.K.Region0.lean ====
/-
  The first layer's linear map with its column statistics, over its ten grid points: what the three output buffers
  hold after the body at each point — the tile's h in the [10000,64] buffer; in the two [1,1,64] statistic buffers the
  column sums of h and of h² over the core's tiles so far, restarting from zero at step 0 — stated as a recursion over the
  points (the statistic buffers are not written back between two points of one core, so a point with step ≠ 0 finds
  what the point before left); the pipeline's proof data at an arbitrary region-entry valuation `V`; and the body's
  obligation at every point.
-/
import proofs.«150514_j16690242912872_2_alg».proof.Proof.K.Region0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The pieces case A leaves in output 5's buffer tile it (checked by evaluation), so they cover it. -/
theorem cover0_A_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S10000x64.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S10000x64.size (by sl_kernel_rfl) y

/-- What case A leaves in output 5's staging buffer: its pieces read back. -/
def out0_A_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S10000x64 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- The pieces case A leaves in output 6's buffer tile it (checked by evaluation), so they cover it. -/
theorem cover0_A_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S1x1x64.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S1x1x64.size (by sl_kernel_rfl) y

/-- What case A leaves in output 6's staging buffer: its pieces read back. -/
def out0_A_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S1x1x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- The pieces case A leaves in output 7's buffer tile it (checked by evaluation), so they cover it. -/
theorem cover0_A_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S1x1x64.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S1x1x64.size (by sl_kernel_rfl) y

/-- What case A leaves in output 7's staging buffer: its pieces read back. -/
def out0_A_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S1x1x64 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4).2.2.1)

/-- The pieces case B leaves in output 5's buffer tile it (checked by evaluation), so they cover it. -/
theorem cover0_B_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S10000x64.Idx) :
    ∃ pc ∈ (kernelRun0_B c i arg2 harg2 arg3 harg3 arg4 harg4 arg5 harg5 arg6 harg6 arg7 harg7 arg8 harg8 arg9 harg9 hc0 x0 x1 x2 x3 x4 xo6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).1 S10000x64.size (by sl_kernel_rfl) y

/-- What case B leaves in output 5's staging buffer: its pieces read back. -/
def out0_B_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S10000x64 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xo6 xo7).1)

/-- The pieces case B leaves in output 6's buffer tile it (checked by evaluation), so they cover it. -/
theorem cover0_B_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S1x1x64.Idx) :
    ∃ pc ∈ (kernelRun0_B c i arg2 harg2 arg3 harg3 arg4 harg4 arg5 harg5 arg6 harg6 arg7 harg7 arg8 harg8 arg9 harg9 hc0 x0 x1 x2 x3 x4 xo6 xo7).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).2.1 S1x1x64.size (by sl_kernel_rfl) y

/-- What case B leaves in output 6's staging buffer: its pieces read back. -/
def out0_B_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S1x1x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 xo6 xo7).2.1)

/-- The pieces case B leaves in output 7's buffer tile it (checked by evaluation), so they cover it. -/
theorem cover0_B_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S1x1x64.Idx) :
    ∃ pc ∈ (kernelRun0_B c i arg2 harg2 arg3 harg3 arg4 harg4 arg5 harg5 arg6 harg6 arg7 harg7 arg8 harg8 arg9 harg9 hc0 x0 x1 x2 x3 x4 xo6 xo7).2.2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).2.2.1 S1x1x64.size (by sl_kernel_rfl) y

/-- What case B leaves in output 7's staging buffer: its pieces read back. -/
def out0_B_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S1x1x64 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 xo6 xo7).2.2.1)

/-! ## What the outputs hold after each point -/

/-- THE ACCUMULATION.  What the three output buffers hold after the body at position `n` (a tuple, in window order): at
    step 0 case A at the point's memrefs and input blocks; otherwise case B, the statistic buffers entered at what this
    recursion leaves at `n - 1`. -/
def outsAt0 (c : Dev nD) : (n : ℕ) → n < cfg0.N → Vec F S10000x64 .f32 × Vec F S1x1x64 .f32 × Vec F S1x1x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 5 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2,
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)

/-- `outsAt0` at a point with step = 0: case A's contents. -/
theorem outsAt0_A (c : Dev nD) (t : Fin cfg0.N) (h0 : t.val % 5 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
        out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a point with step ≠ 0: case B's contents, over what the point before left. -/
theorem outsAt0_B (c : Dev nD) (t : Fin cfg0.N) (h0 : ¬t.val % 5 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
        out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point `t`
    each input's buffer at its block and the outputs' at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point with step ≠ 0 statistic window 6's staging buffer holds what the body left at the point before: the point is
    not the first, the buffer was not written back between (write-backs follow step 4 only), the window is never idle and uncut. -/
theorem before0_6_B (c : Dev nD) (t : Fin cfg0.N) (h0 : ¬t.val % 5 = 0) (d) :
    (dat0 V c).before 6 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 6 rfl t (by omega) (Bool.eq_false_iff.mpr fun h => by have := (flush0_6 _).mp h; dsimp only at this; omega)
    (fun _ => rfl) (fun _ _ => rfl)]
  dsimp only [dat0]
/-- At a point with step ≠ 0 statistic window 7's staging buffer holds what the body left at the point before: the point is
    not the first, the buffer was not written back between (write-backs follow step 4 only), the window is never idle and uncut. -/
theorem before0_7_B (c : Dev nD) (t : Fin cfg0.N) (h0 : ¬t.val % 5 = 0) (d) :
    (dat0 V c).before 7 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1600000 in
/-- The body at any point: the inputs' memrefs hold their blocks; the closed form of the branch condition says which case
    the point is in; at step ≠ 0 the statistic buffers hold what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  have hN : t.val < 10 := lt_of_lt_of_eq t.isLt (show cfg0.N = 10 from N_0)
  by_cases h0 : t.val % 5 = 0
  · rw [outsAt0_A V c t h0]
    unfold out0_A_5 out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _)
  · rw [outsAt0_B V c t h0]
    simp only [before0_6_B V c t h0, before0_7_B V c t h0]
    unfold out0_B_5 out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk0 V c 0 t) (iblk0 V c 1 t) (iblk0 V c 2 t) (iblk0 V c 3 t) (iblk0 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  The second kernel region (layer 1's normalise + ReLU on the lane-dense view [50000,128], five row tiles of 10000): at
  every grid point the body stores max(h·scale + shift, 0) of the point's tile, a pointwise function of the three input
  blocks, into the point's own output block, which is written back at every point.  One control case; stated at an arbitrary
  region-entry valuation `V`.
-/
import proofs.«150514_j16690242912872_2_alg».proof.Proof.Gen.Kernel.Launch
import proofs.«150514_j16690242912872_2_alg».proof.Proof.Gen.Kernel.Skeleton
import proofs.«150514_j16690242912872_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0

/-- The output buffer after the body, from the input blocks: its one whole-block store. -/
def out1_3 (x0 : Vec F S10000x128 .f32) (x1 : Vec F S1x128 .f32) (x2 : Vec F S1x128 .f32) : Vec F S10000x128 .bf16 :=
  View.canon [⟨r1_0, k1_pay1 (View.ld x0 r1_0) (View.ld x1 r1_1) (View.ld x2 r1_1)⟩]

theorem cover1_3 (p0 : Vec F S10000x128 .bf16) (y : S10000x128.Idx) :
    ∃ pc ∈ ([⟨r1_0, p0⟩] : List (View.Piece (Elt F) S10000x128 .bf16)), y ∈ pc.1.set :=
  View.cover_of_tiled [⟨r1_0, p0⟩] S10000x128.size (by rfl) y

/-! ## The body's triple -/

set_option maxHeartbeats 1000000 in
theorem sound_kernel1 (c : Dev nD) (E : Set ℕ) (i : grid1.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__norm_relu_kernel i arg1 harg1 arg2 harg2 arg3 harg3 arg4 harg4) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2Run.lean ====
/-
  The second layer's linear map with its column statistics: over the grid (2, 5) — ten points, point t = 5·core + step —
  the body reads a 10000-row tile of the aggregated neighbour means and of the node features, the two [64,64] weights and the
  [1,64] bias, stores h = mean·Wl + b + x·Wr into the tile's own [10000,64] output block, and adds the tile's column sums
  of h and of h² into the core's two [1,1,64] partial-statistic blocks, which it zeroes first when step = 0.  The
  statistic blocks' index is (core, 0, 0): it does not move while step runs 0..4, so their staging buffers carry the
  running sums from point to point and are written back after step 4 only.  This module fixes the notation (the windows'
  blocks, the branch condition in closed form over the grid, the staging memrefs at a point) and proves the body's Hoare
  triple at a point with step = 0, where the statistic buffers are found at anything; everything is stated at an
  arbitrary region-entry valuation `V`.
-/
import proofs.«150514_j16690242912872_2_alg».proof.Proof.Gen.Kernel.Launch
import proofs.«150514_j16690242912872_2_alg».proof.Proof.Gen.Kernel.Skeleton
import proofs.«150514_j16690242912872_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's index
    has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The branch condition, over the grid -/

/-- `step == 0` (the second grid coordinate), as the body computes it from the coordinates. -/
abbrev cond2_0 (i : grid2.Coords) : Prop := (Scalar.cmpi .ne (Scalar.extui (Scalar.cmpi .eq (BitVec.ofNat 32 (i 1).val) 0#32)) 0#32) = 1#1
/-- It holds at the first point of each core's run of five — decided over the grid. -/
theorem hcond2_0 : ∀ t : Fin cfg2.N, cond2_0 (grid2.coords t) ↔ t.val % 5 = 0 :=
  (by decide +kernel : ∀ t : Fin grid2.N, cond2_0 (grid2.coords t) ↔ t.val % 5 = 0)

/-! ## The staging memrefs at a point -/

/-- One staging buffer of each output window, through which its contents are stated (the choice does not matter). -/
abbrev VO2_5 : View sig .tc .vmem S10000x64 .f32 := (Memref.whole cc2_stg5_0 : Memref sig .tc .vmem S10000x64 .f32).view
abbrev VO2_6 : View sig .tc .vmem S1x1x64 .f32 := (Memref.whole cc2_stg6_0 : Memref sig .tc .vmem S1x1x64 .f32).view
abbrev VO2_7 : View sig .tc .vmem S1x1x64 .f32 := (Memref.whole cc2_stg7_0 : Memref sig .tc .vmem S1x1x64 .f32).view
/-- Each window's current staging memref at point `t`, as the pipeline passes it to the body, and its wholeness. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x64 .f32 := win2_7.stage (cfg2.slots t 7)
abbrev hs2_7 (t : Fin cfg2.N) : (ms2_7 t).IsWhole := hstage2_7 ((cfg2.slots t 7).cast nbuf2_7)

/-! ## The body's triple when step = 0 -/

set_option maxHeartbeats 1000000 in
/-- STEP 0: the inputs at their contents, the three output buffers at anything.  The body zeroes the two statistic
    buffers, stores h, and adds the tile's column sums into the zeroed buffers.  The pieces each output buffer ends
    with (last store first) are the witness the run finds. -/
noncomputable def kernelRun2_A (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2__linear_stats_kernel i arg2 harg2 arg3 harg3 arg4 harg4 arg5 harg5 arg6 harg6 arg7 harg7 arg8 harg8 arg9 harg9) K } := by
  refine ⟨?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Hand

end
-- ==== Proof.K.Region2RunB.lean ====
/-
  The second layer's linear map with its column statistics, at a grid point with step ≠ 0: the two [1,1,64]
  partial-statistic buffers are found at their running contents (the sums over the core's earlier tiles), and the body
  adds this tile's column sums of h and of h² to them; the tile's own [10000,64] output buffer is found at anything and
  is overwritten by h.  The body's Hoare triple in this case.
-/
import proofs.«150514_j16690242912872_2_alg».proof.Proof.K.Region2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- STEP ≠ 0: the inputs at their contents, the statistic buffers at their running contents `xo6`, `xo7`, the tile's output
    buffer at anything.  The pieces each output buffer ends with (last store first) are the witness the run finds. -/
noncomputable def kernelRun2_B (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2__linear_stats_kernel i arg2 harg2 arg3 harg3 arg4 harg4 arg5 harg5 arg6 harg6 arg7 harg7 arg8 harg8 arg9 harg9) K } := by
  refine ⟨?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.Kernel.Hand

end
-- ==== Proof.K.Region2.lean ====
/-
  The second layer's linear map with its column statistics, over its ten grid points: what the three output buffers
  hold after the body at each point — the tile's h in the [10000,64] buffer; in the two [1,1,64] statistic buffers the
  column sums of h and of h² over the core's tiles so far, restarting from zero at step 0 — stated as a recursion over the
  points (the statistic buffers are not written back between two points of one core, so a point with step ≠ 0 finds
  what the point before left); the pipeline's proof data at an arbitrary region-entry valuation `V`; and the body's
  obligation at every point.
-/
import proofs.«150514_j16690242912872_2_alg».proof.Proof.K.Region2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The pieces case A leaves in output 5's buffer tile it (checked by evaluation), so they cover it. -/
theorem cover2_A_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S10000x64.Idx) :
    ∃ pc ∈ (kernelRun2_A c i arg2 harg2 arg3 harg3 arg4 harg4 arg5 harg5 arg6 harg6 arg7 harg7 arg8 harg8 arg9 harg9 hc0 x0 x1 x2 x3 x4).1, y ∈ pc.1.set :=
  View.cover_of_tiledL (kernelRun2_A c i arg2 harg2 arg3 harg3 arg4 harg4 arg5 harg5 arg6 harg6 arg7 harg7 arg8 harg8 arg9 harg9 hc0 x0 x1 x2 x3 x4).1 S10000x64.size (by sl_kernel_rfl) y

/-- What case A leaves in output 5's staging buffer: its pieces read back. -/
def out2_A_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S10000x64 .f32 :=
  VO2_5.read (Elt F) (VO2_5.writes (Elt F) VO2_5.junk (kernelRun2_A c i arg2 harg2 arg3 harg3 arg4 harg4 arg5 harg5 arg6 harg6 arg7 harg7 arg8 harg8 arg9 harg9 hc0 x0 x1 x2 x3 x4).1)

/-- The pieces case A leaves in output 6's buffer tile it (checked by evaluation), so they cover it. -/
theorem cover2_A_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S1x1x64.Idx) :
    ∃ pc ∈ (kernelRun2_A c i arg2 harg2 arg3 harg3 arg4 harg4 arg5 harg5 arg6 harg6 arg7 harg7 arg8 harg8 arg9 harg9 hc0 x0 x1 x2 x3 x4).2.1, y ∈ pc.1.set :=
  View.cover_of_tiledL (kernelRun2_A c i arg2 harg2 arg3 harg3 arg4 harg4 arg5 harg5 arg6 harg6 arg7 harg7 arg8 harg8 arg9 harg9 hc0 x0 x1 x2 x3 x4).2.1 S1x1x64.size (by sl_kernel_rfl) y

/-- What case A leaves in output 6's staging buffer: its pieces read back. -/
def out2_A_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S1x1x64 .f32 :=
  VO2_6.read (Elt F) (VO2_6.writes (Elt F) VO2_6.junk (kernelRun2_A c i arg2 harg2 arg3 harg3 arg4 harg4 arg5 harg5 arg6 harg6 arg7 harg7 arg8 harg8 arg9 harg9 hc0 x0 x1 x2 x3 x4).2.1)

/-- The pieces case A leaves in output 7's buffer tile it (checked by evaluation), so they cover it. -/
theorem cover2_A_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S1x1x64.Idx) :
    ∃ pc ∈ (kernelRun2_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun2_A c i arg2 harg2 arg3 harg3 arg4 harg4 arg5 harg5 arg6 harg6 arg7 harg7 arg8 harg8 arg9 harg9 hc0 x0 x1 x2 x3 x4).2.2.1 S1x1x64.size (by sl_kernel_rfl) y

/-- What case A leaves in output 7's staging buffer: its pieces read back. -/
def out2_A_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S1x1x64 .f32 :=
  VO2_7.read (Elt F) (VO2_7.writes (Elt F) VO2_7.junk (kernelRun2_A c i arg2 harg2 arg3 harg3 arg4 harg4 arg5 harg5 arg6 harg6 arg7 harg7 arg8 harg8 arg9 harg9 hc0 x0 x1 x2 x3 x4).2.2.1)

/-- The pieces case B leaves in output 5's buffer tile it (checked by evaluation), so they cover it. -/
theorem cover2_B_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S10000x64.Idx) :
    ∃ pc ∈ (kernelRun2_B c i arg2 harg2 arg3 harg3 arg4 harg4 arg5 harg5 arg6 harg6 arg7 harg7 arg8 harg8 arg9 harg9 hc0 x0 x1 x2 x3 x4 xo6 xo7).1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).1 S10000x64.size (by sl_kernel_rfl) y

/-- What case B leaves in output 5's staging buffer: its pieces read back. -/
def out2_B_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S10000x64 .f32 :=
  VO2_5.read (Elt F) (VO2_5.writes (Elt F) VO2_5.junk (kernelRun2_B c i arg2 harg2 arg3 harg3 arg4 harg4 arg5 harg5 arg6 harg6 arg7 harg7 arg8 harg8 arg9 harg9 hc0 x0 x1 x2 x3 x4 xo6 xo7).1)

/-- The pieces case B leaves in output 6's buffer tile it (checked by evaluation), so they cover it. -/
theorem cover2_B_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S1x1x64.Idx) :
    ∃ pc ∈ (kernelRun2_B c i arg2 harg2 arg3 harg3 arg4 harg4 arg5 harg5 arg6 harg6 arg7 harg7 arg8 harg8 arg9 harg9 hc0 x0 x1 x2 x3 x4 xo6 xo7).2.1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).2.1 S1x1x64.size (by sl_kernel_rfl) y

/-- What case B leaves in output 6's staging buffer: its pieces read back. -/
def out2_B_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S1x1x64 .f32 :=
  VO2_6.read (Elt F) (VO2_6.writes (Elt F) VO2_6.junk (kernelRun2_B c i arg2 harg2 arg3 harg3 arg4 harg4 arg5 harg5 arg6 harg6 arg7 harg7 arg8 harg8 arg9 harg9 hc0 x0 x1 x2 x3 x4 xo6 xo7).2.1)

/-- The pieces case B leaves in output 7's buffer tile it (checked by evaluation), so they cover it. -/
theorem cover2_B_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S1x1x64.Idx) :
    ∃ pc ∈ (kernelRun2_B c i arg2 harg2 arg3 harg3 arg4 harg4 arg5 harg5 arg6 harg6 arg7 harg7 arg8 harg8 arg9 harg9 hc0 x0 x1 x2 x3 x4 xo6 xo7).2.2.1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).2.2.1 S1x1x64.size (by sl_kernel_rfl) y

/-- What case B leaves in output 7's staging buffer: its pieces read back. -/
def out2_B_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S1x1x64 .f32 :=
  VO2_7.read (Elt F) (VO2_7.writes (Elt F) VO2_7.junk (kernelRun2_B c i arg2 harg2 arg3 harg3 arg4 harg4 arg5 harg5 arg6 harg6 arg7 harg7 arg8 harg8 arg9 harg9 hc0 x0 x1 x2 x3 x4 xo6 xo7).2.2.1)

/-! ## What the outputs hold after each point -/

/-- THE ACCUMULATION.  What the three output buffers hold after the body at position `n` (a tuple, in window order): at
    step 0 case A at the point's memrefs and input blocks; otherwise case B, the statistic buffers entered at what this
    recursion leaves at `n - 1`. -/
def outsAt2 (c : Dev nD) : (n : ℕ) → n < cfg2.N → Vec F S10000x64 .f32 × Vec F S1x1x64 .f32 × Vec F S1x1x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
        out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
        out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 5 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
        out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
        out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
        out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
        out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at a point with step = 0: case A's contents. -/
theorem outsAt2_A (c : Dev nD) (t : Fin cfg2.N) (h0 : t.val % 5 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
        out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
        out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point with step ≠ 0: case B's contents, over what the point before left. -/
theorem outsAt2_B (c : Dev nD) (t : Fin cfg2.N) (h0 : ¬t.val % 5 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
        out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
        out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point `t`
    each input's buffer at its block and the outputs' at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- At a point with step ≠ 0 statistic window 6's staging buffer holds what the body left at the point before: the point is
    not the first, the buffer was not written back between (write-backs follow step 4 only), the window is never idle and uncut. -/
theorem before2_6_B (c : Dev nD) (t : Fin cfg2.N) (h0 : ¬t.val % 5 = 0) (d) :
    (dat2 V c).before 6 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]
/-- At a point with step ≠ 0 statistic window 7's staging buffer holds what the body left at the point before: the point is
    not the first, the buffer was not written back between (write-backs follow step 4 only), the window is never idle and uncut. -/
theorem before2_7_B (c : Dev nD) (t : Fin cfg2.N) (h0 : ¬t.val % 5 = 0) (d) :
    (dat2 V c).before 7 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the branch condition says which case
    the point is in; at step ≠ 0 the statistic buffers hold what the point before left; so the case's run applies; the
    invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 10 := lt_of_lt_of_eq t.isLt (show cfg2.N = 10 from N_2)
  by_cases h0 : t.val % 5 = 0
  · rw [outsAt2_A V c t h0]
    unfold out2_A_5 out2_A_6 out2_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    simp only [before2_6_B V c t h0, before2_7_B V c t h0]
    unfold out2_B_5 out2_B_6 out2_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3Run.lean ====
/-
  The last kernel region (layer 2's normalise + ReLU + column maximum over the lane-dense view [50000,128], five row tiles
  of 10000): at every grid point the body computes the tile's column maximum m_t of max(h·scale + shift, 0); at the first
  point it stores m_0 into the one [1,128] output block, at every later point it stores max(previous, m_t).  The block's
  index never moves, so its staging buffer carries the running maximum from point to point and is written back after the
  last point only.  This module states what the output buffer holds after each point (a recursion over the points) and
  proves the body's Hoare triple in both control cases; the facts are stated at an arbitrary region-entry valuation `V`.
-/
import proofs.«150514_j16690242912872_2_alg».proof.Proof.Gen.Kernel.Launch
import proofs.«150514_j16690242912872_2_alg».proof.Proof.Gen.Kernel.Skeleton
import proofs.«150514_j16690242912872_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (an unfetched window's index
    has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, over the grid -/

/-- `i == 0`: the first point. -/
abbrev cond3_0 (i : grid3.Coords) : Prop := k3_cond1 i = 1#1
theorem hcond3_0 : ∀ t : Fin cfg3.N, cond3_0 (grid3.coords t) ↔ t.val % 5 = 0 :=
  (by decide +kernel : ∀ t : Fin grid3.N, cond3_0 (grid3.coords t) ↔ t.val % 5 = 0)
/-- `i != 0`: every later point. -/
abbrev cond3_1 (i : grid3.Coords) : Prop := k3_cond2 i = 1#1
theorem hcond3_1 : ∀ t : Fin cfg3.N, cond3_1 (grid3.coords t) ↔ ¬ t.val % 5 = 0 :=
  (by decide +kernel : ∀ t : Fin grid3.N, cond3_1 (grid3.coords t) ↔ ¬ t.val % 5 = 0)
/-- One of the two holds at every coordinate, so the output window is stored into at every point. -/
theorem live3_3 : ∀ i : grid3.Coords, cfg3.idle 3 i = false := by decide +kernel

/-! ## The staging memrefs at a point -/

abbrev VO3_3 : View sig .tc .vmem S1x128 .f32 := (Memref.whole cc3_stg3_0 : Memref sig .tc .vmem S1x128 .f32).view
abbrev ms3_0 (t : Fin cfg3.N) : Memref sig .tc .vmem S10000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)

/-! ## The body's triple, case by case -/

set_option maxHeartbeats 1000000 in
/-- FIRST POINT (`i == 0`): the inputs at their contents, the output buffer at anything; the body stores the tile's column
    maximum.  The pieces the output buffer ends with are the witness the run finds. -/
noncomputable def kernelRun3_A (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) :
    { L3 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3__norm_relu_max_kernel i arg1 harg1 arg2 harg2 arg3 harg3 arg4 harg4) K } := by
  refine ⟨?_, fun E K => ?run⟩
  case run =>
    simp only [cc3__norm_relu_max_kernel_eq_skeleton]; unfold cc3__norm_relu_max_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- A LATER POINT (`i != 0`): the output buffer at its running contents `xo`; the body stores max(xo, the tile's column maximum). -/
noncomputable def kernelRun3_B (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) :
    { L3 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3__norm_relu_max_kernel i arg1 harg1 arg2 harg2 arg3 harg3 arg4 harg4) K } := by
  refine ⟨?_, fun E K => ?run⟩
  case run =>
    simp only [cc3__norm_relu_max_kernel_eq_skeleton]; unfold cc3__norm_relu_max_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.K.Region3.lean ====
/-
  The last kernel region, continued: what the [1,128] output block holds after each grid point — the tile's column maximum at
  the first point, the maximum of the previous contents and the tile's column maximum at every later one —, the pipeline's
  proof data at a region-entry valuation `V`, and the body obligation at every point.
-/
import proofs.«150514_j16690242912872_2_alg».proof.Proof.K.Region3Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output buffer -/

/-- The first point's one store covers the block. -/
theorem cover3_A_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) (y : S1x128.Idx) :
    ∃ pc ∈ (kernelRun3_A c i arg1 harg1 arg2 harg2 arg3 harg3 arg4 harg4 hc0 hc1 x0 x1 x2).1, y ∈ pc.1.set :=
  View.cover_of_tiledL (kernelRun3_A c i arg1 harg1 arg2 harg2 arg3 harg3 arg4 harg4 hc0 hc1 x0 x1 x2).1 S1x128.size (by sl_kernel_rfl) y

/-- What the first point leaves: its pieces read back. -/
def out3_A_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) : Vec F S1x128 .f32 :=
  VO3_3.read (Elt F) (VO3_3.writes (Elt F) VO3_3.junk (kernelRun3_A c i arg1 harg1 arg2 harg2 arg3 harg3 arg4 harg4 hc0 hc1 x0 x1 x2).1)

/-- A later point's one store covers the block. -/
theorem cover3_B_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) (y : S1x128.Idx) :
    ∃ pc ∈ (kernelRun3_B c i arg1 harg1 arg2 harg2 arg3 harg3 arg4 harg4 hc0 hc1 x0 x1 x2 xo).1, y ∈ pc.1.set :=
  View.cover_of_tiledL (kernelRun3_B c i arg1 harg1 arg2 harg2 arg3 harg3 arg4 harg4 hc0 hc1 x0 x1 x2 xo).1 S1x128.size (by sl_kernel_rfl) y

/-- What a later point leaves, over the running contents `xo`. -/
def out3_B_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) : Vec F S1x128 .f32 :=
  VO3_3.read (Elt F) (VO3_3.writes (Elt F) VO3_3.junk (kernelRun3_B c i arg1 harg1 arg2 harg2 arg3 harg3 arg4 harg4 hc0 hc1 x0 x1 x2 xo).1)

/-! ## The running maximum, point by point -/

/-- What the output buffer holds after the body at position `n`. -/
def outsAt3 (c : Dev nD) : (n : ℕ) → n < cfg3.N → Vec F S1x128 .f32
  | 0, hn => out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) ((hcond3_0 ⟨0, hn⟩).mpr (Nat.zero_mod _)) (fun h => (hcond3_1 ⟨0, hn⟩).mp h (Nat.zero_mod _)) (iblk3 V c 0 ⟨0, hn⟩) (iblk3 V c 1 ⟨0, hn⟩) (iblk3 V c 2 ⟨0, hn⟩)
  | n + 1, hn =>
    if h0 : (n + 1) % 5 = 0 then
      out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) ((hcond3_0 ⟨n + 1, hn⟩).mpr h0) (fun h => (hcond3_1 ⟨n + 1, hn⟩).mp h h0) (iblk3 V c 0 ⟨n + 1, hn⟩) (iblk3 V c 1 ⟨n + 1, hn⟩) (iblk3 V c 2 ⟨n + 1, hn⟩)
    else
      out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (fun h => h0 ((hcond3_0 ⟨n + 1, hn⟩).mp h)) ((hcond3_1 ⟨n + 1, hn⟩).mpr h0) (iblk3 V c 0 ⟨n + 1, hn⟩) (iblk3 V c 1 ⟨n + 1, hn⟩) (iblk3 V c 2 ⟨n + 1, hn⟩) (outsAt3 c n (Nat.lt_of_succ_lt hn))

theorem outsAt3_A (c : Dev nD) (t : Fin cfg3.N) (h0 : t.val % 5 = 0) :
    outsAt3 V c t.val t.isLt = out3_A_3 c (grid3.coords t) (ms3_0 t) (hs3_0 t) (ms3_1 t) (hs3_1 t) (ms3_2 t) (hs3_2 t) (ms3_3 t) (hs3_3 t) ((hcond3_0 t).mpr h0) (fun h => (hcond3_1 t).mp h h0) (iblk3 V c 0 t) (iblk3 V c 1 t) (iblk3 V c 2 t) := by
  obtain ⟨n, hn⟩ := t
  cases n with
  | zero => exact rfl
  | succ n => exact (dif_pos h0).trans rfl

theorem outsAt3_B (c : Dev nD) (t : Fin cfg3.N) (h0 : ¬t.val % 5 = 0) :
    outsAt3 V c t.val t.isLt = out3_B_3 c (grid3.coords t) (ms3_0 t) (hs3_0 t) (ms3_1 t) (hs3_1 t) (ms3_2 t) (hs3_2 t) (ms3_3 t) (hs3_3 t) (fun h => h0 ((hcond3_0 t).mp h)) ((hcond3_1 t).mpr h0) (iblk3 V c 0 t) (iblk3 V c 1 t) (iblk3 V c 2 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's at the
    running maximum; the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point the output buffer still holds what the point before left: the block index has not moved and the block
    was not written back in between. -/
theorem before3_3_B (c : Dev nD) (t : Fin cfg3.N) (h0 : ¬t.val % 5 = 0) (d) :
    (dat3 V c).before 3 t d = outsAt3 V c (t.val - 1) (Nat.lt_of_le_of_lt (Nat.sub_le _ _) t.isLt) := by
  have hN : t.val < 5 := lt_of_lt_of_eq t.isLt (show cfg3.N = 5 from N_3)
  rw [Dat.before_out_kept _ 3 rfl t (by omega) (Bool.eq_false_iff.mpr fun h => by have := (flush3_3 _).mp h; dsimp only at this; omega)
    live3_3 (fun _ _ => rfl)]
  dsimp only [dat3]

/-! ## The body obligation -/

/-- The output window is stored into at every grid point. -/
theorem liveAt3_3 (t : Fin cfg3.N) : cfg3.idle 3 (cfg3.grid.coords t) = false := live3_3 _

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ (dat3 V c).leavesExact 3 t)

set_option maxHeartbeats 800000 in
/-- The body at any point: the inputs' buffers hold their blocks; the point is the first or a later one; at a later one the
    output buffer holds what the point before left; the case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2,
    show (dat3 V c).leavesExact 3 t = owns (c : Thread nD τ) (ms3_3 t) fullShare ((dat3 V c).after 3 t) from by
      unfold Dat.leavesExact; rw [liveAt3_3 t], after3_3]
  have hN : t.val < 5 := lt_of_lt_of_eq t.isLt (show cfg3.N = 5 from N_3)
  by_cases h0 : t.val % 5 = 0
  · rw [outsAt3_A V c t h0]
    unfold out3_A_3
    iintro ⟨HΦ, Ho, ⟨%d0, H0⟩, ⟨%d1, H1⟩, ⟨%d2, H2⟩, ⟨%d3, H3⟩⟩
    iapply ((kernelRun3_A c (grid3.coords t) _ _ _ _ _ _ _ _ ((hcond3_0 t).mpr h0) (fun h => (hcond3_1 t).mp h h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_A_3 c _ _ _ _ _ _ _ _ _ _ _ _ _ _)
  · rw [outsAt3_B V c t h0]
    simp only [before3_3_B V c t h0]
    unfold out3_B_3
    iintro ⟨HΦ, Ho, ⟨%d0, H0⟩, ⟨%d1, H1⟩, ⟨%d2, H2⟩, ⟨%d3, H3⟩⟩
    iapply ((kernelRun3_B c (grid3.coords t) _ _ _ _ _ _ _ _ (fun h => h0 ((hcond3_0 t).mp h)) ((hcond3_1 t).mpr h0) (iblk3 V c 0 t) (iblk3 V c 1 t) (iblk3 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole run of @main: five stretches of host operations with the four kernel regions between them.  The contents of
  every unscoped buffer at each boundary are a fold from the launch memory: a host stretch applies its operations, a region
  replaces its arrays by what its pipeline leaves (an input array as entered, an output array with every written-back block
  folded in) and keeps every other buffer.  Each region is a segment over the thread state "every unscoped buffer at the
  boundary's contents, the generator register at some state, nothing owed"; the launch theorem then gives: every weakly fair
  execution terminates, nothing faults, and the final memory holds every unscoped buffer at the last boundary's contents — in
  particular the result buffer at the fold's value and each argument as launched (no stretch writes an argument, and a region
  reads one only through an input window).
-/
import proofs.«150514_j16690242912872_2_alg».proof.Proof.K.Region0
import proofs.«150514_j16690242912872_2_alg».proof.Proof.K.Region1
import proofs.«150514_j16690242912872_2_alg».proof.Proof.K.Region2
import proofs.«150514_j16690242912872_2_alg».proof.Proof.K.Region3
import proofs.«150514_j16690242912872_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`: region 0's entry contents. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves (the inputs as entered, each output's write-backs folded), every
    other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
/-- After the host stretch `hostOps1`: region 1's entry contents. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit: its arrays at what the pipeline leaves (the inputs as entered, each output's write-backs folded), every
    other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- An input window's array leaves region 1 as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))
/-- After the host stretch `hostOps2`: region 2's entry contents. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: its arrays at what the pipeline leaves (the inputs as entered, each output's write-backs folded), every
    other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- An input window's array leaves region 2 as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))
/-- After the host stretch `hostOps3`: region 3's entry contents. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- At region 3's exit: its arrays at what the pipeline leaves (the inputs as entered, each output's write-backs folded), every
    other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- An input window's array leaves region 3 as it entered. -/
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (U7 m) c).arrAt_in w hw _).trans (A_eq3 (U7 m) c w))
/-- After the last host stretch `hostOps4`: the contents @main returns with. -/
abbrev W9 : Dev nD → Valuation τ sig (Elt F) := fun c => StableHlo.after hostOps4 (W8 m c)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_in m c 1 rfl
    _ = W0 m c (Proc.devRef .tc main_arg0) := StableHlo.after_of_writes_sub hostOps0 _ hostOps0_writes (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_in m c 2 rfl
    _ = W0 m c (Proc.devRef .tc main_arg2) := StableHlo.after_of_writes_sub hostOps0 _ hostOps0_writes (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_in m c 4 rfl
    _ = W0 m c (Proc.devRef .tc main_arg4) := StableHlo.after_of_writes_sub hostOps0 _ hostOps0_writes (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_in m c 2 rfl
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_in m c 4 rfl
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W9_main_arg8 (c : Dev nD) : W9 m c (Proc.devRef .tc main_arg8) = m ((c : Thread nD τ).loc main_arg8) :=
  calc W9 m c (Proc.devRef .tc main_arg8)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W9_main_arg9 (c : Dev nD) : W9 m c (Proc.devRef .tc main_arg9) = m ((c : Thread nD τ).loc main_arg9) :=
  calc W9 m c (Proc.devRef .tc main_arg9)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W9_main_arg10 (c : Dev nD) : W9 m c (Proc.devRef .tc main_arg10) = m ((c : Thread nD τ).loc main_arg10) :=
  calc W9 m c (Proc.devRef .tc main_arg10)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W9_main_arg11 (c : Dev nD) : W9 m c (Proc.devRef .tc main_arg11) = m ((c : Thread nD τ).loc main_arg11) :=
  calc W9 m c (Proc.devRef .tc main_arg11)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`.  Its arrays are split out
    of the unscoped buffers and put back at the exit contents; the generator register goes into the invariant and comes out;
    nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split out
    of the unscoped buffers and put back at the exit contents; the generator register goes into the invariant and comes out;
    nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are split out
    of the unscoped buffers and put back at the exit contents; the generator register goes into the invariant and comes out;
    nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`.  Its arrays are split out
    of the unscoped buffers and put back at the exit contents; the generator register goes into the invariant and comes out;
    nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)) ]

set_option backward.isDefEq.respectTransparency.types false in
/-- Every weakly fair execution of @main terminates, nothing faulting; the final memory holds the result buffer at the fold's
    value `W9` and every argument as launched. -/
theorem run_all : θ_run defs (onTc (τ := τ) (main (F := F))) ⟨m, fun _ => 0, ρ⟩ (fun r => ∀ c : Dev nD,
      r.2.mem ((c.tc : Thread nD τ).loc main_v92) = W9 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [ StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ RH c)
          ⊢ (iprop(TnH m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_ucH main_v92 (by decide)),
       (h c _ (mem_ucH main_arg0 (by decide))).trans (W9_main_arg0 m c),
       (h c _ (mem_ucH main_arg1 (by decide))).trans (W9_main_arg1 m c),
       (h c _ (mem_ucH main_arg2 (by decide))).trans (W9_main_arg2 m c),
       (h c _ (mem_ucH main_arg3 (by decide))).trans (W9_main_arg3 m c),
       (h c _ (mem_ucH main_arg4 (by decide))).trans (W9_main_arg4 m c),
       (h c _ (mem_ucH main_arg5 (by decide))).trans (W9_main_arg5 m c),
       (h c _ (mem_ucH main_arg6 (by decide))).trans (W9_main_arg6 m c),
       (h c _ (mem_ucH main_arg7 (by decide))).trans (W9_main_arg7 m c),
       (h c _ (mem_ucH main_arg8 (by decide))).trans (W9_main_arg8 m c),
       (h c _ (mem_ucH main_arg9 (by decide))).trans (W9_main_arg9 m c),
       (h c _ (mem_ucH main_arg10 (by decide))).trans (W9_main_arg10 m c),
       (h c _ (mem_ucH main_arg11 (by decide))).trans (W9_main_arg11 m c)⟩)

end Cert.Kernel.Hand

end
-- ==== Proof.KI.Region0Run.lean ====
/-
  The first layer's linear map with its column statistics: over the grid (2, 5) — ten points, point t = 5·core + step —
  the body reads a 10000-row tile of the aggregated neighbour means and of the node features, the two [2,64] weights and the
  [1,64] bias, stores h = mean·Wl + b + x·Wr into the tile's own [10000,64] output block, and adds the tile's column sums
  of h and of h² into the core's two [1,1,64] partial-statistic blocks, which it zeroes first when step = 0.  The
  statistic blocks' index is (core, 0, 0): it does not move while step runs 0..4, so their staging buffers carry the
  running sums from point to point and are written back after step 4 only.  This module fixes the notation (the windows'
  blocks, the branch condition in closed form over the grid, the staging memrefs at a point) and proves the body's Hoare
  triple at a point with step = 0, where the statistic buffers are found at anything; everything is stated at an
  arbitrary region-entry valuation `V`.
-/
import proofs.«150514_j16690242912872_2_alg».proof.Proof.Gen.KernelIdeal.Launch
import proofs.«150514_j16690242912872_2_alg».proof.Proof.Gen.KernelIdeal.Skeleton
import proofs.«150514_j16690242912872_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's index
    has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition, over the grid -/

/-- `step == 0` (the second grid coordinate), as the body computes it from the coordinates. -/
abbrev cond0_0 (i : grid0.Coords) : Prop := (Scalar.cmpi .ne (Scalar.extui (Scalar.cmpi .eq (BitVec.ofNat 32 (i 1).val) 0#32)) 0#32) = 1#1
/-- It holds at the first point of each core's run of five — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-! ## The staging memrefs at a point -/

/-- One staging buffer of each output window, through which its contents are stated (the choice does not matter). -/
abbrev VO0_5 : View sig .tc .vmem S10000x64 .f32 := (Memref.whole cc0_stg5_0 : Memref sig .tc .vmem S10000x64 .f32).view
abbrev VO0_6 : View sig .tc .vmem S1x1x64 .f32 := (Memref.whole cc0_stg6_0 : Memref sig .tc .vmem S1x1x64 .f32).view
abbrev VO0_7 : View sig .tc .vmem S1x1x64 .f32 := (Memref.whole cc0_stg7_0 : Memref sig .tc .vmem S1x1x64 .f32).view
/-- Each window's current staging memref at point `t`, as the pipeline passes it to the body, and its wholeness. -/
abbrev ms0_0 (t : Fin cfg0.N) : Memref sig .tc .vmem S10000x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x64 .f32 := win0_7.stage (cfg0.slots t 7)
abbrev hs0_7 (t : Fin cfg0.N) : (ms0_7 t).IsWhole := hstage0_7 ((cfg0.slots t 7).cast nbuf0_7)

/-! ## The body's triple when step = 0 -/

set_option maxHeartbeats 1000000 in
/-- STEP 0: the inputs at their contents, the three output buffers at anything.  The body zeroes the two statistic
    buffers, stores h, and adds the tile's column sums into the zeroed buffers.  The pieces each output buffer ends
    with (last store first) are the witness the run finds. -/
noncomputable def kernelRun0_A (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Hand

end
-- ==== Proof.KI.Region0RunB.lean ====
/-
  The first layer's linear map with its column statistics, at a grid point with step ≠ 0: the two [1,1,64]
  partial-statistic buffers are found at their running contents (the sums over the core's earlier tiles), and the body
  adds this tile's column sums of h and of h² to them; the tile's own [10000,64] output buffer is found at anything and
  is overwritten by h.  The body's Hoare triple in this case.
-/
import proofs.«150514_j16690242912872_2_alg».proof.Proof.KI.Region0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- STEP ≠ 0: the inputs at their contents, the statistic buffers at their running contents `xo6`, `xo7`, the tile's output
    buffer at anything.  The pieces each output buffer ends with (last store first) are the witness the run finds. -/
noncomputable def kernelRun0_B (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0__linear_stats_kernel i arg2 harg2 arg3 harg3 arg4 harg4 arg5 harg5 arg6 harg6 arg7 harg7 arg8 harg8 arg9 harg9) K } := by
  refine ⟨?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Hand

end
-- ==== Proof.KI.Region0.lean ====
/-
  The first layer's linear map with its column statistics, over its ten grid points: what the three output buffers
  hold after the body at each point — the tile's h in the [10000,64] buffer; in the two [1,1,64] statistic buffers the
  column sums of h and of h² over the core's tiles so far, restarting from zero at step 0 — stated as a recursion over the
  points (the statistic buffers are not written back between two points of one core, so a point with step ≠ 0 finds
  what the point before left); the pipeline's proof data at an arbitrary region-entry valuation `V`; and the body's
  obligation at every point.
-/
import proofs.«150514_j16690242912872_2_alg».proof.Proof.KI.Region0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The pieces case A leaves in output 5's buffer tile it (checked by evaluation), so they cover it. -/
theorem cover0_A_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S10000x64.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S10000x64.size (by sl_kernel_rfl) y

/-- What case A leaves in output 5's staging buffer: its pieces read back. -/
def out0_A_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S10000x64 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- The pieces case A leaves in output 6's buffer tile it (checked by evaluation), so they cover it. -/
theorem cover0_A_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S1x1x64.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S1x1x64.size (by sl_kernel_rfl) y

/-- What case A leaves in output 6's staging buffer: its pieces read back. -/
def out0_A_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S1x1x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- The pieces case A leaves in output 7's buffer tile it (checked by evaluation), so they cover it. -/
theorem cover0_A_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) (y : S1x1x64.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S1x1x64.size (by sl_kernel_rfl) y

/-- What case A leaves in output 7's staging buffer: its pieces read back. -/
def out0_A_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) : Vec F S1x1x64 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4).2.2.1)

/-- The pieces case B leaves in output 5's buffer tile it (checked by evaluation), so they cover it. -/
theorem cover0_B_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S10000x64.Idx) :
    ∃ pc ∈ (kernelRun0_B c i arg2 harg2 arg3 harg3 arg4 harg4 arg5 harg5 arg6 harg6 arg7 harg7 arg8 harg8 arg9 harg9 hc0 x0 x1 x2 x3 x4 xo6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).1 S10000x64.size (by sl_kernel_rfl) y

/-- What case B leaves in output 5's staging buffer: its pieces read back. -/
def out0_B_5 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S10000x64 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xo6 xo7).1)

/-- The pieces case B leaves in output 6's buffer tile it (checked by evaluation), so they cover it. -/
theorem cover0_B_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S1x1x64.Idx) :
    ∃ pc ∈ (kernelRun0_B c i arg2 harg2 arg3 harg3 arg4 harg4 arg5 harg5 arg6 harg6 arg7 harg7 arg8 harg8 arg9 harg9 hc0 x0 x1 x2 x3 x4 xo6 xo7).2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).2.1 S1x1x64.size (by sl_kernel_rfl) y

/-- What case B leaves in output 6's staging buffer: its pieces read back. -/
def out0_B_6 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S1x1x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 x0 x1 x2 x3 x4 xo6 xo7).2.1)

/-- The pieces case B leaves in output 7's buffer tile it (checked by evaluation), so they cover it. -/
theorem cover0_B_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) (y : S1x1x64.Idx) :
    ∃ pc ∈ (kernelRun0_B c i arg2 harg2 arg3 harg3 arg4 harg4 arg5 harg5 arg6 harg6 arg7 harg7 arg8 harg8 arg9 harg9 hc0 x0 x1 x2 x3 x4 xo6 xo7).2.2.1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xo7).2.2.1 S1x1x64.size (by sl_kernel_rfl) y

/-- What case B leaves in output 7's staging buffer: its pieces read back. -/
def out0_B_7 (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) : Vec F S1x1x64 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 xo6 xo7).2.2.1)

/-! ## What the outputs hold after each point -/

/-- THE ACCUMULATION.  What the three output buffers hold after the body at position `n` (a tuple, in window order): at
    step 0 case A at the point's memrefs and input blocks; otherwise case B, the statistic buffers entered at what this
    recursion leaves at `n - 1`. -/
def outsAt0 (c : Dev nD) : (n : ℕ) → n < cfg0.N → Vec F S10000x64 .f32 × Vec F S1x1x64 .f32 × Vec F S1x1x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
        out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 5 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2,
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2,
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.1 (outsAt0 c n (Nat.lt_of_succ_lt hn)).2.2)

/-- `outsAt0` at a point with step = 0: case A's contents. -/
theorem outsAt0_A (c : Dev nD) (t : Fin cfg0.N) (h0 : t.val % 5 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
        out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t),
        out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a point with step ≠ 0: case B's contents, over what the point before left. -/
theorem outsAt0_B (c : Dev nD) (t : Fin cfg0.N) (h0 : ¬t.val % 5 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
        out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2,
        out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point `t`
    each input's buffer at its block and the outputs' at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point with step ≠ 0 statistic window 6's staging buffer holds what the body left at the point before: the point is
    not the first, the buffer was not written back between (write-backs follow step 4 only), the window is never idle and uncut. -/
theorem before0_6_B (c : Dev nD) (t : Fin cfg0.N) (h0 : ¬t.val % 5 = 0) (d) :
    (dat0 V c).before 6 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 6 rfl t (by omega) (Bool.eq_false_iff.mpr fun h => by have := (flush0_6 _).mp h; dsimp only at this; omega)
    (fun _ => rfl) (fun _ _ => rfl)]
  dsimp only [dat0]
/-- At a point with step ≠ 0 statistic window 7's staging buffer holds what the body left at the point before: the point is
    not the first, the buffer was not written back between (write-backs follow step 4 only), the window is never idle and uncut. -/
theorem before0_7_B (c : Dev nD) (t : Fin cfg0.N) (h0 : ¬t.val % 5 = 0) (d) :
    (dat0 V c).before 7 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1600000 in
/-- The body at any point: the inputs' memrefs hold their blocks; the closed form of the branch condition says which case
    the point is in; at step ≠ 0 the statistic buffers hold what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  have hN : t.val < 10 := lt_of_lt_of_eq t.isLt (show cfg0.N = 10 from N_0)
  by_cases h0 : t.val % 5 = 0
  · rw [outsAt0_A V c t h0]
    unfold out0_A_5 out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _)
  · rw [outsAt0_B V c t h0]
    simp only [before0_6_B V c t h0, before0_7_B V c t h0]
    unfold out0_B_5 out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk0 V c 0 t) (iblk0 V c 1 t) (iblk0 V c 2 t) (iblk0 V c 3 t) (iblk0 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region (layer 1's normalise + ReLU on the lane-dense view [50000,128], five row tiles of 10000): at
  every grid point the body stores max(h·scale + shift, 0) of the point's tile, a pointwise function of the three input
  blocks, into the point's own output block, which is written back at every point.  One control case; stated at an arbitrary
  region-entry valuation `V`.
-/
import proofs.«150514_j16690242912872_2_alg».proof.Proof.Gen.KernelIdeal.Launch
import proofs.«150514_j16690242912872_2_alg».proof.Proof.Gen.KernelIdeal.Skeleton
import proofs.«150514_j16690242912872_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0

/-- The output buffer after the body, from the input blocks: its one whole-block store. -/
def out1_3 (x0 : Vec F S10000x128 .f32) (x1 : Vec F S1x128 .f32) (x2 : Vec F S1x128 .f32) : Vec F S10000x128 .bf16 :=
  View.canon [⟨r1_0, k1_pay1 (View.ld x0 r1_0) (View.ld x1 r1_1) (View.ld x2 r1_1)⟩]

theorem cover1_3 (p0 : Vec F S10000x128 .bf16) (y : S10000x128.Idx) :
    ∃ pc ∈ ([⟨r1_0, p0⟩] : List (View.Piece (Elt F) S10000x128 .bf16)), y ∈ pc.1.set :=
  View.cover_of_tiled [⟨r1_0, p0⟩] S10000x128.size (by rfl) y

/-! ## The body's triple -/

set_option maxHeartbeats 1000000 in
theorem sound_kernel1 (c : Dev nD) (E : Set ℕ) (i : grid1.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S10000x128 .bf16) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__norm_relu_kernel i arg1 harg1 arg2 harg2 arg3 harg3 arg4 harg4) K := by
  simp only [cc1__norm_relu_kernel_eq_skeleton]; unfold cc1__norm_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2Run.lean ====
/-
  The second layer's linear map with its column statistics: over the grid (2, 5) — ten points, point t = 5·core + step —
  the body reads a 10000-row tile of the aggregated neighbour means and of the node features, the two [64,64] weights and the
  [1,64] bias, stores h = mean·Wl + b + x·Wr into the tile's own [10000,64] output block, and adds the tile's column sums
  of h and of h² into the core's two [1,1,64] partial-statistic blocks, which it zeroes first when step = 0.  The
  statistic blocks' index is (core, 0, 0): it does not move while step runs 0..4, so their staging buffers carry the
  running sums from point to point and are written back after step 4 only.  This module fixes the notation (the windows'
  blocks, the branch condition in closed form over the grid, the staging memrefs at a point) and proves the body's Hoare
  triple at a point with step = 0, where the statistic buffers are found at anything; everything is stated at an
  arbitrary region-entry valuation `V`.
-/
import proofs.«150514_j16690242912872_2_alg».proof.Proof.Gen.KernelIdeal.Launch
import proofs.«150514_j16690242912872_2_alg».proof.Proof.Gen.KernelIdeal.Skeleton
import proofs.«150514_j16690242912872_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's index
    has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The branch condition, over the grid -/

/-- `step == 0` (the second grid coordinate), as the body computes it from the coordinates. -/
abbrev cond2_0 (i : grid2.Coords) : Prop := (Scalar.cmpi .ne (Scalar.extui (Scalar.cmpi .eq (BitVec.ofNat 32 (i 1).val) 0#32)) 0#32) = 1#1
/-- It holds at the first point of each core's run of five — decided over the grid. -/
theorem hcond2_0 : ∀ t : Fin cfg2.N, cond2_0 (grid2.coords t) ↔ t.val % 5 = 0 :=
  (by decide +kernel : ∀ t : Fin grid2.N, cond2_0 (grid2.coords t) ↔ t.val % 5 = 0)

/-! ## The staging memrefs at a point -/

/-- One staging buffer of each output window, through which its contents are stated (the choice does not matter). -/
abbrev VO2_5 : View sig .tc .vmem S10000x64 .f32 := (Memref.whole cc2_stg5_0 : Memref sig .tc .vmem S10000x64 .f32).view
abbrev VO2_6 : View sig .tc .vmem S1x1x64 .f32 := (Memref.whole cc2_stg6_0 : Memref sig .tc .vmem S1x1x64 .f32).view
abbrev VO2_7 : View sig .tc .vmem S1x1x64 .f32 := (Memref.whole cc2_stg7_0 : Memref sig .tc .vmem S1x1x64 .f32).view
/-- Each window's current staging memref at point `t`, as the pipeline passes it to the body, and its wholeness. -/
abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S10000x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x64 .f32 := win2_7.stage (cfg2.slots t 7)
abbrev hs2_7 (t : Fin cfg2.N) : (ms2_7 t).IsWhole := hstage2_7 ((cfg2.slots t 7).cast nbuf2_7)

/-! ## The body's triple when step = 0 -/

set_option maxHeartbeats 1000000 in
/-- STEP 0: the inputs at their contents, the three output buffers at anything.  The body zeroes the two statistic
    buffers, stores h, and adds the tile's column sums into the zeroed buffers.  The pieces each output buffer ends
    with (last store first) are the witness the run finds. -/
noncomputable def kernelRun2_A (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2__linear_stats_kernel i arg2 harg2 arg3 harg3 arg4 harg4 arg5 harg5 arg6 harg6 arg7 harg7 arg8 harg8 arg9 harg9) K } := by
  refine ⟨?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Hand

end
-- ==== Proof.KI.Region2RunB.lean ====
/-
  The second layer's linear map with its column statistics, at a grid point with step ≠ 0: the two [1,1,64]
  partial-statistic buffers are found at their running contents (the sums over the core's earlier tiles), and the body
  adds this tile's column sums of h and of h² to them; the tile's own [10000,64] output buffer is found at anything and
  is overwritten by h.  The body's Hoare triple in this case.
-/
import proofs.«150514_j16690242912872_2_alg».proof.Proof.KI.Region2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- STEP ≠ 0: the inputs at their contents, the statistic buffers at their running contents `xo6`, `xo7`, the tile's output
    buffer at anything.  The pieces each output buffer ends with (last store first) are the witness the run finds. -/
noncomputable def kernelRun2_B (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) :
    Σ' (L5 : List (View.Piece (Elt F) S10000x64 .f32)), Σ' (L6 : List (View.Piece (Elt F) S1x1x64 .f32)), { L7 : List (View.Piece (Elt F) S1x1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xo6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2__linear_stats_kernel i arg2 harg2 arg3 harg3 arg4 harg4 arg5 harg5 arg6 harg6 arg7 harg7 arg8 harg8 arg9 harg9) K } := by
  refine ⟨?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

end Cert.KernelIdeal.Hand

end
-- ==== Proof.KI.Region2.lean ====
/-
  The second layer's linear map with its column statistics, over its ten grid points: what the three output buffers
  hold after the body at each point — the tile's h in the [10000,64] buffer; in the two [1,1,64] statistic buffers the
  column sums of h and of h² over the core's tiles so far, restarting from zero at step 0 — stated as a recursion over the
  points (the statistic buffers are not written back between two points of one core, so a point with step ≠ 0 finds
  what the point before left); the pipeline's proof data at an arbitrary region-entry valuation `V`; and the body's
  obligation at every point.
-/
import proofs.«150514_j16690242912872_2_alg».proof.Proof.KI.Region2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The pieces case A leaves in output 5's buffer tile it (checked by evaluation), so they cover it. -/
theorem cover2_A_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S10000x64.Idx) :
    ∃ pc ∈ (kernelRun2_A c i arg2 harg2 arg3 harg3 arg4 harg4 arg5 harg5 arg6 harg6 arg7 harg7 arg8 harg8 arg9 harg9 hc0 x0 x1 x2 x3 x4).1, y ∈ pc.1.set :=
  View.cover_of_tiledL (kernelRun2_A c i arg2 harg2 arg3 harg3 arg4 harg4 arg5 harg5 arg6 harg6 arg7 harg7 arg8 harg8 arg9 harg9 hc0 x0 x1 x2 x3 x4).1 S10000x64.size (by sl_kernel_rfl) y

/-- What case A leaves in output 5's staging buffer: its pieces read back. -/
def out2_A_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S10000x64 .f32 :=
  VO2_5.read (Elt F) (VO2_5.writes (Elt F) VO2_5.junk (kernelRun2_A c i arg2 harg2 arg3 harg3 arg4 harg4 arg5 harg5 arg6 harg6 arg7 harg7 arg8 harg8 arg9 harg9 hc0 x0 x1 x2 x3 x4).1)

/-- The pieces case A leaves in output 6's buffer tile it (checked by evaluation), so they cover it. -/
theorem cover2_A_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S1x1x64.Idx) :
    ∃ pc ∈ (kernelRun2_A c i arg2 harg2 arg3 harg3 arg4 harg4 arg5 harg5 arg6 harg6 arg7 harg7 arg8 harg8 arg9 harg9 hc0 x0 x1 x2 x3 x4).2.1, y ∈ pc.1.set :=
  View.cover_of_tiledL (kernelRun2_A c i arg2 harg2 arg3 harg3 arg4 harg4 arg5 harg5 arg6 harg6 arg7 harg7 arg8 harg8 arg9 harg9 hc0 x0 x1 x2 x3 x4).2.1 S1x1x64.size (by sl_kernel_rfl) y

/-- What case A leaves in output 6's staging buffer: its pieces read back. -/
def out2_A_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S1x1x64 .f32 :=
  VO2_6.read (Elt F) (VO2_6.writes (Elt F) VO2_6.junk (kernelRun2_A c i arg2 harg2 arg3 harg3 arg4 harg4 arg5 harg5 arg6 harg6 arg7 harg7 arg8 harg8 arg9 harg9 hc0 x0 x1 x2 x3 x4).2.1)

/-- The pieces case A leaves in output 7's buffer tile it (checked by evaluation), so they cover it. -/
theorem cover2_A_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) (y : S1x1x64.Idx) :
    ∃ pc ∈ (kernelRun2_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun2_A c i arg2 harg2 arg3 harg3 arg4 harg4 arg5 harg5 arg6 harg6 arg7 harg7 arg8 harg8 arg9 harg9 hc0 x0 x1 x2 x3 x4).2.2.1 S1x1x64.size (by sl_kernel_rfl) y

/-- What case A leaves in output 7's staging buffer: its pieces read back. -/
def out2_A_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) : Vec F S1x1x64 .f32 :=
  VO2_7.read (Elt F) (VO2_7.writes (Elt F) VO2_7.junk (kernelRun2_A c i arg2 harg2 arg3 harg3 arg4 harg4 arg5 harg5 arg6 harg6 arg7 harg7 arg8 harg8 arg9 harg9 hc0 x0 x1 x2 x3 x4).2.2.1)

/-- The pieces case B leaves in output 5's buffer tile it (checked by evaluation), so they cover it. -/
theorem cover2_B_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S10000x64.Idx) :
    ∃ pc ∈ (kernelRun2_B c i arg2 harg2 arg3 harg3 arg4 harg4 arg5 harg5 arg6 harg6 arg7 harg7 arg8 harg8 arg9 harg9 hc0 x0 x1 x2 x3 x4 xo6 xo7).1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).1 S10000x64.size (by sl_kernel_rfl) y

/-- What case B leaves in output 5's staging buffer: its pieces read back. -/
def out2_B_5 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S10000x64 .f32 :=
  VO2_5.read (Elt F) (VO2_5.writes (Elt F) VO2_5.junk (kernelRun2_B c i arg2 harg2 arg3 harg3 arg4 harg4 arg5 harg5 arg6 harg6 arg7 harg7 arg8 harg8 arg9 harg9 hc0 x0 x1 x2 x3 x4 xo6 xo7).1)

/-- The pieces case B leaves in output 6's buffer tile it (checked by evaluation), so they cover it. -/
theorem cover2_B_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S1x1x64.Idx) :
    ∃ pc ∈ (kernelRun2_B c i arg2 harg2 arg3 harg3 arg4 harg4 arg5 harg5 arg6 harg6 arg7 harg7 arg8 harg8 arg9 harg9 hc0 x0 x1 x2 x3 x4 xo6 xo7).2.1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).2.1 S1x1x64.size (by sl_kernel_rfl) y

/-- What case B leaves in output 6's staging buffer: its pieces read back. -/
def out2_B_6 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S1x1x64 .f32 :=
  VO2_6.read (Elt F) (VO2_6.writes (Elt F) VO2_6.junk (kernelRun2_B c i arg2 harg2 arg3 harg3 arg4 harg4 arg5 harg5 arg6 harg6 arg7 harg7 arg8 harg8 arg9 harg9 hc0 x0 x1 x2 x3 x4 xo6 xo7).2.1)

/-- The pieces case B leaves in output 7's buffer tile it (checked by evaluation), so they cover it. -/
theorem cover2_B_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) (y : S1x1x64.Idx) :
    ∃ pc ∈ (kernelRun2_B c i arg2 harg2 arg3 harg3 arg4 harg4 arg5 harg5 arg6 harg6 arg7 harg7 arg8 harg8 arg9 harg9 hc0 x0 x1 x2 x3 x4 xo6 xo7).2.2.1, y ∈ pc.1.set :=
  View.cover_of_tiledL (kernelRun2_B c i arg2 harg2 arg3 harg3 arg4 harg4 arg5 harg5 arg6 harg6 arg7 harg7 arg8 harg8 arg9 harg9 hc0 x0 x1 x2 x3 x4 xo6 xo7).2.2.1 S1x1x64.size (by sl_kernel_rfl) y

/-- What case B leaves in output 7's staging buffer: its pieces read back. -/
def out2_B_7 (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) : Vec F S1x1x64 .f32 :=
  VO2_7.read (Elt F) (VO2_7.writes (Elt F) VO2_7.junk (kernelRun2_B c i arg2 harg2 arg3 harg3 arg4 harg4 arg5 harg5 arg6 harg6 arg7 harg7 arg8 harg8 arg9 harg9 hc0 x0 x1 x2 x3 x4 xo6 xo7).2.2.1)

/-! ## What the outputs hold after each point -/

/-- THE ACCUMULATION.  What the three output buffers hold after the body at position `n` (a tuple, in window order): at
    step 0 case A at the point's memrefs and input blocks; otherwise case B, the statistic buffers entered at what this
    recursion leaves at `n - 1`. -/
def outsAt2 (c : Dev nD) : (n : ℕ) → n < cfg2.N → Vec F S10000x64 .f32 × Vec F S1x1x64 .f32 × Vec F S1x1x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
        out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩),
        out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 5 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
        out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩),
        out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
        out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2,
        out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.1 (outsAt2 c n (Nat.lt_of_succ_lt hn)).2.2)

/-- `outsAt2` at a point with step = 0: case A's contents. -/
theorem outsAt2_A (c : Dev nD) (t : Fin cfg2.N) (h0 : t.val % 5 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
        out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t),
        out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point with step ≠ 0: case B's contents, over what the point before left. -/
theorem outsAt2_B (c : Dev nD) (t : Fin cfg2.N) (h0 : ¬t.val % 5 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
        out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2,
        out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them (`V`); after the body at point `t`
    each input's buffer at its block and the outputs' at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- At a point with step ≠ 0 statistic window 6's staging buffer holds what the body left at the point before: the point is
    not the first, the buffer was not written back between (write-backs follow step 4 only), the window is never idle and uncut. -/
theorem before2_6_B (c : Dev nD) (t : Fin cfg2.N) (h0 : ¬t.val % 5 = 0) (d) :
    (dat2 V c).before 6 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]
/-- At a point with step ≠ 0 statistic window 7's staging buffer holds what the body left at the point before: the point is
    not the first, the buffer was not written back between (write-backs follow step 4 only), the window is never idle and uncut. -/
theorem before2_7_B (c : Dev nD) (t : Fin cfg2.N) (h0 : ¬t.val % 5 = 0) (d) :
    (dat2 V c).before 7 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the branch condition says which case
    the point is in; at step ≠ 0 the statistic buffers hold what the point before left; so the case's run applies; the
    invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 10 := lt_of_lt_of_eq t.isLt (show cfg2.N = 10 from N_2)
  by_cases h0 : t.val % 5 = 0
  · rw [outsAt2_A V c t h0]
    unfold out2_A_5 out2_A_6 out2_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ ((hcond2_0 t).mpr h0) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    simp only [before2_6_B V c t h0, before2_7_B V c t h0]
    unfold out2_B_5 out2_B_6 out2_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_B c (grid2.coords t) _ _ _ _ _ _ _ _ _ _ _ _ _ _ _ _ (fun h => h0 ((hcond2_0 t).mp h)) (iblk2 V c 0 t) (iblk2 V c 1 t) (iblk2 V c 2 t) (iblk2 V c 3 t) (iblk2 V c 4 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3Run.lean ====
/-
  The last kernel region (layer 2's normalise + ReLU + column maximum over the lane-dense view [50000,128], five row tiles
  of 10000): at every grid point the body computes the tile's column maximum m_t of max(h·scale + shift, 0); at the first
  point it stores m_0 into the one [1,128] output block, at every later point it stores max(previous, m_t).  The block's
  index never moves, so its staging buffer carries the running maximum from point to point and is written back after the
  last point only.  This module states what the output buffer holds after each point (a recursion over the points) and
  proves the body's Hoare triple in both control cases; the facts are stated at an arbitrary region-entry valuation `V`.
-/
import proofs.«150514_j16690242912872_2_alg».proof.Proof.Gen.KernelIdeal.Launch
import proofs.«150514_j16690242912872_2_alg».proof.Proof.Gen.KernelIdeal.Skeleton
import proofs.«150514_j16690242912872_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (an unfetched window's index
    has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, over the grid -/

/-- `i == 0`: the first point. -/
abbrev cond3_0 (i : grid3.Coords) : Prop := k3_cond1 i = 1#1
theorem hcond3_0 : ∀ t : Fin cfg3.N, cond3_0 (grid3.coords t) ↔ t.val % 5 = 0 :=
  (by decide +kernel : ∀ t : Fin grid3.N, cond3_0 (grid3.coords t) ↔ t.val % 5 = 0)
/-- `i != 0`: every later point. -/
abbrev cond3_1 (i : grid3.Coords) : Prop := k3_cond2 i = 1#1
theorem hcond3_1 : ∀ t : Fin cfg3.N, cond3_1 (grid3.coords t) ↔ ¬ t.val % 5 = 0 :=
  (by decide +kernel : ∀ t : Fin grid3.N, cond3_1 (grid3.coords t) ↔ ¬ t.val % 5 = 0)
/-- One of the two holds at every coordinate, so the output window is stored into at every point. -/
theorem live3_3 : ∀ i : grid3.Coords, cfg3.idle 3 i = false := by decide +kernel

/-! ## The staging memrefs at a point -/

abbrev VO3_3 : View sig .tc .vmem S1x128 .f32 := (Memref.whole cc3_stg3_0 : Memref sig .tc .vmem S1x128 .f32).view
abbrev ms3_0 (t : Fin cfg3.N) : Memref sig .tc .vmem S10000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)

/-! ## The body's triple, case by case -/

set_option maxHeartbeats 1000000 in
/-- FIRST POINT (`i == 0`): the inputs at their contents, the output buffer at anything; the body stores the tile's column
    maximum.  The pieces the output buffer ends with are the witness the run finds. -/
noncomputable def kernelRun3_A (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) :
    { L3 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3__norm_relu_max_kernel i arg1 harg1 arg2 harg2 arg3 harg3 arg4 harg4) K } := by
  refine ⟨?_, fun E K => ?run⟩
  case run =>
    simp only [cc3__norm_relu_max_kernel_eq_skeleton]; unfold cc3__norm_relu_max_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

set_option maxHeartbeats 1000000 in
/-- A LATER POINT (`i != 0`): the output buffer at its running contents `xo`; the body stores max(xo, the tile's column maximum). -/
noncomputable def kernelRun3_B (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) :
    { L3 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc3__norm_relu_max_kernel i arg1 harg1 arg2 harg2 arg3 harg3 arg4 harg4) K } := by
  refine ⟨?_, fun E K => ?run⟩
  case run =>
    simp only [cc3__norm_relu_max_kernel_eq_skeleton]; unfold cc3__norm_relu_max_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.KI.Region3.lean ====
/-
  The last kernel region, continued: what the [1,128] output block holds after each grid point — the tile's column maximum at
  the first point, the maximum of the previous contents and the tile's column maximum at every later one —, the pipeline's
  proof data at a region-entry valuation `V`, and the body obligation at every point.
-/
import proofs.«150514_j16690242912872_2_alg».proof.Proof.KI.Region3Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output buffer -/

/-- The first point's one store covers the block. -/
theorem cover3_A_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) (y : S1x128.Idx) :
    ∃ pc ∈ (kernelRun3_A c i arg1 harg1 arg2 harg2 arg3 harg3 arg4 harg4 hc0 hc1 x0 x1 x2).1, y ∈ pc.1.set :=
  View.cover_of_tiledL (kernelRun3_A c i arg1 harg1 arg2 harg2 arg3 harg3 arg4 harg4 hc0 hc1 x0 x1 x2).1 S1x128.size (by sl_kernel_rfl) y

/-- What the first point leaves: its pieces read back. -/
def out3_A_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) : Vec F S1x128 .f32 :=
  VO3_3.read (Elt F) (VO3_3.writes (Elt F) VO3_3.junk (kernelRun3_A c i arg1 harg1 arg2 harg2 arg3 harg3 arg4 harg4 hc0 hc1 x0 x1 x2).1)

/-- A later point's one store covers the block. -/
theorem cover3_B_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) (y : S1x128.Idx) :
    ∃ pc ∈ (kernelRun3_B c i arg1 harg1 arg2 harg2 arg3 harg3 arg4 harg4 hc0 hc1 x0 x1 x2 xo).1, y ∈ pc.1.set :=
  View.cover_of_tiledL (kernelRun3_B c i arg1 harg1 arg2 harg2 arg3 harg3 arg4 harg4 hc0 hc1 x0 x1 x2 xo).1 S1x128.size (by sl_kernel_rfl) y

/-- What a later point leaves, over the running contents `xo`. -/
def out3_B_3 (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) : Vec F S1x128 .f32 :=
  VO3_3.read (Elt F) (VO3_3.writes (Elt F) VO3_3.junk (kernelRun3_B c i arg1 harg1 arg2 harg2 arg3 harg3 arg4 harg4 hc0 hc1 x0 x1 x2 xo).1)

/-! ## The running maximum, point by point -/

/-- What the output buffer holds after the body at position `n`. -/
def outsAt3 (c : Dev nD) : (n : ℕ) → n < cfg3.N → Vec F S1x128 .f32
  | 0, hn => out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) ((hcond3_0 ⟨0, hn⟩).mpr (Nat.zero_mod _)) (fun h => (hcond3_1 ⟨0, hn⟩).mp h (Nat.zero_mod _)) (iblk3 V c 0 ⟨0, hn⟩) (iblk3 V c 1 ⟨0, hn⟩) (iblk3 V c 2 ⟨0, hn⟩)
  | n + 1, hn =>
    if h0 : (n + 1) % 5 = 0 then
      out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) ((hcond3_0 ⟨n + 1, hn⟩).mpr h0) (fun h => (hcond3_1 ⟨n + 1, hn⟩).mp h h0) (iblk3 V c 0 ⟨n + 1, hn⟩) (iblk3 V c 1 ⟨n + 1, hn⟩) (iblk3 V c 2 ⟨n + 1, hn⟩)
    else
      out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (fun h => h0 ((hcond3_0 ⟨n + 1, hn⟩).mp h)) ((hcond3_1 ⟨n + 1, hn⟩).mpr h0) (iblk3 V c 0 ⟨n + 1, hn⟩) (iblk3 V c 1 ⟨n + 1, hn⟩) (iblk3 V c 2 ⟨n + 1, hn⟩) (outsAt3 c n (Nat.lt_of_succ_lt hn))

theorem outsAt3_A (c : Dev nD) (t : Fin cfg3.N) (h0 : t.val % 5 = 0) :
    outsAt3 V c t.val t.isLt = out3_A_3 c (grid3.coords t) (ms3_0 t) (hs3_0 t) (ms3_1 t) (hs3_1 t) (ms3_2 t) (hs3_2 t) (ms3_3 t) (hs3_3 t) ((hcond3_0 t).mpr h0) (fun h => (hcond3_1 t).mp h h0) (iblk3 V c 0 t) (iblk3 V c 1 t) (iblk3 V c 2 t) := by
  obtain ⟨n, hn⟩ := t
  cases n with
  | zero => exact rfl
  | succ n => exact (dif_pos h0).trans rfl

theorem outsAt3_B (c : Dev nD) (t : Fin cfg3.N) (h0 : ¬t.val % 5 = 0) :
    outsAt3 V c t.val t.isLt = out3_B_3 c (grid3.coords t) (ms3_0 t) (hs3_0 t) (ms3_1 t) (hs3_1 t) (ms3_2 t) (hs3_2 t) (ms3_3 t) (hs3_3 t) (fun h => h0 ((hcond3_0 t).mp h)) ((hcond3_1 t).mpr h0) (iblk3 V c 0 t) (iblk3 V c 1 t) (iblk3 V c 2 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the output's at the
    running maximum; the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point the output buffer still holds what the point before left: the block index has not moved and the block
    was not written back in between. -/
theorem before3_3_B (c : Dev nD) (t : Fin cfg3.N) (h0 : ¬t.val % 5 = 0) (d) :
    (dat3 V c).before 3 t d = outsAt3 V c (t.val - 1) (Nat.lt_of_le_of_lt (Nat.sub_le _ _) t.isLt) := by
  have hN : t.val < 5 := lt_of_lt_of_eq t.isLt (show cfg3.N = 5 from N_3)
  rw [Dat.before_out_kept _ 3 rfl t (by omega) (Bool.eq_false_iff.mpr fun h => by have := (flush3_3 _).mp h; dsimp only at this; omega)
    live3_3 (fun _ _ => rfl)]
  dsimp only [dat3]

/-! ## The body obligation -/

/-- The output window is stored into at every grid point. -/
theorem liveAt3_3 (t : Fin cfg3.N) : cfg3.idle 3 (cfg3.grid.coords t) = false := live3_3 _

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ (dat3 V c).leavesExact 3 t)

set_option maxHeartbeats 800000 in
/-- The body at any point: the inputs' buffers hold their blocks; the point is the first or a later one; at a later one the
    output buffer holds what the point before left; the case's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2,
    show (dat3 V c).leavesExact 3 t = owns (c : Thread nD τ) (ms3_3 t) fullShare ((dat3 V c).after 3 t) from by
      unfold Dat.leavesExact; rw [liveAt3_3 t], after3_3]
  have hN : t.val < 5 := lt_of_lt_of_eq t.isLt (show cfg3.N = 5 from N_3)
  by_cases h0 : t.val % 5 = 0
  · rw [outsAt3_A V c t h0]
    unfold out3_A_3
    iintro ⟨HΦ, Ho, ⟨%d0, H0⟩, ⟨%d1, H1⟩, ⟨%d2, H2⟩, ⟨%d3, H3⟩⟩
    iapply ((kernelRun3_A c (grid3.coords t) _ _ _ _ _ _ _ _ ((hcond3_0 t).mpr h0) (fun h => (hcond3_1 t).mp h h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_A_3 c _ _ _ _ _ _ _ _ _ _ _ _ _ _)
  · rw [outsAt3_B V c t h0]
    simp only [before3_3_B V c t h0]
    unfold out3_B_3
    iintro ⟨HΦ, Ho, ⟨%d0, H0⟩, ⟨%d1, H1⟩, ⟨%d2, H2⟩, ⟨%d3, H3⟩⟩
    iapply ((kernelRun3_B c (grid3.coords t) _ _ _ _ _ _ _ _ (fun h => h0 ((hcond3_0 t).mp h)) ((hcond3_1 t).mpr h0) (iblk3 V c 0 t) (iblk3 V c 1 t) (iblk3 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole run of @main: five stretches of host operations with the four kernel regions between them.  The contents of
  every unscoped buffer at each boundary are a fold from the launch memory: a host stretch applies its operations, a region
  replaces its arrays by what its pipeline leaves (an input array as entered, an output array with every written-back block
  folded in) and keeps every other buffer.  Each region is a segment over the thread state "every unscoped buffer at the
  boundary's contents, the generator register at some state, nothing owed"; the launch theorem then gives: every weakly fair
  execution terminates, nothing faults, and the final memory holds every unscoped buffer at the last boundary's contents — in
  particular the result buffer at the fold's value and each argument as launched (no stretch writes an argument, and a region
  reads one only through an input window).
-/
import proofs.«150514_j16690242912872_2_alg».proof.Proof.KI.Region0
import proofs.«150514_j16690242912872_2_alg».proof.Proof.KI.Region1
import proofs.«150514_j16690242912872_2_alg».proof.Proof.KI.Region2
import proofs.«150514_j16690242912872_2_alg».proof.Proof.KI.Region3
import proofs.«150514_j16690242912872_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch `hostOps0`: region 0's entry contents. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves (the inputs as entered, each output's write-backs folded), every
    other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (U1 m) c).arrAt_in w hw _).trans (A_eq0 (U1 m) c w))
/-- After the host stretch `hostOps1`: region 1's entry contents. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit: its arrays at what the pipeline leaves (the inputs as entered, each output's write-backs folded), every
    other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- An input window's array leaves region 1 as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (U3 m) c).arrAt_in w hw _).trans (A_eq1 (U3 m) c w))
/-- After the host stretch `hostOps2`: region 2's entry contents. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit: its arrays at what the pipeline leaves (the inputs as entered, each output's write-backs folded), every
    other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- An input window's array leaves region 2 as it entered. -/
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))
/-- After the host stretch `hostOps3`: region 3's entry contents. -/
abbrev W7 : Dev nD → Valuation τ sig (Elt F) := fun c => StableHlo.after hostOps3 (W6 m c)
abbrev U7 : (c : Dev nD) → (b : Ref sig .tc) → Buf (Elt F) ((c : Thread nD τ).loc b) := fun c b => W7 m c b
/-- At region 3's exit: its arrays at what the pipeline leaves (the inputs as entered, each output's write-backs folded), every
    other buffer as entered. -/
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev U8 : (c : Dev nD) → (b : Ref sig .tc) → Buf (Elt F) ((c : Thread nD τ).loc b) := fun c b => W8 m c b
theorem hF3 (c : Dev nD) (w : Fin cfg3.W) : (dat3 (U7 m) c).arrAt w cfg3.N = U8 m c (Pipeline.arrRef spec3 w) :=
  (W8_arr m c w).symm
theorem hrest3 (c : Dev nD) : ∀ b, b ∉ Finset.univ.image (Pipeline.arrRef spec3) → U8 m c b = U7 m c b :=
  fun b hb => W8_of_ne m c b fun w e => hb (Finset.mem_image.mpr ⟨w, Finset.mem_univ _, e⟩)
/-- An input window's array leaves region 3 as it entered. -/
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (U7 m) c).arrAt_in w hw _).trans (A_eq3 (U7 m) c w))
/-- After the last host stretch `hostOps4`: the contents @main returns with. -/
abbrev W9 : Dev nD → Valuation τ sig (Elt F) := fun c => StableHlo.after hostOps4 (W8 m c)

/-! ## The arguments end as launched -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps4 _ hostOps4_writes (by decide)
    _ = W7 m c (Proc.devRef .tc main_arg0) := W8_of_ne m c main_arg0 (by decide)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_in m c 1 rfl
    _ = W0 m c (Proc.devRef .tc main_arg0) := StableHlo.after_of_writes_sub hostOps0 _ hostOps0_writes (by decide)
    _ = m ((c : Thread nD τ).loc main_arg0) := rfl

theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps4 _ hostOps4_writes (by decide)
    _ = W7 m c (Proc.devRef .tc main_arg1) := W8_of_ne m c main_arg1 (by decide)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps4 _ hostOps4_writes (by decide)
    _ = W7 m c (Proc.devRef .tc main_arg2) := W8_of_ne m c main_arg2 (by decide)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_in m c 2 rfl
    _ = W0 m c (Proc.devRef .tc main_arg2) := StableHlo.after_of_writes_sub hostOps0 _ hostOps0_writes (by decide)
    _ = m ((c : Thread nD τ).loc main_arg2) := rfl

theorem W9_main_arg3 (c : Dev nD) : W9 m c (Proc.devRef .tc main_arg3) = m ((c : Thread nD τ).loc main_arg3) :=
  calc W9 m c (Proc.devRef .tc main_arg3)
    _ = W8 m c (Proc.devRef .tc main_arg3) := StableHlo.after_of_writes_sub hostOps4 _ hostOps4_writes (by decide)
    _ = W7 m c (Proc.devRef .tc main_arg3) := W8_of_ne m c main_arg3 (by decide)
    _ = W6 m c (Proc.devRef .tc main_arg3) := StableHlo.after_of_writes_sub hostOps3 _ hostOps3_writes (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W9_main_arg4 (c : Dev nD) : W9 m c (Proc.devRef .tc main_arg4) = m ((c : Thread nD τ).loc main_arg4) :=
  calc W9 m c (Proc.devRef .tc main_arg4)
    _ = W8 m c (Proc.devRef .tc main_arg4) := StableHlo.after_of_writes_sub hostOps4 _ hostOps4_writes (by decide)
    _ = W7 m c (Proc.devRef .tc main_arg4) := W8_of_ne m c main_arg4 (by decide)
    _ = W6 m c (Proc.devRef .tc main_arg4) := StableHlo.after_of_writes_sub hostOps3 _ hostOps3_writes (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_in m c 4 rfl
    _ = W0 m c (Proc.devRef .tc main_arg4) := StableHlo.after_of_writes_sub hostOps0 _ hostOps0_writes (by decide)
    _ = m ((c : Thread nD τ).loc main_arg4) := rfl

theorem W9_main_arg5 (c : Dev nD) : W9 m c (Proc.devRef .tc main_arg5) = m ((c : Thread nD τ).loc main_arg5) :=
  calc W9 m c (Proc.devRef .tc main_arg5)
    _ = W8 m c (Proc.devRef .tc main_arg5) := StableHlo.after_of_writes_sub hostOps4 _ hostOps4_writes (by decide)
    _ = W7 m c (Proc.devRef .tc main_arg5) := W8_of_ne m c main_arg5 (by decide)
    _ = W6 m c (Proc.devRef .tc main_arg5) := StableHlo.after_of_writes_sub hostOps3 _ hostOps3_writes (by decide)
    _ = W5 m c (Proc.devRef .tc main_arg5) := W6_in m c 2 rfl
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W9_main_arg6 (c : Dev nD) : W9 m c (Proc.devRef .tc main_arg6) = m ((c : Thread nD τ).loc main_arg6) :=
  calc W9 m c (Proc.devRef .tc main_arg6)
    _ = W8 m c (Proc.devRef .tc main_arg6) := StableHlo.after_of_writes_sub hostOps4 _ hostOps4_writes (by decide)
    _ = W7 m c (Proc.devRef .tc main_arg6) := W8_of_ne m c main_arg6 (by decide)
    _ = W6 m c (Proc.devRef .tc main_arg6) := StableHlo.after_of_writes_sub hostOps3 _ hostOps3_writes (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W9_main_arg7 (c : Dev nD) : W9 m c (Proc.devRef .tc main_arg7) = m ((c : Thread nD τ).loc main_arg7) :=
  calc W9 m c (Proc.devRef .tc main_arg7)
    _ = W8 m c (Proc.devRef .tc main_arg7) := StableHlo.after_of_writes_sub hostOps4 _ hostOps4_writes (by decide)
    _ = W7 m c (Proc.devRef .tc main_arg7) := W8_of_ne m c main_arg7 (by decide)
    _ = W6 m c (Proc.devRef .tc main_arg7) := StableHlo.after_of_writes_sub hostOps3 _ hostOps3_writes (by decide)
    _ = W5 m c (Proc.devRef .tc main_arg7) := W6_in m c 4 rfl
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W9_main_arg8 (c : Dev nD) : W9 m c (Proc.devRef .tc main_arg8) = m ((c : Thread nD τ).loc main_arg8) :=
  calc W9 m c (Proc.devRef .tc main_arg8)
    _ = W8 m c (Proc.devRef .tc main_arg8) := StableHlo.after_of_writes_sub hostOps4 _ hostOps4_writes (by decide)
    _ = W7 m c (Proc.devRef .tc main_arg8) := W8_of_ne m c main_arg8 (by decide)
    _ = W6 m c (Proc.devRef .tc main_arg8) := StableHlo.after_of_writes_sub hostOps3 _ hostOps3_writes (by decide)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W9_main_arg9 (c : Dev nD) : W9 m c (Proc.devRef .tc main_arg9) = m ((c : Thread nD τ).loc main_arg9) :=
  calc W9 m c (Proc.devRef .tc main_arg9)
    _ = W8 m c (Proc.devRef .tc main_arg9) := StableHlo.after_of_writes_sub hostOps4 _ hostOps4_writes (by decide)
    _ = W7 m c (Proc.devRef .tc main_arg9) := W8_of_ne m c main_arg9 (by decide)
    _ = W6 m c (Proc.devRef .tc main_arg9) := StableHlo.after_of_writes_sub hostOps3 _ hostOps3_writes (by decide)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W9_main_arg10 (c : Dev nD) : W9 m c (Proc.devRef .tc main_arg10) = m ((c : Thread nD τ).loc main_arg10) :=
  calc W9 m c (Proc.devRef .tc main_arg10)
    _ = W8 m c (Proc.devRef .tc main_arg10) := StableHlo.after_of_writes_sub hostOps4 _ hostOps4_writes (by decide)
    _ = W7 m c (Proc.devRef .tc main_arg10) := W8_of_ne m c main_arg10 (by decide)
    _ = W6 m c (Proc.devRef .tc main_arg10) := StableHlo.after_of_writes_sub hostOps3 _ hostOps3_writes (by decide)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

theorem W9_main_arg11 (c : Dev nD) : W9 m c (Proc.devRef .tc main_arg11) = m ((c : Thread nD τ).loc main_arg11) :=
  calc W9 m c (Proc.devRef .tc main_arg11)
    _ = W8 m c (Proc.devRef .tc main_arg11) := StableHlo.after_of_writes_sub hostOps4 _ hostOps4_writes (by decide)
    _ = W7 m c (Proc.devRef .tc main_arg11) := W8_of_ne m c main_arg11 (by decide)
    _ = W6 m c (Proc.devRef .tc main_arg11) := StableHlo.after_of_writes_sub hostOps3 _ hostOps3_writes (by decide)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl

/-! ## The proof data family and the thread state -/

abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`.  Its arrays are split out
    of the unscoped buffers and put back at the exit contents; the generator register goes into the invariant and comes out;
    nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split out
    of the unscoped buffers and put back at the exit contents; the generator register goes into the invariant and comes out;
    nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`.  Its arrays are split out
    of the unscoped buffers and put back at the exit contents; the generator register goes into the invariant and comes out;
    nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (U5 m c) (U6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`.  Its arrays are split out
    of the unscoped buffers and put back at the exit contents; the generator register goes into the invariant and comes out;
    nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (U7 m c) (U8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)) ]

set_option backward.isDefEq.respectTransparency.types false in
/-- Every weakly fair execution of @main terminates, nothing faulting; the final memory holds the result buffer at the fold's
    value `W9` and every argument as launched. -/
theorem run_all : θ_run defs (onTc (τ := τ) (main (F := F))) ⟨m, fun _ => 0, ρ⟩ (fun r => ∀ c : Dev nD,
      r.2.mem ((c.tc : Thread nD τ).loc main_v92) = W9 m c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) admH (pdatsH m) () cellOf_inj emb₁ defs₀ 𝒱H LH lvH m ρ main (segsH m)
    (fun c Q => by
      rewrite [main_chain c, Pipeline.Seg.run_eq_chain,
        show (segsH m).map Pipeline.Seg.prog = [ StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m c) ∗ RH c)
          ⊢ (iprop(TnH m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨h c _ (mem_ucH main_v92 (by decide)),
       (h c _ (mem_ucH main_arg0 (by decide))).trans (W9_main_arg0 m c),
       (h c _ (mem_ucH main_arg1 (by decide))).trans (W9_main_arg1 m c),
       (h c _ (mem_ucH main_arg2 (by decide))).trans (W9_main_arg2 m c),
       (h c _ (mem_ucH main_arg3 (by decide))).trans (W9_main_arg3 m c),
       (h c _ (mem_ucH main_arg4 (by decide))).trans (W9_main_arg4 m c),
       (h c _ (mem_ucH main_arg5 (by decide))).trans (W9_main_arg5 m c),
       (h c _ (mem_ucH main_arg6 (by decide))).trans (W9_main_arg6 m c),
       (h c _ (mem_ucH main_arg7 (by decide))).trans (W9_main_arg7 m c),
       (h c _ (mem_ucH main_arg8 (by decide))).trans (W9_main_arg8 m c),
       (h c _ (mem_ucH main_arg9 (by decide))).trans (W9_main_arg9 m c),
       (h c _ (mem_ucH main_arg10 (by decide))).trans (W9_main_arg10 m c),
       (h c _ (mem_ucH main_arg11 (by decide))).trans (W9_main_arg11 m c)⟩)

end Cert.KernelIdeal.Hand

end
-- ==== Proof.RefSpec.lean ====
/-
  A two-layer graph encoder with mean aggregation, as one function of its arguments.

  Every node `r` (of 100000) carries `K` features. One layer replaces them by 64 new ones:
  the mean over the incoming edges of the neighbours' features (the aggregated sum `AX` divided by
  `cm`, the in-degree or 1 when it is 0) goes through a linear map `Wl` with bias `bl`, the node's own
  features through a second linear map `Wr`; each of the 64 columns is then normalised by its own
  mean and (biased) variance over all nodes, scaled by `g`, shifted by `be`, and clipped at 0 from below.
  The network is two such layers (2 features, then 64) and at the end the maximum of each column
  over all nodes.

  The aggregation itself (summing, for every node, the rows of a feature matrix over the sources of
  its incoming edges) is a parameter: `A2` at two columns, `A64` at 64. Nothing here depends on how
  it is computed.

  Arrays are functions on the multi-indices of a literal shape, read at `ix1 j` / `ix2 r j`. The
  arithmetic is the extended reals'; the three float constants stay the words the program has
  (1e5, the float nearest 1e-5, minus infinity) and are never evaluated; the order and grouping of
  the operations are the program's.
-/
import Idealize.ShloMosaic.PureOps.Ideal
import Idealize.ShloMosaic.PureOps.Ideal.Laws
import Idealize.ShloMosaic.Lib.ValueIdx

noncomputable section

open scoped BigOperators

namespace Cert.RefSpec

open Idealize.ShloMosaic Idealize.ShloMosaic.ValueIdx

/-- An array of extended reals over a shape. -/
abbrev Arr (s : Shape) : Type := s.Idx → EReal

/-- One entry per node. -/
abbrev SN : Shape := ⟨1, ![100000]⟩
/-- `K` features per node. -/
abbrev SNK (K : Nat) : Shape := ⟨2, ![100000, K]⟩
/-- A linear map from `K` features to 64. -/
abbrev SKH (K : Nat) : Shape := ⟨2, ![K, 64]⟩
/-- One entry per output feature. -/
abbrev SH : Shape := ⟨1, ![64]⟩

/-- The number of nodes, 1e5, as the float word the column statistics are divided by. -/
abbrev cN : EReal := Ideal.ofBits .f32 0x47C35000#32
/-- The offset added to a variance before the inverse square root: the float nearest 1e-5. -/
abbrev cEps : EReal := Ideal.ofBits .f32 0x3727C5AC#32
/-- Minus infinity as a float word: where a column's maximum starts. -/
abbrev cNegInf : EReal := Ideal.ofBits .f32 0xFF800000#32

/-! ## One layer -/

section Layer

variable {K : Nat} (AX X : Arr (SNK K)) (cm : Arr SN) (Wl Wr : Arr (SKH K)) (bl g be : Arr SH)

/-- Feature `k` averaged over the incoming neighbours of node `r`. -/
def mean (r : Fin 100000) (k : Fin K) : EReal := Ideal.div (AX (ix2 r k)) (cm (ix1 r))

/-- Column `j` at node `r` before normalisation: the neighbours' mean through `Wl`, plus the bias,
    plus the node's own features through `Wr`. -/
def pre (r : Fin 100000) (j : Fin 64) : EReal :=
  ((∑ k : Fin K, mean AX cm r k * Wl (ix2 k j)) + bl (ix1 j)) + ∑ k : Fin K, X (ix2 r k) * Wr (ix2 k j)

/-- The mean of column `j` over all nodes. -/
def mu (j : Fin 64) : EReal := Ideal.div (0 + ∑ r : Fin 100000, pre AX X cm Wl Wr bl r j) cN

/-- Column `j` at node `r`, centred. -/
def dev (r : Fin 100000) (j : Fin 64) : EReal := pre AX X cm Wl Wr bl r j - mu AX X cm Wl Wr bl j

/-- The biased variance of column `j`: the mean of the squared centred entries. -/
def var (j : Fin 64) : EReal :=
  Ideal.div (0 + ∑ r : Fin 100000, dev AX X cm Wl Wr bl r j * dev AX X cm Wl Wr bl r j) cN

/-- Column `j` at node `r` after normalisation, scale, shift and the clip at 0. -/
def act (r : Fin 100000) (j : Fin 64) : EReal :=
  max (((dev AX X cm Wl Wr bl r j * Ideal.rsqrt (var AX X cm Wl Wr bl j + cEps)) * g (ix1 j)) + be (ix1 j)) 0

/-- The layer's output as an array. -/
def layer : Arr (SNK 64) := fun i => act AX X cm Wl Wr bl g be (i 0) (i 1)

theorem layer_apply (r : Fin 100000) (j : Fin 64) :
    layer AX X cm Wl Wr bl g be (ix2 r j) = act AX X cm Wl Wr bl g be r j := rfl

end Layer

/-! ## The network -/

/-- The maximum of column `j` over all nodes, starting from minus infinity. -/
def colMax (Y : Arr (SNK 64)) (j : Fin 64) : EReal :=
  (Finset.univ : Finset (Fin 100000)).fold max cNegInf fun r => Y (ix2 r j)

section Net

variable (A2 : Arr (SNK 2) → Arr (SNK 2)) (A64 : Arr (SNK 64) → Arr (SNK 64)) (cm : Arr SN)
  (x : Arr (SNK 2)) (W1l : Arr (SKH 2)) (b1l : Arr SH) (W1r : Arr (SKH 2))
  (W2l : Arr (SKH 64)) (b2l : Arr SH) (W2r : Arr (SKH 64)) (g1 be1 g2 be2 : Arr SH)

/-- The first layer's output: 64 features per node from the 2 input features. -/
def hidden : Arr (SNK 64) := layer (A2 x) x cm W1l W1r b1l g1 be1

/-- The second layer's output. -/
def top : Arr (SNK 64) :=
  layer (A64 (hidden A2 cm x W1l b1l W1r g1 be1)) (hidden A2 cm x W1l b1l W1r g1 be1) cm W2l W2r b2l g2 be2

/-- The network: the column maxima of the second layer's output. -/
def net : Arr SH := fun i => colMax (top A2 A64 cm x W1l b1l W1r W2l b2l W2r g1 be1 g2 be2) (i 0)

theorem net_apply (j : Fin 64) :
    net A2 A64 cm x W1l b1l W1r W2l b2l W2r g1 be1 g2 be2 (ix1 j)
      = colMax (top A2 A64 cm x W1l b1l W1r W2l b2l W2r g1 be1 g2 be2) j := rfl

end Net

/-- The word the column maximum starts from is minus infinity. -/
theorem cNegInf_eq : cNegInf = ⊥ := by
  simp [cNegInf, Ideal.ofBits, Ideal.ieee]

end Cert.RefSpec

end
-- ==== Proof.Ref.Agg.lean ====
/-
  The reference's graph aggregation, as functions of the edge list.

  The edge list is a 2 × 1600000 array of 32-bit words: row 0 holds the source node of every edge, row 1 its
  destination. A source word that is negative counts from the end (the number of nodes is added to it). To aggregate a
  feature matrix `X` (one row per node) the reference gathers, for every edge, the row of `X` at the edge's source, and
  adds it into an all-zero matrix at the row of the edge's destination: row `r` of the result is the sum of the rows of
  `X` over the sources of the edges arriving at `r`. Doing the same with a column of ones counts the arriving edges;
  clamped from below by one this is the number a row's sum is divided by to give the neighbours' mean.

  These three functions are carried through the rest of the proof as they stand: nothing opens them, and the stages of
  the reference that compute them are equal to them by definition.
-/
import proofs.«150514_j16690242912872_2_alg».proof.Proof.Gen.ReferenceIdeal.Read
import proofs.«150514_j16690242912872_2_alg».proof.Proof.RefSpec

noncomputable section

namespace Cert.ReferenceIdeal.RefValue

open Cert.ReferenceIdeal Cert.ReferenceIdeal.Gen Cert.ReferenceIdeal.Read Idealize.ShloMosaic
  Idealize.ShloMosaic.ValueIdx Cert.RefSpec

/-- The edge list: row 0 the sources, row 1 the destinations. -/
abbrev Edges : Type := (⟨S2x1600000, .i32⟩ : BufTy).Contents (Elt Ideal)

/-- The sources of the edges as node numbers, one column: a negative word has the number of nodes added. -/
def srcCol (ei : Edges) : (⟨S1600000x1, .i32⟩ : BufTy).Contents (Elt Ideal) :=
  broadcastInDim S1600000x1 ![0] bcast_S1600000_S1600000x1_0
    (select
      (cmpi .slt
        (shapeCast _ (extractStridedSlice S1x1600000 ![0, 0] ei slices_S2x1600000_S1x1600000_0_0) shapeCasts_S1x1600000_S1600000)
        (broadcastInDim S1600000 ![] bcast_S_S1600000 (constantI S_ 32 0#32)))
      (addi
        (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The destinations of the edges, one column. -/
def dstCol (ei : Edges) : (⟨S1600000x1, .i32⟩ : BufTy).Contents (Elt Ideal) :=
  broadcastInDim S1600000x1 ![0] bcast_S1600000_S1600000x1_0
    (shapeCast _ (extractStridedSlice S1x1600000 ![1, 0] ei slices_S2x1600000_S1x1600000_1_0) shapeCasts_S1x1600000_S1600000)

/-- Two features per node, aggregated: row `r` is the sum of the rows of `X` at the sources of the edges into `r`. -/
def refA2 (ei : Edges) (X : Arr (SNK 2)) : Arr (SNK 2) :=
  Host.scatterAdd (F := Ideal) (φ := .f32) scatter_S100000x2_S1600000x1_S1600000x2_1_0_0_1
    (broadcastInDim S100000x2 ![] bcast_S_S100000x2 (constant (F := Ideal) S_ .f32 0x00000000#32))
    (dstCol ei)
    (Host.gather gather_S100000x2_S1600000x1_S1600000x2_1_0_n_n_0_1_12 X (srcCol ei))

/-- The same at 64 features per node. -/
def refA64 (ei : Edges) (Y : Arr (SNK 64)) : Arr (SNK 64) :=
  Host.scatterAdd (F := Ideal) (φ := .f32) scatter_S100000x64_S1600000x1_S1600000x64_1_0_0_1
    (broadcastInDim S100000x64 ![] bcast_S_S100000x64 (constant (F := Ideal) S_ .f32 0x00000000#32))
    (dstCol ei)
    (Host.gather gather_S100000x64_S1600000x1_S1600000x64_1_0_n_n_0_1_164 Y (srcCol ei))

/-- The number of edges into each node, or one where there is none. -/
def refCm (ei : Edges) : Arr SN :=
  maximumf (F := Ideal) (φ := .f32)
    (Host.scatterAdd (F := Ideal) (φ := .f32) scatter_S100000_S1600000x1_S1600000_n_0_0_1
      (broadcastInDim S100000 ![] bcast_S_S100000 (constant (F := Ideal) S_ .f32 0x00000000#32))
      (dstCol ei)
      (broadcastInDim S1600000 ![] bcast_S_S1600000 (constant (F := Ideal) S_ .f32 0x3F800000#32)))
    (broadcastInDim S100000 ![] bcast_S_S100000 (constant (F := Ideal) S_ .f32 0x3F800000#32))

/-! The reference's stages are these functions, by definition. -/

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x8 x9 : (⟨S64, .f32⟩ : BufTy).Contents (Elt Ideal))

/-- The first layer's aggregated input features. -/
theorem agg1_eq : val_main_v13 (F := Ideal) x0 ei = refA2 ei x0 := rfl

/-- The first layer's divisor. -/
theorem cnt1_eq : val_main_v19 (F := Ideal) ei = refCm ei := rfl

/-- The second layer's aggregated input: the aggregation of the first layer's output. -/
theorem agg2_eq : val_main_v64 (F := Ideal) x0 ei x2 x3 x4 x8 x9 = refA64 ei (val_main_v54 (F := Ideal) x0 ei x2 x3 x4 x8 x9) := rfl

/-- The second layer's divisor is computed again, the same way. -/
theorem cnt2_eq : val_main_v70 (F := Ideal) ei = refCm ei := rfl

end Cert.ReferenceIdeal.RefValue

end
-- ==== Proof.Ref.Layer1.lean ====
/-
  The reference's first layer is the specification's layer, entry by entry.

  Each stage of the reference is read at one index: the neighbours' mean, the two small matrix products and the bias
  (the entry before normalisation), the column's sum and mean, the centred entry, the sum of its squares and the
  variance, and last the normalised, scaled, shifted and clipped entry. Broadcasts of a per-column vector down the rows
  and of the per-node divisor across the columns read their operand at the column, respectively the row, of the index.
-/
import proofs.«150514_j16690242912872_2_alg».proof.Proof.Ref.Agg

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RefSpec

namespace Layer1

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x8 x9 : (⟨S64, .f32⟩ : BufTy).Contents (Elt Ideal))

/-- The neighbours' mean of feature `k` at node `r`: the aggregated sum over the per-node divisor. -/
theorem mean_at (r : Fin 100000) (k : Fin 2) :
    val_main_v22 (F := Ideal) x0 ei (ix2 r k) = mean (refA2 ei x0) (refCm ei) r k := by
  rw [val_main_v22_apply, val_main_v21_apply, val_main_v20_apply,
    show idx_main_v20 (idx_main_v21 (ix2 r k)) = ix1 r from by funext a; match a with | ⟨0, _⟩ => rfl, agg1_eq, cnt1_eq]
  rfl

/-- The entry before normalisation. -/
theorem pre_at (r : Fin 100000) (j : Fin 64) :
    val_main_v28 (F := Ideal) x0 ei x2 x3 x4 (ix2 r j) = pre (refA2 ei x0) x0 (refCm ei) x2 x4 x3 r j := by
  have e1 : ∀ k : Fin 2, lidx_main_v23 (ix2 r j) k = ix2 r k := fun k => by funext a; match a with | ⟨0, _⟩ => rfl | ⟨1, _⟩ => rfl
  have e2 : ∀ k : Fin 2, ridx_main_v23 (ix2 r j) k = ix2 k j := fun k => by funext a; match a with | ⟨0, _⟩ => rfl | ⟨1, _⟩ => rfl
  have e3 : idx_main_v24 (idx_main_v25 (ix2 r j)) = ix1 j := by funext a; match a with | ⟨0, _⟩ => rfl
  have e4 : ∀ k : Fin 2, lidx_main_v27 (ix2 r j) k = ix2 r k := fun k => by funext a; match a with | ⟨0, _⟩ => rfl | ⟨1, _⟩ => rfl
  have e5 : ∀ k : Fin 2, ridx_main_v27 (ix2 r j) k = ix2 k j := fun k => by funext a; match a with | ⟨0, _⟩ => rfl | ⟨1, _⟩ => rfl
  rw [val_main_v28_apply, val_main_v26_apply, val_main_v23_apply, val_main_v25_apply, val_main_v24_apply, val_main_v27_apply, e3]
  simp only [e1, e2, e4, e5, mean_at, Ideal.addf_def]
  rfl

/-- The sum of a column before normalisation, from the zero word. -/
theorem sum1_at (j : Fin 64) :
    val_main_v29 (F := Ideal) x0 ei x2 x3 x4 (ix1 j) = 0 + ∑ r : Fin 100000, pre (refA2 ei x0) x0 (refCm ei) x2 x4 x3 r j := by
  rw [val_main_v29_apply, val_main_cst_4_apply, Ideal.ofBits_def, Ideal.ofBits_zero_f32]
  refine congrArg (0 + ·) (Finset.sum_congr rfl fun r _ => ?_)
  rw [show idx_main_v29 (ix1 j) r = ix2 r j from by funext a; match a with | ⟨0, _⟩ => rfl | ⟨1, _⟩ => rfl, pre_at]

/-- The column's mean. -/
theorem mu_at (j : Fin 64) :
    val_main_v31 (F := Ideal) x0 ei x2 x3 x4 (ix1 j) = mu (refA2 ei x0) x0 (refCm ei) x2 x4 x3 j := by
  rw [val_main_v31_apply, val_main_v30_apply, val_main_cst_5_apply, sum1_at]
  rfl

/-- The centred entry, as the variance reads it. -/
theorem dev_at (r : Fin 100000) (j : Fin 64) :
    val_main_v34 (F := Ideal) x0 ei x2 x3 x4 (ix2 r j) = dev (refA2 ei x0) x0 (refCm ei) x2 x4 x3 r j := by
  rw [val_main_v34_apply, val_main_v33_apply, val_main_v32_apply,
    show idx_main_v32 (idx_main_v33 (ix2 r j)) = ix1 j from by funext a; match a with | ⟨0, _⟩ => rfl, pre_at, mu_at]
  rfl

/-- The sum of a column's squared centred entries, from the zero word. -/
theorem sum2_at (j : Fin 64) :
    val_main_v36 (F := Ideal) x0 ei x2 x3 x4 (ix1 j) = 0 + ∑ r : Fin 100000, dev (refA2 ei x0) x0 (refCm ei) x2 x4 x3 r j * dev (refA2 ei x0) x0 (refCm ei) x2 x4 x3 r j := by
  rw [val_main_v36_apply, val_main_cst_6_apply, Ideal.ofBits_def, Ideal.ofBits_zero_f32]
  refine congrArg (0 + ·) (Finset.sum_congr rfl fun r _ => ?_)
  rw [show idx_main_v36 (ix1 j) r = ix2 r j from by funext a; match a with | ⟨0, _⟩ => rfl | ⟨1, _⟩ => rfl, val_main_v35_apply, dev_at]
  rfl

/-- The column's variance. -/
theorem var_at (j : Fin 64) :
    val_main_v38 (F := Ideal) x0 ei x2 x3 x4 (ix1 j) = var (refA2 ei x0) x0 (refCm ei) x2 x4 x3 j := by
  rw [val_main_v38_apply, val_main_v37_apply, val_main_cst_7_apply, sum2_at]
  rfl

/-- The centred entry, as the normalisation reads it (the reference subtracts the mean a second time). -/
theorem dev2_at (r : Fin 100000) (j : Fin 64) :
    val_main_v41 (F := Ideal) x0 ei x2 x3 x4 (ix2 r j) = dev (refA2 ei x0) x0 (refCm ei) x2 x4 x3 r j := by
  rw [val_main_v41_apply, val_main_v40_apply, val_main_v39_apply,
    show idx_main_v39 (idx_main_v40 (ix2 r j)) = ix1 j from by funext a; match a with | ⟨0, _⟩ => rfl, pre_at, mu_at]
  rfl

/-- The layer's output entry. -/
theorem act_at (r : Fin 100000) (j : Fin 64) :
    val_main_v54 (F := Ideal) x0 ei x2 x3 x4 x8 x9 (ix2 r j) = act (refA2 ei x0) x0 (refCm ei) x2 x4 x3 x8 x9 r j := by
  rw [val_main_v54_apply, val_main_v53_apply, val_main_v50_apply, val_main_v47_apply, dev2_at,
    val_main_v46_apply, val_main_v45_apply, show idx_main_v45 (idx_main_v46 (ix2 r j)) = ix1 j from by funext a; match a with | ⟨0, _⟩ => rfl,
    val_main_v44_apply, val_main_v43_apply, var_at, val_main_v42_apply, val_main_cst_8_apply,
    val_main_v49_apply, val_main_v48_apply, show idx_main_v48 (idx_main_v49 (ix2 r j)) = ix1 j from by funext a; match a with | ⟨0, _⟩ => rfl,
    val_main_v52_apply, val_main_v51_apply, show idx_main_v51 (idx_main_v52 (ix2 r j)) = ix1 j from by funext a; match a with | ⟨0, _⟩ => rfl,
    val_main_call0_v0_apply, val_main_call0_cst_apply]
  simp only [Ideal.ofBits_def, Ideal.ofBits_zero_f32]
  rfl

end Layer1

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x8 x9 : (⟨S64, .f32⟩ : BufTy).Contents (Elt Ideal))

/-- The reference's first layer is the specification's. -/
theorem layer1_eq :
    val_main_v54 (F := Ideal) x0 ei x2 x3 x4 x8 x9 = layer (refA2 ei x0) x0 (refCm ei) x2 x4 x3 x8 x9 := by
  funext i
  obtain ⟨r, j, rfl⟩ : ∃ (r : Fin 100000) (j : Fin 64), i = ix2 r j := ⟨i 0, i 1, eq_ix2 i⟩
  exact Layer1.act_at x0 ei x2 x3 x4 x8 x9 r j

end Cert.ReferenceIdeal.RefValue

end
-- ==== Proof.Ref.Layer2.lean ====
/-
  The reference's second layer is the specification's layer, entry by entry, applied to the first layer's output.

  The stages are those of the first layer with 64 input features instead of 2: the input is the first layer's output,
  its aggregation the 64-column one, and the divisor the same per-node count, computed a second time by the reference.
-/
import proofs.«150514_j16690242912872_2_alg».proof.Proof.Ref.Agg

noncomputable section

open scoped BigOperators

namespace Cert.ReferenceIdeal.RefValue

open Cert.ReferenceIdeal Cert.ReferenceIdeal.Gen Cert.ReferenceIdeal.Read Idealize.ShloMosaic
  Idealize.ShloMosaic.ValueIdx Cert.RefSpec

namespace Layer2

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 x9 x10 x11 : (⟨S64, .f32⟩ : BufTy).Contents (Elt Ideal))

/-- The neighbours' mean of feature `k` at node `r`: the aggregated sum over the per-node divisor. -/
theorem mean_at (r : Fin 100000) (k : Fin 64) :
    val_main_v73 (F := Ideal) x0 ei x2 x3 x4 x8 x9 (ix2 r k) = mean (refA64 ei (val_main_v54 (F := Ideal) x0 ei x2 x3 x4 x8 x9)) (refCm ei) r k := by
  rw [val_main_v73_apply, val_main_v72_apply, val_main_v71_apply,
    show idx_main_v71 (idx_main_v72 (ix2 r k)) = ix1 r from by funext a; match a with | ⟨0, _⟩ => rfl, agg2_eq, cnt2_eq]
  rfl

/-- The entry before normalisation. -/
theorem pre_at (r : Fin 100000) (j : Fin 64) :
    val_main_v79 (F := Ideal) x0 ei x2 x3 x4 x5 x6 x7 x8 x9 (ix2 r j) = pre (refA64 ei (val_main_v54 (F := Ideal) x0 ei x2 x3 x4 x8 x9)) (val_main_v54 (F := Ideal) x0 ei x2 x3 x4 x8 x9) (refCm ei) x5 x7 x6 r j := by
  have e1 : ∀ k : Fin 64, lidx_main_v74 (ix2 r j) k = ix2 r k := fun k => by funext a; match a with | ⟨0, _⟩ => rfl | ⟨1, _⟩ => rfl
  have e2 : ∀ k : Fin 64, ridx_main_v74 (ix2 r j) k = ix2 k j := fun k => by funext a; match a with | ⟨0, _⟩ => rfl | ⟨1, _⟩ => rfl
  have e3 : idx_main_v75 (idx_main_v76 (ix2 r j)) = ix1 j := by funext a; match a with | ⟨0, _⟩ => rfl
  have e4 : ∀ k : Fin 64, lidx_main_v78 (ix2 r j) k = ix2 r k := fun k => by funext a; match a with | ⟨0, _⟩ => rfl | ⟨1, _⟩ => rfl
  have e5 : ∀ k : Fin 64, ridx_main_v78 (ix2 r j) k = ix2 k j := fun k => by funext a; match a with | ⟨0, _⟩ => rfl | ⟨1, _⟩ => rfl
  rw [val_main_v79_apply, val_main_v77_apply, val_main_v74_apply, val_main_v76_apply, val_main_v75_apply, val_main_v78_apply, e3]
  simp only [e1, e2, e4, e5, mean_at, Ideal.addf_def]
  rfl

/-- The sum of a column before normalisation, from the zero word. -/
theorem sum1_at (j : Fin 64) :
    val_main_v80 (F := Ideal) x0 ei x2 x3 x4 x5 x6 x7 x8 x9 (ix1 j) = 0 + ∑ r : Fin 100000, pre (refA64 ei (val_main_v54 (F := Ideal) x0 ei x2 x3 x4 x8 x9)) (val_main_v54 (F := Ideal) x0 ei x2 x3 x4 x8 x9) (refCm ei) x5 x7 x6 r j := by
  rw [val_main_v80_apply, val_main_cst_15_apply, Ideal.ofBits_def, Ideal.ofBits_zero_f32]
  refine congrArg (0 + ·) (Finset.sum_congr rfl fun r _ => ?_)
  rw [show idx_main_v80 (ix1 j) r = ix2 r j from by funext a; match a with | ⟨0, _⟩ => rfl | ⟨1, _⟩ => rfl, pre_at]

/-- The column's mean. -/
theorem mu_at (j : Fin 64) :
    val_main_v82 (F := Ideal) x0 ei x2 x3 x4 x5 x6 x7 x8 x9 (ix1 j) = mu (refA64 ei (val_main_v54 (F := Ideal) x0 ei x2 x3 x4 x8 x9)) (val_main_v54 (F := Ideal) x0 ei x2 x3 x4 x8 x9) (refCm ei) x5 x7 x6 j := by
  rw [val_main_v82_apply, val_main_v81_apply, val_main_cst_16_apply, sum1_at]
  rfl

/-- The centred entry, as the variance reads it. -/
theorem dev_at (r : Fin 100000) (j : Fin 64) :
    val_main_v85 (F := Ideal) x0 ei x2 x3 x4 x5 x6 x7 x8 x9 (ix2 r j) = dev (refA64 ei (val_main_v54 (F := Ideal) x0 ei x2 x3 x4 x8 x9)) (val_main_v54 (F := Ideal) x0 ei x2 x3 x4 x8 x9) (refCm ei) x5 x7 x6 r j := by
  rw [val_main_v85_apply, val_main_v84_apply, val_main_v83_apply,
    show idx_main_v83 (idx_main_v84 (ix2 r j)) = ix1 j from by funext a; match a with | ⟨0, _⟩ => rfl, pre_at, mu_at]
  rfl

/-- The sum of a column's squared centred entries, from the zero word. -/
theorem sum2_at (j : Fin 64) :
    val_main_v87 (F := Ideal) x0 ei x2 x3 x4 x5 x6 x7 x8 x9 (ix1 j) = 0 + ∑ r : Fin 100000, dev (refA64 ei (val_main_v54 (F := Ideal) x0 ei x2 x3 x4 x8 x9)) (val_main_v54 (F := Ideal) x0 ei x2 x3 x4 x8 x9) (refCm ei) x5 x7 x6 r j * dev (refA64 ei (val_main_v54 (F := Ideal) x0 ei x2 x3 x4 x8 x9)) (val_main_v54 (F := Ideal) x0 ei x2 x3 x4 x8 x9) (refCm ei) x5 x7 x6 r j := by
  rw [val_main_v87_apply, val_main_cst_17_apply, Ideal.ofBits_def, Ideal.ofBits_zero_f32]
  refine congrArg (0 + ·) (Finset.sum_congr rfl fun r _ => ?_)
  rw [show idx_main_v87 (ix1 j) r = ix2 r j from by funext a; match a with | ⟨0, _⟩ => rfl | ⟨1, _⟩ => rfl, val_main_v86_apply, dev_at]
  rfl

/-- The column's variance. -/
theorem var_at (j : Fin 64) :
    val_main_v89 (F := Ideal) x0 ei x2 x3 x4 x5 x6 x7 x8 x9 (ix1 j) = var (refA64 ei (val_main_v54 (F := Ideal) x0 ei x2 x3 x4 x8 x9)) (val_main_v54 (F := Ideal) x0 ei x2 x3 x4 x8 x9) (refCm ei) x5 x7 x6 j := by
  rw [val_main_v89_apply, val_main_v88_apply, val_main_cst_18_apply, sum2_at]
  rfl

/-- The centred entry, as the normalisation reads it (the reference subtracts the mean a second time). -/
theorem dev2_at (r : Fin 100000) (j : Fin 64) :
    val_main_v92 (F := Ideal) x0 ei x2 x3 x4 x5 x6 x7 x8 x9 (ix2 r j) = dev (refA64 ei (val_main_v54 (F := Ideal) x0 ei x2 x3 x4 x8 x9)) (val_main_v54 (F := Ideal) x0 ei x2 x3 x4 x8 x9) (refCm ei) x5 x7 x6 r j := by
  rw [val_main_v92_apply, val_main_v91_apply, val_main_v90_apply,
    show idx_main_v90 (idx_main_v91 (ix2 r j)) = ix1 j from by funext a; match a with | ⟨0, _⟩ => rfl, pre_at, mu_at]
  rfl

/-- The layer's output entry. -/
theorem act_at (r : Fin 100000) (j : Fin 64) :
    val_main_v105 (F := Ideal) x0 ei x2 x3 x4 x5 x6 x7 x8 x9 x10 x11 (ix2 r j) = act (refA64 ei (val_main_v54 (F := Ideal) x0 ei x2 x3 x4 x8 x9)) (val_main_v54 (F := Ideal) x0 ei x2 x3 x4 x8 x9) (refCm ei) x5 x7 x6 x10 x11 r j := by
  rw [val_main_v105_apply, val_main_v104_apply, val_main_v101_apply, val_main_v98_apply, dev2_at,
    val_main_v97_apply, val_main_v96_apply, show idx_main_v96 (idx_main_v97 (ix2 r j)) = ix1 j from by funext a; match a with | ⟨0, _⟩ => rfl,
    val_main_v95_apply, val_main_v94_apply, var_at, val_main_v93_apply, val_main_cst_19_apply,
    val_main_v100_apply, val_main_v99_apply, show idx_main_v99 (idx_main_v100 (ix2 r j)) = ix1 j from by funext a; match a with | ⟨0, _⟩ => rfl,
    val_main_v103_apply, val_main_v102_apply, show idx_main_v102 (idx_main_v103 (ix2 r j)) = ix1 j from by funext a; match a with | ⟨0, _⟩ => rfl,
    val_main_call1_v0_apply, val_main_call1_cst_apply]
  simp only [Ideal.ofBits_def, Ideal.ofBits_zero_f32]
  rfl

end Layer2

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 x9 x10 x11 : (⟨S64, .f32⟩ : BufTy).Contents (Elt Ideal))

/-- The reference's second layer is the specification's. -/
theorem layer2_eq :
    val_main_v105 (F := Ideal) x0 ei x2 x3 x4 x5 x6 x7 x8 x9 x10 x11 = layer (refA64 ei (val_main_v54 (F := Ideal) x0 ei x2 x3 x4 x8 x9)) (val_main_v54 (F := Ideal) x0 ei x2 x3 x4 x8 x9) (refCm ei) x5 x7 x6 x10 x11 := by
  funext i
  obtain ⟨r, j, rfl⟩ : ∃ (r : Fin 100000) (j : Fin 64), i = ix2 r j := ⟨i 0, i 1, eq_ix2 i⟩
  exact Layer2.act_at x0 ei x2 x3 x4 x5 x6 x7 x8 x9 x10 x11 r j

end Cert.ReferenceIdeal.RefValue

end
-- ==== Proof.Ref.Result.lean ====
/-
  The reference's result is the specification's network at the reference's own aggregation.

  The last operation takes, for every column, the maximum over the rows from minus infinity; a maximum is commutative
  and associative, so the host's fold in row-major order is the fold over the row coordinate. Below it the second
  layer's output is the specification's layer applied to the first layer's output, which is the specification's layer
  applied to the input features.
-/
import proofs.«150514_j16690242912872_2_alg».proof.Proof.Ref.Layer1
import proofs.«150514_j16690242912872_2_alg».proof.Proof.Ref.Layer2

noncomputable section

open scoped BigOperators

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.StableHlo Idealize.ShloMosaic.ValueIdx Cert.RefSpec

/-- The host's maximum over the rows, read at column `j`: the fold of `max` over the row coordinate, from the word
    for minus infinity. -/
theorem colMax_eq (Y : Arr (SNK 64)) (j : Fin 64) :
    Host.reduce (FloatOps.maximumf (F := Ideal) (φ := .f32)) Y (val_main_cst_20 (F := Ideal))
      reducesTo_S100000x64_S64_d0 h_S_ (ix1 j) = colMax Y j := by
  rw [Host.reduce_eq_fold_single (FloatOps.maximumf (F := Ideal) (φ := .f32)) Y _ reducesTo_S100000x64_S64_d0
    (by decide) h_S_]
  exact Finset.fold_congr fun r _ => congrArg Y (funext fun a => by match a with | ⟨0, _⟩ => rfl | ⟨1, _⟩ => rfl)

variable (x0 : (⟨S100000x2, .f32⟩ : BufTy).Contents (Elt Ideal)) (ei : Edges)
  (x2 : (⟨S2x64, .f32⟩ : BufTy).Contents (Elt Ideal)) (x3 : (⟨S64, .f32⟩ : BufTy).Contents (Elt Ideal))
  (x4 : (⟨S2x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 x9 x10 x11 : (⟨S64, .f32⟩ : BufTy).Contents (Elt Ideal))

/-- The second layer's output, as a function of the arguments. -/
theorem top_eq :
    val_main_v105 (F := Ideal) x0 ei x2 x3 x4 x5 x6 x7 x8 x9 x10 x11
      = top (refA2 ei) (refA64 ei) (refCm ei) x0 x2 x3 x4 x5 x6 x7 x8 x9 x10 x11 := by
  rw [layer2_eq, layer1_eq]
  rfl

/-- The reference's last stage, as a function of the arguments. -/
theorem net_eq :
    val_main_v106 (F := Ideal) x0 ei x2 x3 x4 x5 x6 x7 x8 x9 x10 x11
      = net (refA2 ei) (refA64 ei) (refCm ei) x0 x2 x3 x4 x5 x6 x7 x8 x9 x10 x11 := by
  funext i
  obtain ⟨j, rfl⟩ : ∃ j : Fin 64, i = ix1 j := ⟨i 0, eq_ix1 i⟩
  rw [net_apply, ← top_eq]
  exact colMax_eq _ j

/-- THE REFERENCE'S RESULT: after any execution the result array is the network of the specification, at the
    aggregation, the divisor and the arguments the reference's memory holds. -/
theorem result_eq (m : (ℓ : Loc nD τ sig) → Buf (Elt Ideal) ℓ) (c : Dev nD) :
    Cert.ReferenceIdeal.Value.res_out0 (F := Ideal) m c
      = net (refA2 (m ((c.tc : Thread nD τ).loc main_arg1))) (refA64 (m ((c.tc : Thread nD τ).loc main_arg1)))
          (refCm (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) :=
  (val_main_v106_eq m c).trans (net_eq _ _ _ _ _ _ _ _ _ _ _ _)

end Cert.ReferenceIdeal.RefValue

end
-- ==== Proof.KI.Pass.lean ====
/-
  What passes through.  No stretch of host operations writes an argument and no region changes one (a region reads an argument
  only through an input window), so every argument's buffer holds its launch contents at every boundary of the fold; likewise the
  source and destination index columns and the reciprocal in-degrees, computed by the first stretch and read again by the third,
  are unchanged by what lies between.
-/
import proofs.«150514_j16690242912872_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  (StableHlo.after_of_writes_sub hostOps0 _ hostOps0_writes (by decide) : W1 m c (Proc.devRef .tc main_arg0) = W0 m c (Proc.devRef .tc main_arg0)).trans (W0_main_arg0 m c)
theorem W2_main_arg0 (c : Dev nD) : W2 m c (Proc.devRef .tc main_arg0) = m ((c : Thread nD τ).loc main_arg0) :=
  (W2_in m c 1 rfl : W2 m c (Proc.devRef .tc main_arg0) = W1 m c (Proc.devRef .tc main_arg0)).trans (W1_main_arg0 m c)
theorem W3_main_arg0 (c : Dev nD) : W3 m c (Proc.devRef .tc main_arg0) = m ((c : Thread nD τ).loc main_arg0) :=
  (StableHlo.after_of_writes_sub hostOps1 _ hostOps1_writes (by decide) : W3 m c (Proc.devRef .tc main_arg0) = W2 m c (Proc.devRef .tc main_arg0)).trans (W2_main_arg0 m c)
theorem W4_main_arg0 (c : Dev nD) : W4 m c (Proc.devRef .tc main_arg0) = m ((c : Thread nD τ).loc main_arg0) :=
  (W4_of_ne m c main_arg0 (by decide) : W4 m c (Proc.devRef .tc main_arg0) = W3 m c (Proc.devRef .tc main_arg0)).trans (W3_main_arg0 m c)
theorem W5_main_arg0 (c : Dev nD) : W5 m c (Proc.devRef .tc main_arg0) = m ((c : Thread nD τ).loc main_arg0) :=
  (StableHlo.after_of_writes_sub hostOps2 _ hostOps2_writes (by decide) : W5 m c (Proc.devRef .tc main_arg0) = W4 m c (Proc.devRef .tc main_arg0)).trans (W4_main_arg0 m c)
theorem W6_main_arg0 (c : Dev nD) : W6 m c (Proc.devRef .tc main_arg0) = m ((c : Thread nD τ).loc main_arg0) :=
  (W6_of_ne m c main_arg0 (by decide) : W6 m c (Proc.devRef .tc main_arg0) = W5 m c (Proc.devRef .tc main_arg0)).trans (W5_main_arg0 m c)
theorem W7_main_arg0 (c : Dev nD) : W7 m c (Proc.devRef .tc main_arg0) = m ((c : Thread nD τ).loc main_arg0) :=
  (StableHlo.after_of_writes_sub hostOps3 _ hostOps3_writes (by decide) : W7 m c (Proc.devRef .tc main_arg0) = W6 m c (Proc.devRef .tc main_arg0)).trans (W6_main_arg0 m c)
theorem W8_main_arg0 (c : Dev nD) : W8 m c (Proc.devRef .tc main_arg0) = m ((c : Thread nD τ).loc main_arg0) :=
  (W8_of_ne m c main_arg0 (by decide) : W8 m c (Proc.devRef .tc main_arg0) = W7 m c (Proc.devRef .tc main_arg0)).trans (W7_main_arg0 m c)
theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  (StableHlo.after_of_writes_sub hostOps0 _ hostOps0_writes (by decide) : W1 m c (Proc.devRef .tc main_arg1) = W0 m c (Proc.devRef .tc main_arg1)).trans (W0_main_arg1 m c)
theorem W2_main_arg1 (c : Dev nD) : W2 m c (Proc.devRef .tc main_arg1) = m ((c : Thread nD τ).loc main_arg1) :=
  (W2_of_ne m c main_arg1 (by decide) : W2 m c (Proc.devRef .tc main_arg1) = W1 m c (Proc.devRef .tc main_arg1)).trans (W1_main_arg1 m c)
theorem W3_main_arg1 (c : Dev nD) : W3 m c (Proc.devRef .tc main_arg1) = m ((c : Thread nD τ).loc main_arg1) :=
  (StableHlo.after_of_writes_sub hostOps1 _ hostOps1_writes (by decide) : W3 m c (Proc.devRef .tc main_arg1) = W2 m c (Proc.devRef .tc main_arg1)).trans (W2_main_arg1 m c)
theorem W4_main_arg1 (c : Dev nD) : W4 m c (Proc.devRef .tc main_arg1) = m ((c : Thread nD τ).loc main_arg1) :=
  (W4_of_ne m c main_arg1 (by decide) : W4 m c (Proc.devRef .tc main_arg1) = W3 m c (Proc.devRef .tc main_arg1)).trans (W3_main_arg1 m c)
theorem W5_main_arg1 (c : Dev nD) : W5 m c (Proc.devRef .tc main_arg1) = m ((c : Thread nD τ).loc main_arg1) :=
  (StableHlo.after_of_writes_sub hostOps2 _ hostOps2_writes (by decide) : W5 m c (Proc.devRef .tc main_arg1) = W4 m c (Proc.devRef .tc main_arg1)).trans (W4_main_arg1 m c)
theorem W6_main_arg1 (c : Dev nD) : W6 m c (Proc.devRef .tc main_arg1) = m ((c : Thread nD τ).loc main_arg1) :=
  (W6_of_ne m c main_arg1 (by decide) : W6 m c (Proc.devRef .tc main_arg1) = W5 m c (Proc.devRef .tc main_arg1)).trans (W5_main_arg1 m c)
theorem W7_main_arg1 (c : Dev nD) : W7 m c (Proc.devRef .tc main_arg1) = m ((c : Thread nD τ).loc main_arg1) :=
  (StableHlo.after_of_writes_sub hostOps3 _ hostOps3_writes (by decide) : W7 m c (Proc.devRef .tc main_arg1) = W6 m c (Proc.devRef .tc main_arg1)).trans (W6_main_arg1 m c)
theorem W8_main_arg1 (c : Dev nD) : W8 m c (Proc.devRef .tc main_arg1) = m ((c : Thread nD τ).loc main_arg1) :=
  (W8_of_ne m c main_arg1 (by decide) : W8 m c (Proc.devRef .tc main_arg1) = W7 m c (Proc.devRef .tc main_arg1)).trans (W7_main_arg1 m c)
theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  (StableHlo.after_of_writes_sub hostOps0 _ hostOps0_writes (by decide) : W1 m c (Proc.devRef .tc main_arg2) = W0 m c (Proc.devRef .tc main_arg2)).trans (W0_main_arg2 m c)
theorem W2_main_arg2 (c : Dev nD) : W2 m c (Proc.devRef .tc main_arg2) = m ((c : Thread nD τ).loc main_arg2) :=
  (W2_in m c 2 rfl : W2 m c (Proc.devRef .tc main_arg2) = W1 m c (Proc.devRef .tc main_arg2)).trans (W1_main_arg2 m c)
theorem W3_main_arg2 (c : Dev nD) : W3 m c (Proc.devRef .tc main_arg2) = m ((c : Thread nD τ).loc main_arg2) :=
  (StableHlo.after_of_writes_sub hostOps1 _ hostOps1_writes (by decide) : W3 m c (Proc.devRef .tc main_arg2) = W2 m c (Proc.devRef .tc main_arg2)).trans (W2_main_arg2 m c)
theorem W4_main_arg2 (c : Dev nD) : W4 m c (Proc.devRef .tc main_arg2) = m ((c : Thread nD τ).loc main_arg2) :=
  (W4_of_ne m c main_arg2 (by decide) : W4 m c (Proc.devRef .tc main_arg2) = W3 m c (Proc.devRef .tc main_arg2)).trans (W3_main_arg2 m c)
theorem W5_main_arg2 (c : Dev nD) : W5 m c (Proc.devRef .tc main_arg2) = m ((c : Thread nD τ).loc main_arg2) :=
  (StableHlo.after_of_writes_sub hostOps2 _ hostOps2_writes (by decide) : W5 m c (Proc.devRef .tc main_arg2) = W4 m c (Proc.devRef .tc main_arg2)).trans (W4_main_arg2 m c)
theorem W6_main_arg2 (c : Dev nD) : W6 m c (Proc.devRef .tc main_arg2) = m ((c : Thread nD τ).loc main_arg2) :=
  (W6_of_ne m c main_arg2 (by decide) : W6 m c (Proc.devRef .tc main_arg2) = W5 m c (Proc.devRef .tc main_arg2)).trans (W5_main_arg2 m c)
theorem W7_main_arg2 (c : Dev nD) : W7 m c (Proc.devRef .tc main_arg2) = m ((c : Thread nD τ).loc main_arg2) :=
  (StableHlo.after_of_writes_sub hostOps3 _ hostOps3_writes (by decide) : W7 m c (Proc.devRef .tc main_arg2) = W6 m c (Proc.devRef .tc main_arg2)).trans (W6_main_arg2 m c)
theorem W8_main_arg2 (c : Dev nD) : W8 m c (Proc.devRef .tc main_arg2) = m ((c : Thread nD τ).loc main_arg2) :=
  (W8_of_ne m c main_arg2 (by decide) : W8 m c (Proc.devRef .tc main_arg2) = W7 m c (Proc.devRef .tc main_arg2)).trans (W7_main_arg2 m c)
theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  (StableHlo.after_of_writes_sub hostOps0 _ hostOps0_writes (by decide) : W1 m c (Proc.devRef .tc main_arg3) = W0 m c (Proc.devRef .tc main_arg3)).trans (W0_main_arg3 m c)
theorem W2_main_arg3 (c : Dev nD) : W2 m c (Proc.devRef .tc main_arg3) = m ((c : Thread nD τ).loc main_arg3) :=
  (W2_of_ne m c main_arg3 (by decide) : W2 m c (Proc.devRef .tc main_arg3) = W1 m c (Proc.devRef .tc main_arg3)).trans (W1_main_arg3 m c)
theorem W3_main_arg3 (c : Dev nD) : W3 m c (Proc.devRef .tc main_arg3) = m ((c : Thread nD τ).loc main_arg3) :=
  (StableHlo.after_of_writes_sub hostOps1 _ hostOps1_writes (by decide) : W3 m c (Proc.devRef .tc main_arg3) = W2 m c (Proc.devRef .tc main_arg3)).trans (W2_main_arg3 m c)
theorem W4_main_arg3 (c : Dev nD) : W4 m c (Proc.devRef .tc main_arg3) = m ((c : Thread nD τ).loc main_arg3) :=
  (W4_of_ne m c main_arg3 (by decide) : W4 m c (Proc.devRef .tc main_arg3) = W3 m c (Proc.devRef .tc main_arg3)).trans (W3_main_arg3 m c)
theorem W5_main_arg3 (c : Dev nD) : W5 m c (Proc.devRef .tc main_arg3) = m ((c : Thread nD τ).loc main_arg3) :=
  (StableHlo.after_of_writes_sub hostOps2 _ hostOps2_writes (by decide) : W5 m c (Proc.devRef .tc main_arg3) = W4 m c (Proc.devRef .tc main_arg3)).trans (W4_main_arg3 m c)
theorem W6_main_arg3 (c : Dev nD) : W6 m c (Proc.devRef .tc main_arg3) = m ((c : Thread nD τ).loc main_arg3) :=
  (W6_of_ne m c main_arg3 (by decide) : W6 m c (Proc.devRef .tc main_arg3) = W5 m c (Proc.devRef .tc main_arg3)).trans (W5_main_arg3 m c)
theorem W7_main_arg3 (c : Dev nD) : W7 m c (Proc.devRef .tc main_arg3) = m ((c : Thread nD τ).loc main_arg3) :=
  (StableHlo.after_of_writes_sub hostOps3 _ hostOps3_writes (by decide) : W7 m c (Proc.devRef .tc main_arg3) = W6 m c (Proc.devRef .tc main_arg3)).trans (W6_main_arg3 m c)
theorem W8_main_arg3 (c : Dev nD) : W8 m c (Proc.devRef .tc main_arg3) = m ((c : Thread nD τ).loc main_arg3) :=
  (W8_of_ne m c main_arg3 (by decide) : W8 m c (Proc.devRef .tc main_arg3) = W7 m c (Proc.devRef .tc main_arg3)).trans (W7_main_arg3 m c)
theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  (StableHlo.after_of_writes_sub hostOps0 _ hostOps0_writes (by decide) : W1 m c (Proc.devRef .tc main_arg4) = W0 m c (Proc.devRef .tc main_arg4)).trans (W0_main_arg4 m c)
theorem W2_main_arg4 (c : Dev nD) : W2 m c (Proc.devRef .tc main_arg4) = m ((c : Thread nD τ).loc main_arg4) :=
  (W2_in m c 4 rfl : W2 m c (Proc.devRef .tc main_arg4) = W1 m c (Proc.devRef .tc main_arg4)).trans (W1_main_arg4 m c)
theorem W3_main_arg4 (c : Dev nD) : W3 m c (Proc.devRef .tc main_arg4) = m ((c : Thread nD τ).loc main_arg4) :=
  (StableHlo.after_of_writes_sub hostOps1 _ hostOps1_writes (by decide) : W3 m c (Proc.devRef .tc main_arg4) = W2 m c (Proc.devRef .tc main_arg4)).trans (W2_main_arg4 m c)
theorem W4_main_arg4 (c : Dev nD) : W4 m c (Proc.devRef .tc main_arg4) = m ((c : Thread nD τ).loc main_arg4) :=
  (W4_of_ne m c main_arg4 (by decide) : W4 m c (Proc.devRef .tc main_arg4) = W3 m c (Proc.devRef .tc main_arg4)).trans (W3_main_arg4 m c)
theorem W5_main_arg4 (c : Dev nD) : W5 m c (Proc.devRef .tc main_arg4) = m ((c : Thread nD τ).loc main_arg4) :=
  (StableHlo.after_of_writes_sub hostOps2 _ hostOps2_writes (by decide) : W5 m c (Proc.devRef .tc main_arg4) = W4 m c (Proc.devRef .tc main_arg4)).trans (W4_main_arg4 m c)
theorem W6_main_arg4 (c : Dev nD) : W6 m c (Proc.devRef .tc main_arg4) = m ((c : Thread nD τ).loc main_arg4) :=
  (W6_of_ne m c main_arg4 (by decide) : W6 m c (Proc.devRef .tc main_arg4) = W5 m c (Proc.devRef .tc main_arg4)).trans (W5_main_arg4 m c)
theorem W7_main_arg4 (c : Dev nD) : W7 m c (Proc.devRef .tc main_arg4) = m ((c : Thread nD τ).loc main_arg4) :=
  (StableHlo.after_of_writes_sub hostOps3 _ hostOps3_writes (by decide) : W7 m c (Proc.devRef .tc main_arg4) = W6 m c (Proc.devRef .tc main_arg4)).trans (W6_main_arg4 m c)
theorem W8_main_arg4 (c : Dev nD) : W8 m c (Proc.devRef .tc main_arg4) = m ((c : Thread nD τ).loc main_arg4) :=
  (W8_of_ne m c main_arg4 (by decide) : W8 m c (Proc.devRef .tc main_arg4) = W7 m c (Proc.devRef .tc main_arg4)).trans (W7_main_arg4 m c)
theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  (StableHlo.after_of_writes_sub hostOps0 _ hostOps0_writes (by decide) : W1 m c (Proc.devRef .tc main_arg5) = W0 m c (Proc.devRef .tc main_arg5)).trans (W0_main_arg5 m c)
theorem W2_main_arg5 (c : Dev nD) : W2 m c (Proc.devRef .tc main_arg5) = m ((c : Thread nD τ).loc main_arg5) :=
  (W2_of_ne m c main_arg5 (by decide) : W2 m c (Proc.devRef .tc main_arg5) = W1 m c (Proc.devRef .tc main_arg5)).trans (W1_main_arg5 m c)
theorem W3_main_arg5 (c : Dev nD) : W3 m c (Proc.devRef .tc main_arg5) = m ((c : Thread nD τ).loc main_arg5) :=
  (StableHlo.after_of_writes_sub hostOps1 _ hostOps1_writes (by decide) : W3 m c (Proc.devRef .tc main_arg5) = W2 m c (Proc.devRef .tc main_arg5)).trans (W2_main_arg5 m c)
theorem W4_main_arg5 (c : Dev nD) : W4 m c (Proc.devRef .tc main_arg5) = m ((c : Thread nD τ).loc main_arg5) :=
  (W4_of_ne m c main_arg5 (by decide) : W4 m c (Proc.devRef .tc main_arg5) = W3 m c (Proc.devRef .tc main_arg5)).trans (W3_main_arg5 m c)
theorem W5_main_arg5 (c : Dev nD) : W5 m c (Proc.devRef .tc main_arg5) = m ((c : Thread nD τ).loc main_arg5) :=
  (StableHlo.after_of_writes_sub hostOps2 _ hostOps2_writes (by decide) : W5 m c (Proc.devRef .tc main_arg5) = W4 m c (Proc.devRef .tc main_arg5)).trans (W4_main_arg5 m c)
theorem W6_main_arg5 (c : Dev nD) : W6 m c (Proc.devRef .tc main_arg5) = m ((c : Thread nD τ).loc main_arg5) :=
  (W6_in m c 2 rfl : W6 m c (Proc.devRef .tc main_arg5) = W5 m c (Proc.devRef .tc main_arg5)).trans (W5_main_arg5 m c)
theorem W7_main_arg5 (c : Dev nD) : W7 m c (Proc.devRef .tc main_arg5) = m ((c : Thread nD τ).loc main_arg5) :=
  (StableHlo.after_of_writes_sub hostOps3 _ hostOps3_writes (by decide) : W7 m c (Proc.devRef .tc main_arg5) = W6 m c (Proc.devRef .tc main_arg5)).trans (W6_main_arg5 m c)
theorem W8_main_arg5 (c : Dev nD) : W8 m c (Proc.devRef .tc main_arg5) = m ((c : Thread nD τ).loc main_arg5) :=
  (W8_of_ne m c main_arg5 (by decide) : W8 m c (Proc.devRef .tc main_arg5) = W7 m c (Proc.devRef .tc main_arg5)).trans (W7_main_arg5 m c)
theorem W0_main_arg6 (c : Dev nD) : W0 m c (Proc.devRef .tc main_arg6) = m ((c : Thread nD τ).loc main_arg6) := rfl
theorem W1_main_arg6 (c : Dev nD) : W1 m c (Proc.devRef .tc main_arg6) = m ((c : Thread nD τ).loc main_arg6) :=
  (StableHlo.after_of_writes_sub hostOps0 _ hostOps0_writes (by decide) : W1 m c (Proc.devRef .tc main_arg6) = W0 m c (Proc.devRef .tc main_arg6)).trans (W0_main_arg6 m c)
theorem W2_main_arg6 (c : Dev nD) : W2 m c (Proc.devRef .tc main_arg6) = m ((c : Thread nD τ).loc main_arg6) :=
  (W2_of_ne m c main_arg6 (by decide) : W2 m c (Proc.devRef .tc main_arg6) = W1 m c (Proc.devRef .tc main_arg6)).trans (W1_main_arg6 m c)
theorem W3_main_arg6 (c : Dev nD) : W3 m c (Proc.devRef .tc main_arg6) = m ((c : Thread nD τ).loc main_arg6) :=
  (StableHlo.after_of_writes_sub hostOps1 _ hostOps1_writes (by decide) : W3 m c (Proc.devRef .tc main_arg6) = W2 m c (Proc.devRef .tc main_arg6)).trans (W2_main_arg6 m c)
theorem W4_main_arg6 (c : Dev nD) : W4 m c (Proc.devRef .tc main_arg6) = m ((c : Thread nD τ).loc main_arg6) :=
  (W4_of_ne m c main_arg6 (by decide) : W4 m c (Proc.devRef .tc main_arg6) = W3 m c (Proc.devRef .tc main_arg6)).trans (W3_main_arg6 m c)
theorem W5_main_arg6 (c : Dev nD) : W5 m c (Proc.devRef .tc main_arg6) = m ((c : Thread nD τ).loc main_arg6) :=
  (StableHlo.after_of_writes_sub hostOps2 _ hostOps2_writes (by decide) : W5 m c (Proc.devRef .tc main_arg6) = W4 m c (Proc.devRef .tc main_arg6)).trans (W4_main_arg6 m c)
theorem W6_main_arg6 (c : Dev nD) : W6 m c (Proc.devRef .tc main_arg6) = m ((c : Thread nD τ).loc main_arg6) :=
  (W6_of_ne m c main_arg6 (by decide) : W6 m c (Proc.devRef .tc main_arg6) = W5 m c (Proc.devRef .tc main_arg6)).trans (W5_main_arg6 m c)
theorem W7_main_arg6 (c : Dev nD) : W7 m c (Proc.devRef .tc main_arg6) = m ((c : Thread nD τ).loc main_arg6) :=
  (StableHlo.after_of_writes_sub hostOps3 _ hostOps3_writes (by decide) : W7 m c (Proc.devRef .tc main_arg6) = W6 m c (Proc.devRef .tc main_arg6)).trans (W6_main_arg6 m c)
theorem W8_main_arg6 (c : Dev nD) : W8 m c (Proc.devRef .tc main_arg6) = m ((c : Thread nD τ).loc main_arg6) :=
  (W8_of_ne m c main_arg6 (by decide) : W8 m c (Proc.devRef .tc main_arg6) = W7 m c (Proc.devRef .tc main_arg6)).trans (W7_main_arg6 m c)
theorem W0_main_arg7 (c : Dev nD) : W0 m c (Proc.devRef .tc main_arg7) = m ((c : Thread nD τ).loc main_arg7) := rfl
theorem W1_main_arg7 (c : Dev nD) : W1 m c (Proc.devRef .tc main_arg7) = m ((c : Thread nD τ).loc main_arg7) :=
  (StableHlo.after_of_writes_sub hostOps0 _ hostOps0_writes (by decide) : W1 m c (Proc.devRef .tc main_arg7) = W0 m c (Proc.devRef .tc main_arg7)).trans (W0_main_arg7 m c)
theorem W2_main_arg7 (c : Dev nD) : W2 m c (Proc.devRef .tc main_arg7) = m ((c : Thread nD τ).loc main_arg7) :=
  (W2_of_ne m c main_arg7 (by decide) : W2 m c (Proc.devRef .tc main_arg7) = W1 m c (Proc.devRef .tc main_arg7)).trans (W1_main_arg7 m c)
theorem W3_main_arg7 (c : Dev nD) : W3 m c (Proc.devRef .tc main_arg7) = m ((c : Thread nD τ).loc main_arg7) :=
  (StableHlo.after_of_writes_sub hostOps1 _ hostOps1_writes (by decide) : W3 m c (Proc.devRef .tc main_arg7) = W2 m c (Proc.devRef .tc main_arg7)).trans (W2_main_arg7 m c)
theorem W4_main_arg7 (c : Dev nD) : W4 m c (Proc.devRef .tc main_arg7) = m ((c : Thread nD τ).loc main_arg7) :=
  (W4_of_ne m c main_arg7 (by decide) : W4 m c (Proc.devRef .tc main_arg7) = W3 m c (Proc.devRef .tc main_arg7)).trans (W3_main_arg7 m c)
theorem W5_main_arg7 (c : Dev nD) : W5 m c (Proc.devRef .tc main_arg7) = m ((c : Thread nD τ).loc main_arg7) :=
  (StableHlo.after_of_writes_sub hostOps2 _ hostOps2_writes (by decide) : W5 m c (Proc.devRef .tc main_arg7) = W4 m c (Proc.devRef .tc main_arg7)).trans (W4_main_arg7 m c)
theorem W6_main_arg7 (c : Dev nD) : W6 m c (Proc.devRef .tc main_arg7) = m ((c : Thread nD τ).loc main_arg7) :=
  (W6_in m c 4 rfl : W6 m c (Proc.devRef .tc main_arg7) = W5 m c (Proc.devRef .tc main_arg7)).trans (W5_main_arg7 m c)
theorem W7_main_arg7 (c : Dev nD) : W7 m c (Proc.devRef .tc main_arg7) = m ((c : Thread nD τ).loc main_arg7) :=
  (StableHlo.after_of_writes_sub hostOps3 _ hostOps3_writes (by decide) : W7 m c (Proc.devRef .tc main_arg7) = W6 m c (Proc.devRef .tc main_arg7)).trans (W6_main_arg7 m c)
theorem W8_main_arg7 (c : Dev nD) : W8 m c (Proc.devRef .tc main_arg7) = m ((c : Thread nD τ).loc main_arg7) :=
  (W8_of_ne m c main_arg7 (by decide) : W8 m c (Proc.devRef .tc main_arg7) = W7 m c (Proc.devRef .tc main_arg7)).trans (W7_main_arg7 m c)
theorem W0_main_arg8 (c : Dev nD) : W0 m c (Proc.devRef .tc main_arg8) = m ((c : Thread nD τ).loc main_arg8) := rfl
theorem W1_main_arg8 (c : Dev nD) : W1 m c (Proc.devRef .tc main_arg8) = m ((c : Thread nD τ).loc main_arg8) :=
  (StableHlo.after_of_writes_sub hostOps0 _ hostOps0_writes (by decide) : W1 m c (Proc.devRef .tc main_arg8) = W0 m c (Proc.devRef .tc main_arg8)).trans (W0_main_arg8 m c)
theorem W2_main_arg8 (c : Dev nD) : W2 m c (Proc.devRef .tc main_arg8) = m ((c : Thread nD τ).loc main_arg8) :=
  (W2_of_ne m c main_arg8 (by decide) : W2 m c (Proc.devRef .tc main_arg8) = W1 m c (Proc.devRef .tc main_arg8)).trans (W1_main_arg8 m c)
theorem W3_main_arg8 (c : Dev nD) : W3 m c (Proc.devRef .tc main_arg8) = m ((c : Thread nD τ).loc main_arg8) :=
  (StableHlo.after_of_writes_sub hostOps1 _ hostOps1_writes (by decide) : W3 m c (Proc.devRef .tc main_arg8) = W2 m c (Proc.devRef .tc main_arg8)).trans (W2_main_arg8 m c)
theorem W4_main_arg8 (c : Dev nD) : W4 m c (Proc.devRef .tc main_arg8) = m ((c : Thread nD τ).loc main_arg8) :=
  (W4_of_ne m c main_arg8 (by decide) : W4 m c (Proc.devRef .tc main_arg8) = W3 m c (Proc.devRef .tc main_arg8)).trans (W3_main_arg8 m c)
theorem W5_main_arg8 (c : Dev nD) : W5 m c (Proc.devRef .tc main_arg8) = m ((c : Thread nD τ).loc main_arg8) :=
  (StableHlo.after_of_writes_sub hostOps2 _ hostOps2_writes (by decide) : W5 m c (Proc.devRef .tc main_arg8) = W4 m c (Proc.devRef .tc main_arg8)).trans (W4_main_arg8 m c)
theorem W6_main_arg8 (c : Dev nD) : W6 m c (Proc.devRef .tc main_arg8) = m ((c : Thread nD τ).loc main_arg8) :=
  (W6_of_ne m c main_arg8 (by decide) : W6 m c (Proc.devRef .tc main_arg8) = W5 m c (Proc.devRef .tc main_arg8)).trans (W5_main_arg8 m c)
theorem W7_main_arg8 (c : Dev nD) : W7 m c (Proc.devRef .tc main_arg8) = m ((c : Thread nD τ).loc main_arg8) :=
  (StableHlo.after_of_writes_sub hostOps3 _ hostOps3_writes (by decide) : W7 m c (Proc.devRef .tc main_arg8) = W6 m c (Proc.devRef .tc main_arg8)).trans (W6_main_arg8 m c)
theorem W8_main_arg8 (c : Dev nD) : W8 m c (Proc.devRef .tc main_arg8) = m ((c : Thread nD τ).loc main_arg8) :=
  (W8_of_ne m c main_arg8 (by decide) : W8 m c (Proc.devRef .tc main_arg8) = W7 m c (Proc.devRef .tc main_arg8)).trans (W7_main_arg8 m c)
theorem W0_main_arg9 (c : Dev nD) : W0 m c (Proc.devRef .tc main_arg9) = m ((c : Thread nD τ).loc main_arg9) := rfl
theorem W1_main_arg9 (c : Dev nD) : W1 m c (Proc.devRef .tc main_arg9) = m ((c : Thread nD τ).loc main_arg9) :=
  (StableHlo.after_of_writes_sub hostOps0 _ hostOps0_writes (by decide) : W1 m c (Proc.devRef .tc main_arg9) = W0 m c (Proc.devRef .tc main_arg9)).trans (W0_main_arg9 m c)
theorem W2_main_arg9 (c : Dev nD) : W2 m c (Proc.devRef .tc main_arg9) = m ((c : Thread nD τ).loc main_arg9) :=
  (W2_of_ne m c main_arg9 (by decide) : W2 m c (Proc.devRef .tc main_arg9) = W1 m c (Proc.devRef .tc main_arg9)).trans (W1_main_arg9 m c)
theorem W3_main_arg9 (c : Dev nD) : W3 m c (Proc.devRef .tc main_arg9) = m ((c : Thread nD τ).loc main_arg9) :=
  (StableHlo.after_of_writes_sub hostOps1 _ hostOps1_writes (by decide) : W3 m c (Proc.devRef .tc main_arg9) = W2 m c (Proc.devRef .tc main_arg9)).trans (W2_main_arg9 m c)
theorem W4_main_arg9 (c : Dev nD) : W4 m c (Proc.devRef .tc main_arg9) = m ((c : Thread nD τ).loc main_arg9) :=
  (W4_of_ne m c main_arg9 (by decide) : W4 m c (Proc.devRef .tc main_arg9) = W3 m c (Proc.devRef .tc main_arg9)).trans (W3_main_arg9 m c)
theorem W5_main_arg9 (c : Dev nD) : W5 m c (Proc.devRef .tc main_arg9) = m ((c : Thread nD τ).loc main_arg9) :=
  (StableHlo.after_of_writes_sub hostOps2 _ hostOps2_writes (by decide) : W5 m c (Proc.devRef .tc main_arg9) = W4 m c (Proc.devRef .tc main_arg9)).trans (W4_main_arg9 m c)
theorem W6_main_arg9 (c : Dev nD) : W6 m c (Proc.devRef .tc main_arg9) = m ((c : Thread nD τ).loc main_arg9) :=
  (W6_of_ne m c main_arg9 (by decide) : W6 m c (Proc.devRef .tc main_arg9) = W5 m c (Proc.devRef .tc main_arg9)).trans (W5_main_arg9 m c)
theorem W7_main_arg9 (c : Dev nD) : W7 m c (Proc.devRef .tc main_arg9) = m ((c : Thread nD τ).loc main_arg9) :=
  (StableHlo.after_of_writes_sub hostOps3 _ hostOps3_writes (by decide) : W7 m c (Proc.devRef .tc main_arg9) = W6 m c (Proc.devRef .tc main_arg9)).trans (W6_main_arg9 m c)
theorem W8_main_arg9 (c : Dev nD) : W8 m c (Proc.devRef .tc main_arg9) = m ((c : Thread nD τ).loc main_arg9) :=
  (W8_of_ne m c main_arg9 (by decide) : W8 m c (Proc.devRef .tc main_arg9) = W7 m c (Proc.devRef .tc main_arg9)).trans (W7_main_arg9 m c)
theorem W0_main_arg10 (c : Dev nD) : W0 m c (Proc.devRef .tc main_arg10) = m ((c : Thread nD τ).loc main_arg10) := rfl
theorem W1_main_arg10 (c : Dev nD) : W1 m c (Proc.devRef .tc main_arg10) = m ((c : Thread nD τ).loc main_arg10) :=
  (StableHlo.after_of_writes_sub hostOps0 _ hostOps0_writes (by decide) : W1 m c (Proc.devRef .tc main_arg10) = W0 m c (Proc.devRef .tc main_arg10)).trans (W0_main_arg10 m c)
theorem W2_main_arg10 (c : Dev nD) : W2 m c (Proc.devRef .tc main_arg10) = m ((c : Thread nD τ).loc main_arg10) :=
  (W2_of_ne m c main_arg10 (by decide) : W2 m c (Proc.devRef .tc main_arg10) = W1 m c (Proc.devRef .tc main_arg10)).trans (W1_main_arg10 m c)
theorem W3_main_arg10 (c : Dev nD) : W3 m c (Proc.devRef .tc main_arg10) = m ((c : Thread nD τ).loc main_arg10) :=
  (StableHlo.after_of_writes_sub hostOps1 _ hostOps1_writes (by decide) : W3 m c (Proc.devRef .tc main_arg10) = W2 m c (Proc.devRef .tc main_arg10)).trans (W2_main_arg10 m c)
theorem W4_main_arg10 (c : Dev nD) : W4 m c (Proc.devRef .tc main_arg10) = m ((c : Thread nD τ).loc main_arg10) :=
  (W4_of_ne m c main_arg10 (by decide) : W4 m c (Proc.devRef .tc main_arg10) = W3 m c (Proc.devRef .tc main_arg10)).trans (W3_main_arg10 m c)
theorem W5_main_arg10 (c : Dev nD) : W5 m c (Proc.devRef .tc main_arg10) = m ((c : Thread nD τ).loc main_arg10) :=
  (StableHlo.after_of_writes_sub hostOps2 _ hostOps2_writes (by decide) : W5 m c (Proc.devRef .tc main_arg10) = W4 m c (Proc.devRef .tc main_arg10)).trans (W4_main_arg10 m c)
theorem W6_main_arg10 (c : Dev nD) : W6 m c (Proc.devRef .tc main_arg10) = m ((c : Thread nD τ).loc main_arg10) :=
  (W6_of_ne m c main_arg10 (by decide) : W6 m c (Proc.devRef .tc main_arg10) = W5 m c (Proc.devRef .tc main_arg10)).trans (W5_main_arg10 m c)
theorem W7_main_arg10 (c : Dev nD) : W7 m c (Proc.devRef .tc main_arg10) = m ((c : Thread nD τ).loc main_arg10) :=
  (StableHlo.after_of_writes_sub hostOps3 _ hostOps3_writes (by decide) : W7 m c (Proc.devRef .tc main_arg10) = W6 m c (Proc.devRef .tc main_arg10)).trans (W6_main_arg10 m c)
theorem W8_main_arg10 (c : Dev nD) : W8 m c (Proc.devRef .tc main_arg10) = m ((c : Thread nD τ).loc main_arg10) :=
  (W8_of_ne m c main_arg10 (by decide) : W8 m c (Proc.devRef .tc main_arg10) = W7 m c (Proc.devRef .tc main_arg10)).trans (W7_main_arg10 m c)
theorem W0_main_arg11 (c : Dev nD) : W0 m c (Proc.devRef .tc main_arg11) = m ((c : Thread nD τ).loc main_arg11) := rfl
theorem W1_main_arg11 (c : Dev nD) : W1 m c (Proc.devRef .tc main_arg11) = m ((c : Thread nD τ).loc main_arg11) :=
  (StableHlo.after_of_writes_sub hostOps0 _ hostOps0_writes (by decide) : W1 m c (Proc.devRef .tc main_arg11) = W0 m c (Proc.devRef .tc main_arg11)).trans (W0_main_arg11 m c)
theorem W2_main_arg11 (c : Dev nD) : W2 m c (Proc.devRef .tc main_arg11) = m ((c : Thread nD τ).loc main_arg11) :=
  (W2_of_ne m c main_arg11 (by decide) : W2 m c (Proc.devRef .tc main_arg11) = W1 m c (Proc.devRef .tc main_arg11)).trans (W1_main_arg11 m c)
theorem W3_main_arg11 (c : Dev nD) : W3 m c (Proc.devRef .tc main_arg11) = m ((c : Thread nD τ).loc main_arg11) :=
  (StableHlo.after_of_writes_sub hostOps1 _ hostOps1_writes (by decide) : W3 m c (Proc.devRef .tc main_arg11) = W2 m c (Proc.devRef .tc main_arg11)).trans (W2_main_arg11 m c)
theorem W4_main_arg11 (c : Dev nD) : W4 m c (Proc.devRef .tc main_arg11) = m ((c : Thread nD τ).loc main_arg11) :=
  (W4_of_ne m c main_arg11 (by decide) : W4 m c (Proc.devRef .tc main_arg11) = W3 m c (Proc.devRef .tc main_arg11)).trans (W3_main_arg11 m c)
theorem W5_main_arg11 (c : Dev nD) : W5 m c (Proc.devRef .tc main_arg11) = m ((c : Thread nD τ).loc main_arg11) :=
  (StableHlo.after_of_writes_sub hostOps2 _ hostOps2_writes (by decide) : W5 m c (Proc.devRef .tc main_arg11) = W4 m c (Proc.devRef .tc main_arg11)).trans (W4_main_arg11 m c)
theorem W6_main_arg11 (c : Dev nD) : W6 m c (Proc.devRef .tc main_arg11) = m ((c : Thread nD τ).loc main_arg11) :=
  (W6_of_ne m c main_arg11 (by decide) : W6 m c (Proc.devRef .tc main_arg11) = W5 m c (Proc.devRef .tc main_arg11)).trans (W5_main_arg11 m c)
theorem W7_main_arg11 (c : Dev nD) : W7 m c (Proc.devRef .tc main_arg11) = m ((c : Thread nD τ).loc main_arg11) :=
  (StableHlo.after_of_writes_sub hostOps3 _ hostOps3_writes (by decide) : W7 m c (Proc.devRef .tc main_arg11) = W6 m c (Proc.devRef .tc main_arg11)).trans (W6_main_arg11 m c)
theorem W8_main_arg11 (c : Dev nD) : W8 m c (Proc.devRef .tc main_arg11) = m ((c : Thread nD τ).loc main_arg11) :=
  (W8_of_ne m c main_arg11 (by decide) : W8 m c (Proc.devRef .tc main_arg11) = W7 m c (Proc.devRef .tc main_arg11)).trans (W7_main_arg11 m c)
theorem W1_main_v1_self (c : Dev nD) : W1 m c (Proc.devRef .tc main_v1) = W1 m c (Proc.devRef .tc main_v1) := rfl
theorem W2_main_v1 (c : Dev nD) : W2 m c (Proc.devRef .tc main_v1) = W1 m c (Proc.devRef .tc main_v1) :=
  (W2_of_ne m c main_v1 (by decide) : W2 m c (Proc.devRef .tc main_v1) = W1 m c (Proc.devRef .tc main_v1)).trans (W1_main_v1_self m c)
theorem W3_main_v1 (c : Dev nD) : W3 m c (Proc.devRef .tc main_v1) = W1 m c (Proc.devRef .tc main_v1) :=
  (StableHlo.after_of_writes_sub hostOps1 _ hostOps1_writes (by decide) : W3 m c (Proc.devRef .tc main_v1) = W2 m c (Proc.devRef .tc main_v1)).trans (W2_main_v1 m c)
theorem W4_main_v1 (c : Dev nD) : W4 m c (Proc.devRef .tc main_v1) = W1 m c (Proc.devRef .tc main_v1) :=
  (W4_of_ne m c main_v1 (by decide) : W4 m c (Proc.devRef .tc main_v1) = W3 m c (Proc.devRef .tc main_v1)).trans (W3_main_v1 m c)
theorem W1_main_v3_self (c : Dev nD) : W1 m c (Proc.devRef .tc main_v3) = W1 m c (Proc.devRef .tc main_v3) := rfl
theorem W2_main_v3 (c : Dev nD) : W2 m c (Proc.devRef .tc main_v3) = W1 m c (Proc.devRef .tc main_v3) :=
  (W2_of_ne m c main_v3 (by decide) : W2 m c (Proc.devRef .tc main_v3) = W1 m c (Proc.devRef .tc main_v3)).trans (W1_main_v3_self m c)
theorem W3_main_v3 (c : Dev nD) : W3 m c (Proc.devRef .tc main_v3) = W1 m c (Proc.devRef .tc main_v3) :=
  (StableHlo.after_of_writes_sub hostOps1 _ hostOps1_writes (by decide) : W3 m c (Proc.devRef .tc main_v3) = W2 m c (Proc.devRef .tc main_v3)).trans (W2_main_v3 m c)
theorem W4_main_v3 (c : Dev nD) : W4 m c (Proc.devRef .tc main_v3) = W1 m c (Proc.devRef .tc main_v3) :=
  (W4_of_ne m c main_v3 (by decide) : W4 m c (Proc.devRef .tc main_v3) = W3 m c (Proc.devRef .tc main_v3)).trans (W3_main_v3 m c)
theorem W1_main_v11_self (c : Dev nD) : W1 m c (Proc.devRef .tc main_v11) = W1 m c (Proc.devRef .tc main_v11) := rfl
theorem W2_main_v11 (c : Dev nD) : W2 m c (Proc.devRef .tc main_v11) = W1 m c (Proc.devRef .tc main_v11) :=
  (W2_of_ne m c main_v11 (by decide) : W2 m c (Proc.devRef .tc main_v11) = W1 m c (Proc.devRef .tc main_v11)).trans (W1_main_v11_self m c)
theorem W3_main_v11 (c : Dev nD) : W3 m c (Proc.devRef .tc main_v11) = W1 m c (Proc.devRef .tc main_v11) :=
  (StableHlo.after_of_writes_sub hostOps1 _ hostOps1_writes (by decide) : W3 m c (Proc.devRef .tc main_v11) = W2 m c (Proc.devRef .tc main_v11)).trans (W2_main_v11 m c)
theorem W4_main_v11 (c : Dev nD) : W4 m c (Proc.devRef .tc main_v11) = W1 m c (Proc.devRef .tc main_v11) :=
  (W4_of_ne m c main_v11 (by decide) : W4 m c (Proc.devRef .tc main_v11) = W3 m c (Proc.devRef .tc main_v11)).trans (W3_main_v11 m c)

end Cert.KernelIdeal.Hand

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KH.Agg.lean ====
/-
  The kernel program's graph aggregation, as functions of the edge list.

  Around its four kernels the program aggregates on the host, with the same operations as a plain implementation would
  use. The edge list is a 2 × 1600000 array of 32-bit words: row 0 the source node of every edge, row 1 its
  destination; a negative source word has the number of nodes added. For a feature matrix `X` the rows of `X` at the
  sources are gathered, one per edge, and added into an all-zero matrix at the rows of the destinations. At 64 columns
  the features are held in a shorter float format and each gathered row is widened before it is added; on exact values
  widening changes nothing. A one per edge, added into zeros at the destinations, counts the edges into each node; the
  larger of that count and one is the divisor of the neighbours' mean, and the program multiplies by its reciprocal.
-/
import proofs.«150514_j16690242912872_2_alg».proof.Proof.Gen.KernelIdeal
import proofs.«150514_j16690242912872_2_alg».proof.Proof.RefSpec

noncomputable section

namespace Cert.KernelIdeal.HandHost

open Cert.KernelIdeal Cert.KernelIdeal.Gen Idealize.ShloMosaic Idealize.ShloMosaic.ValueIdx Cert.RefSpec

/-- The edge list: row 0 the sources, row 1 the destinations. -/
abbrev Edges : Type := (⟨S2x1600000, .i32⟩ : BufTy).Contents (Elt Ideal)

/-- The sources of the edges as node numbers, one column: a negative word has the number of nodes added. -/
def kerSrcCol (ei : Edges) : (⟨S1600000x1, .i32⟩ : BufTy).Contents (Elt Ideal) :=
  broadcastInDim S1600000x1 ![0] bcast_S1600000_S1600000x1_0
    (select
      (cmpi .slt
        (shapeCast _ (extractStridedSlice S1x1600000 ![0, 0] ei slices_S2x1600000_S1x1600000_0_0) shapeCasts_S1x1600000_S1600000)
        (broadcastInDim S1600000 ![] bcast_S_S1600000 (constantI S_ 32 0#32)))
      (addi
        (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The destinations of the edges, one column. -/
def kerDstCol (ei : Edges) : (⟨S1600000x1, .i32⟩ : BufTy).Contents (Elt Ideal) :=
  broadcastInDim S1600000x1 ![0] bcast_S1600000_S1600000x1_0
    (shapeCast _ (extractStridedSlice S1x1600000 ![1, 0] ei slices_S2x1600000_S1x1600000_1_0) shapeCasts_S1x1600000_S1600000)

/-- Two features per node, aggregated: row `r` is the sum of the rows of `X` at the sources of the edges into `r`. -/
def kerA2 (ei : Edges) (X : Arr (SNK 2)) : Arr (SNK 2) :=
  Host.scatterAdd (F := Ideal) (φ := .f32) scatter_S100000x2_S1600000x1_S1600000x2_1_0_0_1
    (broadcastInDim S100000x2 ![] bcast_S_S100000x2 (constant (F := Ideal) S_ .f32 0x00000000#32))
    (kerDstCol ei)
    (Host.gather gather_S100000x2_S1600000x1_S1600000x2_1_0_n_n_0_1_12 X (kerSrcCol ei))

/-- Sixty-four features per node, aggregated; each gathered row is widened from the short format first. -/
def kerA64 (ei : Edges) (Y : Arr (SNK 64)) : Arr (SNK 64) :=
  Host.scatterAdd (F := Ideal) (φ := .f32) scatter_S100000x64_S1600000x1_S1600000x64_1_0_0_1
    (broadcastInDim S100000x64 ![] bcast_S_S100000x64 (constant (F := Ideal) S_ .f32 0x00000000#32))
    (kerDstCol ei)
    (extf (F := Ideal) (φ := .bf16) .f32
      (Host.gather gather_S100000x64_S1600000x1_S1600000x64_1_0_n_n_0_1_164 Y (kerSrcCol ei)) bitsLt_bf16_f32)

/-- The number of edges into each node, or one where there is none. -/
def kerCm (ei : Edges) : Arr SN :=
  maximumf (F := Ideal) (φ := .f32)
    (Host.scatterAdd (F := Ideal) (φ := .f32) scatter_S100000_S1600000x1_S1600000_n_0_0_1
      (broadcastInDim S100000 ![] bcast_S_S100000 (constant (F := Ideal) S_ .f32 0x00000000#32))
      (kerDstCol ei)
      (broadcastInDim S1600000 ![] bcast_S_S1600000 (constant (F := Ideal) S_ .f32 0x3F800000#32)))
    (broadcastInDim S100000 ![] bcast_S_S100000 (constant (F := Ideal) S_ .f32 0x3F800000#32))

/-- The reciprocal of that divisor: one over it, entry by entry. -/
def kerInv (ei : Edges) : Arr SN :=
  Host.divf (F := Ideal) (φ := .f32)
    (broadcastInDim S100000 ![] bcast_S_S100000 (constant (F := Ideal) S_ .f32 0x3F800000#32))
    (kerCm ei)

end Cert.KernelIdeal.HandHost

end
-- ==== Proof.KH.Host0.lean ====
/-
  The first stretch of host operations: from the edge list the in-degree of every node is counted,
  clamped at one from below and inverted; the two input features are aggregated over the incoming edges
  and multiplied, row by row, by the inverted count; the first layer's bias is re-read as one row.
  The two rows of the edge list are also left behind as vectors, which the second layer's aggregation
  reads again, as is the inverted count.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost
import proofs.«150514_j16690242912872_2_alg».proof.Proof.KH.Agg
set_option maxRecDepth 16384

noncomputable section

namespace Cert.KernelIdeal.HandHost

open Cert.KernelIdeal Cert.KernelIdeal.Gen
open Idealize.ShloMosaic Idealize.ShloMosaic.ValueIdx Idealize.ShloMosaic.StableHlo

open Cert.RefSpec

variable (W : Valuation τ sig (Elt Ideal))

/-- The edge list as launched. -/
abbrev edges : Edges := W (Proc.devRef .tc main_arg1)
/-- The input features. -/
abbrev feat0 : Arr (SNK 2) := W (Proc.devRef .tc main_arg0)
/-- The first layer's bias of the aggregated branch. -/
abbrev bias1 : S64.Idx → EReal := W (Proc.devRef .tc main_arg3)

/-- Row 0 of an edge list as a vector: the source words. -/
abbrev srcRow (ei : Edges) : (⟨S1600000, .i32⟩ : BufTy).Contents (Elt Ideal) :=
  shapeCast S1600000 (extractStridedSlice S1x1600000 ![0, 0] ei slices_S2x1600000_S1x1600000_0_0) shapeCasts_S1x1600000_S1600000
/-- Row 1 of an edge list as a vector: the destination words. -/
abbrev dstRow (ei : Edges) : (⟨S1600000, .i32⟩ : BufTy).Contents (Elt Ideal) :=
  shapeCast S1600000 (extractStridedSlice S1x1600000 ![1, 0] ei slices_S2x1600000_S1x1600000_1_0) shapeCasts_S1x1600000_S1600000

/-- After the stretch: the aggregated input features times the inverted count. -/
abbrev mean0 : Arr (SNK 2) := StableHlo.after hostOps0 W (Proc.devRef .tc main_v24)
/-- After the stretch: the inverted clamped in-degree. -/
abbrev inv0 : Arr SN := StableHlo.after hostOps0 W (Proc.devRef .tc main_v11)
/-- After the stretch: the bias as one row. -/
abbrev biasRow0 : S1x64.Idx → EReal := StableHlo.after hostOps0 W (Proc.devRef .tc main_v25)

/-- The source words are left behind as a vector. -/
theorem host0_src : StableHlo.after hostOps0 W (Proc.devRef .tc main_v1) = srcRow (edges W) := by
  after_results_simp
  rfl

/-- The destination words are left behind as a vector. -/
theorem host0_dst : StableHlo.after hostOps0 W (Proc.devRef .tc main_v3) = dstRow (edges W) := by
  after_results_simp
  rfl

theorem host0_inv_eq : inv0 W = kerInv (edges W) := by
  unfold inv0
  after_results_simp
  rfl

/-- The reciprocal read at a node. -/
theorem kerInv_at (ei : Edges) (r : Fin 100000) :
    kerInv ei (ix1 r) = Ideal.div (Ideal.ofBits .f32 0x3F800000#32) (kerCm ei (ix1 r)) := by
  unfold kerInv
  rw [hostDivf_apply, broadcastInDim_scalar_apply, constant_apply]

/-- The inverted count at node `r` is the float one divided by the clamped in-degree. -/
theorem host0_inv (r : Fin 100000) :
    inv0 W (ix1 r) = Ideal.div (Ideal.ofBits .f32 0x3F800000#32) (kerCm (edges W) (ix1 r)) := by
  rw [host0_inv_eq, kerInv_at]

/-- A per-node vector laid along the rows of a two-column matrix. -/
theorem perNode2_apply (v : Arr SN) (r : Fin 100000) (k : Fin 2) :
    broadcastInDim S100000x2 ![0, 1] bcast_S100000x1_S100000x2_0_1
      (broadcastInDim S100000x1 ![0] bcast_S100000_S100000x1_0 v) (ix2 r k) = v (ix1 r) := by
  rw [broadcastInDim_apply ![0, 1] bcast_S100000x1_S100000x2_0_1 _ (ix2 r k) (ix2 r (0 : Fin 1)) (fun a => by
    match a with
    | ⟨0, _⟩ => rfl
    | ⟨1, _⟩ => rfl)]
  exact broadcastInDim_apply ![0] bcast_S100000_S100000x1_0 v (ix2 r (0 : Fin 1)) (ix1 r) (fun a => by
    match a with
    | ⟨0, _⟩ => rfl)

theorem host0_mean_eq :
    mean0 W = mulf (F := Ideal) (φ := .f32) (kerA2 (edges W) (feat0 W))
      (broadcastInDim S100000x2 ![0, 1] bcast_S100000x1_S100000x2_0_1
        (broadcastInDim S100000x1 ![0] bcast_S100000_S100000x1_0 (kerInv (edges W)))) := by
  unfold mean0
  after_results_simp
  rfl

/-- Feature `k` at node `r`: the aggregated feature times the inverted clamped in-degree. -/
theorem host0_mean (r : Fin 100000) (k : Fin 2) :
    mean0 W (ix2 r k)
      = kerA2 (edges W) (feat0 W) (ix2 r k)
          * Ideal.div (Ideal.ofBits .f32 0x3F800000#32) (kerCm (edges W) (ix1 r)) := by
  rw [host0_mean_eq, mulf_apply, perNode2_apply, kerInv_at]

/-- The bias row at column `j` is the bias at `j`. -/
theorem host0_bias (j : Fin 64) : biasRow0 W (ix2 (0 : Fin 1) j) = bias1 W (ix1 j) := by
  unfold biasRow0 bias1
  after_results_simp
  exact shapeCast_a_1a_apply _ shapeCasts_S64_S1x64 (0 : Fin 1) j

end Cert.KernelIdeal.HandHost

end
-- ==== Proof.KH.Stats.lean ====
/-
  The column statistics of a normalisation layer as the host operations between two regions form them.

  A region leaves, for each of its two halves of the grid, the sum of every column (and the sum of the
  squares of every column) over the rows that half visited: a [2, 1, 64] array. The host adds the two
  partial sums to the initial value zero, divides by the number of nodes, forms the variance as mean of
  squares minus square of the mean clipped at zero from below, and folds mean, variance, scale and offset
  into one factor and one offset per column. Both rows of 64 are then laid twice side by side, so that
  one row of 128 serves two nodes at once in the lane-dense view, and the [100000, 64] array of
  pre-normalisation values is re-read as [50000, 128]: row `p` holds nodes `2p` and `2p + 1`.

  Everything is stated over arbitrary arrays; the order and grouping of the operations are the program's.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.HandHost

open Cert.KernelIdeal Cert.KernelIdeal.Gen
open Idealize.ShloMosaic Idealize.ShloMosaic.ValueIdx Idealize.ShloMosaic.StableHlo

open scoped BigOperators

/-- The float word of the node count. -/
abbrev wN : EReal := Ideal.ofBits .f32 0x47C35000#32
/-- The float word of the variance offset. -/
abbrev wEps : EReal := Ideal.ofBits .f32 0x3727C5AC#32

section Scalars

variable (P1 P2 : S2x1x64.Idx → EReal) (g be : S64.Idx → EReal)

/-- The two partial sums of column `j` added to the initial value zero. -/
def colSum (P : S2x1x64.Idx → EReal) (j : Fin 64) : EReal :=
  0 + (P (ix3 (0 : Fin 2) (0 : Fin 1) j) + P (ix3 (1 : Fin 2) (0 : Fin 1) j))

/-- The mean of column `j`. -/
def colMu (j : Fin 64) : EReal := Ideal.div (colSum P1 j) wN

/-- The variance of column `j`: mean of squares minus square of the mean, clipped at zero. -/
def colVar (j : Fin 64) : EReal := max (Ideal.div (colSum P2 j) wN - colMu P1 j * colMu P1 j) 0

/-- The factor of the affine map of column `j`. -/
def colScale (j : Fin 64) : EReal := g (ix1 j) * Ideal.rsqrt (colVar P1 P2 j + wEps)

/-- The offset of the affine map of column `j`. -/
def colShift (j : Fin 64) : EReal := be (ix1 j) - colMu P1 j * colScale P1 P2 g j

end Scalars

section Rows

variable (P1 P2 : FVec Ideal S2x1x64 .f32) (g be : FVec Ideal S64 .f32)

/-- A float word broadcast to a row of 64. -/
def wordRow (w : BitVec 32) : FVec Ideal S1x64 .f32 :=
  broadcastInDim S1x64 ![] bcast_S_S1x64 (constant (F := Ideal) S_ .f32 w)

theorem wordRow_apply (w : BitVec 32) (i : S1x64.Idx) : wordRow w i = Ideal.ofBits .f32 w := by
  unfold wordRow; rw [broadcastInDim_scalar_apply, constant_apply]

/-- The host's sum over the two halves, from the initial value zero. -/
def sumRow (P : FVec Ideal S2x1x64 .f32) : FVec Ideal S1x64 .f32 :=
  Host.reduceAdd P (constant (F := Ideal) S_ .f32 0x00000000#32) reducesTo_S2x1x64_S1x64_d0 h_S_

theorem sumRow_apply (P : FVec Ideal S2x1x64 .f32) (j : Fin 64) :
    sumRow P (ix2 (0 : Fin 1) j) = colSum P j := by
  have hR : S2x1x64.Reduces [0] S1x64 := by decide
  have hl : ∀ k : Fin 2, hR.lift (ix2 (0 : Fin 1) j) k = ix3 k (0 : Fin 1) j := fun k =>
    funext fun a => Fin.ext (by match a with | ⟨0, _⟩ => rfl | ⟨1, _⟩ => rfl | ⟨2, _⟩ => rfl)
  unfold sumRow colSum
  rw [hostReduceAdd_apply, Ideal.hostReduceAdd_single _ hR, constant_apply, Ideal.ofBits_zero_f32]
  show (0 : EReal) + ∑ k : Fin 2, P (hR.lift (ix2 (0 : Fin 1) j) k) = _
  rw [Fin.sum_univ_two, hl, hl]

def muRow : FVec Ideal S1x64 .f32 := Host.divf (sumRow P1) (wordRow 0x47C35000#32)

theorem muRow_apply (j : Fin 64) : muRow P1 (ix2 (0 : Fin 1) j) = colMu P1 j := by
  unfold muRow colMu; rw [hostDivf_apply, sumRow_apply, wordRow_apply]

def varRow : FVec Ideal S1x64 .f32 :=
  maximumf (subf (Host.divf (sumRow P2) (wordRow 0x47C35000#32)) (mulf (muRow P1) (muRow P1))) (wordRow 0x00000000#32)

theorem varRow_apply (j : Fin 64) : varRow P1 P2 (ix2 (0 : Fin 1) j) = colVar P1 P2 j := by
  unfold varRow colVar
  rw [maximumf_apply, subf_apply, hostDivf_apply, mulf_apply, muRow_apply, sumRow_apply, wordRow_apply, wordRow_apply,
    Ideal.ofBits_zero_f32]

def scaleRow : FVec Ideal S1x64 .f32 :=
  mulf (shapeCast S1x64 g shapeCasts_S64_S1x64) (Host.rsqrt (addf (varRow P1 P2) (wordRow 0x3727C5AC#32)))

theorem scaleRow_apply (j : Fin 64) : scaleRow P1 P2 g (ix2 (0 : Fin 1) j) = colScale P1 P2 g j := by
  unfold scaleRow colScale
  rw [mulf_apply, shapeCast_a_1a_apply]
  show g (ix1 j) * Ideal.rsqrt (addf (varRow P1 P2) (wordRow 0x3727C5AC#32) (ix2 (0 : Fin 1) j)) = _
  rw [addf_apply, varRow_apply, wordRow_apply]

def shiftRow : FVec Ideal S1x64 .f32 :=
  subf (shapeCast S1x64 be shapeCasts_S64_S1x64) (mulf (muRow P1) (scaleRow P1 P2 g))

theorem shiftRow_apply (j : Fin 64) : shiftRow P1 P2 g be (ix2 (0 : Fin 1) j) = colShift P1 P2 g be j := by
  unfold shiftRow colShift
  rw [subf_apply, shapeCast_a_1a_apply, mulf_apply, muRow_apply, scaleRow_apply]

/-- A row of 64 laid twice side by side. -/
def twice (a : FVec Ideal S1x64 .f32) : FVec Ideal S1x128 .f32 :=
  concatenate S1x128 1 [⟨S1x64, a⟩, ⟨S1x64, a⟩] concatenates_S1x64_S1x64_S1x128_d1

/-- Column `l` of the doubled row is column `l % 64` of the row. -/
theorem twice_apply (a : FVec Ideal S1x64 .f32) (l : Fin 128) :
    twice a (ix2 (0 : Fin 1) l) = a (ix2 (0 : Fin 1) (⟨l.val % 64, Nat.mod_lt _ (by decide)⟩ : Fin 64)) := by
  unfold twice
  by_cases hl : l.val < 64
  · exact concatenate_pair_apply_left (t := S1x128) (s₁ := S1x64) (s₂ := S1x64) (1 : Fin 2) a a
      concatenates_S1x64_S1x64_S1x128_d1 (ix2 (0 : Fin 1) l) rfl
      (ix2 (0 : Fin 1) (⟨l.val % 64, Nat.mod_lt _ (by decide)⟩ : Fin 64)) (fun b => by
      match b with
      | ⟨0, _⟩ => rfl
      | ⟨1, _⟩ => show l.val % 64 = l.val; omega)
  · exact concatenate_pair_apply_right (t := S1x128) (s₁ := S1x64) (s₂ := S1x64) (1 : Fin 2) a a
      concatenates_S1x64_S1x64_S1x128_d1 (ix2 (0 : Fin 1) l) rfl rfl
      (ix2 (0 : Fin 1) (⟨l.val % 64, Nat.mod_lt _ (by decide)⟩ : Fin 64)) (fun b hb => by
      match b, hb with
      | ⟨0, _⟩, _ => rfl
      | ⟨1, _⟩, hb => exact absurd rfl hb)
      (by show l.val % 64 + 64 = l.val; have := l.isLt; omega)

end Rows

section Relayout

variable {α : Type}

/-- The [100000, 64] array re-read as [50000, 128]: row `p`, column `l` is node `2p + l / 64`, column `l % 64`. -/
theorem dense_apply (x : S100000x64.Idx → α) (p : Fin 50000) (l : Fin 128) :
    shapeCast S50000x128 x shapeCasts_S100000x64_S50000x128 (ix2 p l)
      = x (ix2 (⟨2 * p.val + l.val / 64, by have := p.isLt; have := l.isLt; omega⟩ : Fin 100000)
              (⟨l.val % 64, Nat.mod_lt _ (by decide)⟩ : Fin 64)) :=
  shapeCast_apply x _ _ _ (by
    rw [Shape.rowMajor_val_two, Shape.rowMajor_val_two]
    show (2 * p.val + l.val / 64) * 64 + l.val % 64 = p.val * 128 + l.val
    have := l.isLt; omega)

/-- The [50000, 128] array re-read as [100000, 64]: node `r`, column `j` is row `r / 2`, column `64 (r % 2) + j`. -/
theorem sparse_apply (x : S50000x128.Idx → α) (r : Fin 100000) (j : Fin 64) :
    shapeCast S100000x64 x shapeCasts_S50000x128_S100000x64 (ix2 r j)
      = x (ix2 (⟨r.val / 2, by have := r.isLt; omega⟩ : Fin 50000)
              (⟨64 * (r.val % 2) + j.val, by have := j.isLt; omega⟩ : Fin 128)) :=
  shapeCast_apply x _ _ _ (by
    rw [Shape.rowMajor_val_two, Shape.rowMajor_val_two]
    show r.val / 2 * 128 + (64 * (r.val % 2) + j.val) = r.val * 64 + j.val
    omega)

end Relayout

end Cert.KernelIdeal.HandHost

end
-- ==== Proof.KH.Host1.lean ====
/-
  The host stretch between the first layer's linear region and its normalisation region: the column
  statistics are folded into one factor and one offset per column, both laid twice side by side, and the
  pre-normalisation values are re-read in the lane-dense view.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost
import proofs.«150514_j16690242912872_2_alg».proof.Proof.KH.Stats
set_option maxRecDepth 16384

noncomputable section

namespace Cert.KernelIdeal.HandHost

open Cert.KernelIdeal Cert.KernelIdeal.Gen
open Idealize.ShloMosaic Idealize.ShloMosaic.ValueIdx Idealize.ShloMosaic.StableHlo

variable (W : Valuation τ sig (Elt Ideal))

/-- The region's [100000, 64] output of pre-normalisation values, as entered. -/
abbrev pre1 : S100000x64.Idx → EReal := W (Proc.devRef .tc main_v26_0)
/-- The region's two partial column sums. -/
abbrev partSum1 : S2x1x64.Idx → EReal := W (Proc.devRef .tc main_v26_1)
/-- The region's two partial column sums of squares. -/
abbrev partSq1 : S2x1x64.Idx → EReal := W (Proc.devRef .tc main_v26_2)
/-- The layer's scale parameter. -/
abbrev gamma1 : S64.Idx → EReal := W (Proc.devRef .tc main_arg8)
/-- The layer's offset parameter. -/
abbrev beta1 : S64.Idx → EReal := W (Proc.devRef .tc main_arg9)

/-- After the stretch: the lane-dense view of the pre-normalisation values. -/
abbrev dense1 : S50000x128.Idx → EReal := StableHlo.after hostOps1 W (Proc.devRef .tc main_v45)
/-- After the stretch: the doubled row of factors. -/
abbrev scaleTile1 : S1x128.Idx → EReal := StableHlo.after hostOps1 W (Proc.devRef .tc main_v46)
/-- After the stretch: the doubled row of offsets. -/
abbrev shiftTile1 : S1x128.Idx → EReal := StableHlo.after hostOps1 W (Proc.devRef .tc main_v47)

/-- Row `p`, column `l` of the lane-dense view is node `2p + l / 64`, column `l % 64`. -/
theorem host1_dense (p : Fin 50000) (l : Fin 128) :
    dense1 W (ix2 p l)
      = pre1 W (ix2 (⟨2 * p.val + l.val / 64, by have := p.isLt; have := l.isLt; omega⟩ : Fin 100000)
          (⟨l.val % 64, Nat.mod_lt _ (by decide)⟩ : Fin 64)) := by
  unfold dense1 pre1
  after_results
  exact dense_apply _ p l

theorem host1_scale_eq :
    scaleTile1 W = twice (scaleRow (partSum1 W) (partSq1 W) (gamma1 W)) := by
  unfold scaleTile1
  fold_results
  rfl

theorem host1_shift_eq :
    shiftTile1 W = twice (shiftRow (partSum1 W) (partSq1 W) (gamma1 W) (beta1 W)) := by
  unfold shiftTile1
  fold_results
  rfl

/-- Column `l` of the doubled row of factors is the factor of column `l % 64`. -/
theorem host1_scale (l : Fin 128) :
    scaleTile1 W (ix2 (0 : Fin 1) l)
      = colScale (partSum1 W) (partSq1 W) (gamma1 W) (⟨l.val % 64, Nat.mod_lt _ (by decide)⟩ : Fin 64) := by
  rw [host1_scale_eq, twice_apply, scaleRow_apply]

/-- Column `l` of the doubled row of offsets is the offset of column `l % 64`. -/
theorem host1_shift (l : Fin 128) :
    shiftTile1 W (ix2 (0 : Fin 1) l)
      = colShift (partSum1 W) (partSq1 W) (gamma1 W) (beta1 W) (⟨l.val % 64, Nat.mod_lt _ (by decide)⟩ : Fin 64) := by
  rw [host1_shift_eq, twice_apply, shiftRow_apply]

end Cert.KernelIdeal.HandHost

end
-- ==== Proof.KH.Host2.lean ====
/-
  The host stretch between the two layers: the first layer's activations come back from the lane-dense
  view to one node per row; their rows are aggregated over the incoming edges (each gathered row widened
  from the short float format, which changes no exact value) and multiplied by the inverted clamped
  in-degree; the second layer's bias is re-read as one row.  The source and destination vectors and the
  inverted count are read from the buffers the first stretch left them in.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost
import proofs.«150514_j16690242912872_2_alg».proof.Proof.KH.Agg
import proofs.«150514_j16690242912872_2_alg».proof.Proof.KH.Stats
import proofs.«150514_j16690242912872_2_alg».proof.Proof.KH.Host0
set_option maxRecDepth 16384

noncomputable section

namespace Cert.KernelIdeal.HandHost

open Cert.KernelIdeal Cert.KernelIdeal.Gen
open Idealize.ShloMosaic Idealize.ShloMosaic.ValueIdx Idealize.ShloMosaic.StableHlo

open Cert.RefSpec

variable (W : Valuation τ sig (Elt Ideal))

/-- The first layer's activations in the lane-dense view, as the normalisation region left them. -/
abbrev act1dense : S50000x128.Idx → EReal := W (Proc.devRef .tc main_v48)
/-- The second layer's bias of the aggregated branch. -/
abbrev bias2 : S64.Idx → EReal := W (Proc.devRef .tc main_arg6)

/-- The first layer's activations with one node per row. -/
abbrev act1 : Arr (SNK 64) := shapeCast S100000x64 (act1dense W) shapeCasts_S50000x128_S100000x64

/-- After the stretch: the activations with one node per row. -/
abbrev hidden2 : Arr (SNK 64) := StableHlo.after hostOps2 W (Proc.devRef .tc main_v49)
/-- After the stretch: the aggregated activations times the inverted count. -/
abbrev mean2 : Arr (SNK 64) := StableHlo.after hostOps2 W (Proc.devRef .tc main_v63)
/-- After the stretch: the bias as one row. -/
abbrev biasRow2 : S1x64.Idx → EReal := StableHlo.after hostOps2 W (Proc.devRef .tc main_v64)

theorem host2_hidden_eq : hidden2 W = act1 W := by
  unfold hidden2
  after_results_simp
  rfl

/-- Node `r`, column `j` is row `r / 2`, column `64 (r % 2) + j` of the lane-dense view. -/
theorem act1_apply (r : Fin 100000) (j : Fin 64) :
    act1 W (ix2 r j)
      = act1dense W (ix2 (⟨r.val / 2, by have := r.isLt; omega⟩ : Fin 50000)
          (⟨64 * (r.val % 2) + j.val, by have := j.isLt; omega⟩ : Fin 128)) :=
  sparse_apply _ r j

theorem host2_hidden (r : Fin 100000) (j : Fin 64) :
    hidden2 W (ix2 r j)
      = act1dense W (ix2 (⟨r.val / 2, by have := r.isLt; omega⟩ : Fin 50000)
          (⟨64 * (r.val % 2) + j.val, by have := j.isLt; omega⟩ : Fin 128)) := by
  rw [host2_hidden_eq, act1_apply]

/-- A per-node vector laid along the rows of a 64-column matrix. -/
theorem perNode64_apply (v : Arr SN) (r : Fin 100000) (j : Fin 64) :
    broadcastInDim S100000x64 ![0, 1] bcast_S100000x1_S100000x64_0_1
      (broadcastInDim S100000x1 ![0] bcast_S100000_S100000x1_0 v) (ix2 r j) = v (ix1 r) := by
  rw [broadcastInDim_apply ![0, 1] bcast_S100000x1_S100000x64_0_1 _ (ix2 r j) (ix2 r (0 : Fin 1)) (fun a => by
    match a with
    | ⟨0, _⟩ => rfl
    | ⟨1, _⟩ => rfl)]
  exact broadcastInDim_apply ![0] bcast_S100000_S100000x1_0 v (ix2 r (0 : Fin 1)) (ix1 r) (fun a => by
    match a with
    | ⟨0, _⟩ => rfl)

/-- The aggregation of the stretch over the source and destination vectors and the inverted count it finds. -/
theorem host2_mean_eq :
    mean2 W = mulf (F := Ideal) (φ := .f32)
      (Host.scatterAdd (F := Ideal) (φ := .f32) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (W (Proc.devRef .tc main_v3)))
        (extf (F := Ideal) (φ := .bf16) .f32
          (Host.gather gather_S100000x64_S1600000x1_S1600000x64_1_0_n_n_0_1_164 (act1 W)
            (broadcastInDim S1600000x1 ![0] bcast_S1600000_S1600000x1_0
              (select
                (cmpi .slt (W (Proc.devRef .tc main_v1))
                  (broadcastInDim S1600000 ![] bcast_S_S1600000 (constantI S_ 32 0#32)))
                (addi (W (Proc.devRef .tc main_v1))
                  (broadcastInDim S1600000 ![] bcast_S_S1600000 (constantI S_ 32 100000#32)))
                (W (Proc.devRef .tc main_v1)))))
          bitsLt_bf16_f32))
      (broadcastInDim S100000x64 ![0, 1] bcast_S100000x1_S100000x64_0_1
        (broadcastInDim S100000x1 ![0] bcast_S100000_S100000x1_0 (W (Proc.devRef .tc main_v11)))) := by
  unfold mean2
  after_results_simp
  rfl

/-- With the source and destination vectors of an edge list and its inverted count in those buffers, column `j` at
    node `r` is the aggregated activation times the inverted clamped in-degree. -/
theorem host2_mean (ei : Edges)
    (h1 : W (Proc.devRef .tc main_v1) = srcRow ei) (h3 : W (Proc.devRef .tc main_v3) = dstRow ei)
    (h11 : W (Proc.devRef .tc main_v11) = kerInv ei) (r : Fin 100000) (j : Fin 64) :
    mean2 W (ix2 r j)
      = kerA64 ei (act1 W) (ix2 r j)
          * Ideal.div (Ideal.ofBits .f32 0x3F800000#32) (kerCm ei (ix1 r)) := by
  rw [host2_mean_eq, h1, h3, h11, mulf_apply, perNode64_apply, kerInv_at]
  rfl

/-- The bias row at column `j` is the bias at `j`. -/
theorem host2_bias (j : Fin 64) : biasRow2 W (ix2 (0 : Fin 1) j) = bias2 W (ix1 j) := by
  unfold biasRow2 bias2
  after_results_simp
  exact shapeCast_a_1a_apply _ shapeCasts_S64_S1x64 (0 : Fin 1) j

end Cert.KernelIdeal.HandHost

end
-- ==== Proof.KH.Kept.lean ====
/-
  What the host stretches leave alone: a stretch changes only the buffers its operations write, so every
  argument, and every buffer an earlier stretch or region left for a later one, is found as it was.
-/
import proofs.«150514_j16690242912872_2_alg».proof.Proof.Gen.KernelIdeal.Regions

set_option maxRecDepth 16384

noncomputable section

namespace Cert.KernelIdeal.HandHost

open Cert.KernelIdeal Cert.KernelIdeal.Gen
open Idealize.ShloMosaic Idealize.ShloMosaic.StableHlo

variable {F : FTy → Type} [FloatOps F] (W : Valuation τ sig (Elt F))

theorem host0_keeps (r : Ref sig .tc) (h : r ∉ hostOps0_W) :
    StableHlo.after hostOps0 W (Proc.devRef .tc r) = W (Proc.devRef .tc r) :=
  StableHlo.after_of_writes_sub hostOps0 W hostOps0_writes h
theorem host1_keeps (r : Ref sig .tc) (h : r ∉ hostOps1_W) :
    StableHlo.after hostOps1 W (Proc.devRef .tc r) = W (Proc.devRef .tc r) :=
  StableHlo.after_of_writes_sub hostOps1 W hostOps1_writes h
theorem host2_keeps (r : Ref sig .tc) (h : r ∉ hostOps2_W) :
    StableHlo.after hostOps2 W (Proc.devRef .tc r) = W (Proc.devRef .tc r) :=
  StableHlo.after_of_writes_sub hostOps2 W hostOps2_writes h
theorem host3_keeps (r : Ref sig .tc) (h : r ∉ hostOps3_W) :
    StableHlo.after hostOps3 W (Proc.devRef .tc r) = W (Proc.devRef .tc r) :=
  StableHlo.after_of_writes_sub hostOps3 W hostOps3_writes h
theorem host4_keeps (r : Ref sig .tc) (h : r ∉ hostOps4_W) :
    StableHlo.after hostOps4 W (Proc.devRef .tc r) = W (Proc.devRef .tc r) :=
  StableHlo.after_of_writes_sub hostOps4 W hostOps4_writes h

/-! The first stretch leaves the features and the first layer's two weight matrices. -/
theorem host0_arg0 : StableHlo.after hostOps0 W (Proc.devRef .tc main_arg0) = W (Proc.devRef .tc main_arg0) :=
  host0_keeps W main_arg0 (by decide)
theorem host0_arg2 : StableHlo.after hostOps0 W (Proc.devRef .tc main_arg2) = W (Proc.devRef .tc main_arg2) :=
  host0_keeps W main_arg2 (by decide)
theorem host0_arg4 : StableHlo.after hostOps0 W (Proc.devRef .tc main_arg4) = W (Proc.devRef .tc main_arg4) :=
  host0_keeps W main_arg4 (by decide)

/-! The second stretch leaves the edge vectors and the inverted count the first one made. -/
theorem host1_v1 : StableHlo.after hostOps1 W (Proc.devRef .tc main_v1) = W (Proc.devRef .tc main_v1) :=
  host1_keeps W main_v1 (by decide)
theorem host1_v3 : StableHlo.after hostOps1 W (Proc.devRef .tc main_v3) = W (Proc.devRef .tc main_v3) :=
  host1_keeps W main_v3 (by decide)
theorem host1_v11 : StableHlo.after hostOps1 W (Proc.devRef .tc main_v11) = W (Proc.devRef .tc main_v11) :=
  host1_keeps W main_v11 (by decide)

end Cert.KernelIdeal.HandHost

end
-- ==== Proof.KV.Pay1.lean ====
/-
  Layer 1's normalise + ReLU body read at one element: the stored value at row p, lane q of a tile is
  max(h(p,q) · scale(q) + shift(q), 0), the scale and shift rows being broadcast down the tile's rows
  (the change of format to bf16 is the identity on extended reals, and the zero word is the real 0).
-/
import proofs.«150514_j16690242912872_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-- The body's one store, read at row `p`, lane `q` of the tile. -/
theorem k1_pay1_apply (x0 : Vec Ideal S10000x128 .f32) (x1 x2 : Vec Ideal S1x128 .f32) (p : Fin 10000) (q : Fin 128) :
    k1_pay1 (F := Ideal) x0 x1 x2 (ix2 p q) = max (x0 (ix2 p q) * x1 (ix2 0 q) + x2 (ix2 0 q)) 0 := by
  unfold k1_pay1
  simp only [shapeCast_self]
  show max (x0 (ix2 p q) * broadcastTo S10000x128 x1 broadcasts_S1x128_S10000x128 (ix2 p q)
      + broadcastTo S10000x128 x2 broadcasts_S1x128_S10000x128 (ix2 p q)) (Ideal.ofBits .f32 0x00000000#32) = _
  rw [broadcastTo_1b_ab_apply x1 broadcasts_S1x128_S10000x128 p q, broadcastTo_1b_ab_apply x2 broadcasts_S1x128_S10000x128 p q,
    Ideal.ofBits_zero_f32]

end Cert.KernelIdeal.HandValue

end
-- ==== Proof.KV.R1.lean ====
/-
  What layer 1's normalise + ReLU region leaves in its output array [50000,128] (the lane-dense view of the
  [100000,64] activations), as one function of the arrays the region finds: entry (r, q) is
  max(h(r,q) · scale(q) + shift(q), 0).  Row tile t of the output is written by grid point t from row tile t of h
  and the whole scale and shift rows; the five tiles of 10000 rows cover the 50000 rows.
-/
import proofs.«150514_j16690242912872_2_alg».proof.Proof.KI.Region1
import proofs.«150514_j16690242912872_2_alg».proof.Proof.KV.Pay1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

theorem zero2 : (![0, 0] : Fin 2 → Nat) = fun _ => 0 := funext fun a => by fin_cases a <;> rfl

/-- The block indices of the four windows at a grid point: the tiled windows move down the rows with the point,
    the scale and shift rows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of tile `t` is row `10000·t + p` of the array. -/
def row1 (t : Fin cfg1.N) (p : Fin 10000) : Fin 50000 :=
  ⟨10000 * t.val + p.val, by have := t.isLt; have hN : cfg1.N = 5 := N_1; have := p.isLt; omega⟩

/-- The three arrays the region reads, as it finds them: the activations on the lane-dense view, the scale row, the shift row. -/
abbrev h1 (c : Dev nD) : Vec Ideal S50000x128 .f32 := V c main_v45
abbrev scale1 (c : Dev nD) : Vec Ideal S1x128 .f32 := V c main_v46
abbrev shift1 (c : Dev nD) : Vec Ideal S1x128 .f32 := V c main_v47

/-- The output array: max(h · scale + shift, 0), the scale and shift rows read at the entry's lane. -/
def G1 (c : Dev nD) : Vec Ideal S50000x128 .bf16 :=
  fun i => max (h1 V c i * scale1 V c (ix2 0 (i 1)) + shift1 V c (ix2 0 (i 1))) 0

/-- Tile `t` of the activations, at row `p` and lane `q`. -/
theorem iblk1_0_apply (c : Dev nD) (t : Fin cfg1.N) (p : Fin 10000) (q : Fin 128) :
    (iblk1 V c 0 t : Vec Ideal S10000x128 .f32) (ix2 p q) = h1 V c (ix2 (row1 t p) q) := by
  obtain ⟨e0, e1, -⟩ := idx1 t
  unfold iblk1
  rw [View.read_apply]
  show h1 V c _ = _
  refine congrArg _ (funext fun a => Fin.ext ?_)
  match a with
  | ⟨0, _⟩ => show win1_0.index t (0 : Fin 2) * 10000 + 1 * p.val = 10000 * t.val + p.val; omega
  | ⟨1, _⟩ => show win1_0.index t (1 : Fin 2) * 128 + 1 * q.val = q.val; omega

/-- The scale row's block is the whole row. -/
theorem iblk1_1_apply (c : Dev nD) (t : Fin cfg1.N) (q : Fin 128) :
    (iblk1 V c 1 t : Vec Ideal S1x128 .f32) (ix2 0 q) = scale1 V c (ix2 0 q) := by
  obtain ⟨-, -, e0, e1, -⟩ := idx1 t
  unfold iblk1
  rw [View.read_apply]
  show scale1 V c _ = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The shift row's block is the whole row. -/
theorem iblk1_2_apply (c : Dev nD) (t : Fin cfg1.N) (q : Fin 128) :
    (iblk1 V c 2 t : Vec Ideal S1x128 .f32) (ix2 0 q) = shift1 V c (ix2 0 q) := by
  obtain ⟨-, -, -, -, e0, e1, -⟩ := idx1 t
  unfold iblk1
  rw [View.read_apply]
  show shift1 V c _ = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Tile `t` of a whole-array function, read through the output window's block. -/
theorem oblk1_apply (G : Vec Ideal S50000x128 .bf16) (t : Fin cfg1.N) (p : Fin 10000) (q : Fin 128) :
    (((cfg1.win 3).blk t).view.read (Elt Ideal) G : Vec Ideal S10000x128 .bf16) (ix2 p q) = G (ix2 (row1 t p) q) := by
  obtain ⟨-, -, -, -, -, -, e0, e1⟩ := idx1 t
  rw [View.read_apply]
  show G _ = _
  refine congrArg _ (funext fun a => Fin.ext ?_)
  match a with
  | ⟨0, _⟩ => show win1_3.index t (0 : Fin 2) * 10000 + 1 * p.val = 10000 * t.val + p.val; omega
  | ⟨1, _⟩ => show win1_3.index t (1 : Fin 2) * 128 + 1 * q.val = q.val; omega

/-- What grid point `t` writes back is tile `t` of `G1`. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero zero2]
  simp only [View.ld_unit_zero (S := S10000x128) zero2, View.ld_unit_zero (S := S1x128) zero2]
  funext j
  obtain ⟨p, q, rfl⟩ : ∃ (p : Fin 10000) (q : Fin 128), j = ix2 p q := ⟨j 0, j 1, eq_ix2 j⟩
  refine (k1_pay1_apply _ _ _ p q).trans ?_
  rw [iblk1_0_apply V c t p q, iblk1_1_apply V c t q, iblk1_2_apply V c t q]
  exact (oblk1_apply (G1 V c) t p q).symm

/-- An index of the array lies in point `t`'s block iff each coordinate is in the block's range. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v48).slice (win1_3.rect t)).set ↔ _
  rw [View.set_slice_whole, Rect.mem_set_unit]
  exact Iff.rfl

/-- Every row lies in the tile numbered by its quotient by 10000. -/
theorem cover1 (i : S50000x128.Idx) : ∃ t : Fin cfg1.N, (cfg1.win 3).flush t = true ∧ i ∈ ((cfg1.win 3).blk t).view.set := by
  have hN : cfg1.N = 5 := N_1
  have hi0 : (i 0).val < 50000 := (i 0).isLt
  have hi1 : (i 1).val < 128 := (i 1).isLt
  refine ⟨⟨(i 0).val / 10000, by omega⟩, flush1_3 _, ?_⟩
  rw [mem_blk1]
  obtain ⟨-, -, -, -, -, -, e0, e1⟩ := idx1 ⟨(i 0).val / 10000, by omega⟩
  intro a
  match a with
  | ⟨0, _⟩ =>
    show win1_3.index ⟨(i 0).val / 10000, _⟩ (0 : Fin 2) * 10000 ≤ (i 0).val ∧ (i 0).val < win1_3.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_3.index ⟨(i 0).val / 10000, _⟩ (1 : Fin 2) * 128 ≤ (i 1).val ∧ (i 1).val < win1_3.index ⟨(i 0).val / 10000, _⟩ (1 : Fin 2) * 128 + 128
    rw [e1]; omega

/-- The output array after the region: `G1` of the arrays the region found. -/
theorem final1 (c : Dev nD) : (dat1 (F := Ideal) V c).arrAt 3 cfg1.N = G1 V c :=
  (dat1 (F := Ideal) V c).arrAt_eq_of_cover 3 (G1 V c) (fun t _ => flushed1_eq V c t) cover1

/-- Entry by entry. -/
theorem final1_apply (c : Dev nD) (i : S50000x128.Idx) :
    ((dat1 (F := Ideal) V c).arrAt 3 cfg1.N : Vec Ideal S50000x128 .bf16) i
      = max (h1 V c i * scale1 V c (ix2 0 (i 1)) + shift1 V c (ix2 0 (i 1))) 0 :=
  congrFun (final1 V c) i

end Cert.KernelIdeal.HandValue

end
-- ==== Proof.KI.Region0Value.lean ====
/-
  The first layer's linear map with its column statistics: WHAT each control case leaves in the three output buffers,
  as the body's pure payloads of the input blocks.  With m the tile of neighbour means, x the tile of node features, Wl, Wr
  the weights and b the bias: the tile's output buffer ends at h = m·Wl + b + x·Wr; the first statistic buffer at
  (previous contents) + the column sums of h, the second at (previous contents) + the column sums of h², where the
  previous contents are the zero block at step 0 and the running sums otherwise.  Every store covers its whole buffer
  and every load reads a whole buffer, so each buffer's last store is what it holds.
-/
import proofs.«150514_j16690242912872_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a rank-2 and of a rank-3 whole-buffer access, as constant functions. -/
theorem hz2_0 : (![0, 0] : Fin 2 → Nat) = fun _ => 0 := funext fun a => by fin_cases a <;> rfl
theorem hz3_0 : (![0, 0, 0] : Fin 3 → Nat) = fun _ => 0 := funext fun a => by fin_cases a <;> rfl
/-- STEP 0, the tile's output: h. -/
theorem out0_A_5_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) :
    out0_A_5 c i arg2 harg2 arg3 harg3 arg4 harg4 arg5 harg5 arg6 harg6 arg7 harg7 arg8 harg8 arg9 harg9 hc0 x0 x1 x2 x3 x4 = k0_pay4 x0 x1 x2 x4 x3 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  rw [View.canon_unit_zero hz2_0]
  simp only [View.readAt_eq_ld, harg2.read_unread, harg3.read_unread, harg4.read_unread, harg5.read_unread, harg6.read_unread, View.ld_unit_zero (S := S10000x2) hz2_0, View.ld_unit_zero (S := S2x64) hz2_0, View.ld_unit_zero (S := S1x64) hz2_0]

/-- STEP 0, the column sums: the zero block plus the tile's column sums of h. -/
theorem out0_A_6_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) :
    out0_A_6 c i arg2 harg2 arg3 harg3 arg4 harg4 arg5 harg5 arg6 harg6 arg7 harg7 arg8 harg8 arg9 harg9 hc0 x0 x1 x2 x3 x4 = k0_pay6 x0 x1 x2 x4 x3 (k0_pay2 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x64) hz3_0, View.readCov_unit_zero (S := S1x1x64) _ hz3_0]
  simp only [View.readAt_eq_ld, harg2.read_unread, harg3.read_unread, harg4.read_unread, harg5.read_unread, harg6.read_unread, View.ld_unit_zero (S := S10000x2) hz2_0, View.ld_unit_zero (S := S2x64) hz2_0, View.ld_unit_zero (S := S1x64) hz2_0]

/-- STEP 0, the column sums of squares: the zero block plus the tile's column sums of h². -/
theorem out0_A_7_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond0_0 i)
    (x0 : Vec F S10000x2 .f32) (x1 : Vec F S10000x2 .f32) (x2 : Vec F S2x64 .f32) (x3 : Vec F S1x64 .f32) (x4 : Vec F S2x64 .f32) :
    out0_A_7 c i arg2 harg2 arg3 harg3 arg4 harg4 arg5 harg5 arg6 harg6 arg7 harg7 arg8 harg8 arg9 harg9 hc0 x0 x1 x2 x3 x4 = k0_pay1 (k0_pay5 x0 x1 x2 x4 x3) (k0_pay3 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x64) hz3_0, View.readCov_unit_zero (S := S1x1x64) _ hz3_0]
  simp only [View.readAt_eq_ld, harg2.read_unread, harg3.read_unread, harg4.read_unread, harg5.read_unread, harg6.read_unread, View.ld_unit_zero (S := S10000x2) hz2_0, View.ld_unit_zero (S := S2x64) hz2_0, View.ld_unit_zero (S := S1x64) hz2_0]

/-- STEP ≠ 0, the tile's output: h. -/
theorem out0_B_5_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) :
    out0_B_5 c i arg2 harg2 arg3 harg3 arg4 harg4 arg5 harg5 arg6 harg6 arg7 harg7 arg8 harg8 arg9 harg9 hc0 x0 x1 x2 x3 x4 xo6 xo7 = k0_pay4 x0 x1 x2 x4 x3 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  rw [View.canon_unit_zero hz2_0]
  simp only [View.readAt_eq_ld, harg2.read_unread, harg3.read_unread, harg4.read_unread, harg5.read_unread, harg6.read_unread, View.ld_unit_zero (S := S10000x2) hz2_0, View.ld_unit_zero (S := S2x64) hz2_0, View.ld_unit_zero (S := S1x64) hz2_0]

/-- STEP ≠ 0, the column sums: the running sums plus the tile's column sums of h. -/
theorem out0_B_6_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) :
    out0_B_6 c i arg2 harg2 arg3 harg3 arg4 harg4 arg5 harg5 arg6 harg6 arg7 harg7 arg8 harg8 arg9 harg9 hc0 x0 x1 x2 x3 x4 xo6 xo7 = k0_pay6 x0 x1 x2 x4 x3 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz3_0]
  simp only [View.readAt_eq_ld, harg2.read_unread, harg3.read_unread, harg4.read_unread, harg5.read_unread, harg6.read_unread, harg8.read_unread, harg9.read_unread, View.ld_unit_zero (S := S10000x2) hz2_0, View.ld_unit_zero (S := S2x64) hz2_0, View.ld_unit_zero (S := S1x64) hz2_0, View.ld_unit_zero (S := S1x1x64) hz3_0]

/-- STEP ≠ 0, the column sums of squares: the running sums plus the tile's column sums of h². -/
theorem out0_B_7_eq (c : Dev nD) (i : grid0.Coords) (arg2 : Memref sig .tc .vmem S10000x2 .f32) (harg2 : arg2.IsWhole) (arg3 : Memref sig .tc .vmem S10000x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond0_0 i)
    (x0 : Vec F S10000x2 .f32) (x1 : Vec F S10000x2 .f32) (x2 : Vec F S2x64 .f32) (x3 : Vec F S1x64 .f32) (x4 : Vec F S2x64 .f32) (xo6 : Vec F S1x1x64 .f32) (xo7 : Vec F S1x1x64 .f32) :
    out0_B_7 c i arg2 harg2 arg3 harg3 arg4 harg4 arg5 harg5 arg6 harg6 arg7 harg7 arg8 harg8 arg9 harg9 hc0 x0 x1 x2 x3 x4 xo6 xo7 = k0_pay1 (k0_pay5 x0 x1 x2 x4 x3) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz3_0]
  simp only [View.readAt_eq_ld, harg2.read_unread, harg3.read_unread, harg4.read_unread, harg5.read_unread, harg6.read_unread, harg8.read_unread, harg9.read_unread, View.ld_unit_zero (S := S10000x2) hz2_0, View.ld_unit_zero (S := S2x64) hz2_0, View.ld_unit_zero (S := S1x64) hz2_0, View.ld_unit_zero (S := S1x1x64) hz3_0]

end Cert.KernelIdeal.Hand

end
-- ==== Proof.KI.Region0Steps.lean ====
/-
  The first layer's linear map with its column statistics: what the three output buffers hold after the body at a
  grid point, as the body's pure payloads of the point's input blocks.  With m, x, Wl, b, Wr the blocks of windows 0..4 at
  the point: the tile's output is h = m·Wl + b + x·Wr; at step 0 the statistic buffers hold 0 + (column sums of h) and
  0 + (column sums of h²); at a later step, what the point before left plus the same column sums.
-/
import proofs.«150514_j16690242912872_2_alg».proof.Proof.KI.Region0Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- At a point with step = 0. -/
theorem outsAt0_A_eq (c : Dev nD) (t : Fin cfg0.N) (h0 : t.val % 5 = 0) :
    outsAt0 V c t.val t.isLt =
      (k0_pay4 (iblk0 V c 0 t) (iblk0 V c 1 t) (iblk0 V c 2 t) (iblk0 V c 4 t) (iblk0 V c 3 t),
       k0_pay6 (iblk0 V c 0 t) (iblk0 V c 1 t) (iblk0 V c 2 t) (iblk0 V c 4 t) (iblk0 V c 3 t) (k0_pay2 (F := F)),
       k0_pay1 (k0_pay5 (iblk0 V c 0 t) (iblk0 V c 1 t) (iblk0 V c 2 t) (iblk0 V c 4 t) (iblk0 V c 3 t)) (k0_pay3 (F := F))) :=
  (outsAt0_A V c t h0).trans
    (congr (congrArg Prod.mk (out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))
      (congr (congrArg Prod.mk (out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))
        (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- At a point with step ≠ 0, over what the point before left in the two statistic buffers. -/
theorem outsAt0_B_eq (c : Dev nD) (t : Fin cfg0.N) (h0 : ¬t.val % 5 = 0) :
    outsAt0 V c t.val t.isLt =
      (k0_pay4 (iblk0 V c 0 t) (iblk0 V c 1 t) (iblk0 V c 2 t) (iblk0 V c 4 t) (iblk0 V c 3 t),
       k0_pay6 (iblk0 V c 0 t) (iblk0 V c 1 t) (iblk0 V c 2 t) (iblk0 V c 4 t) (iblk0 V c 3 t) (outsAt0 V c (t.val - 1) (Nat.lt_of_le_of_lt (Nat.sub_le _ _) t.isLt)).2.1,
       k0_pay1 (k0_pay5 (iblk0 V c 0 t) (iblk0 V c 1 t) (iblk0 V c 2 t) (iblk0 V c 4 t) (iblk0 V c 3 t)) (outsAt0 V c (t.val - 1) (Nat.lt_of_le_of_lt (Nat.sub_le _ _) t.isLt)).2.2) :=
  (outsAt0_B V c t h0).trans
    (congr (congrArg Prod.mk (out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))
      (congr (congrArg Prod.mk (out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))
        (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)))

end Cert.KernelIdeal.Hand

end
-- ==== Proof.KV.Region0Blocks.lean ====
/-
  The first layer's linear map with its column statistics: where each window's block sits in its array.  At grid
  point t (= 5·core + step) the two row-tiled inputs and the row-tiled output are at rows 10000·t … 10000·t + 9999 of
  their 100000-row arrays; the weights and the bias are their whole arrays at every point; the two [1,1,64] statistic
  blocks are slab t / 5 (the core's) of their [2,1,64] arrays.  Hence an input block read at an index is the array, as
  the region finds it, read at the shifted index.
-/
import proofs.«150514_j16690242912872_2_alg».proof.Proof.KI.Region0Steps
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The printed block-index maps in closed form, decided over the grid: the row-tiled windows 0, 1, 5 are at row block
    `t`, the constant windows 2, 3, 4 at block 0, the statistic windows 6, 7 at slab `t / 5`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val / 5 ∧ win0_6.index t (1 : Fin 3) = 0 ∧ win0_6.index t (2 : Fin 3) = 0
    ∧ win0_7.index t (0 : Fin 3) = t.val / 5 ∧ win0_7.index t (1 : Fin 3) = 0 ∧ win0_7.index t (2 : Fin 3) = 0 :=
  (by decide +kernel : ∀ t : Fin grid0.N, _)

/-- Row `p` of the tile at point `t` is a row of the array. -/
theorem tile_row_lt0 (t : Fin cfg0.N) (p : Fin 10000) : 10000 * t.val + p.val < 100000 := by
  have hN : t.val < 10 := lt_of_lt_of_eq t.isLt (show cfg0.N = 10 from N_0)
  have := p.isLt; omega

/-- The tile of neighbour means at point `t`, read at row `p`, column `k`: the array at row `10000·t + p`. -/
theorem iblk0_0_apply (c : Dev nD) (t : Fin cfg0.N) (p : Fin 10000) (k : Fin 2) :
    (iblk0 V c 0 t : Vec F S10000x2 .f32) (ix2 p k) = V c main_v24 (ix2 ⟨10000 * t.val + p.val, tile_row_lt0 t p⟩ k) := by
  obtain ⟨e0, e1, -⟩ := idx_facts0 t
  unfold iblk0
  rw [View.read_apply]
  show V c main_v24 _ = V c main_v24 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 2 + 1 * k.val = k.val; rw [e1]; omega

/-- The tile of node features at point `t`, read at row `p`, column `k`: the array at row `10000·t + p`. -/
theorem iblk0_1_apply (c : Dev nD) (t : Fin cfg0.N) (p : Fin 10000) (k : Fin 2) :
    (iblk0 V c 1 t : Vec F S10000x2 .f32) (ix2 p k) = V c main_arg0 (ix2 ⟨10000 * t.val + p.val, tile_row_lt0 t p⟩ k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 10000 + 1 * p.val = 10000 * t.val + p.val; rw [e0]; omega
  | ⟨1, _⟩ => show win0_1.index t (1 : Fin 2) * 2 + 1 * k.val = k.val; rw [e1]; omega

/-- The left weight's block at any point is the whole array. -/
theorem iblk0_2_apply (c : Dev nD) (t : Fin cfg0.N) (k : Fin 2) (j : Fin 64) :
    (iblk0 V c 2 t : Vec F S2x64 .f32) (ix2 k j) = V c main_arg2 (ix2 k j) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 2 + 1 * k.val = k.val; rw [e0]; omega
  | ⟨1, _⟩ => show win0_2.index t (1 : Fin 2) * 64 + 1 * j.val = j.val; rw [e1]; omega

/-- The bias row's block at any point is the whole array. -/
theorem iblk0_3_apply (c : Dev nD) (t : Fin cfg0.N) (z : Fin 1) (j : Fin 64) :
    (iblk0 V c 3 t : Vec F S1x64 .f32) (ix2 z j) = V c main_v25 (ix2 z j) := by
  obtain ⟨-, -, -, -, -, -, e0, e1, -⟩ := idx_facts0 t
  unfold iblk0
  rw [View.read_apply]
  show V c main_v25 _ = V c main_v25 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * j.val = j.val; rw [e1]; omega

/-- The right weight's block at any point is the whole array. -/
theorem iblk0_4_apply (c : Dev nD) (t : Fin cfg0.N) (k : Fin 2) (j : Fin 64) :
    (iblk0 V c 4 t : Vec F S2x64 .f32) (ix2 k j) = V c main_arg4 (ix2 k j) := by
  obtain ⟨-, -, -, -, -, -, -, -, e0, e1, -⟩ := idx_facts0 t
  unfold iblk0
  rw [View.read_apply]
  show V c main_arg4 _ = V c main_arg4 _
  congr 1
  funext a
  apply Fin.ext
  match a with
  | ⟨0, _⟩ => show win0_4.index t (0 : Fin 2) * 2 + 1 * k.val = k.val; rw [e0]; omega
  | ⟨1, _⟩ => show win0_4.index t (1 : Fin 2) * 64 + 1 * j.val = j.val; rw [e1]; omega

end Cert.KernelIdeal.HandValue

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KV.Payload0.lean ====
/-
  The linear-map + BatchNorm-sums body of layer 1, read at one element.  The stored activations at row p, column j
  of a tile are (mean-neighbour row p)·Wl + bias + (own row p)·Wr, each product the textbook sum over the 2 input
  features (a product into a zero accumulator is that sum; the change of format to bf16 is the identity on extended
  reals); the two statistics rows add to what they held the tile's column sum of the activations and of their squares.
-/
import proofs.«150514_j16690242912872_2_alg».proof.Proof.Gen.KernelIdeal.Skeleton
import proofs.«150514_j16690242912872_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-- The kernel's product record is the plain rows-by-columns product. -/
theorem dot0_plain : dot_S10000x2_S2x64_S10000x64_1_0_0_1_n_n = DotDims.plain 10000 2 64 := rfl

/-- A column sum over a tile's 10000 rows: the reduction over the row axis from the zero word, at column `j`. -/
theorem colsum0_apply (src : FVec Ideal S10000x64 .f32) (hφ : FKind.Formats .f32)
    (hacc : (0x00000000#32 : BitVec 32) = 0x00000000#32) (j : Fin 64) :
    multiReduction .add [0] S64 src 0x00000000#32 reduces_S10000x64_S64 hφ hacc (ix1 j) = ∑ p : Fin 10000, src (ix2 p j) := by
  refine (Ideal.multiReduction_add_single src 0x00000000#32 reduces_S10000x64_S64 hφ hacc (ix1 j)).trans ?_
  refine Finset.sum_congr rfl fun p _ => congrArg src ?_
  exact funext fun a => Fin.ext (by match a with | ⟨0, _⟩ => rfl | ⟨1, _⟩ => rfl)

/-- The activations the body stores, at row `p`, column `j` of the tile. -/
theorem k0_pay4_apply (x0 : Vec Ideal S10000x2 .f32) (x1 : Vec Ideal S10000x2 .f32) (w w' : Vec Ideal S2x64 .f32) (b : Vec Ideal S1x64 .f32)
    (p : Fin 10000) (j : Fin 64) :
    k0_pay4 (F := Ideal) x0 x1 w w' b (ix2 p j)
      = ((∑ k : Fin 2, x0 (ix2 p k) * w (ix2 k j)) + b (ix2 0 j)) + ∑ k : Fin 2, x1 (ix2 p k) * w' (ix2 k j) := by
  unfold k0_pay4
  simp only [shapeCast_self]
  show (matmul (F := Ideal) dot_S10000x2_S2x64_S10000x64_1_0_0_1_n_n none (truncf .bf16 x0 bitsLt_bf16_f32) (truncf .bf16 w bitsLt_bf16_f32) (constant (F := Ideal) S10000x64 .f32 0x00000000#32) (ix2 p j)
      + broadcastTo S10000x64 b broadcasts_S1x64_S10000x64 (ix2 p j))
      + matmul (F := Ideal) dot_S10000x2_S2x64_S10000x64_1_0_0_1_n_n none (truncf .bf16 x1 bitsLt_bf16_f32) (truncf .bf16 w' bitsLt_bf16_f32) (constant (F := Ideal) S10000x64 .f32 0x00000000#32) (ix2 p j) = _
  rw [Cert.PlainProduct.matmul_plain_apply _ dot0_plain, Cert.PlainProduct.matmul_plain_apply _ dot0_plain,
    broadcastTo_1b_ab_apply b broadcasts_S1x64_S10000x64 p j]
  rfl

/-- The sums row after the body: what it held plus the tile's column sum of the activations. -/
theorem k0_pay6_apply (x0 : Vec Ideal S10000x2 .f32) (x1 : Vec Ideal S10000x2 .f32) (w w' : Vec Ideal S2x64 .f32) (b : Vec Ideal S1x64 .f32)
    (acc : Vec Ideal S1x1x64 .f32) (j : Fin 64) :
    k0_pay6 (F := Ideal) x0 x1 w w' b acc (ix3 0 0 j)
      = acc (ix3 0 0 j) + ∑ p : Fin 10000, k0_pay4 (F := Ideal) x0 x1 w w' b (ix2 p j) := by
  unfold k0_pay6
  simp only [shapeCast_self]
  show acc (ix3 0 0 j) + shapeCast S1x1x64 (shapeCast S1x64 (multiReduction (F := Ideal) .add [0] S64 (k0_pay4 (F := Ideal) x0 x1 w w' b) 0x00000000#32
      reduces_S10000x64_S64 (.inl rfl) rfl) shapeCasts_S64_S1x64) shapeCasts_S1x64_S1x1x64 (ix3 0 0 j) = _
  rw [shapeCast_ab_1ab_apply _ shapeCasts_S1x64_S1x1x64 0 0 j, shapeCast_a_1a_apply _ shapeCasts_S64_S1x64 0 j,
    colsum0_apply _ (.inl rfl) rfl j]

/-- The tile's column sum of the squared activations (what the body then adds into the squares row). -/
theorem k0_pay5_apply (x0 : Vec Ideal S10000x2 .f32) (x1 : Vec Ideal S10000x2 .f32) (w w' : Vec Ideal S2x64 .f32) (b : Vec Ideal S1x64 .f32)
    (j : Fin 64) :
    k0_pay5 (F := Ideal) x0 x1 w w' b (ix3 0 0 j)
      = ∑ p : Fin 10000, k0_pay4 (F := Ideal) x0 x1 w w' b (ix2 p j) * k0_pay4 (F := Ideal) x0 x1 w w' b (ix2 p j) := by
  unfold k0_pay5
  show shapeCast S1x1x64 (shapeCast S1x64 (multiReduction (F := Ideal) .add [0] S64
      (mulf (k0_pay4 (F := Ideal) x0 x1 w w' b) (k0_pay4 (F := Ideal) x0 x1 w w' b)) 0x00000000#32
      reduces_S10000x64_S64 (.inl rfl) rfl) shapeCasts_S64_S1x64) shapeCasts_S1x64_S1x1x64 (ix3 0 0 j) = _
  rw [shapeCast_ab_1ab_apply _ shapeCasts_S1x64_S1x1x64 0 0 j, shapeCast_a_1a_apply _ shapeCasts_S64_S1x64 0 j,
    colsum0_apply _ (.inl rfl) rfl j]
  rfl

/-- The squares row after the body: what it held plus the tile's sum. -/
theorem k0_pay1_apply (v26 : FVec Ideal S1x1x64 .f32) (v31 : Vec Ideal S1x1x64 .f32) (i : S1x1x64.Idx) :
    k0_pay1 (F := Ideal) v26 v31 i = v31 i + v26 i := by
  unfold k0_pay1
  simp only [shapeCast_self]
  rfl

/-- The first point of a core's sweep zeroes the sums row … -/
theorem k0_pay2_apply (i : S1x1x64.Idx) : k0_pay2 (F := Ideal) i = 0 := by
  unfold k0_pay2
  show Ideal.ofBits .f32 0x00000000#32 = 0
  exact Ideal.ofBits_zero_f32

/-- … and the squares row. -/
theorem k0_pay3_apply (i : S1x1x64.Idx) : k0_pay3 (F := Ideal) i = 0 := by
  unfold k0_pay3
  show Ideal.ofBits .f32 0x00000000#32 = 0
  exact Ideal.ofBits_zero_f32

end Cert.KernelIdeal.HandValue

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.Math.TileSum.lean ====
/-
  A sum over all nodes, computed tile by tile.

  The `100000` nodes are split between two halves of `50000`, each half into five tiles of `10000`
  rows; a half's partial sum starts at `0` and adds one tile's sum after the other, and the two partial
  sums are added at the end. Addition being commutative and associative, this is the sum over all
  nodes, whatever the summands are.
-/
import proofs.«150514_j16690242912872_2_alg».proof.Proof.LibBlockSum

open scoped BigOperators

namespace Cert.Math

open Cert.Lib.BlockSum

variable {M : Type*} [AddCommMonoid M]

/-- Row `q` of tile `i` of half `c` is a node. -/
theorem row_lt (c : Fin 2) (i : Fin 5) (q : Fin 10000) : 50000 * c.val + 10000 * i.val + q.val < 100000 := by
  have := c.isLt; have := i.isLt; have := q.isLt; omega

/-- The sum of `f` over the `10000` rows of tile `i` of half `c`. -/
def tileSum (f : Fin 100000 → M) (c : Fin 2) (i : Fin 5) : M :=
  ∑ q : Fin 10000, f ⟨50000 * c.val + 10000 * i.val + q.val, row_lt c i q⟩

/-- The sum over all nodes is the sum over the halves, the tiles of a half and the rows of a tile. -/
theorem sum_tiles (f : Fin 100000 → M) :
    ∑ r, f r = ∑ c : Fin 2, ∑ i : Fin 5, tileSum f c i := by
  rw [sum_eq_sum_blocks 2 50000 rfl f]
  refine Finset.sum_congr rfl fun c _ => ?_
  refine (sum_eq_sum_blocks 5 10000 rfl
    (fun r' : Fin 50000 => f ⟨50000 * c.val + r'.val, block_index_lt rfl c r'⟩)).trans ?_
  refine Finset.sum_congr rfl fun i _ => Finset.sum_congr rfl fun q _ => congrArg f (Fin.ext ?_)
  show 50000 * c.val + (10000 * i.val + q.val) = 50000 * c.val + 10000 * i.val + q.val
  exact (Nat.add_assoc _ _ _).symm

/-- A running sum over five steps that starts at `0` is the sum of the five terms. -/
theorem acc5 (t : Fin 5 → M) : ((((0 + t 0) + t 1) + t 2) + t 3) + t 4 = ∑ i, t i := by
  rw [Fin.sum_univ_five, zero_add]

/-- A running sum over five steps that starts at the first term is the sum of the five terms. -/
theorem acc5' (t : Fin 5 → M) : (((t 0 + t 1) + t 2) + t 3) + t 4 = ∑ i, t i :=
  (Fin.sum_univ_five t).symm

/-- Two partial sums added are the sum over the two halves. -/
theorem sum2 (u : Fin 2 → M) : u 0 + u 1 = ∑ c, u c := (Fin.sum_univ_two u).symm

/-- THE TILED SUM: each half's running sum from `0` over its five tiles, the halves added, is the sum over
    all nodes. -/
theorem sum_tiles_running (f : Fin 100000 → M) :
    ∑ c : Fin 2, (((((0 + tileSum f c 0) + tileSum f c 1) + tileSum f c 2) + tileSum f c 3) + tileSum f c 4)
      = ∑ r, f r := by
  rw [sum_tiles f]
  exact Finset.sum_congr rfl fun c _ => acc5 (tileSum f c)

/-- The same with the two halves written out. -/
theorem sum_tiles_running_two (f : Fin 100000 → M) :
    (((((0 + tileSum f 0 0) + tileSum f 0 1) + tileSum f 0 2) + tileSum f 0 3) + tileSum f 0 4)
      + (((((0 + tileSum f 1 0) + tileSum f 1 1) + tileSum f 1 2) + tileSum f 1 3) + tileSum f 1 4)
      = ∑ r, f r := by
  rw [← sum_tiles_running f, Fin.sum_univ_two]

end Cert.Math
-- ==== Proof.KV.Region0Final.lean ====
/-
  The first layer's linear map with its column statistics, over the extended reals: what the three output arrays
  hold after the ten grid points, as functions of the arrays the region finds.  Writing, for node r and column j,
      h r j = (Σₖ mean r k · Wl k j + b j) + Σₖ x r k · Wr k j,
  the [100000,64] output holds h (each point writes its own tile of 10000 rows back, and the ten tiles partition the
  rows); the [2,1,64] statistic outputs hold, in the slab of core q, the running sums from 0 over the core's five tiles
  of the tile's column sums of h, resp. of h·h (a slab is written back after the core's last tile only, and holds there
  what the five points accumulated).
-/
import proofs.«150514_j16690242912872_2_alg».proof.Proof.KV.Region0Blocks
import proofs.«150514_j16690242912872_2_alg».proof.Proof.KV.Payload0
import proofs.«150514_j16690242912872_2_alg».proof.Proof.Math.TileSum

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Math

-- the TensorCore's buffer contents when the region is entered
variable (V : (c : Dev nD) → (b : Ref sig .tc) → Buf (Elt Ideal) ((c : Thread nD τ).loc b))

/-! ## The arrays the region reads, and the linear map -/

/-- The aggregated neighbour means, the node features, the two weights and the bias row, as the region finds them. -/
abbrev mean0 (c : Dev nD) : S100000x2.Idx → Ideal .f32 := V c main_v24
abbrev feat0 (c : Dev nD) : S100000x2.Idx → Ideal .f32 := V c main_arg0
abbrev wl0 (c : Dev nD) : S2x64.Idx → Ideal .f32 := V c main_arg2
abbrev bias0 (c : Dev nD) : S1x64.Idx → Ideal .f32 := V c main_v25
abbrev wr0 (c : Dev nD) : S2x64.Idx → Ideal .f32 := V c main_arg4

/-- `h r j`: node `r`'s pre-activation in column `j`. -/
def lin0 (c : Dev nD) (r : Fin 100000) (j : Fin 64) : Ideal .f32 :=
  ((∑ k : Fin 2, mean0 V c (ix2 r k) * wl0 V c (ix2 k j)) + bias0 V c (ix2 0 j))
    + ∑ k : Fin 2, feat0 V c (ix2 r k) * wr0 V c (ix2 k j)

/-- The body's output payload at point `t`, row `p` of the tile, column `j`: `h` at node `10000·t + p`. -/
theorem pay4_blk0 (c : Dev nD) (t : Fin cfg0.N) (p : Fin 10000) (j : Fin 64) :
    k0_pay4 (F := Ideal) (iblk0 V c 0 t) (iblk0 V c 1 t) (iblk0 V c 2 t) (iblk0 V c 4 t) (iblk0 V c 3 t) (ix2 p j)
      = lin0 V c ⟨10000 * t.val + p.val, tile_row_lt0 t p⟩ j := by
  refine (k0_pay4_apply (iblk0 V c 0 t) (iblk0 V c 1 t) (iblk0 V c 2 t) (iblk0 V c 4 t) (iblk0 V c 3 t) p j).trans ?_
  unfold lin0
  simp only [iblk0_0_apply V c t, iblk0_1_apply V c t, iblk0_2_apply V c t, iblk0_3_apply V c t, iblk0_4_apply V c t]

/-- After the body at any point the tile's output buffer holds the output payload of the point's blocks. -/
theorem outsAt0_fst (c : Dev nD) (t : Fin cfg0.N) :
    (outsAt0 V c t.val t.isLt).1 = k0_pay4 (F := Ideal) (iblk0 V c 0 t) (iblk0 V c 1 t) (iblk0 V c 2 t) (iblk0 V c 4 t) (iblk0 V c 3 t) := by
  by_cases h0 : t.val % 5 = 0
  · rw [outsAt0_A_eq V c t h0]
  · rw [outsAt0_B_eq V c t h0]

/-! ## The [100000,64] output: `h` -/

/-- The output array after the region: `h`, index by index. -/
def hArr0 (c : Dev nD) : S100000x64.Idx → Ideal .f32 := fun i => lin0 V c (i 0) (i 1)

/-- What point `t` writes back is tile `t` of `h`. -/
theorem flushed0_5_eq (c : Dev nD) (t : Fin cfg0.N) :
    (dat0 V c).flushed 5 t = ((cfg0.win 5).blk t).view.read (Elt Ideal) (hArr0 V c) := by
  obtain ⟨-, -, -, -, -, -, -, -, -, -, e0, e1, -⟩ := idx_facts0 t
  show (cfg0.win 5).cut (grid0.coords t) ((dat0 V c).after 5 t) = _
  rw [after0_5, outsAt0_fst V c t]
  funext y
  obtain ⟨p, j, rfl⟩ : ∃ (p : Fin 10000) (j : Fin 64), y = ix2 p j := ⟨y 0, y 1, eq_ix2 y⟩
  show k0_pay4 (F := Ideal) (iblk0 V c 0 t) (iblk0 V c 1 t) (iblk0 V c 2 t) (iblk0 V c 4 t) (iblk0 V c 3 t) (ix2 p j) = hArr0 V c (((cfg0.win 5).blk t).view.emb (ix2 p j))
  rw [pay4_blk0 V c t p j]
  unfold hArr0
  show lin0 V c _ _ = lin0 V c _ _
  congr 1
  · apply Fin.ext
    show 10000 * t.val + p.val = win0_5.index t (0 : Fin 2) * 10000 + 1 * p.val
    rw [e0]; omega
  · apply Fin.ext
    show j.val = win0_5.index t (1 : Fin 2) * 64 + 1 * j.val
    rw [e1]; omega

/-- An index of the array is in point `t`'s tile iff each coordinate is in the tile's range on its axis. -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26_0).slice (win0_5.rect t)).set ↔ _
  rw [View.set_slice_whole, Rect.mem_set_unit]
  exact Iff.rfl

/-- The ten tiles partition the rows: row `r` is in the tile of point `r / 10000`, and every point writes back. -/
theorem cover0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1, -⟩ := idx_facts0 t
  refine ⟨t, flush0_5 t, ?_⟩
  rw [mem_blk0_5]
  intro a
  match a with
  | ⟨0, _⟩ => show win0_5.index t (0 : Fin 2) * 10000 ≤ (i 0).val ∧ (i 0).val < win0_5.index t (0 : Fin 2) * 10000 + 10000
              rw [e0, ht]; omega
  | ⟨1, _⟩ => show win0_5.index t (1 : Fin 2) * 64 ≤ (i 1).val ∧ (i 1).val < win0_5.index t (1 : Fin 2) * 64 + 64
              rw [e1]; omega

/-- THE OUTPUT ARRAY after the ten points is `h`. -/
theorem final0_5 (c : Dev nD) : (dat0 V c).arrAt 5 cfg0.N = hArr0 V c :=
  (dat0 V c).arrAt_eq_of_cover 5 (hArr0 V c) (fun t _ => flushed0_5_eq V c t) cover0_5

/-- The same, at node `r` and column `j`. -/
theorem final0_5_apply (c : Dev nD) (r : Fin 100000) (j : Fin 64) :
    ((dat0 V c).arrAt 5 cfg0.N : S100000x64.Idx → Ideal .f32) (ix2 r j) = lin0 V c r j :=
  congrFun (final0_5 V c) (ix2 r j)

/-! ## The statistic outputs: a core's running sums over its five tiles -/

/-- The sum of `f` over the 10000 rows of the tile at point `n`. -/
def tile0 (f : Fin 100000 → Ideal .f32) (n : ℕ) (h : n < cfg0.N) : Ideal .f32 :=
  ∑ p : Fin 10000, f ⟨10000 * n + p.val, tile_row_lt0 ⟨n, h⟩ p⟩

/-- Point `5·q + i` is tile `i` of core `q`. -/
theorem tile0_eq_tileSum (f : Fin 100000 → Ideal .f32) (q : Fin 2) (i : Fin 5) (h : 5 * q.val + i.val < cfg0.N) :
    tile0 f (5 * q.val + i.val) h = tileSum f q i :=
  Finset.sum_congr rfl fun p _ => congrArg f (Fin.ext (by
    show 10000 * (5 * q.val + i.val) + p.val = 50000 * q.val + 10000 * i.val + p.val; omega))

/-- The tile's column sum of the output payload is the tile's sum of `h` in that column; -/
theorem colsum_blk0 (c : Dev nD) (t : Fin cfg0.N) (j : Fin 64) :
    ∑ p : Fin 10000, k0_pay4 (F := Ideal) (iblk0 V c 0 t) (iblk0 V c 1 t) (iblk0 V c 2 t) (iblk0 V c 4 t) (iblk0 V c 3 t) (ix2 p j) = tile0 (fun r => lin0 V c r j) t.val t.isLt :=
  Finset.sum_congr rfl fun p _ => pay4_blk0 V c t p j

/-- and of its square, the tile's sum of `h·h`. -/
theorem colsumsq_blk0 (c : Dev nD) (t : Fin cfg0.N) (j : Fin 64) :
    ∑ p : Fin 10000, k0_pay4 (F := Ideal) (iblk0 V c 0 t) (iblk0 V c 1 t) (iblk0 V c 2 t) (iblk0 V c 4 t) (iblk0 V c 3 t) (ix2 p j) * k0_pay4 (F := Ideal) (iblk0 V c 0 t) (iblk0 V c 1 t) (iblk0 V c 2 t) (iblk0 V c 4 t) (iblk0 V c 3 t) (ix2 p j)
      = tile0 (fun r => lin0 V c r j * lin0 V c r j) t.val t.isLt :=
  Finset.sum_congr rfl fun p _ => by rw [pay4_blk0 V c t p j]

/-- At a core's first point the sum buffer holds 0 plus the tile's column sums; -/
theorem base0_6 (c : Dev nD) (t : Fin cfg0.N) (h0 : t.val % 5 = 0) (j : Fin 64) :
    ((outsAt0 V c t.val t.isLt).2.1 : Vec Ideal S1x1x64 .f32) (ix3 0 0 j) = 0 + tile0 (fun r => lin0 V c r j) t.val t.isLt := by
  rw [outsAt0_A_eq V c t h0]
  show k0_pay6 (F := Ideal) (iblk0 V c 0 t) (iblk0 V c 1 t) (iblk0 V c 2 t) (iblk0 V c 4 t) (iblk0 V c 3 t) (k0_pay2 (F := Ideal)) (ix3 0 0 j) = _
  refine (k0_pay6_apply (iblk0 V c 0 t) (iblk0 V c 1 t) (iblk0 V c 2 t) (iblk0 V c 4 t) (iblk0 V c 3 t) (k0_pay2 (F := Ideal)) j).trans ?_
  rw [k0_pay2_apply, colsum_blk0 V c t j]

/-- at a later point, what the point before left plus the tile's column sums. -/
theorem step0_6 (c : Dev nD) (t : Fin cfg0.N) (h0 : ¬t.val % 5 = 0) (j : Fin 64) :
    ((outsAt0 V c t.val t.isLt).2.1 : Vec Ideal S1x1x64 .f32) (ix3 0 0 j)
      = ((outsAt0 V c (t.val - 1) (Nat.lt_of_le_of_lt (Nat.sub_le _ _) t.isLt)).2.1 : Vec Ideal S1x1x64 .f32) (ix3 0 0 j) + tile0 (fun r => lin0 V c r j) t.val t.isLt := by
  rw [outsAt0_B_eq V c t h0]
  show k0_pay6 (F := Ideal) (iblk0 V c 0 t) (iblk0 V c 1 t) (iblk0 V c 2 t) (iblk0 V c 4 t) (iblk0 V c 3 t) (outsAt0 V c (t.val - 1) (Nat.lt_of_le_of_lt (Nat.sub_le _ _) t.isLt)).2.1 (ix3 0 0 j) = _
  refine (k0_pay6_apply (iblk0 V c 0 t) (iblk0 V c 1 t) (iblk0 V c 2 t) (iblk0 V c 4 t) (iblk0 V c 3 t) (outsAt0 V c (t.val - 1) (Nat.lt_of_le_of_lt (Nat.sub_le _ _) t.isLt)).2.1 j).trans ?_
  rw [colsum_blk0 V c t j]

/-- The same two for the buffer of squares. -/
theorem base0_7 (c : Dev nD) (t : Fin cfg0.N) (h0 : t.val % 5 = 0) (j : Fin 64) :
    ((outsAt0 V c t.val t.isLt).2.2 : Vec Ideal S1x1x64 .f32) (ix3 0 0 j) = 0 + tile0 (fun r => lin0 V c r j * lin0 V c r j) t.val t.isLt := by
  rw [outsAt0_A_eq V c t h0]
  show k0_pay1 (F := Ideal) (k0_pay5 (F := Ideal) (iblk0 V c 0 t) (iblk0 V c 1 t) (iblk0 V c 2 t) (iblk0 V c 4 t) (iblk0 V c 3 t)) (k0_pay3 (F := Ideal)) (ix3 0 0 j) = _
  rw [k0_pay1_apply, k0_pay3_apply]
  exact congrArg (0 + ·) ((k0_pay5_apply (iblk0 V c 0 t) (iblk0 V c 1 t) (iblk0 V c 2 t) (iblk0 V c 4 t) (iblk0 V c 3 t) j).trans (colsumsq_blk0 V c t j))

theorem step0_7 (c : Dev nD) (t : Fin cfg0.N) (h0 : ¬t.val % 5 = 0) (j : Fin 64) :
    ((outsAt0 V c t.val t.isLt).2.2 : Vec Ideal S1x1x64 .f32) (ix3 0 0 j)
      = ((outsAt0 V c (t.val - 1) (Nat.lt_of_le_of_lt (Nat.sub_le _ _) t.isLt)).2.2 : Vec Ideal S1x1x64 .f32) (ix3 0 0 j) + tile0 (fun r => lin0 V c r j * lin0 V c r j) t.val t.isLt := by
  rw [outsAt0_B_eq V c t h0]
  show k0_pay1 (F := Ideal) (k0_pay5 (F := Ideal) (iblk0 V c 0 t) (iblk0 V c 1 t) (iblk0 V c 2 t) (iblk0 V c 4 t) (iblk0 V c 3 t)) (outsAt0 V c (t.val - 1) (Nat.lt_of_le_of_lt (Nat.sub_le _ _) t.isLt)).2.2 (ix3 0 0 j) = _
  rw [k0_pay1_apply]
  exact congrArg (_ + ·) ((k0_pay5_apply (iblk0 V c 0 t) (iblk0 V c 1 t) (iblk0 V c 2 t) (iblk0 V c 4 t) (iblk0 V c 3 t) j).trans (colsumsq_blk0 V c t j))

/-- Core `q`'s running sum from 0 over its five tiles of the tiles' sums of `h` in column `j`, -/
def statSum0 (c : Dev nD) (q : Fin 2) (j : Fin 64) : Ideal .f32 :=
  ((((0 + tileSum (fun r => lin0 V c r j) q 0) + tileSum (fun r => lin0 V c r j) q 1) + tileSum (fun r => lin0 V c r j) q 2) + tileSum (fun r => lin0 V c r j) q 3) + tileSum (fun r => lin0 V c r j) q 4

/-- and of `h·h`. -/
def statSq0 (c : Dev nD) (q : Fin 2) (j : Fin 64) : Ideal .f32 :=
  ((((0 + tileSum (fun r => lin0 V c r j * lin0 V c r j) q 0) + tileSum (fun r => lin0 V c r j * lin0 V c r j) q 1) + tileSum (fun r => lin0 V c r j * lin0 V c r j) q 2) + tileSum (fun r => lin0 V c r j * lin0 V c r j) q 3) + tileSum (fun r => lin0 V c r j * lin0 V c r j) q 4

/-- The two [2,1,64] statistic arrays after the region. -/
def sumArr0 (c : Dev nD) : S2x1x64.Idx → Ideal .f32 := fun i => statSum0 V c (i 0) (i 2)
def sqArr0 (c : Dev nD) : S2x1x64.Idx → Ideal .f32 := fun i => statSq0 V c (i 0) (i 2)

/-- A core's five points, unrolled: after its last tile the buffer holds the running sum from 0 of the five tile sums. -/
theorem acc0_6 (c : Dev nD) (q : Fin 2) (j : Fin 64) (h4 : 5 * q.val + 4 < cfg0.N) :
    ((outsAt0 V c (5 * q.val + 4) h4).2.1 : Vec Ideal S1x1x64 .f32) (ix3 0 0 j) = statSum0 V c q j := by
  have hN : cfg0.N = 10 := N_0
  have hq : q.val < 2 := q.isLt
  have b0 : 5 * q.val + 0 < cfg0.N := by rw [hN]; omega
  have b1 : 5 * q.val + 1 < cfg0.N := by rw [hN]; omega
  have b2 : 5 * q.val + 2 < cfg0.N := by rw [hN]; omega
  have b3 : 5 * q.val + 3 < cfg0.N := by rw [hN]; omega
  have e0 : ((outsAt0 V c (5 * q.val + 0) b0).2.1 : Vec Ideal S1x1x64 .f32) (ix3 0 0 j) = 0 + tile0 (fun r => lin0 V c r j) (5 * q.val + 0) b0 :=
    base0_6 V c ⟨5 * q.val + 0, b0⟩ (by show (5 * q.val + 0) % 5 = 0; omega) j
  have e1 : ((outsAt0 V c (5 * q.val + 1) b1).2.1 : Vec Ideal S1x1x64 .f32) (ix3 0 0 j)
      = ((outsAt0 V c (5 * q.val + 0) b0).2.1 : Vec Ideal S1x1x64 .f32) (ix3 0 0 j) + tile0 (fun r => lin0 V c r j) (5 * q.val + 1) b1 :=
    step0_6 V c ⟨5 * q.val + 1, b1⟩ (by show ¬(5 * q.val + 1) % 5 = 0; omega) j
  have e2 : ((outsAt0 V c (5 * q.val + 2) b2).2.1 : Vec Ideal S1x1x64 .f32) (ix3 0 0 j)
      = ((outsAt0 V c (5 * q.val + 1) b1).2.1 : Vec Ideal S1x1x64 .f32) (ix3 0 0 j) + tile0 (fun r => lin0 V c r j) (5 * q.val + 2) b2 :=
    step0_6 V c ⟨5 * q.val + 2, b2⟩ (by show ¬(5 * q.val + 2) % 5 = 0; omega) j
  have e3 : ((outsAt0 V c (5 * q.val + 3) b3).2.1 : Vec Ideal S1x1x64 .f32) (ix3 0 0 j)
      = ((outsAt0 V c (5 * q.val + 2) b2).2.1 : Vec Ideal S1x1x64 .f32) (ix3 0 0 j) + tile0 (fun r => lin0 V c r j) (5 * q.val + 3) b3 :=
    step0_6 V c ⟨5 * q.val + 3, b3⟩ (by show ¬(5 * q.val + 3) % 5 = 0; omega) j
  have e4 : ((outsAt0 V c (5 * q.val + 4) h4).2.1 : Vec Ideal S1x1x64 .f32) (ix3 0 0 j)
      = ((outsAt0 V c (5 * q.val + 3) b3).2.1 : Vec Ideal S1x1x64 .f32) (ix3 0 0 j) + tile0 (fun r => lin0 V c r j) (5 * q.val + 4) h4 :=
    step0_6 V c ⟨5 * q.val + 4, h4⟩ (by show ¬(5 * q.val + 4) % 5 = 0; omega) j
  have t0 : tile0 (fun r => lin0 V c r j) (5 * q.val + 0) b0 = tileSum (fun r => lin0 V c r j) q 0 := tile0_eq_tileSum (fun r => lin0 V c r j) q 0 b0
  have t1 : tile0 (fun r => lin0 V c r j) (5 * q.val + 1) b1 = tileSum (fun r => lin0 V c r j) q 1 := tile0_eq_tileSum (fun r => lin0 V c r j) q 1 b1
  have t2 : tile0 (fun r => lin0 V c r j) (5 * q.val + 2) b2 = tileSum (fun r => lin0 V c r j) q 2 := tile0_eq_tileSum (fun r => lin0 V c r j) q 2 b2
  have t3 : tile0 (fun r => lin0 V c r j) (5 * q.val + 3) b3 = tileSum (fun r => lin0 V c r j) q 3 := tile0_eq_tileSum (fun r => lin0 V c r j) q 3 b3
  have t4 : tile0 (fun r => lin0 V c r j) (5 * q.val + 4) h4 = tileSum (fun r => lin0 V c r j) q 4 := tile0_eq_tileSum (fun r => lin0 V c r j) q 4 h4
  rw [e4, e3, e2, e1, e0, t0, t1, t2, t3, t4]
  rfl

/-- A core's five points, unrolled: after its last tile the buffer holds the running sum from 0 of the five tile sums. -/
theorem acc0_7 (c : Dev nD) (q : Fin 2) (j : Fin 64) (h4 : 5 * q.val + 4 < cfg0.N) :
    ((outsAt0 V c (5 * q.val + 4) h4).2.2 : Vec Ideal S1x1x64 .f32) (ix3 0 0 j) = statSq0 V c q j := by
  have hN : cfg0.N = 10 := N_0
  have hq : q.val < 2 := q.isLt
  have b0 : 5 * q.val + 0 < cfg0.N := by rw [hN]; omega
  have b1 : 5 * q.val + 1 < cfg0.N := by rw [hN]; omega
  have b2 : 5 * q.val + 2 < cfg0.N := by rw [hN]; omega
  have b3 : 5 * q.val + 3 < cfg0.N := by rw [hN]; omega
  have e0 : ((outsAt0 V c (5 * q.val + 0) b0).2.2 : Vec Ideal S1x1x64 .f32) (ix3 0 0 j) = 0 + tile0 (fun r => lin0 V c r j * lin0 V c r j) (5 * q.val + 0) b0 :=
    base0_7 V c ⟨5 * q.val + 0, b0⟩ (by show (5 * q.val + 0) % 5 = 0; omega) j
  have e1 : ((outsAt0 V c (5 * q.val + 1) b1).2.2 : Vec Ideal S1x1x64 .f32) (ix3 0 0 j)
      = ((outsAt0 V c (5 * q.val + 0) b0).2.2 : Vec Ideal S1x1x64 .f32) (ix3 0 0 j) + tile0 (fun r => lin0 V c r j * lin0 V c r j) (5 * q.val + 1) b1 :=
    step0_7 V c ⟨5 * q.val + 1, b1⟩ (by show ¬(5 * q.val + 1) % 5 = 0; omega) j
  have e2 : ((outsAt0 V c (5 * q.val + 2) b2).2.2 : Vec Ideal S1x1x64 .f32) (ix3 0 0 j)
      = ((outsAt0 V c (5 * q.val + 1) b1).2.2 : Vec Ideal S1x1x64 .f32) (ix3 0 0 j) + tile0 (fun r => lin0 V c r j * lin0 V c r j) (5 * q.val + 2) b2 :=
    step0_7 V c ⟨5 * q.val + 2, b2⟩ (by show ¬(5 * q.val + 2) % 5 = 0; omega) j
  have e3 : ((outsAt0 V c (5 * q.val + 3) b3).2.2 : Vec Ideal S1x1x64 .f32) (ix3 0 0 j)
      = ((outsAt0 V c (5 * q.val + 2) b2).2.2 : Vec Ideal S1x1x64 .f32) (ix3 0 0 j) + tile0 (fun r => lin0 V c r j * lin0 V c r j) (5 * q.val + 3) b3 :=
    step0_7 V c ⟨5 * q.val + 3, b3⟩ (by show ¬(5 * q.val + 3) % 5 = 0; omega) j
  have e4 : ((outsAt0 V c (5 * q.val + 4) h4).2.2 : Vec Ideal S1x1x64 .f32) (ix3 0 0 j)
      = ((outsAt0 V c (5 * q.val + 3) b3).2.2 : Vec Ideal S1x1x64 .f32) (ix3 0 0 j) + tile0 (fun r => lin0 V c r j * lin0 V c r j) (5 * q.val + 4) h4 :=
    step0_7 V c ⟨5 * q.val + 4, h4⟩ (by show ¬(5 * q.val + 4) % 5 = 0; omega) j
  have t0 : tile0 (fun r => lin0 V c r j * lin0 V c r j) (5 * q.val + 0) b0 = tileSum (fun r => lin0 V c r j * lin0 V c r j) q 0 := tile0_eq_tileSum (fun r => lin0 V c r j * lin0 V c r j) q 0 b0
  have t1 : tile0 (fun r => lin0 V c r j * lin0 V c r j) (5 * q.val + 1) b1 = tileSum (fun r => lin0 V c r j * lin0 V c r j) q 1 := tile0_eq_tileSum (fun r => lin0 V c r j * lin0 V c r j) q 1 b1
  have t2 : tile0 (fun r => lin0 V c r j * lin0 V c r j) (5 * q.val + 2) b2 = tileSum (fun r => lin0 V c r j * lin0 V c r j) q 2 := tile0_eq_tileSum (fun r => lin0 V c r j * lin0 V c r j) q 2 b2
  have t3 : tile0 (fun r => lin0 V c r j * lin0 V c r j) (5 * q.val + 3) b3 = tileSum (fun r => lin0 V c r j * lin0 V c r j) q 3 := tile0_eq_tileSum (fun r => lin0 V c r j * lin0 V c r j) q 3 b3
  have t4 : tile0 (fun r => lin0 V c r j * lin0 V c r j) (5 * q.val + 4) h4 = tileSum (fun r => lin0 V c r j * lin0 V c r j) q 4 := tile0_eq_tileSum (fun r => lin0 V c r j * lin0 V c r j) q 4 h4
  rw [e4, e3, e2, e1, e0, t0, t1, t2, t3, t4]
  rfl

/-- What the core's last point writes back is the core's slab of the accumulated array. -/
theorem flushed0_6_eq (c : Dev nD) (t : Fin cfg0.N) (hf : (cfg0.win 6).flush t = true) :
    (dat0 V c).flushed 6 t = ((cfg0.win 6).blk t).view.read (Elt Ideal) (sumArr0 V c) := by
  have h4 : t.val % 5 = 4 := (flush0_6 t).mp hf
  have hN : t.val < 10 := lt_of_lt_of_eq t.isLt (show cfg0.N = 10 from N_0)
  obtain ⟨q, hq⟩ : ∃ q : Fin 2, t.val = 5 * q.val + 4 := ⟨⟨t.val / 5, by omega⟩, by show t.val = 5 * (t.val / 5) + 4; omega⟩
  obtain ⟨-, -, -, -, -, -, -, -, -, -, -, -, e0, e1, e2, -⟩ := idx_facts0 t
  show (cfg0.win 6).cut (grid0.coords t) ((dat0 V c).after 6 t) = _
  rw [after0_6]
  obtain ⟨tv, htv⟩ := t
  have hq' : tv = 5 * q.val + 4 := hq
  subst hq'
  funext y
  obtain ⟨a, b, j, rfl⟩ : ∃ (a b : Fin 1) (j : Fin 64), y = ix3 a b j := ⟨y 0, y 1, y 2, eq_ix3 y⟩
  obtain rfl : a = 0 := Subsingleton.elim _ _
  obtain rfl : b = 0 := Subsingleton.elim _ _
  show ((outsAt0 V c (5 * q.val + 4) htv).2.1 : Vec Ideal S1x1x64 .f32) (ix3 0 0 j)
    = sumArr0 V c (((cfg0.win 6).blk ⟨5 * q.val + 4, htv⟩).view.emb (ix3 0 0 j))
  rw [acc0_6 V c q j htv]
  unfold sumArr0
  show statSum0 V c q j = statSum0 V c _ _
  congr 1
  · apply Fin.ext
    show q.val = win0_6.index ⟨5 * q.val + 4, htv⟩ (0 : Fin 3) * 1 + 1 * 0
    rw [e0]; show q.val = (5 * q.val + 4) / 5 * 1 + 1 * 0; omega
  · apply Fin.ext
    show j.val = win0_6.index ⟨5 * q.val + 4, htv⟩ (2 : Fin 3) * 64 + 1 * j.val
    rw [e2]; omega

/-- An index of the array is in point `t`'s slab iff each coordinate is in the slab's range on its axis. -/
theorem mem_blk0_6 (t : Fin cfg0.N) (i : S2x1x64.Idx) :
    i ∈ ((cfg0.win 6).blk t).view.set ↔ ∀ a : Fin 3, win0_6.index t a * S1x1x64.size a ≤ (i a).val ∧ (i a).val < win0_6.index t a * S1x1x64.size a + S1x1x64.size a := by
  show i ∈ ((View.whole main_v26_1).slice (win0_6.rect t)).set ↔ _
  rw [View.set_slice_whole, Rect.mem_set_unit]
  exact Iff.rfl

/-- Slab `q` is written back by the last point of core `q`. -/
theorem cover0_6 (i : S2x1x64.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 64 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  obtain ⟨-, -, -, -, -, -, -, -, -, -, -, -, e0, e1, e2, -⟩ := idx_facts0 t
  refine ⟨t, (flush0_6 t).mpr (by rw [ht]; omega), ?_⟩
  rw [mem_blk0_6]
  intro a
  match a with
  | ⟨0, _⟩ => show win0_6.index t (0 : Fin 3) * 1 ≤ (i 0).val ∧ (i 0).val < win0_6.index t (0 : Fin 3) * 1 + 1
              rw [e0, ht]; omega
  | ⟨1, _⟩ => show win0_6.index t (1 : Fin 3) * 1 ≤ (i 1).val ∧ (i 1).val < win0_6.index t (1 : Fin 3) * 1 + 1
              rw [e1]; omega
  | ⟨2, _⟩ => show win0_6.index t (2 : Fin 3) * 64 ≤ (i 2).val ∧ (i 2).val < win0_6.index t (2 : Fin 3) * 64 + 64
              rw [e2]; omega

/-- THE STATISTIC ARRAY after the ten points. -/
theorem final0_6 (c : Dev nD) : (dat0 V c).arrAt 6 cfg0.N = sumArr0 V c :=
  (dat0 V c).arrAt_eq_of_cover 6 (sumArr0 V c) (flushed0_6_eq V c) cover0_6

/-- The same, at core `q` and column `j`. -/
theorem final0_6_apply (c : Dev nD) (q : Fin 2) (j : Fin 64) :
    ((dat0 V c).arrAt 6 cfg0.N : S2x1x64.Idx → Ideal .f32) (ix3 q 0 j) = statSum0 V c q j :=
  congrFun (final0_6 V c) (ix3 q 0 j)

/-- What the core's last point writes back is the core's slab of the accumulated array. -/
theorem flushed0_7_eq (c : Dev nD) (t : Fin cfg0.N) (hf : (cfg0.win 7).flush t = true) :
    (dat0 V c).flushed 7 t = ((cfg0.win 7).blk t).view.read (Elt Ideal) (sqArr0 V c) := by
  have h4 : t.val % 5 = 4 := (flush0_7 t).mp hf
  have hN : t.val < 10 := lt_of_lt_of_eq t.isLt (show cfg0.N = 10 from N_0)
  obtain ⟨q, hq⟩ : ∃ q : Fin 2, t.val = 5 * q.val + 4 := ⟨⟨t.val / 5, by omega⟩, by show t.val = 5 * (t.val / 5) + 4; omega⟩
  obtain ⟨-, -, -, -, -, -, -, -, -, -, -, -, -, -, -, e0, e1, e2⟩ := idx_facts0 t
  show (cfg0.win 7).cut (grid0.coords t) ((dat0 V c).after 7 t) = _
  rw [after0_7]
  obtain ⟨tv, htv⟩ := t
  have hq' : tv = 5 * q.val + 4 := hq
  subst hq'
  funext y
  obtain ⟨a, b, j, rfl⟩ : ∃ (a b : Fin 1) (j : Fin 64), y = ix3 a b j := ⟨y 0, y 1, y 2, eq_ix3 y⟩
  obtain rfl : a = 0 := Subsingleton.elim _ _
  obtain rfl : b = 0 := Subsingleton.elim _ _
  show ((outsAt0 V c (5 * q.val + 4) htv).2.2 : Vec Ideal S1x1x64 .f32) (ix3 0 0 j)
    = sqArr0 V c (((cfg0.win 7).blk ⟨5 * q.val + 4, htv⟩).view.emb (ix3 0 0 j))
  rw [acc0_7 V c q j htv]
  unfold sqArr0
  show statSq0 V c q j = statSq0 V c _ _
  congr 1
  · apply Fin.ext
    show q.val = win0_7.index ⟨5 * q.val + 4, htv⟩ (0 : Fin 3) * 1 + 1 * 0
    rw [e0]; show q.val = (5 * q.val + 4) / 5 * 1 + 1 * 0; omega
  · apply Fin.ext
    show j.val = win0_7.index ⟨5 * q.val + 4, htv⟩ (2 : Fin 3) * 64 + 1 * j.val
    rw [e2]; omega

/-- An index of the array is in point `t`'s slab iff each coordinate is in the slab's range on its axis. -/
theorem mem_blk0_7 (t : Fin cfg0.N) (i : S2x1x64.Idx) :
    i ∈ ((cfg0.win 7).blk t).view.set ↔ ∀ a : Fin 3, win0_7.index t a * S1x1x64.size a ≤ (i a).val ∧ (i a).val < win0_7.index t a * S1x1x64.size a + S1x1x64.size a := by
  show i ∈ ((View.whole main_v26_2).slice (win0_7.rect t)).set ↔ _
  rw [View.set_slice_whole, Rect.mem_set_unit]
  exact Iff.rfl

/-- Slab `q` is written back by the last point of core `q`. -/
theorem cover0_7 (i : S2x1x64.Idx) :
    ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 64 := (i 2).isLt
  have hN : cfg0.N = 10 := N_0
  obtain ⟨t, ht⟩ : ∃ t : Fin cfg0.N, t.val = 5 * (i 0).val + 4 := ⟨⟨5 * (i 0).val + 4, by rw [hN]; omega⟩, rfl⟩
  obtain ⟨-, -, -, -, -, -, -, -, -, -, -, -, -, -, -, e0, e1, e2⟩ := idx_facts0 t
  refine ⟨t, (flush0_7 t).mpr (by rw [ht]; omega), ?_⟩
  rw [mem_blk0_7]
  intro a
  match a with
  | ⟨0, _⟩ => show win0_7.index t (0 : Fin 3) * 1 ≤ (i 0).val ∧ (i 0).val < win0_7.index t (0 : Fin 3) * 1 + 1
              rw [e0, ht]; omega
  | ⟨1, _⟩ => show win0_7.index t (1 : Fin 3) * 1 ≤ (i 1).val ∧ (i 1).val < win0_7.index t (1 : Fin 3) * 1 + 1
              rw [e1]; omega
  | ⟨2, _⟩ => show win0_7.index t (2 : Fin 3) * 64 ≤ (i 2).val ∧ (i 2).val < win0_7.index t (2 : Fin 3) * 64 + 64
              rw [e2]; omega

/-- THE STATISTIC ARRAY after the ten points. -/
theorem final0_7 (c : Dev nD) : (dat0 V c).arrAt 7 cfg0.N = sqArr0 V c :=
  (dat0 V c).arrAt_eq_of_cover 7 (sqArr0 V c) (flushed0_7_eq V c) cover0_7

/-- The same, at core `q` and column `j`. -/
theorem final0_7_apply (c : Dev nD) (q : Fin 2) (j : Fin 64) :
    ((dat0 V c).arrAt 7 cfg0.N : S2x1x64.Idx → Ideal .f32) (ix3 q 0 j) = statSq0 V c q j :=
  congrFun (final0_7 V c) (ix3 q 0 j)

end Cert.KernelIdeal.HandValue

end
-- ==== Proof.Math.KerLayer.lean ====
/-
  One layer of the graph encoder in the form the tiled program computes it.

  Instead of dividing the aggregated features by the clamped in-degree, the program multiplies by
  its reciprocal `1 / cm r`; instead of centring each column before squaring, it collects the
  column sum `S1` and the sum of squares `S2` in one pass and forms the variance as
  `S2 / N - (S1 / N)²`, clipped at `0` from below; and instead of normalising, scaling and shifting
  entry by entry, it folds the column statistics into one affine map `h ↦ h · scale + shift`
  followed by the clip at `0`.

  All sums run over the whole index type; the order and grouping of every other operation are the
  program's.
-/
import proofs.«150514_j16690242912872_2_alg».proof.Proof.RefSpec

noncomputable section

open scoped BigOperators

namespace Cert.Math

open Idealize.ShloMosaic Idealize.ShloMosaic.ValueIdx Cert.RefSpec

/-- The float one, as the word the reciprocal of the in-degree is formed from. -/
abbrev c1 : EReal := Ideal.ofBits .f32 0x3F800000#32

section Layer

variable {K : Nat} (AX X : Arr (SNK K)) (cm : Arr SN) (Wl Wr : Arr (SKH K)) (bl g be : Arr SH)

/-- The reciprocal of the clamped in-degree of node `r`. -/
def inv (r : Fin 100000) : EReal := Ideal.div c1 (cm (ix1 r))

/-- Feature `k` averaged over the incoming neighbours of node `r`, as a product with the reciprocal. -/
def meanK (r : Fin 100000) (k : Fin K) : EReal := AX (ix2 r k) * inv cm r

/-- Column `j` at node `r` before normalisation. -/
def preK (r : Fin 100000) (j : Fin 64) : EReal :=
  ((∑ k : Fin K, meanK AX cm r k * Wl (ix2 k j)) + bl (ix1 j)) + ∑ k : Fin K, X (ix2 r k) * Wr (ix2 k j)

/-- The sum of column `j` over all nodes. -/
def S1 (j : Fin 64) : EReal := ∑ r : Fin 100000, preK AX X cm Wl Wr bl r j

/-- The sum of the squares of column `j` over all nodes. -/
def S2 (j : Fin 64) : EReal := ∑ r : Fin 100000, preK AX X cm Wl Wr bl r j * preK AX X cm Wl Wr bl r j

/-- The mean of column `j`. -/
def muK (j : Fin 64) : EReal := Ideal.div (S1 AX X cm Wl Wr bl j) cN

/-- The variance of column `j` as mean of squares minus square of the mean, clipped at `0`. -/
def varK (j : Fin 64) : EReal :=
  max (Ideal.div (S2 AX X cm Wl Wr bl j) cN - muK AX X cm Wl Wr bl j * muK AX X cm Wl Wr bl j) 0

/-- The factor of the affine map of column `j`. -/
def scale (j : Fin 64) : EReal := g (ix1 j) * Ideal.rsqrt (varK AX X cm Wl Wr bl j + cEps)

/-- The offset of the affine map of column `j`. -/
def shift (j : Fin 64) : EReal := be (ix1 j) - muK AX X cm Wl Wr bl j * scale AX X cm Wl Wr bl g j

/-- Column `j` at node `r` after the affine map and the clip at `0`. -/
def actK (r : Fin 100000) (j : Fin 64) : EReal :=
  max (preK AX X cm Wl Wr bl r j * scale AX X cm Wl Wr bl g j + shift AX X cm Wl Wr bl g be j) 0

/-- The layer's output as an array. -/
def layerK : Arr (SNK 64) := fun i => actK AX X cm Wl Wr bl g be (i 0) (i 1)

theorem layerK_apply (r : Fin 100000) (j : Fin 64) :
    layerK AX X cm Wl Wr bl g be (ix2 r j) = actK AX X cm Wl Wr bl g be r j := rfl

end Layer

end Cert.Math

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.Math.Consts.lean ====
/-
  The three float words of the column statistics as extended reals: the word of one is `1`, the
  word of the node count is the real `100000`, and the variance offset is a positive real (its
  exact value is never needed).
-/
import proofs.«150514_j16690242912872_2_alg».proof.Proof.RefSpec
import proofs.«150514_j16690242912872_2_alg».proof.Proof.LibFinite
import Idealize.ShloMosaic.Lib.IdealHost

noncomputable section

namespace Cert.Math

open Idealize.ShloMosaic Cert.RefSpec Cert.Finite

/-- The word `0x3F800000` is the real one. -/
theorem ofBits_one : Ideal.ofBits .f32 0x3F800000#32 = (1 : EReal) := Ideal.ofBits_one_f32

/-- The word of the node count is the real `100000`: `(2^23 + 4411392) · 2^(-7)`. -/
theorem cN_eq : cN = ((100000 : ℝ) : EReal) := by
  simp [cN, Ideal.ofBits, Ideal.ieee]
  rw [← EReal.coe_mul]
  norm_num

/-- The variance offset is a positive real. -/
theorem cEps_pos_real : ∃ e : ℝ, 0 < e ∧ cEps = (e : EReal) := by
  refine ⟨(10995116 : ℝ) * (2 : ℝ) ^ (-40 : Int), by positivity, ?_⟩
  simp [cEps, Ideal.ofBits, Ideal.ieee]

theorem cEps_isReal : IsReal cEps := by
  obtain ⟨e, _, h⟩ := cEps_pos_real
  exact ⟨e, h⟩

theorem cEps_pos : (0 : EReal) < cEps := by
  obtain ⟨e, he, h⟩ := cEps_pos_real
  rw [h]; exact_mod_cast he

end Cert.Math

end
-- ==== Proof.LibBatchNorm.lean ====
/-
  Training-mode batch normalisation followed by a rectifier, over the extended reals, for a
  column of finite entries, written in two ways.

  For `h : Fin n → ℝ` with `n > 0`: the mean is `(∑ h) / n`, the (biased) variance is
  `(∑ (h k - mean)²) / n ≥ 0`, and `(∑ h²) / n - mean² = variance` (the divisor has to be exactly
  `n`), so the maximum of that difference with `0` is the variance again. With `e > 0` the sum
  `variance + e` is positive, so its reciprocal square root is the real `(√(variance + e))⁻¹`.
  Finally `h · (g · inv) + (b - g · mean · inv) = g · (h - mean) · inv + b`.
  Every intermediate value is a finite real, so each extended-real operation is the coercion of
  the real one.
-/
import Idealize.ShloMosaic.PureOps.Ideal

open Idealize.ShloMosaic
open scoped BigOperators

noncomputable section

namespace Cert.LibBatchNorm

/-- The mean of a column. -/
def mean {n : ℕ} (h : Fin n → ℝ) : ℝ := (∑ k, h k) / n

/-- The biased variance of a column: the mean of the squared deviations. -/
def var {n : ℕ} (h : Fin n → ℝ) : ℝ := (∑ k, (h k - mean h) * (h k - mean h)) / n

/-- Batch normalisation with scale `g`, shift `b`, stabiliser `e`, then the rectifier. -/
def bnRelu {n : ℕ} (h : Fin n → ℝ) (g b e : ℝ) (i : Fin n) : ℝ :=
  max (g * (h i - mean h) * (Real.sqrt (var h + e))⁻¹ + b) 0

/-! ### General helpers -/

/-- The coercion of a finite real sum is the sum of the coercions. -/
theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The quotient of two reals, the divisor nonzero, is the coercion of the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- A sum of products of reals is the coercion of the real sum of products. -/
theorem sum_mul_coe {ι : Type*} [Fintype ι] (a w : ι → ℝ) :
    ∑ k, (a k : EReal) * (w k : EReal) = ((∑ k, a k * w k : ℝ) : EReal) := by
  rw [coe_sum]
  exact Finset.sum_congr rfl (fun k _ => (EReal.coe_mul _ _).symm)

/-- The maximum of two reals: the coercion is monotone. -/
theorem coe_max (a b : ℝ) : max (a : EReal) (b : EReal) = ((max a b : ℝ) : EReal) :=
  (EReal.coe_strictMono.monotone.map_max).symm

/-- The reciprocal square root of a positive real is the real `(√r)⁻¹`. -/
theorem rsqrt_pos_coe {r : ℝ} (hr : 0 < r) :
    Ideal.rsqrt (r : EReal) = (((Real.sqrt r)⁻¹ : ℝ) : EReal) := by
  rw [Ideal.rsqrt_coe, if_neg (not_lt.mpr hr.le), if_neg hr.ne']

/-! ### The statistics -/

/-- A variance is a mean of squares. -/
theorem var_nonneg {n : ℕ} (h : Fin n → ℝ) : 0 ≤ var h :=
  div_nonneg (Finset.sum_nonneg fun k _ => mul_self_nonneg _) (Nat.cast_nonneg n)

/-- Mean of the squares minus square of the mean is the variance. -/
theorem var_eq {n : ℕ} (hn : 0 < n) (h : Fin n → ℝ) :
    (∑ k, h k * h k) / n - mean h * mean h = var h := by
  have hN : (n : ℝ) ≠ 0 := Nat.cast_ne_zero.mpr hn.ne'
  have hS : ∑ k, h k = n * mean h := by
    unfold mean
    field_simp
  have hexp : ∑ k, (h k - mean h) * (h k - mean h)
      = (∑ k, h k * h k) - 2 * mean h * (n * mean h) + n * (mean h * mean h) := by
    have hk : ∀ k, (h k - mean h) * (h k - mean h)
        = h k * h k - 2 * mean h * h k + mean h * mean h := fun k => by ring
    simp only [hk, Finset.sum_add_distrib, Finset.sum_sub_distrib, ← Finset.mul_sum,
      Finset.sum_const, Finset.card_univ, Fintype.card_fin, nsmul_eq_mul]
    rw [hS]
    ring
  unfold var
  rw [hexp]
  field_simp
  ring

/-- The variance plus a positive stabiliser is positive. -/
theorem var_add_pos {n : ℕ} (h : Fin n → ℝ) {e : ℝ} (he : 0 < e) : 0 < var h + e :=
  add_pos_of_nonneg_of_pos (var_nonneg h) he

/-! ### The two written forms -/

/-- The first written form: the statistics as the sum and the sum of squares, the output as
    the affine map `h · scale + shift`. -/
theorem scaleShift_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    max ((h i : EReal) * ((g : EReal) * inv) + ((b : EReal) - (g : EReal) * mu * inv)) z
      = ((bnRelu h g b e i : ℝ) : EReal) := by
  intro S Q mu inv
  subst hc heps hz
  have hN : (n : ℝ) ≠ 0 := Nat.cast_ne_zero.mpr hn.ne'
  have hS : S = ((∑ k, h k : ℝ) : EReal) := (coe_sum _ _).symm
  have hQ : Q = ((∑ k, h k * h k : ℝ) : EReal) := sum_mul_coe h h
  have hmu : mu = ((mean h : ℝ) : EReal) := by
    show Ideal.div S _ = _
    rw [hS, div_coe_coe _ hN]
    rfl
  have hinv : inv = (((Real.sqrt (var h + e))⁻¹ : ℝ) : EReal) := by
    show Ideal.rsqrt (max (Ideal.div Q _ - mu * mu) 0 + _) = _
    rw [hQ, hmu, div_coe_coe _ hN, ← EReal.coe_mul, ← EReal.coe_sub, var_eq hn h,
      ← EReal.coe_zero, coe_max, max_eq_left (var_nonneg h), ← EReal.coe_add,
      rsqrt_pos_coe (var_add_pos h he)]
  show max ((h i : EReal) * ((g : EReal) * inv) + ((b : EReal) - (g : EReal) * mu * inv)) 0 = _
  rw [hinv, hmu]
  have hreal : (h i : EReal) * ((g : EReal) * (((Real.sqrt (var h + e))⁻¹ : ℝ) : EReal))
      + ((b : EReal) - (g : EReal) * ((mean h : ℝ) : EReal) * (((Real.sqrt (var h + e))⁻¹ : ℝ) : EReal))
      = ((g * (h i - mean h) * (Real.sqrt (var h + e))⁻¹ + b : ℝ) : EReal) := by
    rw [← EReal.coe_mul, ← EReal.coe_mul, ← EReal.coe_mul, ← EReal.coe_mul, ← EReal.coe_sub,
      ← EReal.coe_add]
    congr 1
    ring
  rw [hreal, ← EReal.coe_zero, coe_max]
  rfl

/-- The second written form: the centred statistics. -/
theorem centred_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let mu : EReal := Ideal.div S c
    let D : EReal := ∑ k, ((h k : EReal) - mu) * ((h k : EReal) - mu)
    max ((g : EReal) * ((h i : EReal) - mu) * Ideal.rsqrt (Ideal.div D c + eps) + (b : EReal)) z
      = ((bnRelu h g b e i : ℝ) : EReal) := by
  intro S mu D
  subst hc heps hz
  have hN : (n : ℝ) ≠ 0 := Nat.cast_ne_zero.mpr hn.ne'
  have hS : S = ((∑ k, h k : ℝ) : EReal) := (coe_sum _ _).symm
  have hmu : mu = ((mean h : ℝ) : EReal) := by
    show Ideal.div S _ = _
    rw [hS, div_coe_coe _ hN]
    rfl
  have hD : D = ((∑ k, (h k - mean h) * (h k - mean h) : ℝ) : EReal) := by
    show ∑ k, ((h k : EReal) - mu) * ((h k : EReal) - mu) = _
    rw [hmu, coe_sum]
    refine Finset.sum_congr rfl (fun k _ => ?_)
    rw [EReal.coe_mul, EReal.coe_sub]
  have hr : Ideal.rsqrt (Ideal.div D ((n : ℝ) : EReal) + (e : EReal))
      = (((Real.sqrt (var h + e))⁻¹ : ℝ) : EReal) := by
    rw [hD, div_coe_coe _ hN, ← EReal.coe_add]
    exact rsqrt_pos_coe (var_add_pos h he)
  rw [hr, hmu, ← EReal.coe_sub, ← EReal.coe_mul, ← EReal.coe_mul, ← EReal.coe_add,
    ← EReal.coe_zero, coe_max]
  rfl

/-- The two written forms have the same value. -/
theorem scaleShift_eq_centred {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    let D : EReal := ∑ k, ((h k : EReal) - mu) * ((h k : EReal) - mu)
    max ((h i : EReal) * ((g : EReal) * inv) + ((b : EReal) - (g : EReal) * mu * inv)) z
      = max ((g : EReal) * ((h i : EReal) - mu) * Ideal.rsqrt (Ideal.div D c + eps) + (b : EReal)) z := by
  intro S Q mu inv D
  exact (scaleShift_form hn h g b e he c eps z hc heps hz i).trans
    (centred_form hn h g b e he c eps z hc heps hz i).symm

/-! ### The same three statements with the abbreviations written out -/

/-- The first written form, every intermediate value written out in place. -/
theorem scaleShift_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = ((bnRelu h g b e i : ℝ) : EReal) :=
  scaleShift_form hn h g b e he c eps z hc heps hz i

/-- The second written form, every intermediate value written out in place. -/
theorem centred_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z
      = ((bnRelu h g b e i : ℝ) : EReal) :=
  centred_form hn h g b e he c eps z hc heps hz i

/-- The two written forms, written out in place, have the same value. -/
theorem scaleShift_eq_centred_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z :=
  (scaleShift_form_inl hn h g b e he c eps z hc heps hz i).trans
    (centred_form_inl hn h g b e he c eps z hc heps hz i).symm

end Cert.LibBatchNorm
-- ==== Proof.Math.BN.lean ====
/-
  Training-mode normalisation of a real column followed by scale, shift and the clip at `0`, in the
  two arrangements the layer is written in; both are the coercion of the same real number.

  For a column `h : Fin n → ℝ` (`n > 0`) with mean `m` and biased variance `v ≥ 0` and an offset `e > 0`:

  * from the column sum `S` and the sum of squares `Q`: `S / n = m`, `Q / n - m² = v` (so the clip of the
    difference at `0` changes nothing), `v + e > 0`, and with `s = g · (√(v + e))⁻¹` the affine map
    `h i · s + (b - m · s)` is `g · (h i - m) · (√(v + e))⁻¹ + b`;
  * from the centred entries: `((h i - m) · (√(v + e))⁻¹) · g + b` is the same real number.

  Every intermediate value is real, so each operation on the extended reals is the coercion of the real one.
-/
import proofs.«150514_j16690242912872_2_alg».proof.Proof.LibBatchNorm

open Idealize.ShloMosaic
open scoped BigOperators

noncomputable section

namespace Cert.Math

open Cert.LibBatchNorm

/-- The arrangement from the column sum and the sum of squares, with the statistics folded into
    one factor and one offset. -/
theorem bn_sums_form {n : ℕ} (hn : 0 < n) (h : Fin n → ℝ) (g b e : ℝ) (he : 0 < e)
    (c eps : EReal) (hc : c = ((n : ℝ) : EReal)) (heps : eps = (e : EReal)) (i : Fin n) :
    let S : EReal := ∑ k, (h k : EReal)
    let Q : EReal := ∑ k, (h k : EReal) * (h k : EReal)
    let mu : EReal := Ideal.div S c
    let sc : EReal := (g : EReal) * Ideal.rsqrt (max (Ideal.div Q c - mu * mu) 0 + eps)
    max ((h i : EReal) * sc + ((b : EReal) - mu * sc)) 0 = ((bnRelu h g b e i : ℝ) : EReal) := by
  intro S Q mu sc
  subst hc heps
  have hN : (n : ℝ) ≠ 0 := Nat.cast_ne_zero.mpr hn.ne'
  have hS : S = ((∑ k, h k : ℝ) : EReal) := (coe_sum _ _).symm
  have hQ : Q = ((∑ k, h k * h k : ℝ) : EReal) := sum_mul_coe h h
  have hmu : mu = ((mean h : ℝ) : EReal) := by
    show Ideal.div S _ = _
    rw [hS, div_coe_coe _ hN]
    rfl
  have hsc : sc = ((g * (Real.sqrt (var h + e))⁻¹ : ℝ) : EReal) := by
    show (g : EReal) * Ideal.rsqrt (max (Ideal.div Q _ - mu * mu) 0 + _) = _
    rw [hQ, hmu, div_coe_coe _ hN, ← EReal.coe_mul, ← EReal.coe_sub, var_eq hn h,
      ← EReal.coe_zero, coe_max, max_eq_left (var_nonneg h), ← EReal.coe_add,
      rsqrt_pos_coe (var_add_pos h he), ← EReal.coe_mul]
  rw [hsc, hmu, ← EReal.coe_mul, ← EReal.coe_mul, ← EReal.coe_sub, ← EReal.coe_add,
    ← EReal.coe_zero, coe_max]
  have hring : h i * (g * (Real.sqrt (var h + e))⁻¹) + (b - mean h * (g * (Real.sqrt (var h + e))⁻¹))
      = g * (h i - mean h) * (Real.sqrt (var h + e))⁻¹ + b := by ring
  rw [hring]
  rfl

/-- The arrangement from the centred entries; both sums start from `0`. -/
theorem bn_centred_form {n : ℕ} (hn : 0 < n) (h : Fin n → ℝ) (g b e : ℝ) (he : 0 < e)
    (c eps : EReal) (hc : c = ((n : ℝ) : EReal)) (heps : eps = (e : EReal)) (i : Fin n) :
    let mu : EReal := Ideal.div (0 + ∑ k, (h k : EReal)) c
    let D : EReal := 0 + ∑ k, ((h k : EReal) - mu) * ((h k : EReal) - mu)
    max (((((h i : EReal) - mu) * Ideal.rsqrt (Ideal.div D c + eps)) * (g : EReal)) + (b : EReal)) 0
      = ((bnRelu h g b e i : ℝ) : EReal) := by
  intro mu D
  subst hc heps
  have hN : (n : ℝ) ≠ 0 := Nat.cast_ne_zero.mpr hn.ne'
  have hS : ∑ k, (h k : EReal) = ((∑ k, h k : ℝ) : EReal) := (coe_sum _ _).symm
  have hmu : mu = ((mean h : ℝ) : EReal) := by
    show Ideal.div (0 + ∑ k, (h k : EReal)) _ = _
    rw [zero_add, hS, div_coe_coe _ hN]
    rfl
  have hD : D = ((∑ k, (h k - mean h) * (h k - mean h) : ℝ) : EReal) := by
    show 0 + ∑ k, ((h k : EReal) - mu) * ((h k : EReal) - mu) = _
    rw [zero_add, hmu, coe_sum]
    refine Finset.sum_congr rfl (fun k _ => ?_)
    rw [EReal.coe_mul, EReal.coe_sub]
  have hr : Ideal.rsqrt (Ideal.div D ((n : ℝ) : EReal) + (e : EReal))
      = (((Real.sqrt (var h + e))⁻¹ : ℝ) : EReal) := by
    rw [hD, div_coe_coe _ hN, ← EReal.coe_add]
    exact rsqrt_pos_coe (var_add_pos h he)
  rw [hr, hmu, ← EReal.coe_sub, ← EReal.coe_mul, ← EReal.coe_mul, ← EReal.coe_add,
    ← EReal.coe_zero, coe_max]
  have hring : (h i - mean h) * (Real.sqrt (var h + e))⁻¹ * g + b
      = g * (h i - mean h) * (Real.sqrt (var h + e))⁻¹ + b := by ring
  rw [hring]
  rfl

end Cert.Math

end
-- ==== Proof.Math.Layer.lean ====
/-
  One layer: the tiled program's form and the reference's form are the same real numbers.

  With every parameter real and every clamped in-degree a real that is at least one:
  `a · (1 / c) = a / c`, so the two pre-normalisation columns agree entry by entry and are real;
  choosing the real column `h` behind column `j`, both normalised forms are the coercion of the
  normalised, scaled, shifted and clipped real entry.
-/
import proofs.«150514_j16690242912872_2_alg».proof.Proof.Math.KerLayer
import proofs.«150514_j16690242912872_2_alg».proof.Proof.Math.Consts
import proofs.«150514_j16690242912872_2_alg».proof.Proof.Math.BN

open Idealize.ShloMosaic Idealize.ShloMosaic.ValueIdx
open scoped BigOperators

noncomputable section

namespace Cert.Math

open Cert.RefSpec Cert.Finite

section Layer

variable {K : Nat} (AX X : Arr (SNK K)) (cm : Arr SN) (Wl Wr : Arr (SKH K)) (bl g be : Arr SH)

/-- Multiplying by the reciprocal of a real that is at least one is dividing by it. -/
theorem meanK_eq (r : Fin 100000) (k : Fin K) (hc : IsReal (cm (ix1 r))) (h1 : 1 ≤ cm (ix1 r)) :
    meanK AX cm r k = mean AX cm r k := by
  obtain ⟨c, hc⟩ := hc
  unfold meanK inv mean
  rw [hc] at h1 ⊢
  have hc1 : (1 : ℝ) ≤ c := by exact_mod_cast h1
  have hc0 : c ≠ 0 := by linarith
  have h1' : c1 = (1 : EReal) := ofBits_one
  rw [Ideal.div_coe hc0, Ideal.div_coe hc0, h1', one_mul]

/-- The two pre-normalisation columns agree. -/
theorem preK_eq (hcm : ∀ i, IsReal (cm i)) (hcm1 : ∀ i, 1 ≤ cm i) (r : Fin 100000) (j : Fin 64) :
    preK AX X cm Wl Wr bl r j = pre AX X cm Wl Wr bl r j := by
  have hm : ∀ k, meanK AX cm r k = mean AX cm r k := fun k => meanK_eq AX cm r k (hcm _) (hcm1 _)
  unfold preK pre
  simp only [hm]

/-- The pre-normalisation entries are real. -/
theorem pre_isReal (hAX : ∀ i, IsReal (AX i)) (hX : ∀ i, IsReal (X i)) (hcm : ∀ i, IsReal (cm i))
    (hcm1 : ∀ i, 1 ≤ cm i) (hWl : ∀ i, IsReal (Wl i)) (hWr : ∀ i, IsReal (Wr i)) (hbl : ∀ i, IsReal (bl i))
    (r : Fin 100000) (j : Fin 64) : IsReal (pre AX X cm Wl Wr bl r j) := by
  unfold pre mean
  exact ((IsReal.sum_univ _ fun k => ((hAX _).div (hcm _) (hcm1 _)).mul (hWl _)).add (hbl _)).add
    (IsReal.sum_univ _ fun k => (hX _).mul (hWr _))

/-- ONE LAYER: the program's form is the reference's, and the result is real. -/
theorem layer_eq (hAX : ∀ i, IsReal (AX i)) (hX : ∀ i, IsReal (X i)) (hcm : ∀ i, IsReal (cm i))
    (hcm1 : ∀ i, 1 ≤ cm i) (hWl : ∀ i, IsReal (Wl i)) (hWr : ∀ i, IsReal (Wr i)) (hbl : ∀ i, IsReal (bl i))
    (hg : ∀ i, IsReal (g i)) (hbe : ∀ i, IsReal (be i)) (r : Fin 100000) (j : Fin 64) :
    actK AX X cm Wl Wr bl g be r j = act AX X cm Wl Wr bl g be r j
      ∧ IsReal (act AX X cm Wl Wr bl g be r j) := by
  have hreal : ∀ r, IsReal (pre AX X cm Wl Wr bl r j) :=
    fun r => pre_isReal AX X cm Wl Wr bl hAX hX hcm hcm1 hWl hWr hbl r j
  choose h hh using hreal
  obtain ⟨gr, hgr⟩ := hg (ix1 j)
  obtain ⟨br, hbr⟩ := hbe (ix1 j)
  obtain ⟨e, he, heps⟩ := cEps_pos_real
  have hc : cN = (((100000 : ℕ) : ℝ) : EReal) := by rw [cN_eq]; norm_num
  have hpreK : ∀ r, preK AX X cm Wl Wr bl r j = (h r : EReal) :=
    fun r => (preK_eq AX X cm Wl Wr bl hcm hcm1 r j).trans (hh r)
  have hK : actK AX X cm Wl Wr bl g be r j = ((LibBatchNorm.bnRelu h gr br e r : ℝ) : EReal) := by
    simp only [actK, shift, scale, varK, muK, S1, S2, hpreK, hgr, hbr]
    exact bn_sums_form (n := 100000) (by norm_num) h gr br e he cN cEps hc heps r
  have hR : act AX X cm Wl Wr bl g be r j = ((LibBatchNorm.bnRelu h gr br e r : ℝ) : EReal) := by
    simp only [act, var, dev, mu, hh, hgr, hbr]
    exact bn_centred_form (n := 100000) (by norm_num) h gr br e he cN cEps hc heps r
  exact ⟨hK.trans hR.symm, hR ▸ isReal_coe _⟩

/-- The layer's output arrays agree, and the output is real everywhere. -/
theorem layerK_eq (hAX : ∀ i, IsReal (AX i)) (hX : ∀ i, IsReal (X i)) (hcm : ∀ i, IsReal (cm i))
    (hcm1 : ∀ i, 1 ≤ cm i) (hWl : ∀ i, IsReal (Wl i)) (hWr : ∀ i, IsReal (Wr i)) (hbl : ∀ i, IsReal (bl i))
    (hg : ∀ i, IsReal (g i)) (hbe : ∀ i, IsReal (be i)) :
    layerK AX X cm Wl Wr bl g be = layer AX X cm Wl Wr bl g be :=
  funext fun i => (layer_eq AX X cm Wl Wr bl g be hAX hX hcm hcm1 hWl hWr hbl hg hbe (i 0) (i 1)).1

theorem layer_isReal (hAX : ∀ i, IsReal (AX i)) (hX : ∀ i, IsReal (X i)) (hcm : ∀ i, IsReal (cm i))
    (hcm1 : ∀ i, 1 ≤ cm i) (hWl : ∀ i, IsReal (Wl i)) (hWr : ∀ i, IsReal (Wr i)) (hbl : ∀ i, IsReal (bl i))
    (hg : ∀ i, IsReal (g i)) (hbe : ∀ i, IsReal (be i)) (i : (SNK 64).Idx) :
    IsReal (layer AX X cm Wl Wr bl g be i) :=
  (layer_eq AX X cm Wl Wr bl g be hAX hX hcm hcm1 hWl hWr hbl hg hbe (i 0) (i 1)).2

end Layer

end Cert.Math

end
-- ==== Proof.Math.Net.lean ====
/-
  The two layers chained, and the network.

  The aggregation is a parameter that keeps real arrays real. With every float argument real and every
  clamped in-degree a real that is at least one, the first layer's two forms agree and its output is
  real; so the second layer is fed real arrays, its two forms agree too, and the column maxima of the
  two second-layer outputs are the same.
-/
import proofs.«150514_j16690242912872_2_alg».proof.Proof.Math.Layer

open Idealize.ShloMosaic Idealize.ShloMosaic.ValueIdx
open scoped BigOperators

noncomputable section

namespace Cert.Math

open Cert.RefSpec Cert.Finite

section Net

variable (A2 : Arr (SNK 2) → Arr (SNK 2)) (A64 : Arr (SNK 64) → Arr (SNK 64)) (cm : Arr SN)
  (x : Arr (SNK 2)) (W1l : Arr (SKH 2)) (b1l : Arr SH) (W1r : Arr (SKH 2))
  (W2l : Arr (SKH 64)) (b2l : Arr SH) (W2r : Arr (SKH 64)) (g1 be1 g2 be2 : Arr SH)

/-- The first layer's output in the program's form. -/
def hiddenK : Arr (SNK 64) := layerK (A2 x) x cm W1l W1r b1l g1 be1

/-- The second layer's output in the program's form, fed with the program's first layer. -/
def topK : Arr (SNK 64) :=
  layerK (A64 (hiddenK A2 cm x W1l b1l W1r g1 be1)) (hiddenK A2 cm x W1l b1l W1r g1 be1) cm W2l W2r b2l g2 be2

/-- The network in the program's form: the column maxima of the second layer's output. -/
def netK : Arr SH := fun i => colMax (topK A2 A64 cm x W1l b1l W1r W2l b2l W2r g1 be1 g2 be2) (i 0)

theorem netK_apply (j : Fin 64) :
    netK A2 A64 cm x W1l b1l W1r W2l b2l W2r g1 be1 g2 be2 (ix1 j)
      = colMax (topK A2 A64 cm x W1l b1l W1r W2l b2l W2r g1 be1 g2 be2) j := rfl

variable (hA2 : ∀ X : Arr (SNK 2), (∀ i, IsReal (X i)) → ∀ i, IsReal (A2 X i))
  (hA64 : ∀ X : Arr (SNK 64), (∀ i, IsReal (X i)) → ∀ i, IsReal (A64 X i))
  (hcm : ∀ i, IsReal (cm i)) (hcm1 : ∀ i, 1 ≤ cm i) (hx : ∀ i, IsReal (x i))
  (hW1l : ∀ i, IsReal (W1l i)) (hb1l : ∀ i, IsReal (b1l i)) (hW1r : ∀ i, IsReal (W1r i))
  (hW2l : ∀ i, IsReal (W2l i)) (hb2l : ∀ i, IsReal (b2l i)) (hW2r : ∀ i, IsReal (W2r i))
  (hg1 : ∀ i, IsReal (g1 i)) (hbe1 : ∀ i, IsReal (be1 i)) (hg2 : ∀ i, IsReal (g2 i)) (hbe2 : ∀ i, IsReal (be2 i))

include hA2 hcm hcm1 hx hW1l hb1l hW1r hg1 hbe1 in
/-- The first layer's two forms agree. -/
theorem hiddenK_eq : hiddenK A2 cm x W1l b1l W1r g1 be1 = hidden A2 cm x W1l b1l W1r g1 be1 :=
  layerK_eq (A2 x) x cm W1l W1r b1l g1 be1 (hA2 x hx) hx hcm hcm1 hW1l hW1r hb1l hg1 hbe1

include hA2 hcm hcm1 hx hW1l hb1l hW1r hg1 hbe1 in
/-- The first layer's output is real. -/
theorem hidden_isReal (i : (SNK 64).Idx) : IsReal (hidden A2 cm x W1l b1l W1r g1 be1 i) :=
  layer_isReal (A2 x) x cm W1l W1r b1l g1 be1 (hA2 x hx) hx hcm hcm1 hW1l hW1r hb1l hg1 hbe1 i

include hA2 hA64 hcm hcm1 hx hW1l hb1l hW1r hW2l hb2l hW2r hg1 hbe1 hg2 hbe2 in
/-- THE TWO LAYERS: the program's second-layer output is the reference's. -/
theorem topK_eq :
    topK A2 A64 cm x W1l b1l W1r W2l b2l W2r g1 be1 g2 be2
      = top A2 A64 cm x W1l b1l W1r W2l b2l W2r g1 be1 g2 be2 := by
  have hH := hidden_isReal A2 cm x W1l b1l W1r g1 be1 hA2 hcm hcm1 hx hW1l hb1l hW1r hg1 hbe1
  unfold topK top
  rw [hiddenK_eq A2 cm x W1l b1l W1r g1 be1 hA2 hcm hcm1 hx hW1l hb1l hW1r hg1 hbe1]
  exact layerK_eq _ _ cm W2l W2r b2l g2 be2 (hA64 _ hH) hH hcm hcm1 hW2l hW2r hb2l hg2 hbe2

include hA2 hA64 hcm hcm1 hx hW1l hb1l hW1r hW2l hb2l hW2r hg1 hbe1 hg2 hbe2 in
/-- The second layer's output is real. -/
theorem top_isReal (i : (SNK 64).Idx) :
    IsReal (top A2 A64 cm x W1l b1l W1r W2l b2l W2r g1 be1 g2 be2 i) := by
  have hH := hidden_isReal A2 cm x W1l b1l W1r g1 be1 hA2 hcm hcm1 hx hW1l hb1l hW1r hg1 hbe1
  exact layer_isReal _ _ cm W2l W2r b2l g2 be2 (hA64 _ hH) hH hcm hcm1 hW2l hW2r hb2l hg2 hbe2 i

include hA2 hA64 hcm hcm1 hx hW1l hb1l hW1r hW2l hb2l hW2r hg1 hbe1 hg2 hbe2 in
/-- THE NETWORK: the column maxima of the two second-layer outputs agree. -/
theorem net_eq :
    netK A2 A64 cm x W1l b1l W1r W2l b2l W2r g1 be1 g2 be2
      = net A2 A64 cm x W1l b1l W1r W2l b2l W2r g1 be1 g2 be2 := by
  unfold netK net
  rw [topK_eq A2 A64 cm x W1l b1l W1r W2l b2l W2r g1 be1 g2 be2 hA2 hA64 hcm hcm1 hx hW1l hb1l hW1r
    hW2l hb2l hW2r hg1 hbe1 hg2 hbe2]

end Net

end Cert.Math

end
-- ==== Proof.Math.ColMax.lean ====
/-
  The column maximum over all nodes, computed from the lane-dense view.

  The `100000 × 64` array read row-major as `50000 × 128` puts row `2p` in lanes `0 … 63` of row `p`
  and row `2p + 1` in lanes `64 … 127`. The maximum of column `j` over all rows is therefore the larger
  of the maximum of lane `j` and the maximum of lane `64 + j` over the `50000` rows of the view; and a
  maximum over `50000` rows is the running maximum over five tiles of `10000` rows. Nothing here needs
  the entries to be finite: `max` is commutative, associative and idempotent, and `⊥` is its neutral element.
-/
import proofs.«150514_j16690242912872_2_alg».proof.Proof.RefSpec

open Idealize.ShloMosaic Idealize.ShloMosaic.ValueIdx
open scoped BigOperators

noncomputable section

namespace Cert.Math

open Cert.RefSpec

/-! ## Folding `max` from the bottom is the supremum -/

/-- A fold of `max` starting from `⊥` is the finite supremum. -/
theorem fold_max_eq_sup {ι : Type*} (s : Finset ι) (f : ι → EReal) : s.fold max ⊥ f = s.sup f := rfl

/-! ## A supremum regrouped into equal blocks -/

/-- Position `r` of block `p` (blocks of `b` positions, `a` of them) is an index below `n = a · b`. -/
theorem blk_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The supremum over `n = a · b` indices is the supremum over the `a` blocks of the suprema over the `b`
    positions of a block. -/
theorem sup_eq_sup_blocks {n : ℕ} (a b : ℕ) (hn : a * b = n) (f : Fin n → EReal) :
    Finset.univ.sup f
      = Finset.univ.sup fun p : Fin a => Finset.univ.sup fun r : Fin b => f ⟨b * p.val + r.val, blk_lt hn p r⟩ := by
  apply le_antisymm
  · refine Finset.sup_le fun i _ => ?_
    have hb : 0 < b := by
      rcases Nat.eq_zero_or_pos b with h | h
      · subst h; rw [Nat.mul_zero] at hn; subst hn; exact i.elim0
      · exact h
    have hp : i.val / b < a := by
      rw [Nat.div_lt_iff_lt_mul hb, hn]; exact i.isLt
    have hq : i.val % b < b := Nat.mod_lt _ hb
    calc f i = f ⟨b * (⟨i.val / b, hp⟩ : Fin a).val + (⟨i.val % b, hq⟩ : Fin b).val, blk_lt hn _ _⟩ :=
          congrArg f (Fin.ext (Nat.div_add_mod _ _).symm)
      _ ≤ Finset.univ.sup fun r : Fin b => f ⟨b * (⟨i.val / b, hp⟩ : Fin a).val + r.val, blk_lt hn _ r⟩ :=
          Finset.le_sup (f := fun r : Fin b => f ⟨b * (⟨i.val / b, hp⟩ : Fin a).val + r.val, blk_lt hn _ r⟩)
            (Finset.mem_univ (⟨i.val % b, hq⟩ : Fin b))
      _ ≤ _ := Finset.le_sup
          (f := fun p : Fin a => Finset.univ.sup fun r : Fin b => f ⟨b * p.val + r.val, blk_lt hn p r⟩)
          (Finset.mem_univ (⟨i.val / b, hp⟩ : Fin a))
  · exact Finset.sup_le fun p _ => Finset.sup_le fun r _ => Finset.le_sup (Finset.mem_univ _)

/-- The supremum of five values listed by `Fin 5` is the running maximum: the first, then each next one
    against what came before. -/
theorem sup_fin5 (m : Fin 5 → EReal) :
    Finset.univ.sup m = max (max (max (max (m 0) (m 1)) (m 2)) (m 3)) (m 4) := by
  apply le_antisymm
  · refine Finset.sup_le fun t _ => ?_
    fin_cases t
    · exact le_max_of_le_left (le_max_of_le_left (le_max_of_le_left (le_max_left _ _)))
    · exact le_max_of_le_left (le_max_of_le_left (le_max_of_le_left (le_max_right _ _)))
    · exact le_max_of_le_left (le_max_of_le_left (le_max_right _ _))
    · exact le_max_of_le_left (le_max_right _ _)
    · exact le_max_right _ _
  · have hle : ∀ t, m t ≤ Finset.univ.sup m := fun t => Finset.le_sup (Finset.mem_univ t)
    exact max_le (max_le (max_le (max_le (hle 0) (hle 1)) (hle 2)) (hle 3)) (hle 4)

/-! ## The five tiles of the lane-dense view -/

/-- Row `q` of tile `t` (five tiles of `10000` rows) is a row of the `50000`-row view. -/
theorem tile_lt (t : Fin 5) (q : Fin 10000) : 10000 * t.val + q.val < 50000 :=
  blk_lt (by norm_num) t q

/-- The maximum of `f` over the `10000` rows of tile `t`. -/
def tileMax (f : Fin 50000 → EReal) (t : Fin 5) : EReal :=
  (Finset.univ : Finset (Fin 10000)).fold max ⊥ fun q => f ⟨10000 * t.val + q.val, tile_lt t q⟩

/-- A maximum over the `50000` rows is the running maximum over the five tiles of `10000` rows. -/
theorem fold_max_tiles (f : Fin 50000 → EReal) :
    (Finset.univ : Finset (Fin 50000)).fold max ⊥ f
      = max (max (max (max (tileMax f 0) (tileMax f 1)) (tileMax f 2)) (tileMax f 3)) (tileMax f 4) := by
  rw [fold_max_eq_sup, sup_eq_sup_blocks 5 10000 (by norm_num) f]
  exact sup_fin5 _

/-! ## Even and odd rows -/

theorem even_lt (p : Fin 50000) : 2 * p.val < 100000 := by have := p.isLt; omega

theorem odd_lt (p : Fin 50000) : 2 * p.val + 1 < 100000 := by have := p.isLt; omega

/-- A supremum over `100000` rows is the larger of the suprema over the even and over the odd rows. -/
theorem sup_even_odd (f : Fin 100000 → EReal) :
    Finset.univ.sup f
      = max (Finset.univ.sup fun p : Fin 50000 => f ⟨2 * p.val, even_lt p⟩)
            (Finset.univ.sup fun p : Fin 50000 => f ⟨2 * p.val + 1, odd_lt p⟩) := by
  apply le_antisymm
  · refine Finset.sup_le fun i _ => ?_
    have hi := i.isLt
    have hp : i.val / 2 < 50000 := by omega
    rcases Nat.mod_two_eq_zero_or_one i.val with h | h
    · calc f i = f ⟨2 * (⟨i.val / 2, hp⟩ : Fin 50000).val, even_lt _⟩ :=
            congrArg f (Fin.ext (by show i.val = 2 * (i.val / 2); omega))
        _ ≤ Finset.univ.sup fun p : Fin 50000 => f ⟨2 * p.val, even_lt p⟩ :=
            Finset.le_sup (f := fun p : Fin 50000 => f ⟨2 * p.val, even_lt p⟩) (Finset.mem_univ _)
        _ ≤ _ := le_max_left _ _
    · calc f i = f ⟨2 * (⟨i.val / 2, hp⟩ : Fin 50000).val + 1, odd_lt _⟩ :=
            congrArg f (Fin.ext (by show i.val = 2 * (i.val / 2) + 1; omega))
        _ ≤ Finset.univ.sup fun p : Fin 50000 => f ⟨2 * p.val + 1, odd_lt p⟩ :=
            Finset.le_sup (f := fun p : Fin 50000 => f ⟨2 * p.val + 1, odd_lt p⟩) (Finset.mem_univ _)
        _ ≤ _ := le_max_right _ _
  · exact max_le (Finset.sup_le fun p _ => Finset.le_sup (Finset.mem_univ _))
      (Finset.sup_le fun p _ => Finset.le_sup (Finset.mem_univ _))

/-! ## The two halves of the lanes -/

theorem lane_row_lt (p : Fin 50000) (l : Fin 128) : 2 * p.val + l.val / 64 < 100000 := by
  have := p.isLt; have := l.isLt; omega

/-- The lane-dense view: entry `(p, l)` of the `50000 × 128` reading is entry `(2p + l / 64, l mod 64)`. -/
def laneView (Y : Arr (SNK 64)) (p : Fin 50000) (l : Fin 128) : EReal :=
  Y (ix2 (⟨2 * p.val + l.val / 64, lane_row_lt p l⟩ : Fin 100000)
    (⟨l.val % 64, Nat.mod_lt _ (by norm_num)⟩ : Fin 64))

theorem lane_lo_lt (j : Fin 64) : j.val < 128 := by have := j.isLt; omega

theorem lane_hi_lt (j : Fin 64) : 64 + j.val < 128 := by have := j.isLt; omega

/-- Lane `j` of row `p` is column `j` of row `2p`. -/
theorem laneView_lo (Y : Arr (SNK 64)) (p : Fin 50000) (j : Fin 64) :
    laneView Y p ⟨j.val, lane_lo_lt j⟩ = Y (ix2 (⟨2 * p.val, even_lt p⟩ : Fin 100000) j) := by
  have hj := j.isLt
  unfold laneView
  refine congrArg Y (congrArg₂ ix2 (Fin.ext ?_) (Fin.ext ?_))
  · show 2 * p.val + j.val / 64 = 2 * p.val
    omega
  · show j.val % 64 = j.val
    omega

/-- Lane `64 + j` of row `p` is column `j` of row `2p + 1`. -/
theorem laneView_hi (Y : Arr (SNK 64)) (p : Fin 50000) (j : Fin 64) :
    laneView Y p ⟨64 + j.val, lane_hi_lt j⟩ = Y (ix2 (⟨2 * p.val + 1, odd_lt p⟩ : Fin 100000) j) := by
  have hj := j.isLt
  unfold laneView
  refine congrArg Y (congrArg₂ ix2 (Fin.ext ?_) (Fin.ext ?_))
  · show 2 * p.val + (64 + j.val) / 64 = 2 * p.val + 1
    omega
  · show (64 + j.val) % 64 = j.val
    omega

/-- THE COLUMN MAXIMUM FROM THE LANES: the larger of the maxima of lanes `j` and `64 + j` over the rows of
    the view is the maximum of column `j` over all nodes. -/
theorem lane_max (Y : Arr (SNK 64)) (j : Fin 64) :
    max ((Finset.univ : Finset (Fin 50000)).fold max ⊥ fun p => laneView Y p ⟨j.val, lane_lo_lt j⟩)
        ((Finset.univ : Finset (Fin 50000)).fold max ⊥ fun p => laneView Y p ⟨64 + j.val, lane_hi_lt j⟩)
      = colMax Y j := by
  unfold colMax
  rw [cNegInf_eq]
  simp only [fold_max_eq_sup, laneView_lo, laneView_hi]
  exact (sup_even_odd fun r : Fin 100000 => Y (ix2 r j)).symm

end Cert.Math

end
-- ==== Proof.Math.Final.lean ====
/-
  The program's result, entry by entry, is the reference network's.

  The program ends with a running maximum over five tiles of the lane-dense view of its second-layer
  output and then takes, for column `j`, the larger of lanes `j` and `64 + j`. By the tile regrouping that
  running maximum is the maximum over all `50000` rows of the view, by the even/odd split the larger
  of the two lanes is the maximum of column `j` over all nodes, and the two second-layer outputs agree.
-/
import proofs.«150514_j16690242912872_2_alg».proof.Proof.Math.Net
import proofs.«150514_j16690242912872_2_alg».proof.Proof.Math.ColMax

open Idealize.ShloMosaic Idealize.ShloMosaic.ValueIdx
open scoped BigOperators

noncomputable section

namespace Cert.Math

open Cert.RefSpec Cert.Finite

/-- The running maximum over the five tiles: the first tile's maximum, then each next tile's against what
    came before. -/
def runMax (f : Fin 50000 → EReal) : EReal :=
  max (max (max (max (tileMax f 0) (tileMax f 1)) (tileMax f 2)) (tileMax f 3)) (tileMax f 4)

/-- The running maximum over the tiles is the maximum over all rows of the view. -/
theorem runMax_eq (f : Fin 50000 → EReal) : runMax f = (Finset.univ : Finset (Fin 50000)).fold max ⊥ f :=
  (fold_max_tiles f).symm

/-- The larger of the running maxima of lanes `j` and `64 + j` is the maximum of column `j` over all nodes. -/
theorem runMax_lanes (Y : Arr (SNK 64)) (j : Fin 64) :
    max (runMax fun p => laneView Y p ⟨j.val, lane_lo_lt j⟩)
        (runMax fun p => laneView Y p ⟨64 + j.val, lane_hi_lt j⟩)
      = colMax Y j := by
  rw [runMax_eq, runMax_eq]
  exact lane_max Y j

/-- An entry of the lane-dense view of a layer in the program's form. -/
theorem laneView_layerK {K : Nat} (AX X : Arr (SNK K)) (cm : Arr SN) (Wl Wr : Arr (SKH K)) (bl g be : Arr SH)
    (p : Fin 50000) (l : Fin 128) :
    laneView (layerK AX X cm Wl Wr bl g be) p l
      = actK AX X cm Wl Wr bl g be (⟨2 * p.val + l.val / 64, lane_row_lt p l⟩ : Fin 100000)
          (⟨l.val % 64, Nat.mod_lt _ (by norm_num)⟩ : Fin 64) := rfl

section Net

variable (A2 : Arr (SNK 2) → Arr (SNK 2)) (A64 : Arr (SNK 64) → Arr (SNK 64)) (cm : Arr SN)
  (x : Arr (SNK 2)) (W1l : Arr (SKH 2)) (b1l : Arr SH) (W1r : Arr (SKH 2))
  (W2l : Arr (SKH 64)) (b2l : Arr SH) (W2r : Arr (SKH 64)) (g1 be1 g2 be2 : Arr SH)

variable (hA2 : ∀ X : Arr (SNK 2), (∀ i, IsReal (X i)) → ∀ i, IsReal (A2 X i))
  (hA64 : ∀ X : Arr (SNK 64), (∀ i, IsReal (X i)) → ∀ i, IsReal (A64 X i))
  (hcm : ∀ i, IsReal (cm i)) (hcm1 : ∀ i, 1 ≤ cm i) (hx : ∀ i, IsReal (x i))
  (hW1l : ∀ i, IsReal (W1l i)) (hb1l : ∀ i, IsReal (b1l i)) (hW1r : ∀ i, IsReal (W1r i))
  (hW2l : ∀ i, IsReal (W2l i)) (hb2l : ∀ i, IsReal (b2l i)) (hW2r : ∀ i, IsReal (W2r i))
  (hg1 : ∀ i, IsReal (g1 i)) (hbe1 : ∀ i, IsReal (be1 i)) (hg2 : ∀ i, IsReal (g2 i)) (hbe2 : ∀ i, IsReal (be2 i))

include hA2 hA64 hcm hcm1 hx hW1l hb1l hW1r hW2l hb2l hW2r hg1 hbe1 hg2 hbe2 in
/-- THE RESULT: entry `j` of the program's result is entry `j` of the reference network. -/
theorem result_eq (j : Fin 64) :
    max (runMax fun p => laneView (topK A2 A64 cm x W1l b1l W1r W2l b2l W2r g1 be1 g2 be2) p ⟨j.val, lane_lo_lt j⟩)
        (runMax fun p => laneView (topK A2 A64 cm x W1l b1l W1r W2l b2l W2r g1 be1 g2 be2) p
          ⟨64 + j.val, lane_hi_lt j⟩)
      = net A2 A64 cm x W1l b1l W1r W2l b2l W2r g1 be1 g2 be2 (ix1 j) := by
  rw [runMax_lanes, net_apply,
    topK_eq A2 A64 cm x W1l b1l W1r W2l b2l W2r g1 be1 g2 be2 hA2 hA64 hcm hcm1 hx hW1l hb1l hW1r
      hW2l hb2l hW2r hg1 hbe1 hg2 hbe2]

end Net

end Cert.Math

end
-- ==== Proof.Bridge.LayerGlue.lean ====
/-
  One layer, from the arrays the program holds to the form the mathematics is stated in.

  A layer's first kernel leaves the entries before normalisation, `P0`, and, for each of the two halves of the nodes, a
  running sum over the half's five tiles of every column (`P1`) and of every column's squares (`P2`), each started at
  zero. The host adds the two halves to zero: by regrouping a finite sum this is the column's sum over all nodes, and
  likewise for the squares. From there the host's mean, clipped variance, factor and offset are, word for word, the
  ones of the layer's one-pass form. The second kernel applies factor and offset in the lane-dense reading, where row
  `p` holds nodes `2p` and `2p + 1` side by side: entry `(p, l)` is node `2p + l / 64`, column `l mod 64`; and read back
  node by node, node `r`, column `j` sits at row `r / 2`, lane `64 (r mod 2) + j`.
-/
import proofs.«150514_j16690242912872_2_alg».proof.Proof.Math.Final
import proofs.«150514_j16690242912872_2_alg».proof.Proof.Math.TileSum
import proofs.«150514_j16690242912872_2_alg».proof.Proof.KH.Stats

noncomputable section

open scoped BigOperators

namespace Cert.Proof.Bridge

open Idealize.ShloMosaic Idealize.ShloMosaic.ValueIdx Cert.RefSpec Cert.KernelIdeal.HandHost

section Layer

variable {K : ℕ} (AX X : Arr (SNK K)) (cm : Arr SN) (Wl Wr : Arr (SKH K)) (bl g be : Arr SH)
  (P0 : Cert.KernelIdeal.S100000x64.Idx → EReal) (P1 P2 : Cert.KernelIdeal.S2x1x64.Idx → EReal)
  (h0 : ∀ (r : Fin 100000) (j : Fin 64), P0 (ix2 r j) = Math.preK AX X cm Wl Wr bl r j)
  (h1 : ∀ (core : Fin 2) (j : Fin 64), P1 (ix3 core (0 : Fin 1) j)
        = ((((0 + Math.tileSum (fun r => Math.preK AX X cm Wl Wr bl r j) core 0) + Math.tileSum (fun r => Math.preK AX X cm Wl Wr bl r j) core 1) + Math.tileSum (fun r => Math.preK AX X cm Wl Wr bl r j) core 2)
          + Math.tileSum (fun r => Math.preK AX X cm Wl Wr bl r j) core 3) + Math.tileSum (fun r => Math.preK AX X cm Wl Wr bl r j) core 4)
  (h2 : ∀ (core : Fin 2) (j : Fin 64), P2 (ix3 core (0 : Fin 1) j)
        = ((((0 + Math.tileSum (fun r => Math.preK AX X cm Wl Wr bl r j * Math.preK AX X cm Wl Wr bl r j) core 0) + Math.tileSum (fun r => Math.preK AX X cm Wl Wr bl r j * Math.preK AX X cm Wl Wr bl r j) core 1) + Math.tileSum (fun r => Math.preK AX X cm Wl Wr bl r j * Math.preK AX X cm Wl Wr bl r j) core 2)
          + Math.tileSum (fun r => Math.preK AX X cm Wl Wr bl r j * Math.preK AX X cm Wl Wr bl r j) core 3) + Math.tileSum (fun r => Math.preK AX X cm Wl Wr bl r j * Math.preK AX X cm Wl Wr bl r j) core 4)

include h1 in
/-- The two halves' running sums, added to zero, are the column's sum over all nodes. -/
theorem glue_sum1 (j : Fin 64) : colSum P1 j = Math.S1 AX X cm Wl Wr bl j := by
  unfold colSum Math.S1
  rw [h1 0 j, h1 1 j]
  exact (zero_add _).trans (Math.sum_tiles_running_two (fun r => Math.preK AX X cm Wl Wr bl r j))

include h2 in
/-- The same for the squares. -/
theorem glue_sum2 (j : Fin 64) : colSum P2 j = Math.S2 AX X cm Wl Wr bl j := by
  unfold colSum Math.S2
  rw [h2 0 j, h2 1 j]
  exact (zero_add _).trans (Math.sum_tiles_running_two (fun r => Math.preK AX X cm Wl Wr bl r j * Math.preK AX X cm Wl Wr bl r j))

include h1 in
/-- The column's mean. -/
theorem glue_mu (j : Fin 64) : colMu P1 j = Math.muK AX X cm Wl Wr bl j := by
  unfold colMu Math.muK
  rw [glue_sum1 AX X cm Wl Wr bl P1 h1 j]

include h1 h2 in
/-- The column's clipped variance. -/
theorem glue_var (j : Fin 64) : colVar P1 P2 j = Math.varK AX X cm Wl Wr bl j := by
  unfold colVar Math.varK
  rw [glue_sum2 AX X cm Wl Wr bl P2 h2 j, glue_mu AX X cm Wl Wr bl P1 h1 j]

include h1 h2 in
/-- The column's factor. -/
theorem glue_scale (j : Fin 64) : colScale P1 P2 g j = Math.scale AX X cm Wl Wr bl g j := by
  unfold colScale Math.scale
  rw [glue_var AX X cm Wl Wr bl P1 P2 h1 h2 j]

include h1 h2 in
/-- The column's offset. -/
theorem glue_shift (j : Fin 64) : colShift P1 P2 g be j = Math.shift AX X cm Wl Wr bl g be j := by
  unfold colShift Math.shift
  rw [glue_mu AX X cm Wl Wr bl P1 h1 j, glue_scale AX X cm Wl Wr bl g P1 P2 h1 h2 j]

include h0 h1 h2 in
/-- The second kernel's entry in the lane-dense reading is the layer's output there. -/
theorem glue_dense (p : Fin 50000) (l : Fin 128) :
    max (P0 (ix2 (⟨2 * p.val + l.val / 64, Math.lane_row_lt p l⟩ : Fin 100000)
            (⟨l.val % 64, Nat.mod_lt _ (by norm_num)⟩ : Fin 64))
          * colScale P1 P2 g (⟨l.val % 64, Nat.mod_lt _ (by norm_num)⟩ : Fin 64)
        + colShift P1 P2 g be (⟨l.val % 64, Nat.mod_lt _ (by norm_num)⟩ : Fin 64)) 0
      = Math.laneView (Math.layerK AX X cm Wl Wr bl g be) p l := by
  rw [Math.laneView_layerK, h0, glue_scale AX X cm Wl Wr bl g P1 P2 h1 h2, glue_shift AX X cm Wl Wr bl g be P1 P2 h1 h2]
  rfl

end Layer

section Sparse

variable {K : ℕ} (AX X : Arr (SNK K)) (cm : Arr SN) (Wl Wr : Arr (SKH K)) (bl g be : Arr SH)

/-- Read back node by node, the lane-dense array is the layer's output. -/
theorem glue_sparse (D : Cert.KernelIdeal.S50000x128.Idx → EReal)
    (hD : ∀ (p : Fin 50000) (l : Fin 128), D (ix2 p l) = Math.laneView (Math.layerK AX X cm Wl Wr bl g be) p l)
    (r : Fin 100000) (j : Fin 64) :
    D (ix2 (⟨r.val / 2, by have := r.isLt; omega⟩ : Fin 50000)
           (⟨64 * (r.val % 2) + j.val, by have := j.isLt; omega⟩ : Fin 128))
      = Math.layerK AX X cm Wl Wr bl g be (ix2 r j) := by
  rw [hD]
  unfold Math.laneView
  refine congrArg (Math.layerK AX X cm Wl Wr bl g be) (funext fun d => ?_)
  match d with
  | ⟨0, _⟩ =>
    exact Fin.ext (by
      show 2 * (r.val / 2) + (64 * (r.val % 2) + j.val) / 64 = r.val
      have := j.isLt; omega)
  | ⟨1, _⟩ =>
    exact Fin.ext (by
      show (64 * (r.val % 2) + j.val) % 64 = j.val
      have := j.isLt; omega)

end Sparse

end Cert.Proof.Bridge

end
-- ==== Proof.Bridge.L1.lean ====
/-
  The first layer, read off the run.  The first stretch of host operations leaves the neighbour means (the neighbour sums
  times the reciprocal clamped in-degree) and the bias as a row; the first region leaves, row by row, the two linear maps plus
  the bias, and per half of the nodes the running sums of every column and of its squares over the half's five tiles; the
  second stretch turns the sums into one factor and one offset per column and re-reads the rows two by two; the second region
  applies factor, offset and the clip at zero; the third stretch reads the rows back one by one.  Entry by entry this is the
  one-pass form of the layer in Proof/Math.
-/
import proofs.«150514_j16690242912872_2_alg».proof.Proof.KI.Pass
import proofs.«150514_j16690242912872_2_alg».proof.Proof.KH.Host0
import proofs.«150514_j16690242912872_2_alg».proof.Proof.KH.Host1
import proofs.«150514_j16690242912872_2_alg».proof.Proof.KH.Host2
import proofs.«150514_j16690242912872_2_alg».proof.Proof.KH.Kept
import proofs.«150514_j16690242912872_2_alg».proof.Proof.KV.R1
import proofs.«150514_j16690242912872_2_alg».proof.Proof.KV.Region0Final
import proofs.«150514_j16690242912872_2_alg».proof.Proof.Math.Final
import proofs.«150514_j16690242912872_2_alg».proof.Proof.Bridge.LayerGlue

noncomputable section

namespace Cert.Proof.Bridge

open Idealize.ShloMosaic Idealize.ShloMosaic.ValueIdx Idealize.ShloMosaic.TcCoe Idealize.SL.Sem
open Cert.KernelIdeal Cert.KernelIdeal.Gen Cert.KernelIdeal.Hand
open Cert.RefSpec (Arr SNK SKH SH SN)
open scoped BigOperators

variable (m : (ℓ : Loc nD τ sig) → Buf (Elt Ideal) ℓ) (c : Dev nD)

/-! ## The arguments, as the arrays the mathematics is stated over -/

abbrev ei : HandHost.Edges := m ((c : Thread nD τ).loc main_arg1)
abbrev a0 : Arr (SNK 2) := m ((c : Thread nD τ).loc main_arg0)
abbrev a2 : Arr (SKH 2) := m ((c : Thread nD τ).loc main_arg2)
abbrev a3 : Arr SH := m ((c : Thread nD τ).loc main_arg3)
abbrev a4 : Arr (SKH 2) := m ((c : Thread nD τ).loc main_arg4)
abbrev a5 : Arr (SKH 64) := m ((c : Thread nD τ).loc main_arg5)
abbrev a6 : Arr SH := m ((c : Thread nD τ).loc main_arg6)
abbrev a7 : Arr (SKH 64) := m ((c : Thread nD τ).loc main_arg7)
abbrev a8 : Arr SH := m ((c : Thread nD τ).loc main_arg8)
abbrev a9 : Arr SH := m ((c : Thread nD τ).loc main_arg9)
abbrev a10 : Arr SH := m ((c : Thread nD τ).loc main_arg10)
abbrev a11 : Arr SH := m ((c : Thread nD τ).loc main_arg11)
/-- The first layer's neighbour sums and the clamped in-degrees. -/
abbrev AX1 : Arr (SNK 2) := HandHost.kerA2 (ei m c) (a0 m c)
abbrev cmK : Arr SN := HandHost.kerCm (ei m c)
/-- The first layer's output. -/
abbrev Y1 : Arr (SNK 64) := Math.layerK (AX1 m c) (a0 m c) (cmK m c) (a2 m c) (a4 m c) (a3 m c) (a8 m c) (a9 m c)

/-! ## The first region's outputs -/

/-- A row's pre-activation, as the first region computes it from what the first stretch left. -/
theorem lin0_at (r : Fin 100000) (j : Fin 64) :
    HandValue.lin0 (U1 m) c r j = Math.preK (AX1 m c) (a0 m c) (cmK m c) (a2 m c) (a4 m c) (a3 m c) r j := by
  unfold HandValue.lin0 Math.preK Math.meanK Math.inv
  have hm : ∀ k : Fin 2, HandValue.mean0 (U1 m) c (ix2 r k)
      = HandHost.kerA2 (ei m c) (a0 m c) (ix2 r k) * Ideal.div (Ideal.ofBits .f32 0x3F800000#32) (HandHost.kerCm (ei m c) (ix1 r)) :=
    fun k => HandHost.host0_mean (W0 m c) r k
  have hb : HandValue.bias0 (U1 m) c (ix2 0 j) = a3 m c (ix1 j) := HandHost.host0_bias (W0 m c) j
  have hwl : HandValue.wl0 (U1 m) c = a2 m c := W1_main_arg2 m c
  have hwr : HandValue.wr0 (U1 m) c = a4 m c := W1_main_arg4 m c
  have hf : HandValue.feat0 (U1 m) c = a0 m c := W1_main_arg0 m c
  simp only [hm, hb, hwl, hwr, hf]

theorem pre1_at (r : Fin 100000) (j : Fin 64) :
    HandHost.pre1 (W2 m c) (ix2 r j) = Math.preK (AX1 m c) (a0 m c) (cmK m c) (a2 m c) (a4 m c) (a3 m c) r j := by
  have e : HandHost.pre1 (W2 m c) = ((dat0 (F := Ideal) (U1 m) c).arrAt 5 cfg0.N : S100000x64.Idx → Ideal .f32) := W2_arr m c 5
  rw [e, HandValue.final0_5_apply (U1 m) c r j]
  exact lin0_at m c r j

theorem sum1_at (q : Fin 2) (j : Fin 64) :
    HandHost.partSum1 (W2 m c) (ix3 q (0 : Fin 1) j)
      = ((((0 + Math.tileSum (fun r => Math.preK (AX1 m c) (a0 m c) (cmK m c) (a2 m c) (a4 m c) (a3 m c) r j) q 0)
            + Math.tileSum (fun r => Math.preK (AX1 m c) (a0 m c) (cmK m c) (a2 m c) (a4 m c) (a3 m c) r j) q 1)
            + Math.tileSum (fun r => Math.preK (AX1 m c) (a0 m c) (cmK m c) (a2 m c) (a4 m c) (a3 m c) r j) q 2)
            + Math.tileSum (fun r => Math.preK (AX1 m c) (a0 m c) (cmK m c) (a2 m c) (a4 m c) (a3 m c) r j) q 3)
            + Math.tileSum (fun r => Math.preK (AX1 m c) (a0 m c) (cmK m c) (a2 m c) (a4 m c) (a3 m c) r j) q 4 := by
  have e : HandHost.partSum1 (W2 m c) = ((dat0 (F := Ideal) (U1 m) c).arrAt 6 cfg0.N : S2x1x64.Idx → Ideal .f32) := W2_arr m c 6
  rw [e, HandValue.final0_6_apply (U1 m) c q j]
  unfold HandValue.statSum0
  simp only [lin0_at m c]

theorem sq1_at (q : Fin 2) (j : Fin 64) :
    HandHost.partSq1 (W2 m c) (ix3 q (0 : Fin 1) j)
      = ((((0 + Math.tileSum (fun r => Math.preK (AX1 m c) (a0 m c) (cmK m c) (a2 m c) (a4 m c) (a3 m c) r j * Math.preK (AX1 m c) (a0 m c) (cmK m c) (a2 m c) (a4 m c) (a3 m c) r j) q 0)
            + Math.tileSum (fun r => Math.preK (AX1 m c) (a0 m c) (cmK m c) (a2 m c) (a4 m c) (a3 m c) r j * Math.preK (AX1 m c) (a0 m c) (cmK m c) (a2 m c) (a4 m c) (a3 m c) r j) q 1)
            + Math.tileSum (fun r => Math.preK (AX1 m c) (a0 m c) (cmK m c) (a2 m c) (a4 m c) (a3 m c) r j * Math.preK (AX1 m c) (a0 m c) (cmK m c) (a2 m c) (a4 m c) (a3 m c) r j) q 2)
            + Math.tileSum (fun r => Math.preK (AX1 m c) (a0 m c) (cmK m c) (a2 m c) (a4 m c) (a3 m c) r j * Math.preK (AX1 m c) (a0 m c) (cmK m c) (a2 m c) (a4 m c) (a3 m c) r j) q 3)
            + Math.tileSum (fun r => Math.preK (AX1 m c) (a0 m c) (cmK m c) (a2 m c) (a4 m c) (a3 m c) r j * Math.preK (AX1 m c) (a0 m c) (cmK m c) (a2 m c) (a4 m c) (a3 m c) r j) q 4 := by
  have e : HandHost.partSq1 (W2 m c) = ((dat0 (F := Ideal) (U1 m) c).arrAt 7 cfg0.N : S2x1x64.Idx → Ideal .f32) := W2_arr m c 7
  rw [e, HandValue.final0_7_apply (U1 m) c q j]
  unfold HandValue.statSq0
  simp only [lin0_at m c]

/-! ## The second region's output -/

/-- Region 1's output, entry by entry over the lane-dense view: the clipped affine image of region 0's pre-normalisation
    values, with the factor and offset the second stretch computes from region 0's partial sums. -/
theorem act1_dense (p : Fin 50000) (l : Fin 128) :
    HandHost.act1dense (W4 m c) (ix2 p l)
      = max (HandHost.pre1 (W2 m c) (ix2 (⟨2 * p.val + l.val / 64, by have := p.isLt; have := l.isLt; omega⟩ : Fin 100000)
              (⟨l.val % 64, Nat.mod_lt _ (by decide)⟩ : Fin 64))
            * HandHost.colScale (HandHost.partSum1 (W2 m c)) (HandHost.partSq1 (W2 m c)) (HandHost.gamma1 (W2 m c)) (⟨l.val % 64, Nat.mod_lt _ (by decide)⟩ : Fin 64)
          + HandHost.colShift (HandHost.partSum1 (W2 m c)) (HandHost.partSq1 (W2 m c)) (HandHost.gamma1 (W2 m c)) (HandHost.beta1 (W2 m c)) (⟨l.val % 64, Nat.mod_lt _ (by decide)⟩ : Fin 64)) 0 := by
  have e : HandHost.act1dense (W4 m c) = ((dat1 (F := Ideal) (U3 m) c).arrAt 3 cfg1.N : Vec Ideal S50000x128 .bf16) := W4_arr m c 3
  rw [e, HandValue.final1_apply (U3 m) c (ix2 p l)]
  have hd := HandHost.host1_dense (W2 m c) p l
  have hs := HandHost.host1_scale (W2 m c) l
  have ht := HandHost.host1_shift (W2 m c) l
  exact congrArg₂ max (congrArg₂ (· + ·) (congrArg₂ (· * ·) hd hs) ht) rfl

/-- … which is the first layer's output in the lane-dense reading. -/
theorem act1_lane (p : Fin 50000) (l : Fin 128) :
    HandHost.act1dense (W4 m c) (ix2 p l) = Math.laneView (Y1 m c) p l := by
  have hg : HandHost.gamma1 (W2 m c) = a8 m c := W2_main_arg8 m c
  have hbe : HandHost.beta1 (W2 m c) = a9 m c := W2_main_arg9 m c
  rw [act1_dense m c p l, hg, hbe]
  exact glue_dense (AX1 m c) (a0 m c) (cmK m c) (a2 m c) (a4 m c) (a3 m c) (a8 m c) (a9 m c)
    (HandHost.pre1 (W2 m c)) (HandHost.partSum1 (W2 m c)) (HandHost.partSq1 (W2 m c)) (pre1_at m c) (sum1_at m c) (sq1_at m c) p l

/-! ## What the third stretch hands the second layer -/

/-- The rows read back one by one: the first layer's output. -/
theorem hidden_eq : HandHost.hidden2 (W4 m c) = Y1 m c := by
  funext i
  rw [eq_ix2 i]
  exact (HandHost.host2_hidden (W4 m c) (i 0) (i 1)).trans
    (glue_sparse (AX1 m c) (a0 m c) (cmK m c) (a2 m c) (a4 m c) (a3 m c) (a8 m c) (a9 m c)
      (HandHost.act1dense (W4 m c)) (act1_lane m c) (i 0) (i 1))

theorem act1_eq : HandHost.act1 (W4 m c) = Y1 m c :=
  (HandHost.host2_hidden_eq (W4 m c)).symm.trans (hidden_eq m c)

/-- The index columns and the reciprocal in-degrees, as the third stretch finds them. -/
theorem src_at4 : W4 m c (Proc.devRef .tc main_v1) = HandHost.srcRow (ei m c) :=
  (W4_main_v1 m c).trans (HandHost.host0_src (W0 m c))
theorem dst_at4 : W4 m c (Proc.devRef .tc main_v3) = HandHost.dstRow (ei m c) :=
  (W4_main_v3 m c).trans (HandHost.host0_dst (W0 m c))
theorem inv_at4 : W4 m c (Proc.devRef .tc main_v11) = HandHost.kerInv (ei m c) :=
  (W4_main_v11 m c).trans (HandHost.host0_inv_eq (W0 m c))

/-- The second layer's neighbour means. -/
theorem mean2_at (r : Fin 100000) (j : Fin 64) :
    HandHost.mean2 (W4 m c) (ix2 r j)
      = HandHost.kerA64 (ei m c) (Y1 m c) (ix2 r j) * Ideal.div (Ideal.ofBits .f32 0x3F800000#32) (HandHost.kerCm (ei m c) (ix1 r)) := by
  rw [HandHost.host2_mean (W4 m c) (ei m c) (src_at4 m c) (dst_at4 m c) (inv_at4 m c) r j, act1_eq m c]

end Cert.Proof.Bridge

end
-- ==== Proof.KH.Host3.lean ====
/-
  The host stretch between the second layer's linear region and its normalisation region: the column
  statistics are folded into one factor and one offset per column, both laid twice side by side, and the
  pre-normalisation values are re-read in the lane-dense view.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost
import proofs.«150514_j16690242912872_2_alg».proof.Proof.KH.Stats
set_option maxRecDepth 16384

noncomputable section

namespace Cert.KernelIdeal.HandHost

open Cert.KernelIdeal Cert.KernelIdeal.Gen
open Idealize.ShloMosaic Idealize.ShloMosaic.ValueIdx Idealize.ShloMosaic.StableHlo

variable (W : Valuation τ sig (Elt Ideal))

/-- The region's [100000, 64] output of pre-normalisation values, as entered. -/
abbrev pre3 : S100000x64.Idx → EReal := W (Proc.devRef .tc main_v65_0)
/-- The region's two partial column sums. -/
abbrev partSum3 : S2x1x64.Idx → EReal := W (Proc.devRef .tc main_v65_1)
/-- The region's two partial column sums of squares. -/
abbrev partSq3 : S2x1x64.Idx → EReal := W (Proc.devRef .tc main_v65_2)
/-- The layer's scale parameter. -/
abbrev gamma3 : S64.Idx → EReal := W (Proc.devRef .tc main_arg10)
/-- The layer's offset parameter. -/
abbrev beta3 : S64.Idx → EReal := W (Proc.devRef .tc main_arg11)

/-- After the stretch: the lane-dense view of the pre-normalisation values. -/
abbrev dense3 : S50000x128.Idx → EReal := StableHlo.after hostOps3 W (Proc.devRef .tc main_v84)
/-- After the stretch: the doubled row of factors. -/
abbrev scaleTile3 : S1x128.Idx → EReal := StableHlo.after hostOps3 W (Proc.devRef .tc main_v85)
/-- After the stretch: the doubled row of offsets. -/
abbrev shiftTile3 : S1x128.Idx → EReal := StableHlo.after hostOps3 W (Proc.devRef .tc main_v86)

/-- Row `p`, column `l` of the lane-dense view is node `2p + l / 64`, column `l % 64`. -/
theorem host3_dense (p : Fin 50000) (l : Fin 128) :
    dense3 W (ix2 p l)
      = pre3 W (ix2 (⟨2 * p.val + l.val / 64, by have := p.isLt; have := l.isLt; omega⟩ : Fin 100000)
          (⟨l.val % 64, Nat.mod_lt _ (by decide)⟩ : Fin 64)) := by
  unfold dense3 pre3
  after_results
  exact dense_apply _ p l

theorem host3_scale_eq :
    scaleTile3 W = twice (scaleRow (partSum3 W) (partSq3 W) (gamma3 W)) := by
  unfold scaleTile3
  fold_results
  rfl

theorem host3_shift_eq :
    shiftTile3 W = twice (shiftRow (partSum3 W) (partSq3 W) (gamma3 W) (beta3 W)) := by
  unfold shiftTile3
  fold_results
  rfl

/-- Column `l` of the doubled row of factors is the factor of column `l % 64`. -/
theorem host3_scale (l : Fin 128) :
    scaleTile3 W (ix2 (0 : Fin 1) l)
      = colScale (partSum3 W) (partSq3 W) (gamma3 W) (⟨l.val % 64, Nat.mod_lt _ (by decide)⟩ : Fin 64) := by
  rw [host3_scale_eq, twice_apply, scaleRow_apply]

/-- Column `l` of the doubled row of offsets is the offset of column `l % 64`. -/
theorem host3_shift (l : Fin 128) :
    shiftTile3 W (ix2 (0 : Fin 1) l)
      = colShift (partSum3 W) (partSq3 W) (gamma3 W) (beta3 W) (⟨l.val % 64, Nat.mod_lt _ (by decide)⟩ : Fin 64) := by
  rw [host3_shift_eq, twice_apply, shiftRow_apply]

end Cert.KernelIdeal.HandHost

end
-- ==== Proof.KH.Host4.lean ====
/-
  The last stretch of host operations: the two halves of the one-row array of running column maxima
  (columns 0..63 and 64..127 of the lane-dense view, i.e. the even and the odd nodes) are cut out,
  dropped to vectors of 64 and joined by an entrywise maximum.
-/
import proofs.«150514_j16690242912872_2_alg».proof.Proof.Gen.KernelIdeal.Launch
import proofs.«150514_j16690242912872_2_alg».proof.Proof.LibFoldRead
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.HandHost

open Cert.KernelIdeal Cert.KernelIdeal.Gen
open Idealize.ShloMosaic Idealize.ShloMosaic.ValueIdx Idealize.ShloMosaic.StableHlo

variable (W : Valuation τ sig (Elt Ideal))

/-- The one-row array of running column maxima the last region leaves, as extended reals. -/
abbrev rowMax : S1x128.Idx → EReal := W (Proc.devRef .tc main_v87)

/-- The result vector after the last stretch, as extended reals. -/
abbrev result4 : S64.Idx → EReal := StableHlo.after hostOps4 W (Proc.devRef .tc main_v92)

/-- Entry `j` of the result is the larger of entries `j` and `64 + j` of the row of running maxima. -/
theorem host4_v92 (j : Fin 64) :
    result4 W (ix1 j)
      = max (rowMax W (ix2 (0 : Fin 1) (⟨j.val, by omega⟩ : Fin 128)))
            (rowMax W (ix2 (0 : Fin 1) (⟨64 + j.val, by omega⟩ : Fin 128))) := by
  unfold result4 rowMax
  after_results
  show max (shapeCast S64 (extractStridedSlice S1x64 ![0, 0] (rowMax W) slices_S1x128_S1x64_0_0) shapeCasts_S1x64_S64 (ix1 j))
      (shapeCast S64 (extractStridedSlice S1x64 ![0, 64] (rowMax W) slices_S1x128_S1x64_0_64) shapeCasts_S1x64_S64 (ix1 j)) = _
  rw [shapeCast_1a_a_apply, shapeCast_1a_a_apply, slice2_axis1_eq 0, slice2_axis1_eq 64]
  congr 2 <;> (apply congrArg; apply Fin.ext; simp)

end Cert.KernelIdeal.HandHost

end
-- ==== Proof.KI.Region2Value.lean ====
/-
  The second layer's linear map with its column statistics: WHAT each control case leaves in the three output buffers,
  as the body's pure payloads of the input blocks.  With m the tile of neighbour means, x the tile of node features, Wl, Wr
  the weights and b the bias: the tile's output buffer ends at h = m·Wl + b + x·Wr; the first statistic buffer at
  (previous contents) + the column sums of h, the second at (previous contents) + the column sums of h², where the
  previous contents are the zero block at step 0 and the running sums otherwise.  Every store covers its whole buffer
  and every load reads a whole buffer, so each buffer's last store is what it holds.
-/
import proofs.«150514_j16690242912872_2_alg».proof.Proof.KI.Region2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a rank-2 and of a rank-3 whole-buffer access, as constant functions. -/
theorem hz2_2 : (![0, 0] : Fin 2 → Nat) = fun _ => 0 := funext fun a => by fin_cases a <;> rfl
theorem hz3_2 : (![0, 0, 0] : Fin 3 → Nat) = fun _ => 0 := funext fun a => by fin_cases a <;> rfl
/-- STEP 0, the tile's output: h. -/
theorem out2_A_5_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) :
    out2_A_5 c i arg2 harg2 arg3 harg3 arg4 harg4 arg5 harg5 arg6 harg6 arg7 harg7 arg8 harg8 arg9 harg9 hc0 x0 x1 x2 x3 x4 = k2_pay4 x0 x1 x2 x4 x3 := by
  unfold out2_A_5
  rw [View.read_writes_eq_canon _ _ _ (cover2_A_5 c i arg2 harg2 arg3 harg3 arg4 harg4 arg5 harg5 arg6 harg6 arg7 harg7 arg8 harg8 arg9 harg9 hc0 x0 x1 x2 x3 x4)]
  unfold kernelRun2_A
  dsimp only
  rw [View.canon_unit_zero hz2_2]
  simp only [View.readAt_eq_ld, harg2.read_unread, harg3.read_unread, harg4.read_unread, harg5.read_unread, harg6.read_unread, View.ld_unit_zero (S := S10000x64) hz2_2, View.ld_unit_zero (S := S64x64) hz2_2, View.ld_unit_zero (S := S1x64) hz2_2]

/-- STEP 0, the column sums: the zero block plus the tile's column sums of h. -/
theorem out2_A_6_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) :
    out2_A_6 c i arg2 harg2 arg3 harg3 arg4 harg4 arg5 harg5 arg6 harg6 arg7 harg7 arg8 harg8 arg9 harg9 hc0 x0 x1 x2 x3 x4 = k2_pay6 x0 x1 x2 x4 x3 (k2_pay2 (F := F)) := by
  unfold out2_A_6
  rw [View.read_writes_eq_canon _ _ _ (cover2_A_6 c i arg2 harg2 arg3 harg3 arg4 harg4 arg5 harg5 arg6 harg6 arg7 harg7 arg8 harg8 arg9 harg9 hc0 x0 x1 x2 x3 x4)]
  unfold kernelRun2_A
  dsimp only
  sl_unfold_words
  rw [View.canon_cons_unit_zero (S := S1x1x64) hz3_2, View.readCov_unit_zero (S := S1x1x64) _ hz3_2]
  simp only [View.readAt_eq_ld, harg2.read_unread, harg3.read_unread, harg4.read_unread, harg5.read_unread, harg6.read_unread, View.ld_unit_zero (S := S10000x64) hz2_2, View.ld_unit_zero (S := S64x64) hz2_2, View.ld_unit_zero (S := S1x64) hz2_2]

/-- STEP 0, the column sums of squares: the zero block plus the tile's column sums of h². -/
theorem out2_A_7_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : cond2_0 i)
    (x0 : Vec F S10000x64 .f32) (x1 : Vec F S10000x64 .bf16) (x2 : Vec F S64x64 .f32) (x3 : Vec F S1x64 .f32) (x4 : Vec F S64x64 .f32) :
    out2_A_7 c i arg2 harg2 arg3 harg3 arg4 harg4 arg5 harg5 arg6 harg6 arg7 harg7 arg8 harg8 arg9 harg9 hc0 x0 x1 x2 x3 x4 = k2_pay1 (k2_pay5 x0 x1 x2 x4 x3) (k2_pay3 (F := F)) := by
  unfold out2_A_7
  rw [View.read_writes_eq_canon _ _ _ (cover2_A_7 c i arg2 harg2 arg3 harg3 arg4 harg4 arg5 harg5 arg6 harg6 arg7 harg7 arg8 harg8 arg9 harg9 hc0 x0 x1 x2 x3 x4)]
  unfold kernelRun2_A
  dsimp only
  sl_unfold_words
  rw [View.canon_cons_unit_zero (S := S1x1x64) hz3_2, View.readCov_unit_zero (S := S1x1x64) _ hz3_2]
  simp only [View.readAt_eq_ld, harg2.read_unread, harg3.read_unread, harg4.read_unread, harg5.read_unread, harg6.read_unread, View.ld_unit_zero (S := S10000x64) hz2_2, View.ld_unit_zero (S := S64x64) hz2_2, View.ld_unit_zero (S := S1x64) hz2_2]

/-- STEP ≠ 0, the tile's output: h. -/
theorem out2_B_5_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) :
    out2_B_5 c i arg2 harg2 arg3 harg3 arg4 harg4 arg5 harg5 arg6 harg6 arg7 harg7 arg8 harg8 arg9 harg9 hc0 x0 x1 x2 x3 x4 xo6 xo7 = k2_pay4 x0 x1 x2 x4 x3 := by
  unfold out2_B_5
  rw [View.read_writes_eq_canon _ _ _ (cover2_B_5 c i arg2 harg2 arg3 harg3 arg4 harg4 arg5 harg5 arg6 harg6 arg7 harg7 arg8 harg8 arg9 harg9 hc0 x0 x1 x2 x3 x4 xo6 xo7)]
  unfold kernelRun2_B
  dsimp only
  rw [View.canon_unit_zero hz2_2]
  simp only [View.readAt_eq_ld, harg2.read_unread, harg3.read_unread, harg4.read_unread, harg5.read_unread, harg6.read_unread, View.ld_unit_zero (S := S10000x64) hz2_2, View.ld_unit_zero (S := S64x64) hz2_2, View.ld_unit_zero (S := S1x64) hz2_2]

/-- STEP ≠ 0, the column sums: the running sums plus the tile's column sums of h. -/
theorem out2_B_6_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) :
    out2_B_6 c i arg2 harg2 arg3 harg3 arg4 harg4 arg5 harg5 arg6 harg6 arg7 harg7 arg8 harg8 arg9 harg9 hc0 x0 x1 x2 x3 x4 xo6 xo7 = k2_pay6 x0 x1 x2 x4 x3 xo6 := by
  unfold out2_B_6
  rw [View.read_writes_eq_canon _ _ _ (cover2_B_6 c i arg2 harg2 arg3 harg3 arg4 harg4 arg5 harg5 arg6 harg6 arg7 harg7 arg8 harg8 arg9 harg9 hc0 x0 x1 x2 x3 x4 xo6 xo7)]
  unfold kernelRun2_B
  dsimp only
  sl_unfold_words
  rw [View.canon_unit_zero hz3_2]
  simp only [View.readAt_eq_ld, harg2.read_unread, harg3.read_unread, harg4.read_unread, harg5.read_unread, harg6.read_unread, harg8.read_unread, harg9.read_unread, View.ld_unit_zero (S := S10000x64) hz2_2, View.ld_unit_zero (S := S64x64) hz2_2, View.ld_unit_zero (S := S1x64) hz2_2, View.ld_unit_zero (S := S1x1x64) hz3_2]

/-- STEP ≠ 0, the column sums of squares: the running sums plus the tile's column sums of h². -/
theorem out2_B_7_eq (c : Dev nD) (i : grid2.Coords) (arg2 : Memref sig .tc .vmem S10000x64 .f32) (harg2 : arg2.IsWhole) (arg3 : Memref sig .tc .vmem S10000x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S10000x64 .f32) (harg7 : arg7.IsWhole) (arg8 : Memref sig .tc .vmem S1x1x64 .f32) (harg8 : arg8.IsWhole) (arg9 : Memref sig .tc .vmem S1x1x64 .f32) (harg9 : arg9.IsWhole) (hc0 : ¬cond2_0 i)
    (x0 : Vec F S10000x64 .f32) (x1 : Vec F S10000x64 .bf16) (x2 : Vec F S64x64 .f32) (x3 : Vec F S1x64 .f32) (x4 : Vec F S64x64 .f32) (xo6 : Vec F S1x1x64 .f32) (xo7 : Vec F S1x1x64 .f32) :
    out2_B_7 c i arg2 harg2 arg3 harg3 arg4 harg4 arg5 harg5 arg6 harg6 arg7 harg7 arg8 harg8 arg9 harg9 hc0 x0 x1 x2 x3 x4 xo6 xo7 = k2_pay1 (k2_pay5 x0 x1 x2 x4 x3) xo7 := by
  unfold out2_B_7
  rw [View.read_writes_eq_canon _ _ _ (cover2_B_7 c i arg2 harg2 arg3 harg3 arg4 harg4 arg5 harg5 arg6 harg6 arg7 harg7 arg8 harg8 arg9 harg9 hc0 x0 x1 x2 x3 x4 xo6 xo7)]
  unfold kernelRun2_B
  dsimp only
  sl_unfold_words
  rw [View.canon_unit_zero hz3_2]
  simp only [View.readAt_eq_ld, harg2.read_unread, harg3.read_unread, harg4.read_unread, harg5.read_unread, harg6.read_unread, harg8.read_unread, harg9.read_unread, View.ld_unit_zero (S := S10000x64) hz2_2, View.ld_unit_zero (S := S64x64) hz2_2, View.ld_unit_zero (S := S1x64) hz2_2, View.ld_unit_zero (S := S1x1x64) hz3_2]

end Cert.KernelIdeal.Hand

end
-- ==== Proof.KI.Region2Steps.lean ====
/-
  The second layer's linear map with its column statistics: what the three output buffers hold after the body at a
  grid point, as the body's pure payloads of the point's input blocks.  With m, x, Wl, b, Wr the blocks of windows 0..4 at
  the point: the tile's output is h = m·Wl + b + x·Wr; at step 0 the statistic buffers hold 0 + (column sums of h) and
  0 + (column sums of h²); at a later step, what the point before left plus the same column sums.
-/
import proofs.«150514_j16690242912872_2_alg».proof.Proof.KI.Region2Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- At a point with step = 0. -/
theorem outsAt2_A_eq (c : Dev nD) (t : Fin cfg2.N) (h0 : t.val % 5 = 0) :
    outsAt2 V c t.val t.isLt =
      (k2_pay4 (iblk2 V c 0 t) (iblk2 V c 1 t) (iblk2 V c 2 t) (iblk2 V c 4 t) (iblk2 V c 3 t),
       k2_pay6 (iblk2 V c 0 t) (iblk2 V c 1 t) (iblk2 V c 2 t) (iblk2 V c 4 t) (iblk2 V c 3 t) (k2_pay2 (F := F)),
       k2_pay1 (k2_pay5 (iblk2 V c 0 t) (iblk2 V c 1 t) (iblk2 V c 2 t) (iblk2 V c 4 t) (iblk2 V c 3 t)) (k2_pay3 (F := F))) :=
  (outsAt2_A V c t h0).trans
    (congr (congrArg Prod.mk (out2_A_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)))
      (congr (congrArg Prod.mk (out2_A_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)))
        (out2_A_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))))

/-- At a point with step ≠ 0, over what the point before left in the two statistic buffers. -/
theorem outsAt2_B_eq (c : Dev nD) (t : Fin cfg2.N) (h0 : ¬t.val % 5 = 0) :
    outsAt2 V c t.val t.isLt =
      (k2_pay4 (iblk2 V c 0 t) (iblk2 V c 1 t) (iblk2 V c 2 t) (iblk2 V c 4 t) (iblk2 V c 3 t),
       k2_pay6 (iblk2 V c 0 t) (iblk2 V c 1 t) (iblk2 V c 2 t) (iblk2 V c 4 t) (iblk2 V c 3 t) (outsAt2 V c (t.val - 1) (Nat.lt_of_le_of_lt (Nat.sub_le _ _) t.isLt)).2.1,
       k2_pay1 (k2_pay5 (iblk2 V c 0 t) (iblk2 V c 1 t) (iblk2 V c 2 t) (iblk2 V c 4 t) (iblk2 V c 3 t)) (outsAt2 V c (t.val - 1) (Nat.lt_of_le_of_lt (Nat.sub_le _ _) t.isLt)).2.2) :=
  (outsAt2_B V c t h0).trans
    (congr (congrArg Prod.mk (out2_B_5_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2))
      (congr (congrArg Prod.mk (out2_B_6_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2))
        (out2_B_7_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)))

end Cert.KernelIdeal.Hand

end
-- ==== Proof.KV.Region2Blocks.lean ====
/-
  The second layer's linear map with its column statistics: where each window's block sits in its array.  At grid
  point t (= 5·core + step) the two row-tiled inputs and the row-tiled output are at rows 10000·t … 10000·t + 9999 of
  their 100000-row arrays; the weights and the bias are their whole arrays at every point; the two [1,1,64] statistic
  blocks are slab t / 5 (the core's) of their [2,1,64] arrays.  Hence an input block read at an index is the array, as
  the region finds it, read at the shifted index.
-/
import proofs.«150514_j16690242912872_2_alg».proof.Proof.KI.Region2Steps
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

-- the TensorCore's buffer contents when the region is entered
variable (V : (c : Dev nD) → (b : Ref sig .tc) → Buf (Elt F) ((c : Thread nD τ).loc b))

/-- The printed block-index maps in closed form, decided over the grid: the row-tiled windows 0, 1, 5 are at row block
    `t`, the constant windows 2, 3, 4 at block 0, the statistic windows 6, 7 at slab `t / 5`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val / 5 ∧ win2_6.index t (1 : Fin 3) = 0 ∧ win2_6.index t (2 : Fin 3) = 0
    ∧ win2_7.index t (0 : Fin 3) = t.val / 5 ∧ win2_7.index t (1 : Fin 3) = 0 ∧ win2_7.index t (2 : Fin 3) = 0 :=
  (by decide +kernel : ∀ t : Fin grid2.N, _)

/-- Row `p` of the tile at point `t` is a row of the array. -/
theorem tile_row_lt2 (t : Fin cfg2.N) (p : Fin 10000) : 10000 * t.val + p.val < 100000 := by
  have hN : t.val < 10 := lt_of_lt_of_eq t.isLt (show cfg2.N = 10 from N_2)
  have := p.isLt; omega

/-- The tile of neighbour means at point `t`, read at row `p`, column `k`: the array at row `10000·t + p`. -/
theorem iblk2_0_apply (c : Dev nD) (t : Fin cfg2.N) (p : Fin 10000) (k : Fin 64) :
    (iblk2 V c 0 t : Vec F S10000x64 .f32) (ix2 p k) = V c main_v63 (ix2 ⟨10000 * t.val + p.val, tile_row_lt2 t p⟩ k) := by
  obtain ⟨e0, e1, -⟩ := idx_facts2 t
  unfold iblk2
  rw [View.read_apply]
  show V c main_v63 _ = V c main_v63 _
  congr 1
  funext a
  apply Fin.ext
  match a with
  | ⟨0, _⟩ => show win2_0.index t (0 : Fin 2) * 10000 + 1 * p.val = 10000 * t.val + p.val; rw [e0]; omega
  | ⟨1, _⟩ => show win2_0.index t (1 : Fin 2) * 64 + 1 * k.val = k.val; rw [e1]; omega

/-- The tile of node features at point `t`, read at row `p`, column `k`: the array at row `10000·t + p`. -/
theorem iblk2_1_apply (c : Dev nD) (t : Fin cfg2.N) (p : Fin 10000) (k : Fin 64) :
    (iblk2 V c 1 t : Vec F S10000x64 .bf16) (ix2 p k) = V c main_v49 (ix2 ⟨10000 * t.val + p.val, tile_row_lt2 t p⟩ k) := by
  obtain ⟨-, -, e0, e1, -⟩ := idx_facts2 t
  unfold iblk2
  rw [View.read_apply]
  show V c main_v49 _ = V c main_v49 _
  congr 1
  funext a
  apply Fin.ext
  match a with
  | ⟨0, _⟩ => show win2_1.index t (0 : Fin 2) * 10000 + 1 * p.val = 10000 * t.val + p.val; rw [e0]; omega
  | ⟨1, _⟩ => show win2_1.index t (1 : Fin 2) * 64 + 1 * k.val = k.val; rw [e1]; omega

/-- The left weight's block at any point is the whole array. -/
theorem iblk2_2_apply (c : Dev nD) (t : Fin cfg2.N) (k : Fin 64) (j : Fin 64) :
    (iblk2 V c 2 t : Vec F S64x64 .f32) (ix2 k j) = V c main_arg5 (ix2 k j) := by
  obtain ⟨-, -, -, -, e0, e1, -⟩ := idx_facts2 t
  unfold iblk2
  rw [View.read_apply]
  show V c main_arg5 _ = V c main_arg5 _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * j.val = j.val; rw [e1]; omega

/-- The bias row's block at any point is the whole array. -/
theorem iblk2_3_apply (c : Dev nD) (t : Fin cfg2.N) (z : Fin 1) (j : Fin 64) :
    (iblk2 V c 3 t : Vec F S1x64 .f32) (ix2 z j) = V c main_v64 (ix2 z j) := by
  obtain ⟨-, -, -, -, -, -, e0, e1, -⟩ := idx_facts2 t
  unfold iblk2
  rw [View.read_apply]
  show V c main_v64 _ = V c main_v64 _
  congr 1
  funext a
  apply Fin.ext
  match a with
  | ⟨0, _⟩ => show win2_3.index t (0 : Fin 2) * 1 + 1 * z.val = z.val; rw [e0]; omega
  | ⟨1, _⟩ => show win2_3.index t (1 : Fin 2) * 64 + 1 * j.val = j.val; rw [e1]; omega

/-- The right weight's block at any point is the whole array. -/
theorem iblk2_4_apply (c : Dev nD) (t : Fin cfg2.N) (k : Fin 64) (j : Fin 64) :
    (iblk2 V c 4 t : Vec F S64x64 .f32) (ix2 k j) = V c main_arg7 (ix2 k j) := by
  obtain ⟨-, -, -, -, -, -, -, -, e0, e1, -⟩ := idx_facts2 t
  unfold iblk2
  rw [View.read_apply]
  show V c main_arg7 _ = V c main_arg7 _
  congr 1
  funext a
  apply Fin.ext
  match a with
  | ⟨0, _⟩ => show win2_4.index t (0 : Fin 2) * 64 + 1 * k.val = k.val; rw [e0]; omega
  | ⟨1, _⟩ => show win2_4.index t (1 : Fin 2) * 64 + 1 * j.val = j.val; rw [e1]; omega

end Cert.KernelIdeal.HandValue

end
-- ==== Proof.KV.Payload2.lean ====
/-
  The linear-map + BatchNorm-sums body of layer 2, read at one element.  The stored activations at row p, column j
  of a tile are (mean-neighbour row p)·Wl + bias + (own row p)·Wr, each product the textbook sum over the 64 input
  features (a product into a zero accumulator is that sum; the change of format to bf16 is the identity on extended
  reals); the two statistics rows add to what they held the tile's column sum of the activations and of their squares.
-/
import proofs.«150514_j16690242912872_2_alg».proof.Proof.Gen.KernelIdeal.Skeleton
import proofs.«150514_j16690242912872_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-- The kernel's product record is the plain rows-by-columns product. -/
theorem dot2_plain : dot_S10000x64_S64x64_S10000x64_1_0_0_1_n_n = DotDims.plain 10000 64 64 := rfl

/-- A column sum over a tile's 10000 rows: the reduction over the row axis from the zero word, at column `j`. -/
theorem colsum2_apply (src : FVec Ideal S10000x64 .f32) (hφ : FKind.Formats .f32)
    (hacc : (0x00000000#32 : BitVec 32) = 0x00000000#32) (j : Fin 64) :
    multiReduction .add [0] S64 src 0x00000000#32 reduces_S10000x64_S64 hφ hacc (ix1 j) = ∑ p : Fin 10000, src (ix2 p j) := by
  refine (Ideal.multiReduction_add_single src 0x00000000#32 reduces_S10000x64_S64 hφ hacc (ix1 j)).trans ?_
  refine Finset.sum_congr rfl fun p _ => congrArg src ?_
  exact funext fun a => Fin.ext (by match a with | ⟨0, _⟩ => rfl | ⟨1, _⟩ => rfl)

/-- The activations the body stores, at row `p`, column `j` of the tile. -/
theorem k2_pay4_apply (x0 : Vec Ideal S10000x64 .f32) (x1 : Vec Ideal S10000x64 .bf16) (w w' : Vec Ideal S64x64 .f32) (b : Vec Ideal S1x64 .f32)
    (p : Fin 10000) (j : Fin 64) :
    k2_pay4 (F := Ideal) x0 x1 w w' b (ix2 p j)
      = ((∑ k : Fin 64, x0 (ix2 p k) * w (ix2 k j)) + b (ix2 0 j)) + ∑ k : Fin 64, x1 (ix2 p k) * w' (ix2 k j) := by
  unfold k2_pay4
  simp only [shapeCast_self]
  show (matmul (F := Ideal) dot_S10000x64_S64x64_S10000x64_1_0_0_1_n_n none (truncf .bf16 x0 bitsLt_bf16_f32) (truncf .bf16 w bitsLt_bf16_f32) (constant (F := Ideal) S10000x64 .f32 0x00000000#32) (ix2 p j)
      + broadcastTo S10000x64 b broadcasts_S1x64_S10000x64 (ix2 p j))
      + matmul (F := Ideal) dot_S10000x64_S64x64_S10000x64_1_0_0_1_n_n none x1 (truncf .bf16 w' bitsLt_bf16_f32) (constant (F := Ideal) S10000x64 .f32 0x00000000#32) (ix2 p j) = _
  rw [Cert.PlainProduct.matmul_plain_apply _ dot2_plain, Cert.PlainProduct.matmul_plain_apply _ dot2_plain,
    broadcastTo_1b_ab_apply b broadcasts_S1x64_S10000x64 p j]
  rfl

/-- The sums row after the body: what it held plus the tile's column sum of the activations. -/
theorem k2_pay6_apply (x0 : Vec Ideal S10000x64 .f32) (x1 : Vec Ideal S10000x64 .bf16) (w w' : Vec Ideal S64x64 .f32) (b : Vec Ideal S1x64 .f32)
    (acc : Vec Ideal S1x1x64 .f32) (j : Fin 64) :
    k2_pay6 (F := Ideal) x0 x1 w w' b acc (ix3 0 0 j)
      = acc (ix3 0 0 j) + ∑ p : Fin 10000, k2_pay4 (F := Ideal) x0 x1 w w' b (ix2 p j) := by
  unfold k2_pay6
  simp only [shapeCast_self]
  show acc (ix3 0 0 j) + shapeCast S1x1x64 (shapeCast S1x64 (multiReduction (F := Ideal) .add [0] S64 (k2_pay4 (F := Ideal) x0 x1 w w' b) 0x00000000#32
      reduces_S10000x64_S64 (.inl rfl) rfl) shapeCasts_S64_S1x64) shapeCasts_S1x64_S1x1x64 (ix3 0 0 j) = _
  rw [shapeCast_ab_1ab_apply _ shapeCasts_S1x64_S1x1x64 0 0 j, shapeCast_a_1a_apply _ shapeCasts_S64_S1x64 0 j,
    colsum2_apply _ (.inl rfl) rfl j]

/-- The tile's column sum of the squared activations (what the body then adds into the squares row). -/
theorem k2_pay5_apply (x0 : Vec Ideal S10000x64 .f32) (x1 : Vec Ideal S10000x64 .bf16) (w w' : Vec Ideal S64x64 .f32) (b : Vec Ideal S1x64 .f32)
    (j : Fin 64) :
    k2_pay5 (F := Ideal) x0 x1 w w' b (ix3 0 0 j)
      = ∑ p : Fin 10000, k2_pay4 (F := Ideal) x0 x1 w w' b (ix2 p j) * k2_pay4 (F := Ideal) x0 x1 w w' b (ix2 p j) := by
  unfold k2_pay5
  show shapeCast S1x1x64 (shapeCast S1x64 (multiReduction (F := Ideal) .add [0] S64
      (mulf (k2_pay4 (F := Ideal) x0 x1 w w' b) (k2_pay4 (F := Ideal) x0 x1 w w' b)) 0x00000000#32
      reduces_S10000x64_S64 (.inl rfl) rfl) shapeCasts_S64_S1x64) shapeCasts_S1x64_S1x1x64 (ix3 0 0 j) = _
  rw [shapeCast_ab_1ab_apply _ shapeCasts_S1x64_S1x1x64 0 0 j, shapeCast_a_1a_apply _ shapeCasts_S64_S1x64 0 j,
    colsum2_apply _ (.inl rfl) rfl j]
  rfl

/-- The squares row after the body: what it held plus the tile's sum. -/
theorem k2_pay1_apply (v26 : FVec Ideal S1x1x64 .f32) (v31 : Vec Ideal S1x1x64 .f32) (i : S1x1x64.Idx) :
    k2_pay1 (F := Ideal) v26 v31 i = v31 i + v26 i := by
  unfold k2_pay1
  simp only [shapeCast_self]
  rfl

/-- The first point of a core's sweep zeroes the sums row … -/
theorem k2_pay2_apply (i : S1x1x64.Idx) : k2_pay2 (F := Ideal) i = 0 := by
  unfold k2_pay2
  show Ideal.ofBits .f32 0x00000000#32 = 0
  exact Ideal.ofBits_zero_f32

/-- … and the squares row. -/
theorem k2_pay3_apply (i : S1x1x64.Idx) : k2_pay3 (F := Ideal) i = 0 := by
  unfold k2_pay3
  show Ideal.ofBits .f32 0x00000000#32 = 0
  exact Ideal.ofBits_zero_f32

end Cert.KernelIdeal.HandValue

end
-- ==== Proof.KV.Region2Final.lean ====
/-
  The second layer's linear map with its column statistics, over the extended reals: what the three output arrays
  hold after the ten grid points, as functions of the arrays the region finds.  Writing, for node r and column j,
      h r j = (Σₖ mean r k · Wl k j + b j) + Σₖ x r k · Wr k j,
  the [100000,64] output holds h (each point writes its own tile of 10000 rows back, and the ten tiles partition the
  rows); the [2,1,64] statistic outputs hold, in the slab of core q, the running sums from 0 over the core's five tiles
  of the tile's column sums of h, resp. of h·h (a slab is written back after the core's last tile only, and holds there
  what the five points accumulated).
-/
import proofs.«150514_j16690242912872_2_alg».proof.Proof.KV.Region2Blocks
import proofs.«150514_j16690242912872_2_alg».proof.Proof.KV.Payload2
import proofs.«150514_j16690242912872_2_alg».proof.Proof.Math.TileSum

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.Math

-- the TensorCore's buffer contents when the region is entered
variable (V : (c : Dev nD) → (b : Ref sig .tc) → Buf (Elt Ideal) ((c : Thread nD τ).loc b))

/-! ## The arrays the region reads, and the linear map -/

/-- The aggregated neighbour means, the node features, the two weights and the bias row, as the region finds them. -/
abbrev mean2 (c : Dev nD) : S100000x64.Idx → Ideal .f32 := V c main_v63
abbrev feat2 (c : Dev nD) : S100000x64.Idx → Ideal .f32 := V c main_v49
abbrev wl2 (c : Dev nD) : S64x64.Idx → Ideal .f32 := V c main_arg5
abbrev bias2 (c : Dev nD) : S1x64.Idx → Ideal .f32 := V c main_v64
abbrev wr2 (c : Dev nD) : S64x64.Idx → Ideal .f32 := V c main_arg7

/-- `h r j`: node `r`'s pre-activation in column `j`. -/
def lin2 (c : Dev nD) (r : Fin 100000) (j : Fin 64) : Ideal .f32 :=
  ((∑ k : Fin 64, mean2 V c (ix2 r k) * wl2 V c (ix2 k j)) + bias2 V c (ix2 0 j))
    + ∑ k : Fin 64, feat2 V c (ix2 r k) * wr2 V c (ix2 k j)

/-- The body's output payload at point `t`, row `p` of the tile, column `j`: `h` at node `10000·t + p`. -/
theorem pay4_blk2 (c : Dev nD) (t : Fin cfg2.N) (p : Fin 10000) (j : Fin 64) :
    k2_pay4 (F := Ideal) (iblk2 V c 0 t) (iblk2 V c 1 t) (iblk2 V c 2 t) (iblk2 V c 4 t) (iblk2 V c 3 t) (ix2 p j)
      = lin2 V c ⟨10000 * t.val + p.val, tile_row_lt2 t p⟩ j := by
  refine (k2_pay4_apply (iblk2 V c 0 t) (iblk2 V c 1 t) (iblk2 V c 2 t) (iblk2 V c 4 t) (iblk2 V c 3 t) p j).trans ?_
  unfold lin2
  simp only [iblk2_0_apply V c t, iblk2_1_apply V c t, iblk2_2_apply V c t, iblk2_3_apply V c t, iblk2_4_apply V c t]

/-- After the body at any point the tile's output buffer holds the output payload of the point's blocks. -/
theorem outsAt2_fst (c : Dev nD) (t : Fin cfg2.N) :
    (outsAt2 V c t.val t.isLt).1 = k2_pay4 (F := Ideal) (iblk2 V c 0 t) (iblk2 V c 1 t) (iblk2 V c 2 t) (iblk2 V c 4 t) (iblk2 V c 3 t) := by
  by_cases h0 : t.val % 5 = 0
  · rw [outsAt2_A_eq V c t h0]
  · rw [outsAt2_B_eq V c t h0]

/-! ## The [100000,64] output: `h` -/

/-- The output array after the region: `h`, index by index. -/
def hArr2 (c : Dev nD) : S100000x64.Idx → Ideal .f32 := fun i => lin2 V c (i 0) (i 1)

/-- What point `t` writes back is tile `t` of `h`. -/
theorem flushed2_5_eq (c : Dev nD) (t : Fin cfg2.N) :
    (dat2 V c).flushed 5 t = ((cfg2.win 5).blk t).view.read (Elt Ideal) (hArr2 V c) := by
  obtain ⟨-, -, -, -, -, -, -, -, -, -, e0, e1, -⟩ := idx_facts2 t
  show (cfg2.win 5).cut (grid2.coords t) ((dat2 V c).after 5 t) = _
  rw [after2_5, outsAt2_fst V c t]
  funext y
  obtain ⟨p, j, rfl⟩ : ∃ (p : Fin 10000) (j : Fin 64), y = ix2 p j := ⟨y 0, y 1, eq_ix2 y⟩
  show k2_pay4 (F := Ideal) (iblk2 V c 0 t) (iblk2 V c 1 t) (iblk2 V c 2 t) (iblk2 V c 4 t) (iblk2 V c 3 t) (ix2 p j) = hArr2 V c (((cfg2.win 5).blk t).view.emb (ix2 p j))
  rw [pay4_blk2 V c t p j]
  unfold hArr2
  show lin2 V c _ _ = lin2 V c _ _
  congr 1
  · apply Fin.ext
    show 10000 * t.val + p.val = win2_5.index t (0 : Fin 2) * 10000 + 1 * p.val
    rw [e0]; omega
  · apply Fin.ext
    show j.val = win2_5.index t (1 : Fin 2) * 64 + 1 * j.val
    rw [e1]; omega

/-- An index of the array is in point `t`'s tile iff each coordinate is in the tile's range on its axis. -/
theorem mem_blk2_5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v65_0).slice (win2_5.rect t)).set ↔ _
  rw [View.set_slice_whole, Rect.mem_set_unit]
  exact Iff.rfl

/-- The ten tiles partition the rows: row `r` is in the tile of point `r / 10000`, and every point writes back. -/
theorem cover2_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, e0, e1, -⟩ := idx_facts2 t
  refine ⟨t, flush2_5 t, ?_⟩
  rw [mem_blk2_5]
  intro a
  match a with
  | ⟨0, _⟩ => show win2_5.index t (0 : Fin 2) * 10000 ≤ (i 0).val ∧ (i 0).val < win2_5.index t (0 : Fin 2) * 10000 + 10000
              rw [e0, ht]; omega
  | ⟨1, _⟩ => show win2_5.index t (1 : Fin 2) * 64 ≤ (i 1).val ∧ (i 1).val < win2_5.index t (1 : Fin 2) * 64 + 64
              rw [e1]; omega

/-- THE OUTPUT ARRAY after the ten points is `h`. -/
theorem final2_5 (c : Dev nD) : (dat2 V c).arrAt 5 cfg2.N = hArr2 V c :=
  (dat2 V c).arrAt_eq_of_cover 5 (hArr2 V c) (fun t _ => flushed2_5_eq V c t) cover2_5

/-- The same, at node `r` and column `j`. -/
theorem final2_5_apply (c : Dev nD) (r : Fin 100000) (j : Fin 64) :
    ((dat2 V c).arrAt 5 cfg2.N : S100000x64.Idx → Ideal .f32) (ix2 r j) = lin2 V c r j :=
  congrFun (final2_5 V c) (ix2 r j)

/-! ## The statistic outputs: a core's running sums over its five tiles -/

/-- The sum of `f` over the 10000 rows of the tile at point `n`. -/
def tile2 (f : Fin 100000 → Ideal .f32) (n : ℕ) (h : n < cfg2.N) : Ideal .f32 :=
  ∑ p : Fin 10000, f ⟨10000 * n + p.val, tile_row_lt2 ⟨n, h⟩ p⟩

/-- Point `5·q + i` is tile `i` of core `q`. -/
theorem tile2_eq_tileSum (f : Fin 100000 → Ideal .f32) (q : Fin 2) (i : Fin 5) (h : 5 * q.val + i.val < cfg2.N) :
    tile2 f (5 * q.val + i.val) h = tileSum f q i :=
  Finset.sum_congr rfl fun p _ => congrArg f (Fin.ext (by
    show 10000 * (5 * q.val + i.val) + p.val = 50000 * q.val + 10000 * i.val + p.val; omega))

/-- The tile's column sum of the output payload is the tile's sum of `h` in that column; -/
theorem colsum_blk2 (c : Dev nD) (t : Fin cfg2.N) (j : Fin 64) :
    ∑ p : Fin 10000, k2_pay4 (F := Ideal) (iblk2 V c 0 t) (iblk2 V c 1 t) (iblk2 V c 2 t) (iblk2 V c 4 t) (iblk2 V c 3 t) (ix2 p j) = tile2 (fun r => lin2 V c r j) t.val t.isLt :=
  Finset.sum_congr rfl fun p _ => pay4_blk2 V c t p j

/-- and of its square, the tile's sum of `h·h`. -/
theorem colsumsq_blk2 (c : Dev nD) (t : Fin cfg2.N) (j : Fin 64) :
    ∑ p : Fin 10000, k2_pay4 (F := Ideal) (iblk2 V c 0 t) (iblk2 V c 1 t) (iblk2 V c 2 t) (iblk2 V c 4 t) (iblk2 V c 3 t) (ix2 p j) * k2_pay4 (F := Ideal) (iblk2 V c 0 t) (iblk2 V c 1 t) (iblk2 V c 2 t) (iblk2 V c 4 t) (iblk2 V c 3 t) (ix2 p j)
      = tile2 (fun r => lin2 V c r j * lin2 V c r j) t.val t.isLt :=
  Finset.sum_congr rfl fun p _ => by rw [pay4_blk2 V c t p j]

/-- At a core's first point the sum buffer holds 0 plus the tile's column sums; -/
theorem base2_6 (c : Dev nD) (t : Fin cfg2.N) (h0 : t.val % 5 = 0) (j : Fin 64) :
    ((outsAt2 V c t.val t.isLt).2.1 : Vec Ideal S1x1x64 .f32) (ix3 0 0 j) = 0 + tile2 (fun r => lin2 V c r j) t.val t.isLt := by
  rw [outsAt2_A_eq V c t h0]
  show k2_pay6 (F := Ideal) (iblk2 V c 0 t) (iblk2 V c 1 t) (iblk2 V c 2 t) (iblk2 V c 4 t) (iblk2 V c 3 t) (k2_pay2 (F := Ideal)) (ix3 0 0 j) = _
  refine (k2_pay6_apply (iblk2 V c 0 t) (iblk2 V c 1 t) (iblk2 V c 2 t) (iblk2 V c 4 t) (iblk2 V c 3 t) (k2_pay2 (F := Ideal)) j).trans ?_
  rw [k2_pay2_apply, colsum_blk2 V c t j]

/-- at a later point, what the point before left plus the tile's column sums. -/
theorem step2_6 (c : Dev nD) (t : Fin cfg2.N) (h0 : ¬t.val % 5 = 0) (j : Fin 64) :
    ((outsAt2 V c t.val t.isLt).2.1 : Vec Ideal S1x1x64 .f32) (ix3 0 0 j)
      = ((outsAt2 V c (t.val - 1) (Nat.lt_of_le_of_lt (Nat.sub_le _ _) t.isLt)).2.1 : Vec Ideal S1x1x64 .f32) (ix3 0 0 j) + tile2 (fun r => lin2 V c r j) t.val t.isLt := by
  rw [outsAt2_B_eq V c t h0]
  show k2_pay6 (F := Ideal) (iblk2 V c 0 t) (iblk2 V c 1 t) (iblk2 V c 2 t) (iblk2 V c 4 t) (iblk2 V c 3 t) (outsAt2 V c (t.val - 1) (Nat.lt_of_le_of_lt (Nat.sub_le _ _) t.isLt)).2.1 (ix3 0 0 j) = _
  refine (k2_pay6_apply (iblk2 V c 0 t) (iblk2 V c 1 t) (iblk2 V c 2 t) (iblk2 V c 4 t) (iblk2 V c 3 t) (outsAt2 V c (t.val - 1) (Nat.lt_of_le_of_lt (Nat.sub_le _ _) t.isLt)).2.1 j).trans ?_
  rw [colsum_blk2 V c t j]

/-- The same two for the buffer of squares. -/
theorem base2_7 (c : Dev nD) (t : Fin cfg2.N) (h0 : t.val % 5 = 0) (j : Fin 64) :
    ((outsAt2 V c t.val t.isLt).2.2 : Vec Ideal S1x1x64 .f32) (ix3 0 0 j) = 0 + tile2 (fun r => lin2 V c r j * lin2 V c r j) t.val t.isLt := by
  rw [outsAt2_A_eq V c t h0]
  show k2_pay1 (F := Ideal) (k2_pay5 (F := Ideal) (iblk2 V c 0 t) (iblk2 V c 1 t) (iblk2 V c 2 t) (iblk2 V c 4 t) (iblk2 V c 3 t)) (k2_pay3 (F := Ideal)) (ix3 0 0 j) = _
  rw [k2_pay1_apply, k2_pay3_apply]
  exact congrArg (0 + ·) ((k2_pay5_apply (iblk2 V c 0 t) (iblk2 V c 1 t) (iblk2 V c 2 t) (iblk2 V c 4 t) (iblk2 V c 3 t) j).trans (colsumsq_blk2 V c t j))

theorem step2_7 (c : Dev nD) (t : Fin cfg2.N) (h0 : ¬t.val % 5 = 0) (j : Fin 64) :
    ((outsAt2 V c t.val t.isLt).2.2 : Vec Ideal S1x1x64 .f32) (ix3 0 0 j)
      = ((outsAt2 V c (t.val - 1) (Nat.lt_of_le_of_lt (Nat.sub_le _ _) t.isLt)).2.2 : Vec Ideal S1x1x64 .f32) (ix3 0 0 j) + tile2 (fun r => lin2 V c r j * lin2 V c r j) t.val t.isLt := by
  rw [outsAt2_B_eq V c t h0]
  show k2_pay1 (F := Ideal) (k2_pay5 (F := Ideal) (iblk2 V c 0 t) (iblk2 V c 1 t) (iblk2 V c 2 t) (iblk2 V c 4 t) (iblk2 V c 3 t)) (outsAt2 V c (t.val - 1) (Nat.lt_of_le_of_lt (Nat.sub_le _ _) t.isLt)).2.2 (ix3 0 0 j) = _
  rw [k2_pay1_apply]
  exact congrArg (_ + ·) ((k2_pay5_apply (iblk2 V c 0 t) (iblk2 V c 1 t) (iblk2 V c 2 t) (iblk2 V c 4 t) (iblk2 V c 3 t) j).trans (colsumsq_blk2 V c t j))

/-- Core `q`'s running sum from 0 over its five tiles of the tiles' sums of `h` in column `j`, -/
def statSum2 (c : Dev nD) (q : Fin 2) (j : Fin 64) : Ideal .f32 :=
  ((((0 + tileSum (fun r => lin2 V c r j) q 0) + tileSum (fun r => lin2 V c r j) q 1) + tileSum (fun r => lin2 V c r j) q 2) + tileSum (fun r => lin2 V c r j) q 3) + tileSum (fun r => lin2 V c r j) q 4

/-- and of `h·h`. -/
def statSq2 (c : Dev nD) (q : Fin 2) (j : Fin 64) : Ideal .f32 :=
  ((((0 + tileSum (fun r => lin2 V c r j * lin2 V c r j) q 0) + tileSum (fun r => lin2 V c r j * lin2 V c r j) q 1) + tileSum (fun r => lin2 V c r j * lin2 V c r j) q 2) + tileSum (fun r => lin2 V c r j * lin2 V c r j) q 3) + tileSum (fun r => lin2 V c r j * lin2 V c r j) q 4

/-- The two [2,1,64] statistic arrays after the region. -/
def sumArr2 (c : Dev nD) : S2x1x64.Idx → Ideal .f32 := fun i => statSum2 V c (i 0) (i 2)
def sqArr2 (c : Dev nD) : S2x1x64.Idx → Ideal .f32 := fun i => statSq2 V c (i 0) (i 2)

/-- A core's five points, unrolled: after its last tile the buffer holds the running sum from 0 of the five tile sums. -/
theorem acc2_6 (c : Dev nD) (q : Fin 2) (j : Fin 64) (h4 : 5 * q.val + 4 < cfg2.N) :
    ((outsAt2 V c (5 * q.val + 4) h4).2.1 : Vec Ideal S1x1x64 .f32) (ix3 0 0 j) = statSum2 V c q j := by
  have hN : cfg2.N = 10 := N_2
  have hq : q.val < 2 := q.isLt
  have b0 : 5 * q.val + 0 < cfg2.N := by rw [hN]; omega
  have b1 : 5 * q.val + 1 < cfg2.N := by rw [hN]; omega
  have b2 : 5 * q.val + 2 < cfg2.N := by rw [hN]; omega
  have b3 : 5 * q.val + 3 < cfg2.N := by rw [hN]; omega
  have e0 : ((outsAt2 V c (5 * q.val + 0) b0).2.1 : Vec Ideal S1x1x64 .f32) (ix3 0 0 j) = 0 + tile2 (fun r => lin2 V c r j) (5 * q.val + 0) b0 :=
    base2_6 V c ⟨5 * q.val + 0, b0⟩ (by show (5 * q.val + 0) % 5 = 0; omega) j
  have e1 : ((outsAt2 V c (5 * q.val + 1) b1).2.1 : Vec Ideal S1x1x64 .f32) (ix3 0 0 j)
      = ((outsAt2 V c (5 * q.val + 0) b0).2.1 : Vec Ideal S1x1x64 .f32) (ix3 0 0 j) + tile2 (fun r => lin2 V c r j) (5 * q.val + 1) b1 :=
    step2_6 V c ⟨5 * q.val + 1, b1⟩ (by show ¬(5 * q.val + 1) % 5 = 0; omega) j
  have e2 : ((outsAt2 V c (5 * q.val + 2) b2).2.1 : Vec Ideal S1x1x64 .f32) (ix3 0 0 j)
      = ((outsAt2 V c (5 * q.val + 1) b1).2.1 : Vec Ideal S1x1x64 .f32) (ix3 0 0 j) + tile2 (fun r => lin2 V c r j) (5 * q.val + 2) b2 :=
    step2_6 V c ⟨5 * q.val + 2, b2⟩ (by show ¬(5 * q.val + 2) % 5 = 0; omega) j
  have e3 : ((outsAt2 V c (5 * q.val + 3) b3).2.1 : Vec Ideal S1x1x64 .f32) (ix3 0 0 j)
      = ((outsAt2 V c (5 * q.val + 2) b2).2.1 : Vec Ideal S1x1x64 .f32) (ix3 0 0 j) + tile2 (fun r => lin2 V c r j) (5 * q.val + 3) b3 :=
    step2_6 V c ⟨5 * q.val + 3, b3⟩ (by show ¬(5 * q.val + 3) % 5 = 0; omega) j
  have e4 : ((outsAt2 V c (5 * q.val + 4) h4).2.1 : Vec Ideal S1x1x64 .f32) (ix3 0 0 j)
      = ((outsAt2 V c (5 * q.val + 3) b3).2.1 : Vec Ideal S1x1x64 .f32) (ix3 0 0 j) + tile2 (fun r => lin2 V c r j) (5 * q.val + 4) h4 :=
    step2_6 V c ⟨5 * q.val + 4, h4⟩ (by show ¬(5 * q.val + 4) % 5 = 0; omega) j
  have t0 : tile2 (fun r => lin2 V c r j) (5 * q.val + 0) b0 = tileSum (fun r => lin2 V c r j) q 0 := tile2_eq_tileSum (fun r => lin2 V c r j) q 0 b0
  have t1 : tile2 (fun r => lin2 V c r j) (5 * q.val + 1) b1 = tileSum (fun r => lin2 V c r j) q 1 := tile2_eq_tileSum (fun r => lin2 V c r j) q 1 b1
  have t2 : tile2 (fun r => lin2 V c r j) (5 * q.val + 2) b2 = tileSum (fun r => lin2 V c r j) q 2 := tile2_eq_tileSum (fun r => lin2 V c r j) q 2 b2
  have t3 : tile2 (fun r => lin2 V c r j) (5 * q.val + 3) b3 = tileSum (fun r => lin2 V c r j) q 3 := tile2_eq_tileSum (fun r => lin2 V c r j) q 3 b3
  have t4 : tile2 (fun r => lin2 V c r j) (5 * q.val + 4) h4 = tileSum (fun r => lin2 V c r j) q 4 := tile2_eq_tileSum (fun r => lin2 V c r j) q 4 h4
  rw [e4, e3, e2, e1, e0, t0, t1, t2, t3, t4]
  rfl

/-- A core's five points, unrolled: after its last tile the buffer holds the running sum from 0 of the five tile sums. -/
theorem acc2_7 (c : Dev nD) (q : Fin 2) (j : Fin 64) (h4 : 5 * q.val + 4 < cfg2.N) :
    ((outsAt2 V c (5 * q.val + 4) h4).2.2 : Vec Ideal S1x1x64 .f32) (ix3 0 0 j) = statSq2 V c q j := by
  have hN : cfg2.N = 10 := N_2
  have hq : q.val < 2 := q.isLt
  have b0 : 5 * q.val + 0 < cfg2.N := by rw [hN]; omega
  have b1 : 5 * q.val + 1 < cfg2.N := by rw [hN]; omega
  have b2 : 5 * q.val + 2 < cfg2.N := by rw [hN]; omega
  have b3 : 5 * q.val + 3 < cfg2.N := by rw [hN]; omega
  have e0 : ((outsAt2 V c (5 * q.val + 0) b0).2.2 : Vec Ideal S1x1x64 .f32) (ix3 0 0 j) = 0 + tile2 (fun r => lin2 V c r j * lin2 V c r j) (5 * q.val + 0) b0 :=
    base2_7 V c ⟨5 * q.val + 0, b0⟩ (by show (5 * q.val + 0) % 5 = 0; omega) j
  have e1 : ((outsAt2 V c (5 * q.val + 1) b1).2.2 : Vec Ideal S1x1x64 .f32) (ix3 0 0 j)
      = ((outsAt2 V c (5 * q.val + 0) b0).2.2 : Vec Ideal S1x1x64 .f32) (ix3 0 0 j) + tile2 (fun r => lin2 V c r j * lin2 V c r j) (5 * q.val + 1) b1 :=
    step2_7 V c ⟨5 * q.val + 1, b1⟩ (by show ¬(5 * q.val + 1) % 5 = 0; omega) j
  have e2 : ((outsAt2 V c (5 * q.val + 2) b2).2.2 : Vec Ideal S1x1x64 .f32) (ix3 0 0 j)
      = ((outsAt2 V c (5 * q.val + 1) b1).2.2 : Vec Ideal S1x1x64 .f32) (ix3 0 0 j) + tile2 (fun r => lin2 V c r j * lin2 V c r j) (5 * q.val + 2) b2 :=
    step2_7 V c ⟨5 * q.val + 2, b2⟩ (by show ¬(5 * q.val + 2) % 5 = 0; omega) j
  have e3 : ((outsAt2 V c (5 * q.val + 3) b3).2.2 : Vec Ideal S1x1x64 .f32) (ix3 0 0 j)
      = ((outsAt2 V c (5 * q.val + 2) b2).2.2 : Vec Ideal S1x1x64 .f32) (ix3 0 0 j) + tile2 (fun r => lin2 V c r j * lin2 V c r j) (5 * q.val + 3) b3 :=
    step2_7 V c ⟨5 * q.val + 3, b3⟩ (by show ¬(5 * q.val + 3) % 5 = 0; omega) j
  have e4 : ((outsAt2 V c (5 * q.val + 4) h4).2.2 : Vec Ideal S1x1x64 .f32) (ix3 0 0 j)
      = ((outsAt2 V c (5 * q.val + 3) b3).2.2 : Vec Ideal S1x1x64 .f32) (ix3 0 0 j) + tile2 (fun r => lin2 V c r j * lin2 V c r j) (5 * q.val + 4) h4 :=
    step2_7 V c ⟨5 * q.val + 4, h4⟩ (by show ¬(5 * q.val + 4) % 5 = 0; omega) j
  have t0 : tile2 (fun r => lin2 V c r j * lin2 V c r j) (5 * q.val + 0) b0 = tileSum (fun r => lin2 V c r j * lin2 V c r j) q 0 := tile2_eq_tileSum (fun r => lin2 V c r j * lin2 V c r j) q 0 b0
  have t1 : tile2 (fun r => lin2 V c r j * lin2 V c r j) (5 * q.val + 1) b1 = tileSum (fun r => lin2 V c r j * lin2 V c r j) q 1 := tile2_eq_tileSum (fun r => lin2 V c r j * lin2 V c r j) q 1 b1
  have t2 : tile2 (fun r => lin2 V c r j * lin2 V c r j) (5 * q.val + 2) b2 = tileSum (fun r => lin2 V c r j * lin2 V c r j) q 2 := tile2_eq_tileSum (fun r => lin2 V c r j * lin2 V c r j) q 2 b2
  have t3 : tile2 (fun r => lin2 V c r j * lin2 V c r j) (5 * q.val + 3) b3 = tileSum (fun r => lin2 V c r j * lin2 V c r j) q 3 := tile2_eq_tileSum (fun r => lin2 V c r j * lin2 V c r j) q 3 b3
  have t4 : tile2 (fun r => lin2 V c r j * lin2 V c r j) (5 * q.val + 4) h4 = tileSum (fun r => lin2 V c r j * lin2 V c r j) q 4 := tile2_eq_tileSum (fun r => lin2 V c r j * lin2 V c r j) q 4 h4
  rw [e4, e3, e2, e1, e0, t0, t1, t2, t3, t4]
  rfl

/-- What the core's last point writes back is the core's slab of the accumulated array. -/
theorem flushed2_6_eq (c : Dev nD) (t : Fin cfg2.N) (hf : (cfg2.win 6).flush t = true) :
    (dat2 V c).flushed 6 t = ((cfg2.win 6).blk t).view.read (Elt Ideal) (sumArr2 V c) := by
  have h4 : t.val % 5 = 4 := (flush2_6 t).mp hf
  have hN : t.val < 10 := lt_of_lt_of_eq t.isLt (show cfg2.N = 10 from N_2)
  obtain ⟨q, hq⟩ : ∃ q : Fin 2, t.val = 5 * q.val + 4 := ⟨⟨t.val / 5, by omega⟩, by show t.val = 5 * (t.val / 5) + 4; omega⟩
  obtain ⟨-, -, -, -, -, -, -, -, -, -, -, -, e0, e1, e2, -⟩ := idx_facts2 t
  show (cfg2.win 6).cut (grid2.coords t) ((dat2 V c).after 6 t) = _
  rw [after2_6]
  obtain ⟨tv, htv⟩ := t
  have hq' : tv = 5 * q.val + 4 := hq
  subst hq'
  funext y
  obtain ⟨a, b, j, rfl⟩ : ∃ (a b : Fin 1) (j : Fin 64), y = ix3 a b j := ⟨y 0, y 1, y 2, eq_ix3 y⟩
  obtain rfl : a = 0 := Subsingleton.elim _ _
  obtain rfl : b = 0 := Subsingleton.elim _ _
  show ((outsAt2 V c (5 * q.val + 4) htv).2.1 : Vec Ideal S1x1x64 .f32) (ix3 0 0 j)
    = sumArr2 V c (((cfg2.win 6).blk ⟨5 * q.val + 4, htv⟩).view.emb (ix3 0 0 j))
  rw [acc2_6 V c q j htv]
  unfold sumArr2
  show statSum2 V c q j = statSum2 V c _ _
  congr 1
  · apply Fin.ext
    show q.val = win2_6.index ⟨5 * q.val + 4, htv⟩ (0 : Fin 3) * 1 + 1 * 0
    rw [e0]; show q.val = (5 * q.val + 4) / 5 * 1 + 1 * 0; omega
  · apply Fin.ext
    show j.val = win2_6.index ⟨5 * q.val + 4, htv⟩ (2 : Fin 3) * 64 + 1 * j.val
    rw [e2]; omega

/-- An index of the array is in point `t`'s slab iff each coordinate is in the slab's range on its axis. -/
theorem mem_blk2_6 (t : Fin cfg2.N) (i : S2x1x64.Idx) :
    i ∈ ((cfg2.win 6).blk t).view.set ↔ ∀ a : Fin 3, win2_6.index t a * S1x1x64.size a ≤ (i a).val ∧ (i a).val < win2_6.index t a * S1x1x64.size a + S1x1x64.size a := by
  show i ∈ ((View.whole main_v65_1).slice (win2_6.rect t)).set ↔ _
  rw [View.set_slice_whole, Rect.mem_set_unit]
  exact Iff.rfl

/-- Slab `q` is written back by the last point of core `q`. -/
theorem cover2_6 (i : S2x1x64.Idx) :
    ∃ t : Fin cfg2.N, (cfg2.win 6).flush t = true ∧ i ∈ ((cfg2.win 6).blk t).view.set := by
  have hi0 : (i 0).val < 2 := (i 0).isLt
  have hi1 : (i 1).val < 1 := (i 1).isLt
  have hi2 : (i 2).val < 64 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  obtain ⟨-, -, -, -, -, -, -, -, -, -, -, -, e0, e1, e2, -⟩ := idx_facts2 t
  refine ⟨t, (flush2_6 t).mpr (by rw [ht]; omega), ?_⟩
  rw [mem_blk2_6]
  intro a
  match a with
  | ⟨0, _⟩ => show win2_6.index t (0 : Fin 3) * 1 ≤ (i 0).val ∧ (i 0).val < win2_6.index t (0 : Fin 3) * 1 + 1
              rw [e0, ht]; omega
  | ⟨1, _⟩ => show win2_6.index t (1 : Fin 3) * 1 ≤ (i 1).val ∧ (i 1).val < win2_6.index t (1 : Fin 3) * 1 + 1
              rw [e1]; omega
  | ⟨2, _⟩ => show win2_6.index t (2 : Fin 3) * 64 ≤ (i 2).val ∧ (i 2).val < win2_6.index t (2 : Fin 3) * 64 + 64
              rw [e2]; omega

/-- THE STATISTIC ARRAY after the ten points. -/
theorem final2_6 (c : Dev nD) : (dat2 V c).arrAt 6 cfg2.N = sumArr2 V c :=
  (dat2 V c).arrAt_eq_of_cover 6 (sumArr2 V c) (flushed2_6_eq V c) cover2_6

/-- The same, at core `q` and column `j`. -/
theorem final2_6_apply (c : Dev nD) (q : Fin 2) (j : Fin 64) :
    ((dat2 V c).arrAt 6 cfg2.N : S2x1x64.Idx → Ideal .f32) (ix3 q 0 j) = statSum2 V c q j :=
  congrFun (final2_6 V c) (ix3 q 0 j)

/-- What the core's last point writes back is the core's slab of the accumulated array. -/
theorem flushed2_7_eq (c : Dev nD) (t : Fin cfg2.N) (hf : (cfg2.win 7).flush t = true) :
    (dat2 V c).flushed 7 t = ((cfg2.win 7).blk t).view.read (Elt Ideal) (sqArr2 V c) := by
  have h4 : t.val % 5 = 4 := (flush2_7 t).mp hf
  have hN : t.val < 10 := lt_of_lt_of_eq t.isLt (show cfg2.N = 10 from N_2)
  obtain ⟨q, hq⟩ : ∃ q : Fin 2, t.val = 5 * q.val + 4 := ⟨⟨t.val / 5, by omega⟩, by show t.val = 5 * (t.val / 5) + 4; omega⟩
  obtain ⟨-, -, -, -, -, -, -, -, -, -, -, -, -, -, -, e0, e1, e2⟩ := idx_facts2 t
  show (cfg2.win 7).cut (grid2.coords t) ((dat2 V c).after 7 t) = _
  rw [after2_7]
  obtain ⟨tv, htv⟩ := t
  have hq' : tv = 5 * q.val + 4 := hq
  subst hq'
  funext y
  obtain ⟨a, b, j, rfl⟩ : ∃ (a b : Fin 1) (j : Fin 64), y = ix3 a b j := ⟨y 0, y 1, y 2, eq_ix3 y⟩
  obtain rfl : a = 0 := Subsingleton.elim _ _
  obtain rfl : b = 0 := Subsingleton.elim _ _
  show ((outsAt2 V c (5 * q.val + 4) htv).2.2 : Vec Ideal S1x1x64 .f32) (ix3 0 0 j)
    = sqArr2 V c (((cfg2.win 7).blk ⟨5 * q.val + 4, htv⟩).view.emb (ix3 0 0 j))
  rw [acc2_7 V c q j htv]
  unfold sqArr2
  show statSq2 V c q j = statSq2 V c _ _
  congr 1
  · apply Fin.ext
    show q.val = win2_7.index ⟨5 * q.val + 4, htv⟩ (0 : Fin 3) * 1 + 1 * 0
    rw [e0]; show q.val = (5 * q.val + 4) / 5 * 1 + 1 * 0; omega
  · apply Fin.ext
    show j.val = win2_7.index ⟨5 * q.val + 4, htv⟩ (2 : Fin 3) * 64 + 1 * j.val
    rw [e2]; omega

/-- An index of the array is in point `t`'s slab iff each coordinate is in the slab's range on its axis. -/
theorem mem_blk2_7 (t : Fin cfg2.N) (i : S2x1x64.Idx) :
    i ∈ ((cfg2.win 7).blk t).view.set ↔ ∀ a : Fin 3, win2_7.index t a * S1x1x64.size a ≤ (i a).val ∧ (i a).val < win2_7.index t a * S1x1x64.size a + S1x1x64.size a := by
  show i ∈ ((View.whole main_v65_2).slice (win2_7.rect t)).set ↔ _
  rw [View.set_slice_whole, Rect.mem_set_unit]
  exact Iff.rfl

/-- Slab `q` is written back by the last point of core `q`. -/
theorem cover2_7 (i : S2x1x64.Idx) :
    ∃ t : Fin cfg2.N, (cfg2.win 7).flush t = true ∧ i ∈ ((cfg2.win 7).blk t).view.set := by
  have hi0 : (i 0).val < 2 := (i 0).isLt
  have hi1 : (i 1).val < 1 := (i 1).isLt
  have hi2 : (i 2).val < 64 := (i 2).isLt
  have hN : cfg2.N = 10 := N_2
  obtain ⟨t, ht⟩ : ∃ t : Fin cfg2.N, t.val = 5 * (i 0).val + 4 := ⟨⟨5 * (i 0).val + 4, by rw [hN]; omega⟩, rfl⟩
  obtain ⟨-, -, -, -, -, -, -, -, -, -, -, -, -, -, -, e0, e1, e2⟩ := idx_facts2 t
  refine ⟨t, (flush2_7 t).mpr (by rw [ht]; omega), ?_⟩
  rw [mem_blk2_7]
  intro a
  match a with
  | ⟨0, _⟩ => show win2_7.index t (0 : Fin 3) * 1 ≤ (i 0).val ∧ (i 0).val < win2_7.index t (0 : Fin 3) * 1 + 1
              rw [e0, ht]; omega
  | ⟨1, _⟩ => show win2_7.index t (1 : Fin 3) * 1 ≤ (i 1).val ∧ (i 1).val < win2_7.index t (1 : Fin 3) * 1 + 1
              rw [e1]; omega
  | ⟨2, _⟩ => show win2_7.index t (2 : Fin 3) * 64 ≤ (i 2).val ∧ (i 2).val < win2_7.index t (2 : Fin 3) * 64 + 64
              rw [e2]; omega

/-- THE STATISTIC ARRAY after the ten points. -/
theorem final2_7 (c : Dev nD) : (dat2 V c).arrAt 7 cfg2.N = sqArr2 V c :=
  (dat2 V c).arrAt_eq_of_cover 7 (sqArr2 V c) (flushed2_7_eq V c) cover2_7

/-- The same, at core `q` and column `j`. -/
theorem final2_7_apply (c : Dev nD) (q : Fin 2) (j : Fin 64) :
    ((dat2 V c).arrAt 7 cfg2.N : S2x1x64.Idx → Ideal .f32) (ix3 q 0 j) = statSq2 V c q j :=
  congrFun (final2_7 V c) (ix3 q 0 j)

end Cert.KernelIdeal.HandValue

end
-- ==== Proof.KV.Region3Pieces.lean ====
/-
  The last region's output block, case by case, as the body's pure payloads of what it loaded: at the first grid
  point the block ends at the tile's column maximum; at a later point at the larger of what the block held and the
  tile's column maximum.  In both cases one store covers the whole [1,128] block and every load reads a whole
  buffer, so the block's contents are that store's value.
-/
import proofs.«150514_j16690242912872_2_alg».proof.Proof.KI.Region3
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 whole-buffer access, as a constant function. -/
theorem zero2_3 : (![0, 0] : Fin 2 → Nat) = fun _ => 0 := funext fun a => by fin_cases a <;> rfl

/-- FIRST POINT: the block ends at the tile's column maximum. -/
theorem out3_A_3_eq (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : cond3_0 i) (hc1 : ¬cond3_1 i)
    (x0 : Vec F S10000x128 .f32) (x1 : Vec F S1x128 .f32) (x2 : Vec F S1x128 .f32) :
    out3_A_3 c i arg1 harg1 arg2 harg2 arg3 harg3 arg4 harg4 hc0 hc1 x0 x1 x2 = k3_pay1 x0 x1 x2 := by
  unfold out3_A_3
  rw [View.read_writes_eq_canon _ _ _ (cover3_A_3 c i arg1 harg1 arg2 harg2 arg3 harg3 arg4 harg4 hc0 hc1 x0 x1 x2)]
  unfold kernelRun3_A
  dsimp only
  rw [View.canon_unit_zero zero2_3]
  simp only [View.readAt_eq_ld, harg1.read_unread, harg2.read_unread, harg3.read_unread,
    View.ld_unit_zero (S := S10000x128) zero2_3, View.ld_unit_zero (S := S1x128) zero2_3]

/-- A LATER POINT: the block ends at the larger of its running contents and the tile's column maximum. -/
theorem out3_B_3_eq (c : Dev nD) (i : grid3.Coords) (arg1 : Memref sig .tc .vmem S10000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (hc0 : ¬cond3_0 i) (hc1 : cond3_1 i)
    (x0 : Vec F S10000x128 .f32) (x1 : Vec F S1x128 .f32) (x2 : Vec F S1x128 .f32) (xo : Vec F S1x128 .f32) :
    out3_B_3 c i arg1 harg1 arg2 harg2 arg3 harg3 arg4 harg4 hc0 hc1 x0 x1 x2 xo = k3_pay2 x0 x1 x2 xo := by
  unfold out3_B_3
  rw [View.read_writes_eq_canon _ _ _ (cover3_B_3 c i arg1 harg1 arg2 harg2 arg3 harg3 arg4 harg4 hc0 hc1 x0 x1 x2 xo)]
  unfold kernelRun3_B
  dsimp only
  rw [View.canon_unit_zero zero2_3]
  simp only [View.readAt_eq_ld, harg1.read_unread, harg2.read_unread, harg3.read_unread, harg4.read_unread,
    View.ld_unit_zero (S := S10000x128) zero2_3, View.ld_unit_zero (S := S1x128) zero2_3]

end Cert.KernelIdeal.HandValue

end
-- ==== Proof.KV.Region3Tile.lean ====
/-
  The last region's arithmetic read at one lane.  With h the tile of the lane-dense view (10000 rows, 128 lanes), s the
  row of factors and b the row of offsets: the tile's column maximum at lane l is the maximum over the tile's rows q of
  max(h(q,l) · s(l) + b(l), 0), folded from −∞ (the reduction's initial word is the bottom element); a later grid point
  stores the larger of that and what the block held.
-/
import proofs.«150514_j16690242912872_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-- The reduction's initial word is −∞. -/
theorem negInf3_eq : Ideal.ofBits .f32 0xFF800000#32 = ⊥ := by simp [Ideal.ofBits, Ideal.ieee]

/-- Row `q` inserted in front of lane `l` is the index `(q, l)`. -/
theorem lift_row3 (h : S10000x128.Reduces [0] S128) (l : Fin 128) (q : Fin 10000) : h.lift (ix1 l) q = ix2 q l :=
  funext fun a => Fin.ext (by match a with | ⟨0, _⟩ => rfl | ⟨1, _⟩ => rfl)

/-- A column maximum over the 10000 rows of a tile, re-read as one row, at lane `l`: the fold of `max` from −∞ over the
    rows. -/
theorem colmax3_single (src : FVec Ideal S10000x128 .f32) (h : S10000x128.Reduces [0] S128) (hφ : FKind.Formats .f32)
    (hacc : (0xFF800000#32 : BitVec 32) = FKind.maximumf.neutral .f32 hφ) (hc : S128.ShapeCasts S1x128) (l : Fin 128) :
    shapeCast S1x128 (multiReduction .maximumf [0] S128 src 0xFF800000#32 h hφ hacc) hc (ix2 (0 : Fin 1) l)
      = (Finset.univ : Finset (Fin 10000)).fold max ⊥ fun q => src (ix2 q l) := by
  refine (shapeCast_a_1a_apply _ hc 0 l).trans ?_
  refine (Ideal.multiReduction_maximumf_single src 0xFF800000#32 h hφ hacc (ix1 l)).trans ?_
  show (Finset.univ : Finset (Fin 10000)).fold max (Ideal.ofBits .f32 0xFF800000#32) _ = _
  rw [negInf3_eq]
  exact congrArg (fun f => Finset.fold max ⊥ f (Finset.univ : Finset (Fin 10000)))
    (funext fun q => congrArg src (lift_row3 h l q))

/-- The normalised, clipped entry at `(q, l)`: the factor and the offset are one row, read at lane `l` whatever the row. -/
theorem affine3_apply (x0 : FVec Ideal S10000x128 .f32) (x1 x2 : FVec Ideal S1x128 .f32) (hb : S1x128.Broadcasts S10000x128)
    (q : Fin 10000) (l : Fin 128) :
    maximumf (addf (mulf x0 (broadcastTo S10000x128 x1 hb)) (broadcastTo S10000x128 x2 hb))
        (broadcast S10000x128 (Scalar.ofBits (F := Ideal) .f32 0x00000000#32)) (ix2 q l)
      = max (x0 (ix2 q l) * x1 (ix2 (0 : Fin 1) l) + x2 (ix2 (0 : Fin 1) l)) 0 := by
  show max (x0 (ix2 q l) * broadcastTo S10000x128 x1 hb (ix2 q l) + broadcastTo S10000x128 x2 hb (ix2 q l))
      (Ideal.ofBits .f32 0x00000000#32) = _
  rw [broadcastTo_1b_ab_apply x1 hb q l, broadcastTo_1b_ab_apply x2 hb q l, Ideal.ofBits_zero_f32]

/-- A tile's column maximum at lane `l`. -/
def tileColMax3 (x0 : Vec Ideal S10000x128 .f32) (x1 x2 : Vec Ideal S1x128 .f32) (l : Fin 128) : EReal :=
  (Finset.univ : Finset (Fin 10000)).fold max ⊥
    fun q => max (x0 (ix2 q l) * x1 (ix2 (0 : Fin 1) l) + x2 (ix2 (0 : Fin 1) l)) 0

/-- THE FIRST POINT'S STORE at lane `l`: the tile's column maximum. -/
theorem k3_pay1_apply (x0 : Vec Ideal S10000x128 .f32) (x1 x2 : Vec Ideal S1x128 .f32) (l : Fin 128) :
    k3_pay1 (F := Ideal) x0 x1 x2 (ix2 (0 : Fin 1) l) = tileColMax3 x0 x1 x2 l := by
  unfold k3_pay1 tileColMax3
  simp only [shapeCast_self]
  refine (colmax3_single _ reduces_S10000x128_S128 _ _ shapeCasts_S128_S1x128 l).trans ?_
  exact congrArg (fun f => Finset.fold max ⊥ f (Finset.univ : Finset (Fin 10000)))
    (funext fun q => affine3_apply x0 x1 x2 broadcasts_S1x128_S10000x128 q l)

/-- A LATER POINT'S STORE at lane `l`: the larger of what the block held and the tile's column maximum. -/
theorem k3_pay2_apply (x0 : Vec Ideal S10000x128 .f32) (x1 x2 xo : Vec Ideal S1x128 .f32) (l : Fin 128) :
    k3_pay2 (F := Ideal) x0 x1 x2 xo (ix2 (0 : Fin 1) l) = max (xo (ix2 (0 : Fin 1) l)) (tileColMax3 x0 x1 x2 l) := by
  unfold k3_pay2
  simp only [shapeCast_self]
  show max (xo (ix2 (0 : Fin 1) l)) (k3_pay1 (F := Ideal) x0 x1 x2 (ix2 (0 : Fin 1) l)) = _
  rw [k3_pay1_apply]

end Cert.KernelIdeal.HandValue

end
-- ==== Proof.KV.Region3Value.lean ====
/-
  What the last region leaves in its [1,128] output array, at the extended reals, as one function of the arrays the region
  finds.  With h the lane-dense view [50000,128], s the row of factors and b the row of offsets: lane l ends at the running
  maximum, over the five row tiles of 10000 rows taken in order, of each tile's maximum of max(h(p,l) · s(l) + b(l), 0) —
  the first tile's maximum, then each next tile's against what came before.  Tile t of h is rows 10000·t … 10000·t + 9999;
  the factor and offset rows and the output block are whole arrays at every grid point; the output block is written back
  after the last point only, and that one block is the whole array.
-/
import proofs.«150514_j16690242912872_2_alg».proof.Proof.KI.Region3
import proofs.«150514_j16690242912872_2_alg».proof.Proof.KV.Region3Pieces
import proofs.«150514_j16690242912872_2_alg».proof.Proof.KV.Region3Tile
import proofs.«150514_j16690242912872_2_alg».proof.Proof.Math.ColMax
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Math (tileMax tile_lt fold_max_tiles)

-- the TensorCore's buffer contents when the region is entered
variable (V : (c : Dev nD) → (b : Ref sig .tc) → Buf (Elt Ideal) ((c : Thread nD τ).loc b))

/-- The block indices of the four windows at a grid point: the tiled window moves down the rows with the point, the
    factor row, the offset row and the output block stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem N3 : cfg3.N = 5 := N_3

/-- A grid point as one of the five tiles. -/
def tile3 (t : Fin cfg3.N) : Fin 5 := ⟨t.val, lt_of_lt_of_eq t.isLt N3⟩

/-- Row `q` of tile `t` is row `10000·t + q` of the view. -/
def row3 (t : Fin cfg3.N) (q : Fin 10000) : Fin 50000 := ⟨10000 * t.val + q.val, tile_lt (tile3 t) q⟩

/-- The three arrays the region reads, as it finds them: the lane-dense view, the factor row, the offset row. -/
abbrev h3 (c : Dev nD) : Vec Ideal S50000x128 .f32 := V c main_v84
abbrev scale3 (c : Dev nD) : Vec Ideal S1x128 .f32 := V c main_v85
abbrev shift3 (c : Dev nD) : Vec Ideal S1x128 .f32 := V c main_v86

/-- The normalised, clipped entry at row `p`, lane `l` of the view. -/
def rowVal3 (c : Dev nD) (l : Fin 128) (p : Fin 50000) : EReal :=
  max (h3 V c (ix2 p l) * scale3 V c (ix2 (0 : Fin 1) l) + shift3 V c (ix2 (0 : Fin 1) l)) 0

/-- Tile `t` of the view, at row `q` and lane `l`. -/
theorem iblk3_0_apply (c : Dev nD) (t : Fin cfg3.N) (q : Fin 10000) (l : Fin 128) :
    (iblk3 V c 0 t : Vec Ideal S10000x128 .f32) (ix2 q l) = h3 V c (ix2 (row3 t q) l) := by
  obtain ⟨e0, e1, -⟩ := idx3 t
  unfold iblk3
  rw [View.read_apply]
  show h3 V c _ = _
  refine congrArg _ (funext fun a => Fin.ext ?_)
  match a with
  | ⟨0, _⟩ => show win3_0.index t (0 : Fin 2) * 10000 + 1 * q.val = 10000 * t.val + q.val; omega
  | ⟨1, _⟩ => show win3_0.index t (1 : Fin 2) * 128 + 1 * l.val = l.val; omega

/-- The factor row's block is the whole row. -/
theorem iblk3_1_apply (c : Dev nD) (t : Fin cfg3.N) (l : Fin 128) :
    (iblk3 V c 1 t : Vec Ideal S1x128 .f32) (ix2 (0 : Fin 1) l) = scale3 V c (ix2 (0 : Fin 1) l) := by
  obtain ⟨-, -, e0, e1, -⟩ := idx3 t
  unfold iblk3
  rw [View.read_apply]
  show scale3 V c _ = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * l.val = l.val; omega

/-- The offset row's block is the whole row. -/
theorem iblk3_2_apply (c : Dev nD) (t : Fin cfg3.N) (l : Fin 128) :
    (iblk3 V c 2 t : Vec Ideal S1x128 .f32) (ix2 (0 : Fin 1) l) = shift3 V c (ix2 (0 : Fin 1) l) := by
  obtain ⟨-, -, -, -, e0, e1, -⟩ := idx3 t
  unfold iblk3
  rw [View.read_apply]
  show shift3 V c _ = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * l.val = l.val; omega

/-- The column maximum of the blocks at point `t` is the maximum of the view's entries over tile `t`. -/
theorem tile3_eq (c : Dev nD) (t : Fin cfg3.N) (l : Fin 128) :
    tileColMax3 (iblk3 V c 0 t) (iblk3 V c 1 t) (iblk3 V c 2 t) l = tileMax (rowVal3 V c l) (tile3 t) := by
  unfold tileColMax3 tileMax
  refine congrArg (fun f => Finset.fold max ⊥ f (Finset.univ : Finset (Fin 10000))) (funext fun q => ?_)
  rw [iblk3_0_apply V c t q l, iblk3_1_apply V c t l, iblk3_2_apply V c t l]
  rfl

/-- The running maximum at lane `l` after point `n`: the first tile's maximum, then each next tile's against what came
    before. -/
def run3 (c : Dev nD) (l : Fin 128) : (n : ℕ) → n < cfg3.N → EReal
  | 0, h => tileMax (rowVal3 V c l) (tile3 ⟨0, h⟩)
  | n + 1, h => max (run3 c l n (Nat.lt_of_succ_lt h)) (tileMax (rowVal3 V c l) (tile3 ⟨n + 1, h⟩))

/-- What the output block holds after point `n`, at lane `l`, is the running maximum — by induction on the point. -/
theorem outsAt3_apply (c : Dev nD) (l : Fin 128) : ∀ (n : ℕ) (h : n < cfg3.N),
    (outsAt3 V c n h : Vec Ideal S1x128 .f32) (ix2 (0 : Fin 1) l) = run3 V c l n h
  | 0, h => by
    rw [outsAt3_A V c ⟨0, h⟩ rfl, out3_A_3_eq, k3_pay1_apply, tile3_eq]
    rfl
  | n + 1, h => by
    have hN : cfg3.N = 5 := N3
    have hB : ¬(⟨n + 1, h⟩ : Fin cfg3.N).val % 5 = 0 := by dsimp only; omega
    rw [outsAt3_B V c ⟨n + 1, h⟩ hB, out3_B_3_eq, k3_pay2_apply, tile3_eq]
    show max ((outsAt3 V c n _ : Vec Ideal S1x128 .f32) (ix2 (0 : Fin 1) l)) _ = max (run3 V c l n _) _
    rw [outsAt3_apply c l n]

/-- The output array after the region: at lane `l` the running maximum after the last point. -/
def G3 (c : Dev nD) : Vec Ideal S1x128 .f32 := fun i => run3 V c (i 1) 4 (by rw [N3]; decide)

/-- The one write-back, after the last point, writes it: the one [1,128] block is the whole array. -/
theorem flushed3_eq (c : Dev nD) (t : Fin cfg3.N) (hf : (cfg3.win 3).flush t = true) :
    (dat3 (F := Ideal) V c).flushed 3 t = ((cfg3.win 3).blk t).view.read (Elt Ideal) (G3 V c) := by
  have hN : cfg3.N = 5 := N3
  have h4 : t.val = 4 := by have := (flush3_3 t).mp hf; have := t.isLt; omega
  obtain rfl : t = t3_4 := Fin.ext h4
  obtain ⟨-, -, -, -, -, -, e0, e1⟩ := idx3 t3_4
  show (cfg3.win 3).cut (grid3.coords t3_4) ((dat3 V c).after 3 t3_4) = _
  rw [after3_3]
  funext j
  obtain ⟨z, l, rfl⟩ : ∃ (z : Fin 1) (l : Fin 128), j = ix2 z l := ⟨j 0, j 1, eq_ix2 j⟩
  obtain rfl : z = 0 := Subsingleton.elim _ _
  refine (outsAt3_apply V c l _ _).trans ?_
  rw [View.read_apply]
  show _ = G3 V c _
  refine congrArg (fun k : Fin 128 => run3 V c k 4 _) (Fin.ext ?_)
  show l.val = win3_3.index t3_4 (1 : Fin 2) * 128 + 1 * l.val
  omega

/-- An index of the array lies in point `t`'s block iff each coordinate is in the block's range. -/
theorem mem_blk3 (t : Fin cfg3.N) (i : S1x128.Idx) :
    i ∈ ((cfg3.win 3).blk t).view.set ↔ ∀ a : Fin 2, win3_3.index t a * S1x128.size a ≤ (i a).val ∧ (i a).val < win3_3.index t a * S1x128.size a + S1x128.size a := by
  show i ∈ ((View.whole main_v87).slice (win3_3.rect t)).set ↔ _
  rw [View.set_slice_whole, Rect.mem_set_unit]
  exact Iff.rfl

/-- The last point's block covers the array. -/
theorem cover3 (i : S1x128.Idx) : ∃ t : Fin cfg3.N, (cfg3.win 3).flush t = true ∧ i ∈ ((cfg3.win 3).blk t).view.set := by
  have hi0 : (i 0).val < 1 := (i 0).isLt
  have hi1 : (i 1).val < 128 := (i 1).isLt
  refine ⟨t3_4, (flush3_3 t3_4).mpr rfl, ?_⟩
  rw [mem_blk3]
  obtain ⟨-, -, -, -, -, -, e0, e1⟩ := idx3 t3_4
  intro a
  match a with
  | ⟨0, _⟩ =>
    show win3_3.index t3_4 (0 : Fin 2) * 1 ≤ (i 0).val ∧ (i 0).val < win3_3.index t3_4 (0 : Fin 2) * 1 + 1
    rw [e0]; omega
  | ⟨1, _⟩ =>
    show win3_3.index t3_4 (1 : Fin 2) * 128 ≤ (i 1).val ∧ (i 1).val < win3_3.index t3_4 (1 : Fin 2) * 128 + 128
    rw [e1]; omega

/-- The output array after the region. -/
theorem final3 (c : Dev nD) : (dat3 (F := Ideal) V c).arrAt 3 cfg3.N = G3 V c :=
  (dat3 (F := Ideal) V c).arrAt_eq_of_cover 3 (G3 V c) (fun t hf => flushed3_eq V c t hf) cover3

/-- THE OUTPUT ARRAY AT LANE `l`: the running maximum over the five tiles of the view's normalised, clipped entries. -/
theorem final3_apply (c : Dev nD) (l : Fin 128) :
    ((dat3 (F := Ideal) V c).arrAt 3 cfg3.N : Vec Ideal S1x128 .f32) (ix2 (0 : Fin 1) l)
      = max (max (max (max (tileMax (rowVal3 V c l) 0) (tileMax (rowVal3 V c l) 1)) (tileMax (rowVal3 V c l) 2))
          (tileMax (rowVal3 V c l) 3)) (tileMax (rowVal3 V c l) 4) :=
  congrFun (final3 V c) (ix2 (0 : Fin 1) l)

/-- The same as one maximum over all `50000` rows of the view. -/
theorem final3_fold (c : Dev nD) (l : Fin 128) :
    ((dat3 (F := Ideal) V c).arrAt 3 cfg3.N : Vec Ideal S1x128 .f32) (ix2 (0 : Fin 1) l)
      = (Finset.univ : Finset (Fin 50000)).fold max ⊥ (rowVal3 V c l) :=
  (final3_apply V c l).trans (fold_max_tiles (rowVal3 V c l)).symm

end Cert.KernelIdeal.HandValue

end
-- ==== Proof.Bridge.L2.lean ====
/-
  The second layer and the column maximum, read off the run.  The third stretch leaves the second layer's neighbour means (from
  the first layer's output) and bias row; the third region leaves the pre-activations and the per-half running sums; the fourth
  stretch the factor, the offset and the rows two by two; the fourth region, tile by tile, the running maximum of the clipped
  affine image over the rows of each lane; the last stretch joins lane j and lane 64 + j.  Entry by entry: the larger of the two
  lanes' running maxima of the second layer's output in the lane-dense reading.
-/
import proofs.«150514_j16690242912872_2_alg».proof.Proof.Bridge.L1
import proofs.«150514_j16690242912872_2_alg».proof.Proof.KH.Host3
import proofs.«150514_j16690242912872_2_alg».proof.Proof.KH.Host4
import proofs.«150514_j16690242912872_2_alg».proof.Proof.KV.Region2Final
import proofs.«150514_j16690242912872_2_alg».proof.Proof.KV.Region3Value

noncomputable section

namespace Cert.Proof.Bridge

open Idealize.ShloMosaic Idealize.ShloMosaic.ValueIdx Idealize.ShloMosaic.TcCoe Idealize.SL.Sem
open Cert.KernelIdeal Cert.KernelIdeal.Gen Cert.KernelIdeal.Hand
open Cert.RefSpec (Arr SNK SKH SH SN)
open scoped BigOperators

variable (m : (ℓ : Loc nD τ sig) → Buf (Elt Ideal) ℓ) (c : Dev nD)

/-- The second layer's neighbour sums and output. -/
abbrev AX2 : Arr (SNK 64) := HandHost.kerA64 (ei m c) (Y1 m c)
abbrev Y2 : Arr (SNK 64) := Math.layerK (AX2 m c) (Y1 m c) (cmK m c) (a5 m c) (a7 m c) (a6 m c) (a10 m c) (a11 m c)

/-! ## The third region's outputs -/

theorem lin2_at (r : Fin 100000) (j : Fin 64) :
    HandValue.lin2 (U5 m) c r j = Math.preK (AX2 m c) (Y1 m c) (cmK m c) (a5 m c) (a7 m c) (a6 m c) r j := by
  unfold HandValue.lin2 Math.preK Math.meanK Math.inv
  have hm : ∀ k : Fin 64, HandValue.mean2 (U5 m) c (ix2 r k)
      = HandHost.kerA64 (ei m c) (Y1 m c) (ix2 r k) * Ideal.div (Ideal.ofBits .f32 0x3F800000#32) (HandHost.kerCm (ei m c) (ix1 r)) :=
    fun k => mean2_at m c r k
  have hb : HandValue.bias2 (U5 m) c (ix2 0 j) = a6 m c (ix1 j) :=
    (HandHost.host2_bias (W4 m c) j).trans (congrFun (W4_main_arg6 m c) (ix1 j))
  have hwl : HandValue.wl2 (U5 m) c = a5 m c := W5_main_arg5 m c
  have hwr : HandValue.wr2 (U5 m) c = a7 m c := W5_main_arg7 m c
  have hf : HandValue.feat2 (U5 m) c = Y1 m c := hidden_eq m c
  simp only [hm, hb, hwl, hwr, hf]

theorem pre2_at (r : Fin 100000) (j : Fin 64) :
    HandHost.pre3 (W6 m c) (ix2 r j) = Math.preK (AX2 m c) (Y1 m c) (cmK m c) (a5 m c) (a7 m c) (a6 m c) r j := by
  have e : HandHost.pre3 (W6 m c) = ((dat2 (F := Ideal) (U5 m) c).arrAt 5 cfg2.N : S100000x64.Idx → Ideal .f32) := W6_arr m c 5
  rw [e, HandValue.final2_5_apply (U5 m) c r j]
  exact lin2_at m c r j

theorem sum2_at (q : Fin 2) (j : Fin 64) :
    HandHost.partSum3 (W6 m c) (ix3 q (0 : Fin 1) j)
      = ((((0 + Math.tileSum (fun r => Math.preK (AX2 m c) (Y1 m c) (cmK m c) (a5 m c) (a7 m c) (a6 m c) r j) q 0)
            + Math.tileSum (fun r => Math.preK (AX2 m c) (Y1 m c) (cmK m c) (a5 m c) (a7 m c) (a6 m c) r j) q 1)
            + Math.tileSum (fun r => Math.preK (AX2 m c) (Y1 m c) (cmK m c) (a5 m c) (a7 m c) (a6 m c) r j) q 2)
            + Math.tileSum (fun r => Math.preK (AX2 m c) (Y1 m c) (cmK m c) (a5 m c) (a7 m c) (a6 m c) r j) q 3)
            + Math.tileSum (fun r => Math.preK (AX2 m c) (Y1 m c) (cmK m c) (a5 m c) (a7 m c) (a6 m c) r j) q 4 := by
  have e : HandHost.partSum3 (W6 m c) = ((dat2 (F := Ideal) (U5 m) c).arrAt 6 cfg2.N : S2x1x64.Idx → Ideal .f32) := W6_arr m c 6
  rw [e, HandValue.final2_6_apply (U5 m) c q j]
  unfold HandValue.statSum2
  simp only [lin2_at m c]

theorem sq2_at (q : Fin 2) (j : Fin 64) :
    HandHost.partSq3 (W6 m c) (ix3 q (0 : Fin 1) j)
      = ((((0 + Math.tileSum (fun r => Math.preK (AX2 m c) (Y1 m c) (cmK m c) (a5 m c) (a7 m c) (a6 m c) r j * Math.preK (AX2 m c) (Y1 m c) (cmK m c) (a5 m c) (a7 m c) (a6 m c) r j) q 0)
            + Math.tileSum (fun r => Math.preK (AX2 m c) (Y1 m c) (cmK m c) (a5 m c) (a7 m c) (a6 m c) r j * Math.preK (AX2 m c) (Y1 m c) (cmK m c) (a5 m c) (a7 m c) (a6 m c) r j) q 1)
            + Math.tileSum (fun r => Math.preK (AX2 m c) (Y1 m c) (cmK m c) (a5 m c) (a7 m c) (a6 m c) r j * Math.preK (AX2 m c) (Y1 m c) (cmK m c) (a5 m c) (a7 m c) (a6 m c) r j) q 2)
            + Math.tileSum (fun r => Math.preK (AX2 m c) (Y1 m c) (cmK m c) (a5 m c) (a7 m c) (a6 m c) r j * Math.preK (AX2 m c) (Y1 m c) (cmK m c) (a5 m c) (a7 m c) (a6 m c) r j) q 3)
            + Math.tileSum (fun r => Math.preK (AX2 m c) (Y1 m c) (cmK m c) (a5 m c) (a7 m c) (a6 m c) r j * Math.preK (AX2 m c) (Y1 m c) (cmK m c) (a5 m c) (a7 m c) (a6 m c) r j) q 4 := by
  have e : HandHost.partSq3 (W6 m c) = ((dat2 (F := Ideal) (U5 m) c).arrAt 7 cfg2.N : S2x1x64.Idx → Ideal .f32) := W6_arr m c 7
  rw [e, HandValue.final2_7_apply (U5 m) c q j]
  unfold HandValue.statSq2
  simp only [lin2_at m c]

/-! ## The fourth region's output -/

/-- The value the fourth region maximises, at row p of lane l: the second layer's output in the lane-dense reading. -/
theorem rowVal3_at (l : Fin 128) (p : Fin 50000) :
    HandValue.rowVal3 (U7 m) c l p = Math.laneView (Y2 m c) p l := by
  have hd := HandHost.host3_dense (W6 m c) p l
  have hs := HandHost.host3_scale (W6 m c) l
  have ht := HandHost.host3_shift (W6 m c) l
  have hg : HandHost.gamma3 (W6 m c) = a10 m c := W6_main_arg10 m c
  have hbe : HandHost.beta3 (W6 m c) = a11 m c := W6_main_arg11 m c
  unfold HandValue.rowVal3
  refine (congrArg₂ max (congrArg₂ (· + ·) (congrArg₂ (· * ·) hd hs) ht) rfl).trans ?_
  rw [hg, hbe]
  exact glue_dense (AX2 m c) (Y1 m c) (cmK m c) (a5 m c) (a7 m c) (a6 m c) (a10 m c) (a11 m c)
    (HandHost.pre3 (W6 m c)) (HandHost.partSum3 (W6 m c)) (HandHost.partSq3 (W6 m c)) (pre2_at m c) (sum2_at m c) (sq2_at m c) p l

/-- Lane l of the one output row: the running maximum over the five tiles. -/
theorem v87_at (l : Fin 128) :
    HandHost.rowMax (W8 m c) (ix2 (0 : Fin 1) l) = Math.runMax (fun p => Math.laneView (Y2 m c) p l) := by
  have e : HandHost.rowMax (W8 m c) = ((dat3 (F := Ideal) (U7 m) c).arrAt 3 cfg3.N : Vec Ideal S1x128 .f32) := W8_arr m c 3
  rw [e, HandValue.final3_apply (U7 m) c l]
  exact congrArg Math.runMax (funext (rowVal3_at m c l))

/-- The result, entry by entry. -/
theorem result_at (j : Fin 64) :
    HandHost.result4 (W8 m c) (ix1 j)
      = max (Math.runMax fun p => Math.laneView (Y2 m c) p ⟨j.val, Math.lane_lo_lt j⟩)
            (Math.runMax fun p => Math.laneView (Y2 m c) p ⟨64 + j.val, Math.lane_hi_lt j⟩) :=
  (HandHost.host4_v92 (W8 m c) j).trans (congrArg₂ max (v87_at m c _) (v87_at m c _))

end Cert.Proof.Bridge

end
-- ==== Proof.Ref.Closure.lean ====
/-
  The reference's aggregation keeps real numbers real.

  An aggregated entry is the zero the accumulator starts from plus a finite sum of gathered entries of the feature
  matrix, and a gathered entry is an entry of the matrix: if every entry of the matrix is a real number, so is every
  aggregated entry. The divisor is the larger of a count (zero plus a finite sum of ones) and one: a real number that
  is at least one.
-/
import proofs.«150514_j16690242912872_2_alg».proof.Proof.Ref.Agg
import proofs.«150514_j16690242912872_2_alg».proof.Proof.LibFinite

noncomputable section

open scoped BigOperators

namespace Cert.ReferenceIdeal.RefValue

open Cert.ReferenceIdeal Cert.ReferenceIdeal.Gen Idealize.ShloMosaic Idealize.ShloMosaic.ValueIdx Cert.RefSpec
  Cert.Finite

/-- An array filled with one float word reads that word at every index. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w := rfl

/-- Two aggregated features of a real-valued matrix are real. -/
theorem refA2_isReal (ei : Edges) (X : Arr (SNK 2)) (hX : ∀ i, IsReal (X i)) (i : (SNK 2).Idx) :
    IsReal (refA2 ei X i) := by
  unfold refA2
  refine scatterAdd_isReal (φ := .f32) _ _ _ _ (fun i' => ?_) (gather_isReal _ X _ hX) i
  rw [splat_apply]
  exact isReal_ofBits_zero_f32

/-- Sixty-four aggregated features of a real-valued matrix are real. -/
theorem refA64_isReal (ei : Edges) (Y : Arr (SNK 64)) (hY : ∀ i, IsReal (Y i)) (i : (SNK 64).Idx) :
    IsReal (refA64 ei Y i) := by
  unfold refA64
  refine scatterAdd_isReal (φ := .f32) _ _ _ _ (fun i' => ?_) (gather_isReal _ Y _ hY) i
  rw [splat_apply]
  exact isReal_ofBits_zero_f32

/-- The number of edges into each node: a one for every edge, added into zeros at the edge's destination. -/
def refCnt (ei : Edges) : Arr SN :=
  Host.scatterAdd (F := Ideal) (φ := .f32) scatter_S100000_S1600000x1_S1600000_n_0_0_1
    (broadcastInDim S100000 ![] bcast_S_S100000 (constant (F := Ideal) S_ .f32 0x00000000#32))
    (dstCol ei)
    (broadcastInDim S1600000 ![] bcast_S_S1600000 (constant (F := Ideal) S_ .f32 0x3F800000#32))

/-- The count is a real number. -/
theorem refCnt_isReal (ei : Edges) (i : SN.Idx) : IsReal (refCnt ei i) := by
  unfold refCnt
  refine scatterAdd_isReal (φ := .f32) _ _ _ _ (fun i' => ?_) (fun j' => ?_) i
  · rw [splat_apply]
    exact isReal_ofBits_zero_f32
  · rw [splat_apply]
    exact isReal_ofBits_one_f32

/-- The divisor at a node is the larger of the count of incoming edges and one. -/
theorem refCm_apply (ei : Edges) (i : SN.Idx) : refCm ei i = max (refCnt ei i) 1 := by
  unfold refCm refCnt
  rw [maximumf_apply, splat_apply, Ideal.ofBits_one_f32]

/-- The divisor is real … -/
theorem refCm_isReal (ei : Edges) (i : SN.Idx) : IsReal (refCm ei i) := by
  rw [refCm_apply]
  exact (refCnt_isReal ei i).max isReal_one

/-- … and at least one. -/
theorem refCm_ge_one (ei : Edges) (i : SN.Idx) : 1 ≤ refCm ei i := by
  rw [refCm_apply]
  exact le_max_right _ _

end Cert.ReferenceIdeal.RefValue

end
-- ==== Proof.KH.AggBridge.lean ====
/-
  The kernel program's aggregation is the reference's.

  The two programs print the same host operations for the aggregation, over dimension records with the same literal
  fields and over the same literal shapes; only the names differ. The one visible difference, at 64 columns, is that the
  kernel program widens each gathered row from a shorter float format before adding it, which on exact values is the
  identity. So the three functions agree for every edge list and every feature matrix, and what is known of the
  reference's aggregation holds of the kernel program's: real-valued features aggregate to real numbers, and the divisor
  is a real number that is at least one.
-/
import proofs.«150514_j16690242912872_2_alg».proof.Proof.KH.Agg
import proofs.«150514_j16690242912872_2_alg».proof.Proof.Ref.Agg
import proofs.«150514_j16690242912872_2_alg».proof.Proof.Ref.Closure

noncomputable section

namespace Cert.KernelIdeal.HandHost

open Idealize.ShloMosaic Idealize.ShloMosaic.ValueIdx Cert.RefSpec Cert.Finite

/-! The dimension records of the two programs have the same fields. -/

theorem gather2_eq :
    Cert.KernelIdeal.gather_S100000x2_S1600000x1_S1600000x2_1_0_n_n_0_1_12
      = Cert.ReferenceIdeal.gather_S100000x2_S1600000x1_S1600000x2_1_0_n_n_0_1_12 := rfl

theorem scatter2_eq :
    Cert.KernelIdeal.scatter_S100000x2_S1600000x1_S1600000x2_1_0_0_1
      = Cert.ReferenceIdeal.scatter_S100000x2_S1600000x1_S1600000x2_1_0_0_1 := rfl

theorem gather64_eq :
    Cert.KernelIdeal.gather_S100000x64_S1600000x1_S1600000x64_1_0_n_n_0_1_164
      = Cert.ReferenceIdeal.gather_S100000x64_S1600000x1_S1600000x64_1_0_n_n_0_1_164 := rfl

theorem scatter64_eq :
    Cert.KernelIdeal.scatter_S100000x64_S1600000x1_S1600000x64_1_0_0_1
      = Cert.ReferenceIdeal.scatter_S100000x64_S1600000x1_S1600000x64_1_0_0_1 := rfl

theorem scatter1_eq :
    Cert.KernelIdeal.scatter_S100000_S1600000x1_S1600000_n_0_0_1
      = Cert.ReferenceIdeal.scatter_S100000_S1600000x1_S1600000_n_0_0_1 := rfl

/-! The index columns are the same functions of the edge list. -/

theorem kerSrcCol_eq (ei : Edges) : kerSrcCol ei = Cert.ReferenceIdeal.RefValue.srcCol ei := rfl

theorem kerDstCol_eq (ei : Edges) : kerDstCol ei = Cert.ReferenceIdeal.RefValue.dstCol ei := rfl

/-- Widening an array of exact values to a longer float format is the identity. -/
theorem widen_eq {s : Shape} (G : FVec Ideal s .bf16) (h : FTy.bits .bf16 < FTy.bits .f32) :
    extf (F := Ideal) (φ := .bf16) .f32 G h = G := rfl

/-! ## The three functions agree -/

/-- At two columns. -/
theorem kerA2_eq (ei : Edges) (X : Arr (SNK 2)) : kerA2 ei X = Cert.ReferenceIdeal.RefValue.refA2 ei X := by
  unfold kerA2 Cert.ReferenceIdeal.RefValue.refA2
  rw [scatter2_eq, gather2_eq, kerSrcCol_eq, kerDstCol_eq]

/-- At 64 columns. -/
theorem kerA64_eq (ei : Edges) (Y : Arr (SNK 64)) : kerA64 ei Y = Cert.ReferenceIdeal.RefValue.refA64 ei Y := by
  unfold kerA64 Cert.ReferenceIdeal.RefValue.refA64
  rw [widen_eq, scatter64_eq, gather64_eq, kerSrcCol_eq, kerDstCol_eq]

/-- The divisor. -/
theorem kerCm_eq (ei : Edges) : kerCm ei = Cert.ReferenceIdeal.RefValue.refCm ei := by
  unfold kerCm Cert.ReferenceIdeal.RefValue.refCm
  rw [scatter1_eq, kerDstCol_eq]

/-! ## Real-valued features stay real -/

theorem kerA2_isReal (ei : Edges) (X : Arr (SNK 2)) (hX : ∀ i, IsReal (X i)) (i : (SNK 2).Idx) :
    IsReal (kerA2 ei X i) := by
  rw [kerA2_eq]
  exact Cert.ReferenceIdeal.RefValue.refA2_isReal ei X hX i

theorem kerA64_isReal (ei : Edges) (Y : Arr (SNK 64)) (hY : ∀ i, IsReal (Y i)) (i : (SNK 64).Idx) :
    IsReal (kerA64 ei Y i) := by
  rw [kerA64_eq]
  exact Cert.ReferenceIdeal.RefValue.refA64_isReal ei Y hY i

theorem kerCm_isReal (ei : Edges) (i : SN.Idx) : IsReal (kerCm ei i) := by
  rw [kerCm_eq]
  exact Cert.ReferenceIdeal.RefValue.refCm_isReal ei i

theorem kerCm_ge_one (ei : Edges) (i : SN.Idx) : 1 ≤ kerCm ei i := by
  rw [kerCm_eq]
  exact Cert.ReferenceIdeal.RefValue.refCm_ge_one ei i

/-- A quotient of two arrays, read at an index, is the quotient of the entries. -/
theorem hostDivf_apply {s : Shape} (a b : FVec Ideal s .f32) (i : s.Idx) :
    Host.divf (F := Ideal) (φ := .f32) a b i = Ideal.div (a i) (b i) := rfl

/-- The reciprocal the program multiplies by, at a node: one over the divisor. -/
theorem kerInv_apply (ei : Edges) (i : SN.Idx) : kerInv ei i = Ideal.div 1 (kerCm ei i) := by
  unfold kerInv
  rw [hostDivf_apply, Cert.ReferenceIdeal.RefValue.splat_apply, Ideal.ofBits_one_f32]

end Cert.KernelIdeal.HandHost

end
-- ==== Proof.Bridge.FinalNet.lean ====
/-
  The program's last step gives the reference network.

  The program ends by taking, for column `j`, the larger of two running maxima over the rows of the lane-dense view of
  its second layer's output: lane `j` (the even nodes) and lane `64 + j` (the odd nodes). With real-valued arguments the
  program's form of the two layers agrees with the reference's, because its aggregation keeps real numbers real and
  its divisor is a real number that is at least one; and the program's aggregation, divisor included, is the
  reference's. So that larger maximum is entry `j` of the reference network at the reference's own aggregation.
-/
import proofs.«150514_j16690242912872_2_alg».proof.Proof.Math.Final
import proofs.«150514_j16690242912872_2_alg».proof.Proof.KH.AggBridge

noncomputable section

namespace Cert.Proof.Bridge

open Idealize.ShloMosaic Idealize.ShloMosaic.ValueIdx Cert.RefSpec Cert.Finite Cert.KernelIdeal.HandHost

/-- The two-column aggregations of the two programs are one function. -/
theorem kerA2_fun (ei : Edges) : (kerA2 ei : Arr (SNK 2) → Arr (SNK 2)) = Cert.ReferenceIdeal.RefValue.refA2 ei :=
  funext fun X => kerA2_eq ei X

/-- The 64-column aggregations of the two programs are one function. -/
theorem kerA64_fun (ei : Edges) : (kerA64 ei : Arr (SNK 64) → Arr (SNK 64)) = Cert.ReferenceIdeal.RefValue.refA64 ei :=
  funext fun Y => kerA64_eq ei Y

/-- THE LAST STEP: the larger of the two lanes' running maxima of the program's second layer is the reference
    network's entry. -/
theorem final_net (ei : Edges) (x : Arr (SNK 2)) (W1l : Arr (SKH 2)) (b1l : Arr SH) (W1r : Arr (SKH 2))
    (W2l : Arr (SKH 64)) (b2l : Arr SH) (W2r : Arr (SKH 64)) (g1 be1 g2 be2 : Arr SH)
    (hx : ∀ i, IsReal (x i)) (hW1l : ∀ i, IsReal (W1l i)) (hb1l : ∀ i, IsReal (b1l i))
    (hW1r : ∀ i, IsReal (W1r i)) (hW2l : ∀ i, IsReal (W2l i)) (hb2l : ∀ i, IsReal (b2l i))
    (hW2r : ∀ i, IsReal (W2r i)) (hg1 : ∀ i, IsReal (g1 i)) (hbe1 : ∀ i, IsReal (be1 i))
    (hg2 : ∀ i, IsReal (g2 i)) (hbe2 : ∀ i, IsReal (be2 i)) (j : Fin 64) :
    max (Math.runMax fun p => Math.laneView
          (Math.topK (kerA2 ei) (kerA64 ei) (kerCm ei) x W1l b1l W1r W2l b2l W2r g1 be1 g2 be2) p
          ⟨j.val, Math.lane_lo_lt j⟩)
        (Math.runMax fun p => Math.laneView
          (Math.topK (kerA2 ei) (kerA64 ei) (kerCm ei) x W1l b1l W1r W2l b2l W2r g1 be1 g2 be2) p
          ⟨64 + j.val, Math.lane_hi_lt j⟩)
      = Cert.RefSpec.net (Cert.ReferenceIdeal.RefValue.refA2 ei) (Cert.ReferenceIdeal.RefValue.refA64 ei) (Cert.ReferenceIdeal.RefValue.refCm ei)
          x W1l b1l W1r W2l b2l W2r g1 be1 g2 be2 (ix1 j) := by
  rw [← kerA2_fun ei, ← kerA64_fun ei, ← kerCm_eq ei]
  exact Math.result_eq (kerA2 ei) (kerA64 ei) (kerCm ei) x W1l b1l W1r W2l b2l W2r g1 be1 g2 be2
    (fun X hX => kerA2_isReal ei X hX) (fun Y hY => kerA64_isReal ei Y hY) (kerCm_isReal ei) (kerCm_ge_one ei)
    hx hW1l hb1l hW1r hW2l hb2l hW2r hg1 hbe1 hg2 hbe2 j

end Cert.Proof.Bridge

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«150514_j16690242912872_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.Finite.lean ====
/-
  The precondition, opened once.  The printed test is a left-nested conjunction of eleven one-entry truth values, one per float
  argument array: "the reduction by and, over all axes, of |x| < +inf is true".  A pointwise and of one-entry arrays is true only
  when both operands are; a reduction by and that comes out true had a true at every entry; and an extended real whose absolute
  value is strictly below +inf is a real number.  Hence, under the precondition, every entry of every float argument is real.
-/
import proofs.«150514_j16690242912872_2_alg».proof.Pre_finite_inputs
import proofs.«150514_j16690242912872_2_alg».proof.Proof.LibFiniteInputs

noncomputable section

namespace Cert.Proof.Finite

open Idealize.ShloMosaic Idealize.ShloMosaic.ValueIdx
open Cert.Finite Cert.Lib.FiniteInputs
open Cert.Pre_finite_inputs

variable [hF : Cert.Pre_finite_inputs.Facts]

/-- Under the precondition every entry of each of the eleven float arguments is a real number. -/
theorem reals (x0 : FVec Ideal S100000x2 .f32) (x1 : IVec S2x1600000 32) (x2 : FVec Ideal S2x64 .f32) (x3 : FVec Ideal S64 .f32)
    (x4 : FVec Ideal S2x64 .f32) (x5 : FVec Ideal S64x64 .f32) (x6 : FVec Ideal S64 .f32) (x7 : FVec Ideal S64x64 .f32)
    (x8 : FVec Ideal S64 .f32) (x9 : FVec Ideal S64 .f32) (x10 : FVec Ideal S64 .f32) (x11 : FVec Ideal S64 .f32)
    (h : Cert.Pre_finite_inputs.fn (F := Ideal) x0 x1 x2 x3 x4 x5 x6 x7 x8 x9 x10 x11 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) ∧ (∀ i, IsReal (x10 i))
      ∧ (∀ i, IsReal (x11 i)) := by
  have h0 := congrFun h ix0
  dsimp only [Cert.Pre_finite_inputs.fn, fn_part1, fn_part2, fn_part3] at h0
  obtain ⟨h48, t11⟩ := and_scalar _ _ h0
  obtain ⟨h43, t10⟩ := and_scalar _ _ h48
  obtain ⟨h38, t9⟩ := and_scalar _ _ h43
  obtain ⟨h33, t8⟩ := and_scalar _ _ h38
  obtain ⟨h28, t7⟩ := and_scalar _ _ h33
  obtain ⟨h23, t6⟩ := and_scalar _ _ h28
  obtain ⟨h18, t5⟩ := and_scalar _ _ h23
  obtain ⟨h13, t4⟩ := and_scalar _ _ h18
  obtain ⟨h8, t3⟩ := and_scalar _ _ h13
  obtain ⟨t0, t2⟩ := and_scalar _ _ h8
  exact ⟨all_real x0 _ _ _ t0, all_real x2 _ _ _ t2, all_real x3 _ _ _ t3, all_real x4 _ _ _ t4, all_real x5 _ _ _ t5,
    all_real x6 _ _ _ t6, all_real x7 _ _ _ t7, all_real x8 _ _ _ t8, all_real x9 _ _ _ t9, all_real x10 _ _ _ t10,
    all_real x11 _ _ _ t11⟩

end Cert.Proof.Finite

end
-- ==== Proof.Bridge.lean ====
/-
  The idealized kernel's result is the reference network.  Under the precondition every entry of the eleven float arguments is
  a real number; the run's fold leaves in the result buffer, entry by entry, the larger of the two lanes' running maxima of the
  second layer's output in the lane-dense reading (Proof/Bridge/L1, L2); and on real arguments that is the reference network's
  entry, the kernel's neighbour sums and clamped in-degrees being the reference's (Proof/Bridge/FinalNet).
-/
import proofs.«150514_j16690242912872_2_alg».proof.Defs
import proofs.«150514_j16690242912872_2_alg».proof.Proof.Gen.Pre_finite_inputs
import proofs.«150514_j16690242912872_2_alg».proof.Proof.Bridge.L2
import proofs.«150514_j16690242912872_2_alg».proof.Proof.Bridge.FinalNet
import proofs.«150514_j16690242912872_2_alg».proof.Proof.Ref.Result
import proofs.«150514_j16690242912872_2_alg».proof.Proof.Finite

noncomputable section

namespace Cert.Proof.Bridge

open Idealize.ShloMosaic Idealize.ShloMosaic.ValueIdx Idealize.ShloMosaic.TcCoe Idealize.SL.Sem
open Cert.KernelIdeal Cert.KernelIdeal.Gen Cert.KernelIdeal.Hand

/-- Under the precondition, on every core the fold's value of the result buffer is the reference network of the arguments. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.W9 (F := Ideal) m c (Proc.devRef .tc Cert.KernelIdeal.main_v92)
      = Cert.RefSpec.net (Cert.ReferenceIdeal.RefValue.refA2 (m ((c.tc : Thread Cert.KernelIdeal.nD Cert.KernelIdeal.τ).loc Cert.KernelIdeal.main_arg1))) (Cert.ReferenceIdeal.RefValue.refA64 (m ((c.tc : Thread Cert.KernelIdeal.nD Cert.KernelIdeal.τ).loc Cert.KernelIdeal.main_arg1))) (Cert.ReferenceIdeal.RefValue.refCm (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h2, h3, h4, h5, h6, h7, h8, h9, h10, h11⟩ :=
    Cert.Proof.Finite.reals _ _ _ _ _ _ _ _ _ _ _ _ (hpre c)
  have key : ∀ j : Fin 64, HandHost.result4 (W8 m c) (ix1 j)
      = Cert.RefSpec.net (Cert.ReferenceIdeal.RefValue.refA2 (ei m c)) (Cert.ReferenceIdeal.RefValue.refA64 (ei m c)) (Cert.ReferenceIdeal.RefValue.refCm (ei m c))
          (a0 m c) (a2 m c) (a3 m c) (a4 m c) (a5 m c) (a6 m c) (a7 m c) (a8 m c) (a9 m c) (a10 m c) (a11 m c) (ix1 j) :=
    fun j => (result_at m c j).trans
      (final_net (ei m c) (a0 m c) (a2 m c) (a3 m c) (a4 m c) (a5 m c) (a6 m c) (a7 m c) (a8 m c) (a9 m c) (a10 m c) (a11 m c)
        h0 h2 h3 h4 h5 h6 h7 h8 h9 h10 h11 j)
  exact funext fun i => by rw [eq_ix1 i]; exact key (i 0)

end Cert.Proof.Bridge

end
-- ==== Proof.lean ====
/-
  The certificate's claims.

  The three frames.  Each kernel program is five stretches of host operations with four kernel regions between them; its run is
  assembled in Proof/K/Run.lean (the program as printed, at the word level) and Proof/KI/Run.lean (its idealization): every weakly
  fair execution terminates, nothing faults, every argument array ends as launched, and the result buffer ends at the value the
  fold of the buffer contents gives.  The reference is a straight line of host operations; its run is the generated one.

  The idealization rewrote no operation, so there is nothing to preserve.

  The algebraic claim.  At the exact instance both programs compute, from arguments that are real numbers (the precondition),
  two layers of: mean of the neighbours' rows (sum over incoming edges divided by the clamped in-degree — the kernel multiplies by
  the reciprocal), two linear maps and a bias, batch normalisation over the 100000 rows (the reference with centred statistics,
  the kernel from column sums and sums of squares accumulated tile by tile, folded into one scale and one shift per column), and
  max(·, 0); then the column maximum over the rows (the kernel over a lane-dense re-reading of the rows, tile by tile, the two
  half-rows joined at the end).  On real numbers these are the same function: Proof/Math; the kernel's result buffer is that
  function of the arguments: Proof/Bridge; the reference's: Proof/Ref.
-/
import proofs.«150514_j16690242912872_2_alg».proof.Defs
import proofs.«150514_j16690242912872_2_alg».proof.Proof.Gen.Kernel
import proofs.«150514_j16690242912872_2_alg».proof.Proof.Gen.KernelIdeal
import proofs.«150514_j16690242912872_2_alg».proof.Proof.Gen.ReferenceIdeal
import proofs.«150514_j16690242912872_2_alg».proof.Proof.Gen.Pre_finite_inputs
import proofs.«150514_j16690242912872_2_alg».proof.Proof.K.Run
import proofs.«150514_j16690242912872_2_alg».proof.Proof.KI.Run
import proofs.«150514_j16690242912872_2_alg».proof.Proof.Ref.Result
import proofs.«150514_j16690242912872_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run_all (F := Bits) m ρ)

theorem frame_ki : Cert.frame_KernelIdeal := fun m ρ _ =>
  (θ_run (Cert.KernelIdeal.defs (F := Ideal)) _ _).mono (fun _ h c => (h c).2) (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference network of the (agreeing) arguments. -/
theorem algebraic : Cert.algebraic_KernelIdeal_ReferenceIdeal := by
  intro m ρ m' ρ' hpre hagree
  refine ⟨fun c => Cert.RefSpec.net (Cert.ReferenceIdeal.RefValue.refA2 (m ((c.tc : Thread Cert.KernelIdeal.nD Cert.KernelIdeal.τ).loc Cert.KernelIdeal.main_arg1))) (Cert.ReferenceIdeal.RefValue.refA64 (m ((c.tc : Thread Cert.KernelIdeal.nD Cert.KernelIdeal.τ).loc Cert.KernelIdeal.main_arg1))) (Cert.ReferenceIdeal.RefValue.refCm (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono
      (fun _ h c => ⟨(h c).1.trans (Cert.Proof.Bridge.kernel_value m hpre c), (h c).2⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans ?_
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
